-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x16 : Shape := ⟨2, ![256, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x16 : S_.BroadcastsInDim S256x16 (![] : Fin 0 → Fin S256x16.rank)
  reducesTo_S256x16_S_d0_1 : S256x16.ReducesTo [0, 1] S_

variable [Facts]

def fn_part1 {F : FTy → Type} [FloatOps F] (main_arg4 : FVec F S512x256 .f32) (main_arg5 : FVec F S256x16 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x16 .f32 := Host.absf main_arg5
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  main_v28

def fn {F : FTy → Type} [FloatOps F] (main_arg0 : FVec F S8192x512 .f32) (main_arg1 : FVec F S8192x8192 .f32) (main_arg2 : FVec F S8192x8192 .f32) (main_arg3 : FVec F S8192x8192 .f32) (main_arg4 : FVec F S512x256 .f32) (main_arg5 : FVec F S256x16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x16 : Shape := ⟨2, ![256, 16]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩
abbrev S_ : Shape := ⟨0, ![]⟩
abbrev S1x8192 : Shape := ⟨2, ![1, 8192]⟩
abbrev S1024x1024 : Shape := ⟨2, ![1024, 1024]⟩
abbrev S1024x1 : Shape := ⟨2, ![1024, 1]⟩
abbrev S1x1024 : Shape := ⟨2, ![1, 1024]⟩
abbrev S8x8192 : Shape := ⟨2, ![8, 8192]⟩
abbrev S1024 : Shape := ⟨1, ![1024]⟩
abbrev S8x1024 : Shape := ⟨2, ![8, 1024]⟩
abbrev S8192x1024 : Shape := ⟨2, ![8192, 1024]⟩
abbrev S2048x256 : Shape := ⟨2, ![2048, 256]⟩
abbrev S2048x1 : Shape := ⟨2, ![2048, 1]⟩
abbrev S1x256 : Shape := ⟨2, ![1, 256]⟩
abbrev S256x1024 : Shape := ⟨2, ![256, 1024]⟩
abbrev S2048x1024 : Shape := ⟨2, ![2048, 1024]⟩
abbrev S256x2048 : Shape := ⟨2, ![256, 2048]⟩
abbrev S256x1 : Shape := ⟨2, ![256, 1]⟩
abbrev S1x2048 : Shape := ⟨2, ![1, 2048]⟩
abbrev S256x512 : Shape := ⟨2, ![256, 512]⟩
abbrev S2048x512 : Shape := ⟨2, ![2048, 512]⟩
abbrev S8192x256 : Shape := ⟨2, ![8192, 256]⟩
abbrev S1024x512 : Shape := ⟨2, ![1024, 512]⟩
abbrev S1024x256 : Shape := ⟨2, ![1024, 256]⟩
abbrev S256x256 : Shape := ⟨2, ![256, 256]⟩
abbrev S8192x16 : Shape := ⟨2, ![8192, 16]⟩
abbrev S1024x16 : Shape := ⟨2, ![1024, 16]⟩

abbrev nBuf : Space → Nat
  | .hbm => 69
  | .vmem => 61
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S512x256, .f32⟩
  | .hbm, ⟨5, _⟩ => ⟨S256x16, .f32⟩
  | .hbm, ⟨6, _⟩ => ⟨S8192x8192, .bf16⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .i1⟩
  | .hbm, ⟨18, _⟩ => ⟨S_, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S1x8192, .f32⟩
  | .hbm, ⟨23, _⟩ => ⟨S8192x1, .f32⟩
  | .hbm, ⟨24, _⟩ => ⟨S1x8192, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .i1⟩
  | .hbm, ⟨40, _⟩ => ⟨S_, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x512, .f32⟩
  | .hbm, ⟨45, _⟩ => ⟨S8192x512, .f32⟩
  | .hbm, ⟨46, _⟩ => ⟨S8192x1024, .f32⟩
  | .hbm, ⟨47, _⟩ => ⟨S8192x1024, .bf16⟩
  | .hbm, ⟨48, _⟩ => ⟨S8192x512, .bf16⟩
  | .hbm, ⟨49, _⟩ => ⟨S8192x1024, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S_, .f32⟩
  | .hbm, ⟨65, _⟩ => ⟨S8192x256, .f32⟩
  | .hbm, ⟨66, _⟩ => ⟨S8192x256, .bf16⟩
  | .hbm, ⟨67, _⟩ => ⟨S8192x256, .f32⟩
  | .hbm, ⟨68, _⟩ => ⟨S8192x16, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1, .f32⟩
  | .local _ .vmem, ⟨9, _⟩ => ⟨S512x1, .f32⟩
  | .local _ .vmem, ⟨10, _⟩ => ⟨S1024x1024, .bf16⟩
  | .local _ .vmem, ⟨11, _⟩ => ⟨S1024x1024, .bf16⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S1024x1, .f32⟩
  | .local _ .vmem, ⟨17, _⟩ => ⟨S1024x1, .f32⟩
  | .local _ .vmem, ⟨18, _⟩ => ⟨S1x8192, .f32⟩
  | .local _ .vmem, ⟨19, _⟩ => ⟨S1024x1024, .f32⟩
  | .local _ .vmem, ⟨20, _⟩ => ⟨S8x8192, .f32⟩
  | .local _ .vmem, ⟨21, _⟩ => ⟨S2048x256, .bf16⟩
  | .local _ .vmem, ⟨22, _⟩ => ⟨S2048x256, .bf16⟩
  | .local _ .vmem, ⟨23, _⟩ => ⟨S2048x1, .f32⟩
  | .local _ .vmem, ⟨24, _⟩ => ⟨S2048x1, .f32⟩
  | .local _ .vmem, ⟨25, _⟩ => ⟨S1x256, .f32⟩
  | .local _ .vmem, ⟨26, _⟩ => ⟨S1x256, .f32⟩
  | .local _ .vmem, ⟨27, _⟩ => ⟨S256x1024, .bf16⟩
  | .local _ .vmem, ⟨28, _⟩ => ⟨S256x1024, .bf16⟩
  | .local _ .vmem, ⟨29, _⟩ => ⟨S2048x1024, .f32⟩
  | .local _ .vmem, ⟨30, _⟩ => ⟨S2048x1024, .f32⟩
  | .local _ .vmem, ⟨31, _⟩ => ⟨S256x2048, .bf16⟩
  | .local _ .vmem, ⟨32, _⟩ => ⟨S256x2048, .bf16⟩
  | .local _ .vmem, ⟨33, _⟩ => ⟨S256x1, .f32⟩
  | .local _ .vmem, ⟨34, _⟩ => ⟨S256x1, .f32⟩
  | .local _ .vmem, ⟨35, _⟩ => ⟨S1x2048, .f32⟩
  | .local _ .vmem, ⟨36, _⟩ => ⟨S1x2048, .f32⟩
  | .local _ .vmem, ⟨37, _⟩ => ⟨S256x512, .bf16⟩
  | .local _ .vmem, ⟨38, _⟩ => ⟨S256x512, .bf16⟩
  | .local _ .vmem, ⟨39, _⟩ => ⟨S2048x512, .f32⟩
  | .local _ .vmem, ⟨40, _⟩ => ⟨S2048x512, .f32⟩
  | .local _ .vmem, ⟨41, _⟩ => ⟨S1024x512, .f32⟩
  | .local _ .vmem, ⟨42, _⟩ => ⟨S1024x512, .f32⟩
  | .local _ .vmem, ⟨43, _⟩ => ⟨S512x256, .f32⟩
  | .local _ .vmem, ⟨44, _⟩ => ⟨S1024x256, .f32⟩
  | .local _ .vmem, ⟨45, _⟩ => ⟨S1024x256, .f32⟩
  | .local _ .vmem, ⟨46, _⟩ => ⟨S2048x256, .bf16⟩
  | .local _ .vmem, ⟨47, _⟩ => ⟨S2048x256, .bf16⟩
  | .local _ .vmem, ⟨48, _⟩ => ⟨S2048x1, .f32⟩
  | .local _ .vmem, ⟨49, _⟩ => ⟨S2048x1, .f32⟩
  | .local _ .vmem, ⟨50, _⟩ => ⟨S1x256, .f32⟩
  | .local _ .vmem, ⟨51, _⟩ => ⟨S1x256, .f32⟩
  | .local _ .vmem, ⟨52, _⟩ => ⟨S256x256, .bf16⟩
  | .local _ .vmem, ⟨53, _⟩ => ⟨S256x256, .bf16⟩
  | .local _ .vmem, ⟨54, _⟩ => ⟨S2048x256, .f32⟩
  | .local _ .vmem, ⟨55, _⟩ => ⟨S2048x256, .f32⟩
  | .local _ .vmem, ⟨56, _⟩ => ⟨S1024x256, .f32⟩
  | .local _ .vmem, ⟨57, _⟩ => ⟨S1024x256, .f32⟩
  | .local _ .vmem, ⟨58, _⟩ => ⟨S256x16, .f32⟩
  | .local _ .vmem, ⟨59, _⟩ => ⟨S1024x16, .f32⟩
  | .local _ .vmem, ⟨60, _⟩ => ⟨S1024x16, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v5 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_call2_v0 : Ref sig .tc := ⟨.hbm, 36, rfl⟩
abbrev main_call2_cst : Ref sig .tc := ⟨.hbm, 37, rfl⟩
abbrev main_call2_v1 : Ref sig .tc := ⟨.hbm, 38, rfl⟩
abbrev main_v17 : Ref sig .tc := ⟨.hbm, 39, rfl⟩
abbrev main_cst_5 : Ref sig .tc := ⟨.hbm, 40, rfl⟩
abbrev main_call3_v0 : Ref sig .tc := ⟨.hbm, 41, rfl⟩
abbrev main_call3_v1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc5_stg4_0 : Ref sig .tc := ⟨.vmem, 54, rfl⟩
abbrev cc5_stg4_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg2_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem2_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem3_1 : DmaSem sig := 51
abbrev cc5_sem4_0 : DmaSem sig := 52
abbrev cc5_sem4_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem2_1 : DmaSem sig := 58

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v34 : BitVec 32 := Scalar.muli arg1 c1024_i32
  v34
def k1_off1 (i : grid1.Coords) : Fin 2 → Nat :=
  let c0_19 : Index := 0#32
  let arg1 : BitVec 32 := BitVec.ofNat 32 (i 1).val
  let c1024_i32 : BitVec 32 := 1024#32
  let v34 : BitVec 32 := Scalar.muli arg1 c1024_i32
  let v35 : BitVec 32 := v34
  let v36 : Index := Scalar.indexCast v35
  ![0, v36.toNat]
def k1_cond4 (i : grid1.Coords) : BitVec 1 :=
  let arg0 : BitVec 32 := BitVec.ofNat 32 (i 0).val
  let c7_i32 : BitVec 32 := 7#32
  let v45 : BitVec 1 := Scalar.cmpi .eq arg0 c7_i32
  let arg1 : BitVec 32 := BitVec.ofNat 32 (i 1).val
  let c7_i32_21 : BitVec 32 := 7#32
  let v46 : BitVec 1 := Scalar.cmpi .eq arg1 c7_i32_21
  let v47 : BitVec 1 := Scalar.andi v45 v46
  let v48 : BitVec 32 := Scalar.extui v47
  let c0_i32_22 : BitVec 32 := 0#32
  let v49 : BitVec 1 := Scalar.cmpi .ne v48 c0_i32_22
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x8192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨2, ![4, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S2048x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S256x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S256x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S2048x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![4, 32], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S256x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S2048x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  inb_S512x1_S512x1_0_0 : ∀ a, (![0, 0] : Fin 2 → Nat) a + S512x1.size a ≤ S512x1.size a
  h_S512x1 : 0 < S512x1.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  shapeCasts_S512x1_S512x1 : S512x1.ShapeCasts S512x1
  reduces_S512x1024_S512 : S512x1024.Reduces [1] S512
  shapeCasts_S512_S512x1 : S512.ShapeCasts S512x1
  bcast_S_S8192x1 : S_.BroadcastsInDim S8192x1 (![] : Fin 0 → Fin S8192x1.rank)
  shapeCasts_S8192x1_S1x8192 : S8192x1.ShapeCasts S1x8192
  inb_S8x8192_S8x8192_0_0 : ∀ a, (![0, 0] : Fin 2 → Nat) a + S8x8192.size a ≤ S8x8192.size a
  h_S8x8192 : 0 < S8x8192.numel
  shapeCasts_S8x8192_S8x8192 : S8x8192.ShapeCasts S8x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  h_S8x1024 : 0 < S8x1024.numel
  broadcasts_S1x1024_S8x1024 : S1x1024.Broadcasts S8x1024
  shapeCasts_S8x1024_S8x1024 : S8x1024.ShapeCasts S8x1024
  inb_S8x8192_S1x8192_0_0 : ∀ a, (![0, 0] : Fin 2 → Nat) a + S1x8192.size a ≤ S8x8192.size a
  h_S1x8192 : 0 < S1x8192.numel
  inb_S1x8192_S1x8192_0_0 : ∀ a, (![0, 0] : Fin 2 → Nat) a + S1x8192.size a ≤ S1x8192.size a
  shapeCasts_S1x8192_S8192x1 : S1x8192.ShapeCasts S8192x1
  bcast_S8192x1_S8192x512_0_1 : S8192x1.BroadcastsInDim S8192x512 (![0, 1] : Fin 2 → Fin S8192x512.rank)
  concatenates_S8192x512_S8192x512_S8192x1024_d1 : Shape.Concatenates [S8192x512, S8192x512] S8192x1024 1
  inb_S2048x1024_S2048x1024_0_0 : ∀ a, (![0, 0] : Fin 2 → Nat) a + S2048x1024.size a ≤ S2048x1024.size a
  h_S2048x1024 : 0 < S2048x1024.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S2048x1_S2048x256 : S2048x1.Broadcasts S2048x256
  broadcasts_S1x256_S2048x256 : S1x256.Broadcasts S2048x256
  iota_S2048x256_d0_w32 : S2048x256.Iotas .tc 32 [0]
  iota_S2048x256_d1_w32 : S2048x256.Iotas .tc 32 [1]
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S2048x1024_S2048x1024 : S2048x1024.ShapeCasts S2048x1024
  slices_S8192x1024_S8192x512_0_0 : S8192x1024.Slices ![0, 0] S8192x512
  slices_S8192x1024_S8192x512_0_512 : S8192x1024.Slices ![0, 512] S8192x512
  inb_S2048x512_S2048x512_0_0 : ∀ a, (![0, 0] : Fin 2 → Nat) a + S2048x512.size a ≤ S2048x512.size a
  h_S2048x512 : 0 < S2048x512.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  broadcasts_S256x1_S256x2048 : S256x1.Broadcasts S256x2048
  broadcasts_S1x2048_S256x2048 : S1x2048.Broadcasts S256x2048
  iota_S256x2048_d0_w32 : S256x2048.Iotas .tc 32 [0]
  iota_S256x2048_d1_w32 : S256x2048.Iotas .tc 32 [1]
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S2048x512_S2048x512 : S2048x512.ShapeCasts S2048x512
  bcast_S_S8192x512 : S_.BroadcastsInDim S8192x512 (![] : Fin 0 → Fin S8192x512.rank)
  reducesTo_S8192x512_S_d0_1 : S8192x512.ReducesTo [0, 1] S_
  h_S_ : 0 < S_.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1024x256_S1024x256 : S1024x256.ShapeCasts S1024x256
  inb_S256x16_S256x16_0_0 : ∀ a, (![0, 0] : Fin 2 → Nat) a + S256x16.size a ≤ S256x16.size a
  h_S256x16 : 0 < S256x16.numel
  inb_S1024x16_S1024x16_0_0 : ∀ a, (![0, 0] : Fin 2 → Nat) a + S1024x16.size a ≤ S1024x16.size a
  h_S1024x16 : 0 < S1024x16.numel
  dot_S2048x256_S256x1024_S2048x1024_1_0_0_1_n_n_wf : DotDims.WF S2048x256 S256x1024 S2048x1024 [1] [0] [0] [1] [] []
  dot_S256x2048_S256x512_S2048x512_0_0_1_1_n_n_wf : DotDims.WF S256x2048 S256x512 S2048x512 [0] [0] [1] [1] [] []
  dot_S1024x512_S512x256_S1024x256_1_0_0_1_n_n_wf : DotDims.WF S1024x512 S512x256 S1024x256 [1] [0] [0] [1] [] []
  dot_S2048x256_S256x256_S2048x256_1_0_0_1_n_n_wf : DotDims.WF S2048x256 S256x256 S2048x256 [1] [0] [0] [1] [] []
  dot_S1024x256_S256x16_S1024x16_1_0_0_1_n_n_wf : DotDims.WF S1024x256 S256x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x8192.size a
  hwx0_0 : ∀ i : grid0.Coords, EltTy.bits .f32 = 32 ∨ (Rect.block (s := S8192x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x8192.size a
  hwx0_1 : ∀ i : grid0.Coords, EltTy.bits .f32 = 32 ∨ (Rect.block (s := S8192x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x8192.size a
  hwx0_3 : ∀ i : grid0.Coords, EltTy.bits .bf16 = 32 ∨ (Rect.block (s := S8192x8192) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S8x1024.size a ≤ S8x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8192.size a ≤ S1x8192.size a
  hwx1_4 : ∀ i : grid1.Coords, EltTy.bits .f32 = 32 ∨ (Rect.block (s := S1x8192) S1x8192.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S8192x8192.size a
  hwx2_0 : ∀ i : grid2.Coords, EltTy.bits .bf16 = 32 ∨ (Rect.block (s := S8192x8192) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S8192x1.size a
  hwx2_1 : ∀ i : grid2.Coords, EltTy.bits .f32 = 32 ∨ (Rect.block (s := S8192x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x8192.size a
  hwx2_2 : ∀ i : grid2.Coords, EltTy.bits .f32 = 32 ∨ (Rect.block (s := S1x8192) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S8192x1024.size a
  hwx2_3 : ∀ i : grid2.Coords, EltTy.bits .bf16 = 32 ∨ (Rect.block (s := S8192x1024) S256x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1024.size a ≤ S8192x1024.size a
  hwx2_4 : ∀ i : grid2.Coords, EltTy.bits .f32 = 32 ∨ (Rect.block (s := S8192x1024) S2048x1024.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S8192x8192.size a
  hwx3_0 : ∀ i : grid3.Coords, EltTy.bits .bf16 = 32 ∨ (Rect.block (s := S8192x8192) S256x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x1.size a ≤ S8192x1.size a
  hwx3_1 : ∀ i : grid3.Coords, EltTy.bits .f32 = 32 ∨ (Rect.block (s := S8192x1) S256x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x8192.size a
  hwx3_2 : ∀ i : grid3.Coords, EltTy.bits .f32 = 32 ∨ (Rect.block (s := S1x8192) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x512.size a ≤ S8192x512.size a
  hwx3_3 : ∀ i : grid3.Coords, EltTy.bits .bf16 = 32 ∨ (Rect.block (s := S8192x512) S256x512.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x512.size a ≤ S8192x512.size a
  hwx3_4 : ∀ i : grid3.Coords, EltTy.bits .f32 = 32 ∨ (Rect.block (s := S8192x512) S2048x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x512.size a
  hwx4_0 : ∀ i : grid4.Coords, EltTy.bits .f32 = 32 ∨ (Rect.block (s := S8192x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S8192x256.size a
  hwx4_2 : ∀ i : grid4.Coords, EltTy.bits .f32 = 32 ∨ (Rect.block (s := S8192x256) S1024x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S8192x8192.size a
  hwx5_0 : ∀ i : grid5.Coords, EltTy.bits .bf16 = 32 ∨ (Rect.block (s := S8192x8192) S2048x256.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x1.size a ≤ S8192x1.size a
  hwx5_1 : ∀ i : grid5.Coords, EltTy.bits .f32 = 32 ∨ (Rect.block (s := S8192x1) S2048x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x8192.size a
  hwx5_2 : ∀ i : grid5.Coords, EltTy.bits .f32 = 32 ∨ (Rect.block (s := S1x8192) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S8192x256.size a
  hwx5_3 : ∀ i : grid5.Coords, EltTy.bits .bf16 = 32 ∨ (Rect.block (s := S8192x256) S256x256.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x256.size a ≤ S8192x256.size a
  hwx5_4 : ∀ i : grid5.Coords, EltTy.bits .f32 = 32 ∨ (Rect.block (s := S8192x256) S2048x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x256.size a ≤ S8192x256.size a
  hwx6_0 : ∀ i : grid6.Coords, EltTy.bits .f32 = 32 ∨ (Rect.block (s := S8192x256) S1024x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x16.size a ≤ S256x16.size a
  hwx6_1 : ∀ i : grid6.Coords, EltTy.bits .f32 = 32 ∨ (Rect.block (s := S256x16) S256x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x16.size a ≤ S8192x16.size a
  hwx6_2 : ∀ i : grid6.Coords, EltTy.bits .f32 = 32 ∨ (Rect.block (s := S8192x16) S1024x16.size (cc6_transform_2 i) (hinb6_2 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S256x2048_S256x512_S2048x512_0_0_1_1_n_n : DotDims S256x2048 S256x512 S2048x512 where
  lhsContracting := [0]
  rhsContracting := [0]
  lhsNonContracting := [1]
  rhsNonContracting := [1]
  lhsBatch := []
  rhsBatch := []
  wf := dot_S256x2048_S256x512_S2048x512_0_0_1_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S256x16_S1024x16_1_0_0_1_n_n : DotDims S1024x256 S256x16 S1024x16 where
  lhsContracting := [1]
  rhsContracting := [0]
  lhsNonContracting := [0]
  rhsNonContracting := [1]
  lhsBatch := []
  rhsBatch := []
  wf := dot_S1024x256_S256x16_S1024x16_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S1024x1.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S1x8192.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond4 i == 1#1) | ⟨_ + 5, h⟩ => absurd h (Nat.not_lt.2 (Nat.le_add_left _ _))

abbrev win2_0 : Pipeline.Window sig grid2 :=
  Pipeline.Window.ofSpec (Memref.whole main_v0_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S256x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v24) S2048x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v0_0) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S256x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v23) S256x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v27) S2048x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v25) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S1024x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0_0) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6) S2048x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S1x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v39) S256x256.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v40) S2048x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v40) S1024x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S256x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v41) S1024x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x16 : Shape := ⟨2, ![256, 16]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S8192x16 : Shape := ⟨2, ![8192, 16]⟩

abbrev nBuf : Space → Nat
  | .hbm => 77
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S512x256, .f32⟩
  | .hbm, ⟨5, _⟩ => ⟨S256x16, .f32⟩
  | .hbm, ⟨6, _⟩ => ⟨S8192x8192, .f32⟩
  | .hbm, ⟨7, _⟩ => ⟨S8192x8192, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .i1⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x512, .f32⟩
  | .hbm, ⟨36, _⟩ => ⟨S8192x256, .f32⟩
  | .hbm, ⟨37, _⟩ => ⟨S_, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x16, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .i1⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S8192x512, .f32⟩
  | .hbm, ⟨65, _⟩ => ⟨S8192x512, .f32⟩
  | .hbm, ⟨66, _⟩ => ⟨S8192x1, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x1, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_v12 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call2_cst : Ref sig .tc := ⟨.hbm, 37, rfl⟩
abbrev main_call2_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_call3_v0 : Ref sig .tc := ⟨.hbm, 55, rfl⟩
abbrev main_call3_cst : Ref sig .tc := ⟨.hbm, 56, rfl⟩
abbrev main_call3_v1 : Ref sig .tc := ⟨.hbm, 57, rfl⟩
abbrev main_v34 : Ref sig .tc := ⟨.hbm, 58, rfl⟩
abbrev main_cst_6 : Ref sig .tc := ⟨.hbm, 59, rfl⟩
abbrev main_call4_v0 : Ref sig .tc := ⟨.hbm, 60, rfl⟩
abbrev main_call4_v1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  transposes_S8192x8192_S8192x8192_1_0 : S8192x8192.Transposes [1, 0] S8192x8192
  bcast_S8192x1_S8192x512_0_1 : S8192x1.BroadcastsInDim S8192x512 (![0, 1] : Fin 2 → Fin S8192x512.rank)
  reducesTo_S8192x512_S_d0_1 : S8192x512.ReducesTo [0, 1] S_
  dot_S8192x8192_S8192x512_S8192x512_1_0_0_1_n_n_wf : DotDims.WF S8192x8192 S8192x512 S8192x512 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x16_S8192x16_1_0_0_1_n_n_wf : DotDims.WF S8192x256 S256x16 S8192x16 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x16_S8192x16_1_0_0_1_n_n : DotDims S8192x256 S256x16 S8192x16 where
  lhsContracting := [1]
  rhsContracting := [0]
  lhsNonContracting := [0]
  rhsNonContracting := [1]
  lhsBatch := []
  rhsBatch := []
  wf := dot_S8192x256_S256x16_S8192x16_1_0_0_1_n_n_wf

class Facts : Prop extends Facts₀ where

variable [Facts]
-- ==== Proof.Region0.lean ====
/- Region 0 of the program: the elementwise product of three 8192x8192 operands, written out in bf16, together with
   its row sums. The grid is 16 x 8 (row blocks of 512 by column blocks of 1024); at a point the body reads the three
   operand blocks, stores their product (rounded to bf16) over the whole product block, and adds the product's row
   sums into a 512x1 accumulator block that is shared by the 8 points of a row block: at the first of the 8 (grid
   coordinate 1 equal to 0) the body first overwrites the accumulator with zeros, at the other 7 it finds what the point
   before left, the accumulator being written back only after the 8th.
   So the body has two control cases, and what the accumulator holds after a point is defined by recursion on the
   point. Everything is stated at a parameter `V`, the contents of the core's buffers when the region is entered,
   and generically in the float instance. -/
import proofs.«152628_j8315056685239_2_alg».proof.Proof.Gen.KernelIdeal.Launch
import proofs.«152628_j8315056685239_2_alg».proof.Proof.Gen.KernelIdeal.Skeleton
import proofs.«152628_j8315056685239_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the rectangle of the window's array (as the region finds it) that
    the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each operand window's buffer holds the operand's block when the body is entered, for any proof data over `V`'s
    arrays whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional, from the grid coordinates: coordinate 1 is zero. -/
abbrev cond0_0 (i : grid0.Coords) : Prop := (Scalar.cmpi .ne (Scalar.extui (Scalar.cmpi .eq (BitVec.ofNat 32 (i 1).val) 0#32)) 0#32) = 1#1
/-- It holds exactly at the first point of each run of 8 (the points of one row block), decided over the 128 points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The buffers the body is called with -/

/-- One buffer of each output window, through which the window's contents are stated (the choice does not matter: the
    stores cover the buffer). -/
abbrev VO0_3 : View sig .tc .vmem S512x1024 .bf16 := (Memref.whole cc0_stg3_0 : Memref sig .tc .vmem S512x1024 .bf16).view
abbrev VO0_4 : View sig .tc .vmem S512x1 .f32 := (Memref.whole cc0_stg4_0 : Memref sig .tc .vmem S512x1 .f32).view
/-- Each window's current buffer at point `t`, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)

/-! ## The body's triple, case by case -/

set_option maxHeartbeats 1000000 in
/-- CASE A (coordinate 1 is zero: the first point of a row block). On whole buffers, the three operands' at contents
    `x0`, `x1`, `x2` and the two outputs' at anything, the body ends with the operands as they were and each output's
    buffer with a list of stores written into it (last first): the product block's one store, and the accumulator's two
    — zeros, then the zeros read back plus the product's row sums. The lists are what the run of the body finds. -/
noncomputable def kernelRun0_A (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) :
    Σ' (L3 : List (View.Piece (Elt F) S512x1024 .bf16)), { L4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__combine_rowsum_kernel i arg2 harg2 arg3 harg3 arg4 harg4 arg5 harg5 arg6 harg6) K } := by
  refine ⟨?_, ?_, fun E K => ?run⟩
  case run =>
    simp only [cc0__combine_rowsum_kernel_eq_skeleton]; unfold cc0__combine_rowsum_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

set_option maxHeartbeats 1000000 in
/-- CASE B (coordinate 1 is not zero). As case A, but the accumulator's buffer is entered at known contents `xo4`
    (what the point before left) and gets one store: `xo4` plus the product's row sums. -/
noncomputable def kernelRun0_B (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) :
    Σ' (L3 : List (View.Piece (Elt F) S512x1024 .bf16)), { L4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__combine_rowsum_kernel i arg2 harg2 arg3 harg3 arg4 harg4 arg5 harg5 arg6 harg6) K } := by
  refine ⟨?_, ?_, fun E K => ?run⟩
  case run =>
    simp only [cc0__combine_rowsum_kernel_eq_skeleton]; unfold cc0__combine_rowsum_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-! ## What each case leaves in the outputs' buffers -/

/-- In this case the product buffer's stores cover it (one store over the whole buffer). -/
theorem cover0_A_3 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) (y : S512x1024.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S512x1024.size (by sl_kernel_rfl) y

/-- What the case leaves in the product buffer: its stores read back (the prior contents do not matter, the stores
    covering the buffer). -/
def out0_A_3 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) : Vec F S512x1024 .bf16 :=
  VO0_3.read (Elt F) (VO0_3.writes (Elt F) VO0_3.junk (kernelRun0_A c i arg2 harg2 arg3 harg3 arg4 harg4 arg5 harg5 arg6 harg6 hc0 x0 x1 x2).1)

/-- In this case the row-sum buffer's stores cover it (each is over the whole buffer). -/
theorem cover0_A_4 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) (y : S512x1.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S512x1.size (by sl_kernel_rfl) y

/-- What the case leaves in the row-sum buffer. -/
def out0_A_4 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) : Vec F S512x1 .f32 :=
  VO0_4.read (Elt F) (VO0_4.writes (Elt F) VO0_4.junk (kernelRun0_A c i arg2 harg2 arg3 harg3 arg4 harg4 arg5 harg5 arg6 harg6 hc0 x0 x1 x2).2.1)

/-- In this case the product buffer's stores cover it (one store over the whole buffer). -/
theorem cover0_B_3 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) (y : S512x1024.Idx) :
    ∃ pc ∈ (kernelRun0_B c i arg2 harg2 arg3 harg3 arg4 harg4 arg5 harg5 arg6 harg6 hc0 x0 x1 x2 xo4).1, y ∈ pc.1.set :=
  View.cover_of_tiledL (kernelRun0_B c i arg2 harg2 arg3 harg3 arg4 harg4 arg5 harg5 arg6 harg6 hc0 x0 x1 x2 xo4).1 S512x1024.size (by sl_kernel_rfl) y

/-- What the case leaves in the product buffer: its stores read back (the prior contents do not matter, the stores
    covering the buffer). -/
def out0_B_3 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) : Vec F S512x1024 .bf16 :=
  VO0_3.read (Elt F) (VO0_3.writes (Elt F) VO0_3.junk (kernelRun0_B c i arg2 harg2 arg3 harg3 arg4 harg4 arg5 harg5 arg6 harg6 hc0 x0 x1 x2 xo4).1)

/-- In this case the row-sum buffer's stores cover it (each is over the whole buffer). -/
theorem cover0_B_4 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) (y : S512x1.Idx) :
    ∃ pc ∈ (kernelRun0_B c i arg2 harg2 arg3 harg3 arg4 harg4 arg5 harg5 arg6 harg6 hc0 x0 x1 x2 xo4).2.1, y ∈ pc.1.set :=
  View.cover_of_tiledL (kernelRun0_B c i arg2 harg2 arg3 harg3 arg4 harg4 arg5 harg5 arg6 harg6 hc0 x0 x1 x2 xo4).2.1 S512x1.size (by sl_kernel_rfl) y

/-- What the case leaves in the row-sum buffer. -/
def out0_B_4 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) : Vec F S512x1 .f32 :=
  VO0_4.read (Elt F) (VO0_4.writes (Elt F) VO0_4.junk (kernelRun0_B c i arg2 harg2 arg3 harg3 arg4 harg4 arg5 harg5 arg6 harg6 hc0 x0 x1 x2 xo4).2.1)

/-! ## What the outputs hold after each point -/

/-- THE ACCUMULATION. What the row-sum buffer holds after the body at position `n`: at the first point of a row block
    case A's contents (zeros plus this point's row sums), elsewhere case B's over what position `n - 1` left (the
    buffer is not written back in between). -/
def outsAt0 (c : Dev nD) : (n : ℕ) → n < cfg0.N → Vec F S512x1 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩)
  | n + 1, hn =>
    if h0 : (n + 1) % 8 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn))

/-- `outsAt0` at a point of case A. -/
theorem outsAt0_A (c : Dev nD) (t : Fin cfg0.N) (h0 : t.val % 8 = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) := by
  obtain ⟨n, hn⟩ := t
  cases n with
  | zero => exact rfl
  | succ n => exact (dif_pos h0).trans rfl

/-- `outsAt0` at a point of case B: over what the point before left. -/
theorem outsAt0_B (c : Dev nD) (t : Fin cfg0.N) (h0 : ¬t.val % 8 = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the product buffer holds after the body at point `t`: the case's contents (in both cases the rounded product
    of the three operand blocks). -/
def out3At0 (c : Dev nD) (t : Fin cfg0.N) : Vec F S512x1024 .bf16 :=
  if h0 : t.val % 8 = 0 then
    out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)
  else
    out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt))

theorem out3At0_A (c : Dev nD) (t : Fin cfg0.N) (h0 : t.val % 8 = 0) :
    out3At0 V c t = out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) := dif_pos h0
theorem out3At0_B (c : Dev nD) (t : Fin cfg0.N) (h0 : ¬t.val % 8 = 0) :
    out3At0 V c t = out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)) := dif_neg h0

/-! ## The region's proof data -/

/-- The proof data of the region on core `c`: the arrays as the region finds them; after the body at point `t` each
    operand buffer still at its block, the product buffer at `out3At0` and the row-sum buffer at `outsAt0`; the
    invariant that carries the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out3At0 V c t
    | ⟨4, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out3At0 V c t := by dsimp only [dat0]
theorem after0_4 (c : Dev nD) (t : Fin cfg0.N) : (dat0 V c).after 4 t = outsAt0 V c t.val t.isLt := by dsimp only [dat0]

/-- Each operand buffer holds its block when the body is entered, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a point of case B the row-sum buffer holds what the body left at the point before: the point is not the first,
    and the point before is not the last of its row block, so the buffer was not written back in between. -/
theorem before0_4_B (c : Dev nD) (t : Fin cfg0.N) (h0 : ¬t.val % 8 = 0) (d) :
    (dat0 V c).before 4 t d = (outsAt0 V c (t.val - 1) (Nat.lt_of_le_of_lt (Nat.sub_le _ _) t.isLt)) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation at a generic point -/

/-- What the body is entered with at point `t`: the invariant, the core's debts, and each window's current buffer
    whole at what the proof data say it holds there. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1000000 in
/-- The body at any point: the operand buffers hold their blocks; the closed form of the condition says which case the
    point is in; in case B the row-sum buffer holds what the point before left; so the case's triple applies. The
    invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 8 = 0
  · rw [outsAt0_A V c t h0, out3At0_A V c t h0]
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B V c t h0, out3At0_B V c t h0]
    simp only [before0_4_B V c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _)

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Region1Shared.lean ====
import proofs.«152628_j8315056685239_2_alg».proof.Proof.Gen.KernelIdeal.Launch
import proofs.«152628_j8315056685239_2_alg».proof.Proof.Gen.KernelIdeal.Skeleton
import proofs.«152628_j8315056685239_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the two sums of the normalised adjacency — what the case runs share

The body branches on four conditions of the grid point (g0, g1) of an 8 × 8 grid: "first point" (g0 = 0 and g1 = 0: the
column-sum scratch is zeroed), "row start" (g1 = 0: the row-sum accumulator is zeroed), "diagonal block" (g0 = g1: the
identity's contribution is added) and "last point" (g0 = 7 and g1 = 7: the column sums are copied out). -/

/-- The four conditions the body of region 1 branches on, as functions of the grid coordinates. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cond1_1 (i : grid1.Coords) : Prop := (Scalar.cmpi .ne (Scalar.extui (Scalar.cmpi .eq (BitVec.ofNat 32 (i 1).val) 0#32)) 0#32) = 1#1
abbrev cond1_2 (i : grid1.Coords) : Prop := (Scalar.cmpi .ne (Scalar.extui (Scalar.cmpi .eq (BitVec.ofNat 32 (i 0).val) (BitVec.ofNat 32 (i 1).val))) 0#32) = 1#1
abbrev cond1_3 (i : grid1.Coords) : Prop := k1_cond4 i = 1#1

/-- Window 4 (the column sums) is idle except at the last point, where it is stored and written back. -/
theorem idleAt1_4 : ∀ t : Fin cfg1.N, t.val ≠ 63 → cfg1.idle 4 (grid1.coords t) = true := by decide +kernel
theorem noFlush1_4 : ∀ t : Fin cfg1.N, t.val ≠ 63 → (cfg1.win 4).flush t = false := by decide +kernel
theorem liveAt1_4 : ∀ t : Fin cfg1.N, t.val = 63 → cfg1.idle 4 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- Which conditions hold at which points, by the point's position t = 8·g0 + g1 in the row-major order. -/
theorem conds1_A : ∀ t : Fin cfg1.N, t.val = 0 → cond1_0 (grid1.coords t) ∧ cond1_1 (grid1.coords t) ∧ cond1_2 (grid1.coords t) ∧ ¬cond1_3 (grid1.coords t) := by decide +kernel
theorem conds1_B : ∀ t : Fin cfg1.N, t.val ≠ 0 → t.val % 8 = 0 → ¬cond1_0 (grid1.coords t) ∧ cond1_1 (grid1.coords t) ∧ ¬cond1_2 (grid1.coords t) ∧ ¬cond1_3 (grid1.coords t) := by decide +kernel
theorem conds1_C : ∀ t : Fin cfg1.N, t.val % 8 ≠ 0 → t.val ≠ 63 → t.val % 9 = 0 → ¬cond1_0 (grid1.coords t) ∧ ¬cond1_1 (grid1.coords t) ∧ cond1_2 (grid1.coords t) ∧ ¬cond1_3 (grid1.coords t) := by decide +kernel
theorem conds1_D : ∀ t : Fin cfg1.N, t.val % 8 ≠ 0 → t.val % 9 ≠ 0 → ¬cond1_0 (grid1.coords t) ∧ ¬cond1_1 (grid1.coords t) ∧ ¬cond1_2 (grid1.coords t) ∧ ¬cond1_3 (grid1.coords t) := by decide +kernel
theorem conds1_E : ∀ t : Fin cfg1.N, t.val = 63 → ¬cond1_0 (grid1.coords t) ∧ ¬cond1_1 (grid1.coords t) ∧ cond1_2 (grid1.coords t) ∧ cond1_3 (grid1.coords t) := by decide +kernel

/-- Each window's current staging memref at point t, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8192 .f32 := win1_4.stage (cfg1.slots t 4)
abbrev hs1_4 (t : Fin cfg1.N) : (ms1_4 t).IsWhole := hstage1_4 ((cfg1.slots t 4).cast nbuf1_4)
/-- The two scratch operands: whole scoped buffers of the kernel's own. -/
abbrev scM1_0 : Memref sig .tc .vmem S1024x1024 .f32 := Memref.whole cc1_scratch0
abbrev scM1_1 : Memref sig .tc .vmem S8x8192 .f32 := Memref.whole cc1_scratch1

end Cert.KernelIdeal.Gen

end
-- ==== Proof.Region1Runs.lean ====
import proofs.«152628_j8315056685239_2_alg».proof.Proof.Region1Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- The body of region 1 in case A of its four conditions: on whole memrefs holding the three input blocks, the row-sum
    accumulator, the column-sum output and the two scratch buffers, it runs to the end and leaves each buffer it stores
    into with the listed pieces written (last first); the pieces are found by running the body. -/
noncomputable def kernelRun1_A (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) :
    Σ' (L3 : List (View.Piece (Elt F) S1024x1 .f32)) (L4 : List (View.Piece (Elt F) S1x8192 .f32)) (LS0 : List (View.Piece (Elt F) S1024x1024 .f32)), { LS1 : List (View.Piece (Elt F) S8x8192 .f32) //
      ∀ (xi4 : Vec F S1x8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ owns (c : Thread nD τ) arg6 fullShare xi4
            ∗ (∃ d, owns (c : Thread nD τ) arg7 fullShare d)
            ∗ (∃ d, owns (c : Thread nD τ) arg8 fullShare d)
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__dual_sum_kernel i arg2 harg2 arg3 harg3 arg4 harg4 arg5 harg5 arg6 harg6 arg7 harg7 arg8 harg8) K } := by
  refine ⟨?_, [], ?_, ?_, fun xi4 E K => ?run⟩
  case run =>
    simp only [cc1__dual_sum_kernel_eq_skeleton]; unfold cc1__dual_sum_kernel_skel
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg6.eq_unread hf4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexists _; iexact HS1

-- the run's proof term is large
set_option maxHeartbeats 1000000 in
/-- The body of region 1 in case B of its four conditions: on whole memrefs holding the three input blocks, the row-sum
    accumulator, the column-sum output and the two scratch buffers, it runs to the end and leaves each buffer it stores
    into with the listed pieces written (last first); the pieces are found by running the body. -/
noncomputable def kernelRun1_B (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) :
    Σ' (L3 : List (View.Piece (Elt F) S1024x1 .f32)) (L4 : List (View.Piece (Elt F) S1x8192 .f32)) (LS0 : List (View.Piece (Elt F) S1024x1024 .f32)), { LS1 : List (View.Piece (Elt F) S8x8192 .f32) //
      ∀ (xi4 : Vec F S1x8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ owns (c : Thread nD τ) arg6 fullShare xi4
            ∗ (∃ d, owns (c : Thread nD τ) arg7 fullShare d)
            ∗ owns (c : Thread nD τ) arg8 fullShare xs1
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__dual_sum_kernel i arg2 harg2 arg3 harg3 arg4 harg4 arg5 harg5 arg6 harg6 arg7 harg7 arg8 harg8) K } := by
  refine ⟨?_, [], ?_, ?_, fun xi4 E K => ?run⟩
  case run =>
    simp only [cc1__dual_sum_kernel_eq_skeleton]; unfold cc1__dual_sum_kernel_skel
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg6.eq_unread hf4; obtain rfl := harg8.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexact HS1

-- the run's proof term is large
set_option maxHeartbeats 1000000 in
/-- The body of region 1 in case C of its four conditions: on whole memrefs holding the three input blocks, the row-sum
    accumulator, the column-sum output and the two scratch buffers, it runs to the end and leaves each buffer it stores
    into with the listed pieces written (last first); the pieces are found by running the body. -/
noncomputable def kernelRun1_C (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) :
    Σ' (L3 : List (View.Piece (Elt F) S1024x1 .f32)) (L4 : List (View.Piece (Elt F) S1x8192 .f32)) (LS0 : List (View.Piece (Elt F) S1024x1024 .f32)), { LS1 : List (View.Piece (Elt F) S8x8192 .f32) //
      ∀ (xi4 : Vec F S1x8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xo3
            ∗ owns (c : Thread nD τ) arg6 fullShare xi4
            ∗ (∃ d, owns (c : Thread nD τ) arg7 fullShare d)
            ∗ owns (c : Thread nD τ) arg8 fullShare xs1
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__dual_sum_kernel i arg2 harg2 arg3 harg3 arg4 harg4 arg5 harg5 arg6 harg6 arg7 harg7 arg8 harg8) K } := by
  refine ⟨?_, [], ?_, ?_, fun xi4 E K => ?run⟩
  case run =>
    simp only [cc1__dual_sum_kernel_eq_skeleton]; unfold cc1__dual_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexact HS1

-- the run's proof term is large
set_option maxHeartbeats 1000000 in
/-- The body of region 1 in case D of its four conditions: on whole memrefs holding the three input blocks, the row-sum
    accumulator, the column-sum output and the two scratch buffers, it runs to the end and leaves each buffer it stores
    into with the listed pieces written (last first); the pieces are found by running the body. -/
noncomputable def kernelRun1_D (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) :
    Σ' (L3 : List (View.Piece (Elt F) S1024x1 .f32)) (L4 : List (View.Piece (Elt F) S1x8192 .f32)) (LS0 : List (View.Piece (Elt F) S1024x1024 .f32)), { LS1 : List (View.Piece (Elt F) S8x8192 .f32) //
      ∀ (xi4 : Vec F S1x8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xo3
            ∗ owns (c : Thread nD τ) arg6 fullShare xi4
            ∗ (∃ d, owns (c : Thread nD τ) arg7 fullShare d)
            ∗ owns (c : Thread nD τ) arg8 fullShare xs1
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__dual_sum_kernel i arg2 harg2 arg3 harg3 arg4 harg4 arg5 harg5 arg6 harg6 arg7 harg7 arg8 harg8) K } := by
  refine ⟨?_, [], ?_, ?_, fun xi4 E K => ?run⟩
  case run =>
    simp only [cc1__dual_sum_kernel_eq_skeleton]; unfold cc1__dual_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexact HS1

-- the run's proof term is large
set_option maxHeartbeats 1000000 in
/-- The body of region 1 in case E of its four conditions: on whole memrefs holding the three input blocks, the row-sum
    accumulator, the column-sum output and the two scratch buffers, it runs to the end and leaves each buffer it stores
    into with the listed pieces written (last first); the pieces are found by running the body. -/
noncomputable def kernelRun1_E (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) :
    Σ' (L3 : List (View.Piece (Elt F) S1024x1 .f32)) (L4 : List (View.Piece (Elt F) S1x8192 .f32)) (LS0 : List (View.Piece (Elt F) S1024x1024 .f32)), { LS1 : List (View.Piece (Elt F) S8x8192 .f32) //
      ∀ (xi4 : Vec F S1x8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xo3
            ∗ (∃ d, owns (c : Thread nD τ) arg6 fullShare d)
            ∗ (∃ d, owns (c : Thread nD τ) arg7 fullShare d)
            ∗ owns (c : Thread nD τ) arg8 fullShare xs1
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__dual_sum_kernel i arg2 harg2 arg3 harg3 arg4 harg4 arg5 harg5 arg6 harg6 arg7 harg7 arg8 harg8) K } := by
  refine ⟨?_, ?_, ?_, ?_, fun xi4 E K => ?run⟩
  case run =>
    simp only [cc1__dual_sum_kernel_eq_skeleton]; unfold cc1__dual_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexact HS1

end Cert.KernelIdeal.Gen

end
-- ==== Proof.Region1Data.lean ====
import proofs.«152628_j8315056685239_2_alg».proof.Proof.Region1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the proof data and the body obligation

The row-sum accumulator (window 3) is zeroed at the start of each grid row and added to at every point; the column sums are
accumulated in a scratch buffer that lives across the whole grid — zeroed at the first point, one slab of 1024 columns
added to at each point — and copied to the output window 4 at the last point, the only point where that window is stored
or written back. What the scratch holds after each point is stated (`outsAt1`'s third component) and carried by the
region's invariant. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of each output window, through which its contents are stated (the choice does not matter). -/
abbrev VO1_3 : View sig .tc .vmem S1024x1 .f32 := (Memref.whole cc1_stg3_0 : Memref sig .tc .vmem S1024x1 .f32).view
abbrev VO1_4 : View sig .tc .vmem S1x8192 .f32 := (Memref.whole cc1_stg4_0 : Memref sig .tc .vmem S1x8192 .f32).view

/-- The class invariant with the two scratch operands split out as memrefs owned at some contents. -/
theorem PhiA1_eq (c : Dev nD) :
    (Pipeline.ΦA spec1 c : sProp 𝕄)
      = iprop(iprop(iprop(iprop((∃ d, owns (c : Thread nD τ) scM1_0 fullShare d) ∗ (∃ d, owns (c : Thread nD τ) scM1_1 fullShare d)) ∗ Pipeline.scopedRestBut (Ix := Unit) (Name := ℕ) (U := UR sig nD τ) (Lvl := ℕ) (Val := Elt F) spec1 c [cc1_scratch0, cc1_scratch1]) ∗ (∃ r, prngReg c r))) := by
  unfold Pipeline.ΦA; rw [scopedRest1_split]; simp only [scM1_0, scM1_1, owns_whole]; try rfl

/-- Case A: the row-sum accumulator's pieces tile its block, so they cover it. -/
theorem cover1_A_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) (y : S1024x1.Idx) :
    ∃ pc ∈ (kernelRun1_A c i arg2 harg2 arg3 harg3 arg4 harg4 arg5 harg5 arg6 harg6 arg7 harg7 arg8 harg8 hc0 hc1 hc2 hc3 x0 x1 x2).1, y ∈ pc.1.set :=
  View.cover_of_tiledL (kernelRun1_A c i arg2 harg2 arg3 harg3 arg4 harg4 arg5 harg5 arg6 harg6 arg7 harg7 arg8 harg8 hc0 hc1 hc2 hc3 x0 x1 x2).1 S1024x1.size (by sl_kernel_rfl) y

/-- What case A leaves in the row-sum accumulator's staging buffer: its pieces read back. -/
def out1_A_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) : Vec F S1024x1 .f32 :=
  VO1_3.read (Elt F) (VO1_3.writes (Elt F) VO1_3.junk (kernelRun1_A c i arg2 harg2 arg3 harg3 arg4 harg4 arg5 harg5 arg6 harg6 arg7 harg7 arg8 harg8 hc0 hc1 hc2 hc3 x0 x1 x2).1)

/-- What case A leaves in the column-sum output's staging buffer (nothing is stored: a placeholder nothing consults, the window being idle and not written back there). -/
def out1_A_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) : Vec F S1x8192 .f32 :=
  VO1_4.read (Elt F) (VO1_4.writes (Elt F) VO1_4.junk (kernelRun1_A c i arg2 harg2 arg3 harg3 arg4 harg4 arg5 harg5 arg6 harg6 arg7 harg7 arg8 harg8 hc0 hc1 hc2 hc3 x0 x1 x2).2.1)

/-- Case A zeroes the whole column-sum scratch before adding its slab: the older piece covers it. -/
theorem scover1_A (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) (y : S8x8192.Idx) :
    ∃ pc ∈ (kernelRun1_A c i arg2 harg2 arg3 harg3 arg4 harg4 arg5 harg5 arg6 harg6 arg7 harg7 arg8 harg8 hc0 hc1 hc2 hc3 x0 x1 x2).2.2.2.1, y ∈ pc.1.set := by
  obtain ⟨p1, p2, hL, hp2⟩ : ∃ p1 p2, (kernelRun1_A c i arg2 harg2 arg3 harg3 arg4 harg4 arg5 harg5 arg6 harg6 arg7 harg7 arg8 harg8 hc0 hc1 hc2 hc3 x0 x1 x2).2.2.2.1 = [p1, p2] ∧ p2.1 = Rect.unit (s := S8x8192) ![0, 0] S8x8192.size inb_S8x8192_S8x8192_0_0 := ⟨_, _, rfl, rfl⟩
  refine ⟨p2, by rw [hL]; exact List.mem_cons_of_mem _ (List.mem_singleton.mpr rfl), ?_⟩
  rw [hp2]
  obtain ⟨pc, hpc, hy⟩ := View.cover_of_tiled [(⟨Rect.unit (s := S8x8192) ![0, 0] S8x8192.size inb_S8x8192_S8x8192_0_0, k1_pay2 (F := F)⟩ : View.Piece (Elt F) S8x8192 .f32)] S8x8192.size (by rfl) y
  rw [List.mem_singleton] at hpc; subst hpc; exact hy

/-- What case A leaves in the column-sum scratch: its pieces read back. -/
def sout1_A (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) : Vec F S8x8192 .f32 :=
  arg8.view.read (Elt F) (arg8.view.writes (Elt F) arg8.view.junk (kernelRun1_A c i arg2 harg2 arg3 harg3 arg4 harg4 arg5 harg5 arg6 harg6 arg7 harg7 arg8 harg8 hc0 hc1 hc2 hc3 x0 x1 x2).2.2.2.1)

/-- Case B: the row-sum accumulator's pieces tile its block, so they cover it. -/
theorem cover1_B_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) (y : S1024x1.Idx) :
    ∃ pc ∈ (kernelRun1_B c i arg2 harg2 arg3 harg3 arg4 harg4 arg5 harg5 arg6 harg6 arg7 harg7 arg8 harg8 hc0 hc1 hc2 hc3 x0 x1 x2 xs1).1, y ∈ pc.1.set :=
  View.cover_of_tiledL (kernelRun1_B c i arg2 harg2 arg3 harg3 arg4 harg4 arg5 harg5 arg6 harg6 arg7 harg7 arg8 harg8 hc0 hc1 hc2 hc3 x0 x1 x2 xs1).1 S1024x1.size (by sl_kernel_rfl) y

/-- What case B leaves in the row-sum accumulator's staging buffer: its pieces read back. -/
def out1_B_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) : Vec F S1024x1 .f32 :=
  VO1_3.read (Elt F) (VO1_3.writes (Elt F) VO1_3.junk (kernelRun1_B c i arg2 harg2 arg3 harg3 arg4 harg4 arg5 harg5 arg6 harg6 arg7 harg7 arg8 harg8 hc0 hc1 hc2 hc3 x0 x1 x2 xs1).1)

/-- What case B leaves in the column-sum output's staging buffer (nothing is stored: a placeholder nothing consults, the window being idle and not written back there). -/
def out1_B_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) : Vec F S1x8192 .f32 :=
  VO1_4.read (Elt F) (VO1_4.writes (Elt F) VO1_4.junk (kernelRun1_B c i arg2 harg2 arg3 harg3 arg4 harg4 arg5 harg5 arg6 harg6 arg7 harg7 arg8 harg8 hc0 hc1 hc2 hc3 x0 x1 x2 xs1).2.1)

/-- What case B leaves in the column-sum scratch: its one slab written over what the point before left. -/
def sout1_B (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) : Vec F S8x8192 .f32 :=
  arg8.view.read (Elt F) (arg8.view.writes (Elt F) (harg8.unread xs1) (kernelRun1_B c i arg2 harg2 arg3 harg3 arg4 harg4 arg5 harg5 arg6 harg6 arg7 harg7 arg8 harg8 hc0 hc1 hc2 hc3 x0 x1 x2 xs1).2.2.2.1)

/-- Case C: the row-sum accumulator's pieces tile its block, so they cover it. -/
theorem cover1_C_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) (y : S1024x1.Idx) :
    ∃ pc ∈ (kernelRun1_C c i arg2 harg2 arg3 harg3 arg4 harg4 arg5 harg5 arg6 harg6 arg7 harg7 arg8 harg8 hc0 hc1 hc2 hc3 x0 x1 x2 xo3 xs1).1, y ∈ pc.1.set :=
  View.cover_of_tiledL (kernelRun1_C c i arg2 harg2 arg3 harg3 arg4 harg4 arg5 harg5 arg6 harg6 arg7 harg7 arg8 harg8 hc0 hc1 hc2 hc3 x0 x1 x2 xo3 xs1).1 S1024x1.size (by sl_kernel_rfl) y

/-- What case C leaves in the row-sum accumulator's staging buffer: its pieces read back. -/
def out1_C_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S1024x1 .f32 :=
  VO1_3.read (Elt F) (VO1_3.writes (Elt F) VO1_3.junk (kernelRun1_C c i arg2 harg2 arg3 harg3 arg4 harg4 arg5 harg5 arg6 harg6 arg7 harg7 arg8 harg8 hc0 hc1 hc2 hc3 x0 x1 x2 xo3 xs1).1)

/-- What case C leaves in the column-sum output's staging buffer (nothing is stored: a placeholder nothing consults, the window being idle and not written back there). -/
def out1_C_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S1x8192 .f32 :=
  VO1_4.read (Elt F) (VO1_4.writes (Elt F) VO1_4.junk (kernelRun1_C c i arg2 harg2 arg3 harg3 arg4 harg4 arg5 harg5 arg6 harg6 arg7 harg7 arg8 harg8 hc0 hc1 hc2 hc3 x0 x1 x2 xo3 xs1).2.1)

/-- What case C leaves in the column-sum scratch: its one slab written over what the point before left. -/
def sout1_C (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S8x8192 .f32 :=
  arg8.view.read (Elt F) (arg8.view.writes (Elt F) (harg8.unread xs1) (kernelRun1_C c i arg2 harg2 arg3 harg3 arg4 harg4 arg5 harg5 arg6 harg6 arg7 harg7 arg8 harg8 hc0 hc1 hc2 hc3 x0 x1 x2 xo3 xs1).2.2.2.1)

/-- Case D: the row-sum accumulator's pieces tile its block, so they cover it. -/
theorem cover1_D_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) (y : S1024x1.Idx) :
    ∃ pc ∈ (kernelRun1_D c i arg2 harg2 arg3 harg3 arg4 harg4 arg5 harg5 arg6 harg6 arg7 harg7 arg8 harg8 hc0 hc1 hc2 hc3 x0 x1 x2 xo3 xs1).1, y ∈ pc.1.set :=
  View.cover_of_tiledL (kernelRun1_D c i arg2 harg2 arg3 harg3 arg4 harg4 arg5 harg5 arg6 harg6 arg7 harg7 arg8 harg8 hc0 hc1 hc2 hc3 x0 x1 x2 xo3 xs1).1 S1024x1.size (by sl_kernel_rfl) y

/-- What case D leaves in the row-sum accumulator's staging buffer: its pieces read back. -/
def out1_D_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S1024x1 .f32 :=
  VO1_3.read (Elt F) (VO1_3.writes (Elt F) VO1_3.junk (kernelRun1_D c i arg2 harg2 arg3 harg3 arg4 harg4 arg5 harg5 arg6 harg6 arg7 harg7 arg8 harg8 hc0 hc1 hc2 hc3 x0 x1 x2 xo3 xs1).1)

/-- What case D leaves in the column-sum output's staging buffer (nothing is stored: a placeholder nothing consults, the window being idle and not written back there). -/
def out1_D_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S1x8192 .f32 :=
  VO1_4.read (Elt F) (VO1_4.writes (Elt F) VO1_4.junk (kernelRun1_D c i arg2 harg2 arg3 harg3 arg4 harg4 arg5 harg5 arg6 harg6 arg7 harg7 arg8 harg8 hc0 hc1 hc2 hc3 x0 x1 x2 xo3 xs1).2.1)

/-- What case D leaves in the column-sum scratch: its one slab written over what the point before left. -/
def sout1_D (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S8x8192 .f32 :=
  arg8.view.read (Elt F) (arg8.view.writes (Elt F) (harg8.unread xs1) (kernelRun1_D c i arg2 harg2 arg3 harg3 arg4 harg4 arg5 harg5 arg6 harg6 arg7 harg7 arg8 harg8 hc0 hc1 hc2 hc3 x0 x1 x2 xo3 xs1).2.2.2.1)

/-- Case E: the row-sum accumulator's pieces tile its block, so they cover it. -/
theorem cover1_E_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) (y : S1024x1.Idx) :
    ∃ pc ∈ (kernelRun1_E c i arg2 harg2 arg3 harg3 arg4 harg4 arg5 harg5 arg6 harg6 arg7 harg7 arg8 harg8 hc0 hc1 hc2 hc3 x0 x1 x2 xo3 xs1).1, y ∈ pc.1.set :=
  View.cover_of_tiledL (kernelRun1_E c i arg2 harg2 arg3 harg3 arg4 harg4 arg5 harg5 arg6 harg6 arg7 harg7 arg8 harg8 hc0 hc1 hc2 hc3 x0 x1 x2 xo3 xs1).1 S1024x1.size (by sl_kernel_rfl) y

/-- What case E leaves in the row-sum accumulator's staging buffer: its pieces read back. -/
def out1_E_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) : Vec F S1024x1 .f32 :=
  VO1_3.read (Elt F) (VO1_3.writes (Elt F) VO1_3.junk (kernelRun1_E c i arg2 harg2 arg3 harg3 arg4 harg4 arg5 harg5 arg6 harg6 arg7 harg7 arg8 harg8 hc0 hc1 hc2 hc3 x0 x1 x2 xo3 xs1).1)

/-- What case E leaves in the column-sum output's staging buffer. -/
def out1_E_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) : Vec F S1x8192 .f32 :=
  VO1_4.read (Elt F) (VO1_4.writes (Elt F) VO1_4.junk (kernelRun1_E c i arg2 harg2 arg3 harg3 arg4 harg4 arg5 harg5 arg6 harg6 arg7 harg7 arg8 harg8 hc0 hc1 hc2 hc3 x0 x1 x2 xo3 xs1).2.1)

/-- Case E stores the whole column-sum block: one piece covering it. -/
theorem cover1_E_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) (y : S1x8192.Idx) :
    ∃ pc ∈ (kernelRun1_E c i arg2 harg2 arg3 harg3 arg4 harg4 arg5 harg5 arg6 harg6 arg7 harg7 arg8 harg8 hc0 hc1 hc2 hc3 x0 x1 x2 xo3 xs1).2.1, y ∈ pc.1.set :=
  View.cover_of_tiledL (kernelRun1_E c i arg2 harg2 arg3 harg3 arg4 harg4 arg5 harg5 arg6 harg6 arg7 harg7 arg8 harg8 hc0 hc1 hc2 hc3 x0 x1 x2 xo3 xs1).2.1 S1x8192.size (by sl_kernel_rfl) y

/-- What case E leaves in the column-sum scratch: its one slab written over what the point before left. -/
def sout1_E (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) : Vec F S8x8192 .f32 :=
  arg8.view.read (Elt F) (arg8.view.writes (Elt F) (harg8.unread xs1) (kernelRun1_E c i arg2 harg2 arg3 harg3 arg4 harg4 arg5 harg5 arg6 harg6 arg7 harg7 arg8 harg8 hc0 hc1 hc2 hc3 x0 x1 x2 xo3 xs1).2.2.2.1)

/-- THE ACCUMULATION. What the row-sum accumulator's buffer, the column-sum output's buffer and the column-sum scratch hold
    after the body at position n: the case the position selects, run at the point's memrefs and input blocks, over what
    the point before left where the case reads it. -/
def outsAt1 (c : Dev nD) : (n : ℕ) → n < cfg1.N → Vec F S1024x1 .f32 × Vec F S1x8192 .f32 × Vec F S8x8192 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (conds1_A ⟨0, hn⟩ rfl).1 (conds1_A ⟨0, hn⟩ rfl).2.1 (conds1_A ⟨0, hn⟩ rfl).2.2.1 (conds1_A ⟨0, hn⟩ rfl).2.2.2 (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (conds1_A ⟨0, hn⟩ rfl).1 (conds1_A ⟨0, hn⟩ rfl).2.1 (conds1_A ⟨0, hn⟩ rfl).2.2.1 (conds1_A ⟨0, hn⟩ rfl).2.2.2 (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (conds1_A ⟨0, hn⟩ rfl).1 (conds1_A ⟨0, hn⟩ rfl).2.1 (conds1_A ⟨0, hn⟩ rfl).2.2.1 (conds1_A ⟨0, hn⟩ rfl).2.2.2 (iblk1 V c 0 ⟨0, hn⟩) (iblk1 V c 1 ⟨0, hn⟩) (iblk1 V c 2 ⟨0, hn⟩))
  | n + 1, hn =>
    if h63 : n + 1 = 63 then
      (out1_E_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_E ⟨n + 1, hn⟩ h63).1 (conds1_E ⟨n + 1, hn⟩ h63).2.1 (conds1_E ⟨n + 1, hn⟩ h63).2.2.1 (conds1_E ⟨n + 1, hn⟩ h63).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, out1_E_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_E ⟨n + 1, hn⟩ h63).1 (conds1_E ⟨n + 1, hn⟩ h63).2.1 (conds1_E ⟨n + 1, hn⟩ h63).2.2.1 (conds1_E ⟨n + 1, hn⟩ h63).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, sout1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_E ⟨n + 1, hn⟩ h63).1 (conds1_E ⟨n + 1, hn⟩ h63).2.1 (conds1_E ⟨n + 1, hn⟩ h63).2.2.1 (conds1_E ⟨n + 1, hn⟩ h63).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2)
    else if h8 : (n + 1) % 8 = 0 then
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_B ⟨n + 1, hn⟩ (Nat.succ_ne_zero n) h8).1 (conds1_B ⟨n + 1, hn⟩ (Nat.succ_ne_zero n) h8).2.1 (conds1_B ⟨n + 1, hn⟩ (Nat.succ_ne_zero n) h8).2.2.1 (conds1_B ⟨n + 1, hn⟩ (Nat.succ_ne_zero n) h8).2.2.2 (iblk1 V c 0 ⟨n + 1, hn⟩) (iblk1 V c 1 ⟨n + 1, hn⟩) (iblk1 V c 2 ⟨n + 1, hn⟩) ((outsAt1 c n (Nat.lt_of_succ_lt hn))).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_B ⟨n + 1, hn⟩ (Nat.succ_ne_zero n) h8).1 (conds1_B ⟨n + 1, hn⟩ (Nat.succ_ne_zero n) h8).2.1 (conds1_B ⟨n + 1, hn⟩ (Nat.succ_ne_zero n) h8).2.2.1 (conds1_B ⟨n + 1, hn⟩ (Nat.succ_ne_zero n) h8).2.2.2 (iblk1 V c 0 ⟨n + 1, hn⟩) (iblk1 V c 1 ⟨n + 1, hn⟩) (iblk1 V c 2 ⟨n + 1, hn⟩) ((outsAt1 c n (Nat.lt_of_succ_lt hn))).2.2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_B ⟨n + 1, hn⟩ (Nat.succ_ne_zero n) h8).1 (conds1_B ⟨n + 1, hn⟩ (Nat.succ_ne_zero n) h8).2.1 (conds1_B ⟨n + 1, hn⟩ (Nat.succ_ne_zero n) h8).2.2.1 (conds1_B ⟨n + 1, hn⟩ (Nat.succ_ne_zero n) h8).2.2.2 (iblk1 V c 0 ⟨n + 1, hn⟩) (iblk1 V c 1 ⟨n + 1, hn⟩) (iblk1 V c 2 ⟨n + 1, hn⟩) ((outsAt1 c n (Nat.lt_of_succ_lt hn))).2.2)
    else if h9 : (n + 1) % 9 = 0 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_C ⟨n + 1, hn⟩ h8 h63 h9).1 (conds1_C ⟨n + 1, hn⟩ h8 h63 h9).2.1 (conds1_C ⟨n + 1, hn⟩ h8 h63 h9).2.2.1 (conds1_C ⟨n + 1, hn⟩ h8 h63 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_C ⟨n + 1, hn⟩ h8 h63 h9).1 (conds1_C ⟨n + 1, hn⟩ h8 h63 h9).2.1 (conds1_C ⟨n + 1, hn⟩ h8 h63 h9).2.2.1 (conds1_C ⟨n + 1, hn⟩ h8 h63 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_C ⟨n + 1, hn⟩ h8 h63 h9).1 (conds1_C ⟨n + 1, hn⟩ h8 h63 h9).2.1 (conds1_C ⟨n + 1, hn⟩ h8 h63 h9).2.2.1 (conds1_C ⟨n + 1, hn⟩ h8 h63 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2)
    else
      (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_D ⟨n + 1, hn⟩ h8 h9).1 (conds1_D ⟨n + 1, hn⟩ h8 h9).2.1 (conds1_D ⟨n + 1, hn⟩ h8 h9).2.2.1 (conds1_D ⟨n + 1, hn⟩ h8 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, out1_D_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_D ⟨n + 1, hn⟩ h8 h9).1 (conds1_D ⟨n + 1, hn⟩ h8 h9).2.1 (conds1_D ⟨n + 1, hn⟩ h8 h9).2.2.1 (conds1_D ⟨n + 1, hn⟩ h8 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, sout1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_D ⟨n + 1, hn⟩ h8 h9).1 (conds1_D ⟨n + 1, hn⟩ h8 h9).2.1 (conds1_D ⟨n + 1, hn⟩ h8 h9).2.2.1 (conds1_D ⟨n + 1, hn⟩ h8 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2)

theorem outsAt1_A (c : Dev nD) (t : Fin cfg1.N) (hz : t.val = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_A t hz).1 (conds1_A t hz).2.1 (conds1_A t hz).2.2.1 (conds1_A t hz).2.2.2 (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_A t hz).1 (conds1_A t hz).2.1 (conds1_A t hz).2.2.1 (conds1_A t hz).2.2.2 (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_A t hz).1 (conds1_A t hz).2.1 (conds1_A t hz).2.2.1 (conds1_A t hz).2.2.2 (iblk1 V c 0 t) (iblk1 V c 1 t) (iblk1 V c 2 t)) := by
  obtain ⟨n, hn⟩ := t
  cases n with
  | zero => exact rfl
  | succ n => exact absurd hz (Nat.succ_ne_zero n)

theorem outsAt1_E (c : Dev nD) (t : Fin cfg1.N) (h63 : t.val = 63) :
    outsAt1 V c t.val t.isLt = (out1_E_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_E t h63).1 (conds1_E t h63).2.1 (conds1_E t h63).2.2.1 (conds1_E t h63).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, out1_E_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_E t h63).1 (conds1_E t h63).2.1 (conds1_E t h63).2.2.1 (conds1_E t h63).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, sout1_E c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_E t h63).1 (conds1_E t h63).2.1 (conds1_E t h63).2.2.1 (conds1_E t h63).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2) := by
  obtain ⟨n, hn⟩ := t
  cases n with
  | zero => exact absurd (show (0 : ℕ) = 63 from h63) (by decide)
  | succ n => exact (dif_pos h63).trans rfl

theorem outsAt1_B (c : Dev nD) (t : Fin cfg1.N) (hz : t.val ≠ 0) (h8 : t.val % 8 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_B t hz h8).1 (conds1_B t hz h8).2.1 (conds1_B t hz h8).2.2.1 (conds1_B t hz h8).2.2.2 (iblk1 V c 0 t) (iblk1 V c 1 t) (iblk1 V c 2 t) ((outsAt1 V c (t.val - 1) (Nat.lt_of_le_of_lt (Nat.sub_le _ _) t.isLt))).2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_B t hz h8).1 (conds1_B t hz h8).2.1 (conds1_B t hz h8).2.2.1 (conds1_B t hz h8).2.2.2 (iblk1 V c 0 t) (iblk1 V c 1 t) (iblk1 V c 2 t) ((outsAt1 V c (t.val - 1) (Nat.lt_of_le_of_lt (Nat.sub_le _ _) t.isLt))).2.2, sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_B t hz h8).1 (conds1_B t hz h8).2.1 (conds1_B t hz h8).2.2.1 (conds1_B t hz h8).2.2.2 (iblk1 V c 0 t) (iblk1 V c 1 t) (iblk1 V c 2 t) ((outsAt1 V c (t.val - 1) (Nat.lt_of_le_of_lt (Nat.sub_le _ _) t.isLt))).2.2) := by
  obtain ⟨n, hn⟩ := t
  cases n with
  | zero => exact absurd rfl hz
  | succ n => exact (dif_neg (fun h : n + 1 = 63 => by have h8' : (n + 1) % 8 = 0 := h8; omega)).trans ((dif_pos h8).trans rfl)

theorem outsAt1_C (c : Dev nD) (t : Fin cfg1.N) (h8 : t.val % 8 ≠ 0) (h63 : t.val ≠ 63) (h9 : t.val % 9 = 0) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_C t h8 h63 h9).1 (conds1_C t h8 h63 h9).2.1 (conds1_C t h8 h63 h9).2.2.1 (conds1_C t h8 h63 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_C t h8 h63 h9).1 (conds1_C t h8 h63 h9).2.1 (conds1_C t h8 h63 h9).2.2.1 (conds1_C t h8 h63 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_C t h8 h63 h9).1 (conds1_C t h8 h63 h9).2.1 (conds1_C t h8 h63 h9).2.2.1 (conds1_C t h8 h63 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2) := by
  obtain ⟨n, hn⟩ := t
  cases n with
  | zero => exact absurd (Nat.zero_mod 8) h8
  | succ n => exact (dif_neg h63).trans ((dif_neg h8).trans ((dif_pos h9).trans rfl))

theorem outsAt1_D (c : Dev nD) (t : Fin cfg1.N) (h8 : t.val % 8 ≠ 0) (h9 : t.val % 9 ≠ 0) :
    outsAt1 V c t.val t.isLt = (out1_D_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_D t h8 h9).1 (conds1_D t h8 h9).2.1 (conds1_D t h8 h9).2.2.1 (conds1_D t h8 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, out1_D_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_D t h8 h9).1 (conds1_D t h8 h9).2.1 (conds1_D t h8 h9).2.2.1 (conds1_D t h8 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, sout1_D c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_D t h8 h9).1 (conds1_D t h8 h9).2.1 (conds1_D t h8 h9).2.2.1 (conds1_D t h8 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2) := by
  obtain ⟨n, hn⟩ := t
  cases n with
  | zero => exact absurd (Nat.zero_mod 8) h8
  | succ n => exact (dif_neg (fun h : n + 1 = 63 => by have h9' : (n + 1) % 9 ≠ 0 := h9; omega)).trans ((dif_neg h8).trans ((dif_neg h9).trans rfl))

/-- The region invariant before position n: before the first point the class's (every scratch at anything); afterwards the
    column-sum scratch at what the point before left in it, the other scratch at anything, the other scoped buffers and the
    generator register untouched. -/
def PhiS1 (c : Dev nD) : (n : ℕ) → n ≤ cfg1.N → sProp 𝕄
  | 0, _ => Pipeline.ΦA spec1 c
  | n + 1, hn => iprop(iprop(iprop(iprop((∃ d, owns (c : Thread nD τ) scM1_0 fullShare d) ∗ owns (c : Thread nD τ) scM1_1 fullShare ((outsAt1 V c n hn).2.2)) ∗ Pipeline.scopedRestBut (Ix := Unit) (Name := ℕ) (U := UR sig nD τ) (Lvl := ℕ) (Val := Elt F) spec1 c [cc1_scratch0, cc1_scratch1]) ∗ (∃ r, prngReg c r)))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(iprop((∃ d, owns (c : Thread nD τ) scM1_0 fullShare d) ∗ owns (c : Thread nD τ) scM1_1 fullShare ((outsAt1 V c n hn).2.2)) ∗ Pipeline.scopedRestBut (Ix := Unit) (Name := ℕ) (U := UR sig nD τ) (Lvl := ℕ) (Val := Elt F) spec1 c [cc1_scratch0, cc1_scratch1]) ∗ (∃ r, prngReg c r))) := rfl

theorem PhiS1_pos (c : Dev nD) (n : ℕ) (h : n ≤ cfg1.N) (hz : n ≠ 0) :
    PhiS1 V c n h = iprop(iprop(iprop(iprop((∃ d, owns (c : Thread nD τ) scM1_0 fullShare d) ∗ owns (c : Thread nD τ) scM1_1 fullShare ((outsAt1 V c (n - 1) (by omega)).2.2)) ∗ Pipeline.scopedRestBut (Ix := Unit) (Name := ℕ) (U := UR sig nD τ) (Lvl := ℕ) (Val := Elt F) spec1 c [cc1_scratch0, cc1_scratch1]) ∗ (∃ r, prngReg c r))) := by
  cases n with
  | zero => exact absurd rfl hz
  | succ n => rfl

/-! ## The pipeline's proof data -/

/-- The proof data of pipeline 1 on core c: the arrays as the region finds them; after the body at point t each input's
    buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- Inside a grid row the row-sum accumulator's current staging buffer holds what the body left at the point before: the
    buffer is not written back between. -/
theorem before1_3_K (c : Dev nD) (t : Fin cfg1.N) (h8 : t.val % 8 ≠ 0) (d) :
    (dat1 V c).before 3 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

end Cert.KernelIdeal.Gen

end
-- ==== Proof.Region1.lean ====
import proofs.«152628_j8315056685239_2_alg».proof.Proof.Region1Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the body obligation at every point, and the invariant's two ends -/

variable (V : (c : Dev nD) → (b : Ref sig .tc) → Buf (Elt F) ((c : Thread nD τ).loc b))

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 2000000 in
/-- The body at any point: the position says which case the point is in; the inputs' memrefs hold their blocks, the
    accumulator what the point before left (inside a row) or anything (at a row's start, where it is zeroed first); the
    invariant hands over the scratch buffers and takes the column-sum scratch back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h63 : t.val = 63
  · have hz : t.val ≠ 0 := by omega
    have h8 : t.val % 8 ≠ 0 := by omega
    rw [show (dat1 V c).leavesExact 4 t = owns (c : Thread nD τ) (ms1_4 t) fullShare ((dat1 V c).after 4 t) from by
      unfold Dat.leavesExact; rw [liveAt1_4 t h63], after1_4]
    rw [outsAt1_E V c t h63]
    simp only [before1_3_K V c t h8]
    unfold out1_E_3 out1_E_4 sout1_E; (try dsimp only)
    rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((kernelRun1_E c (grid1.coords t) _ _ _ _ _ _ _ _ _ _ _ _ _ _ (conds1_E t h63).1 (conds1_E t h63).2.1 (conds1_E t h63).2.2.1 (conds1_E t h63).2.2.2 (iblk1 V c 0 t) (iblk1 V c 1 t) (iblk1 V c 2 t) _ _).2.2.2.2 ((dat1 V c).before 4 t d4) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, HS1⟩
    isplitl [HS0 HS1 Hrest Hg]
    · isplitl [HS0 HS1 Hrest]
      · isplitl [HS0 HS1]
        · isplitl [HS0]
          · iexists _; unfold owns; iexists _; isplitr
            swap; · iexact HS0
            ipureintro; rfl
          unfold owns; iexists _; isplitr
          swap; · iexact HS1
          ipureintro; rfl
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_E_3 c _ _ _ _ _ _ _ _ _ _ _ _ _ _ _ _ _ _ _ _ _ _ _ _)
    unfold owns; iexists _; isplitr
    swap; · iexact H4
    ipureintro; exact View.read_writes_of_cover _ _ _ _ _ (cover1_E_4 c _ _ _ _ _ _ _ _ _ _ _ _ _ _ _ _ _ _ _ _ _ _ _ _)
  · rw [Dat.leavesExact_idle (dat1 V c) 4 t (idleAt1_4 t h63) (noFlush1_4 t h63)]
    by_cases hz : t.val = 0
    · rw [outsAt1_A V c t hz]
      unfold out1_A_3 sout1_A; (try dsimp only)
      rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ (conds1_A t hz).1 (conds1_A t hz).2.1 (conds1_A t hz).2.2.1 (conds1_A t hz).2.2.2 (iblk1 V c 0 t) (iblk1 V c 1 t) (iblk1 V c 2 t)).2.2.2.2 ((dat1 V c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover1_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _ _ _ _ _ _)
      iexists _; iexact H4
    · by_cases h8 : t.val % 8 = 0
      · rw [outsAt1_B V c t hz h8]
        unfold out1_B_3 sout1_B; (try dsimp only)
        rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ (conds1_B t hz h8).1 (conds1_B t hz h8).2.1 (conds1_B t hz h8).2.2.1 (conds1_B t hz h8).2.2.2 (iblk1 V c 0 t) (iblk1 V c 1 t) (iblk1 V c 2 t) _).2.2.2.2 ((dat1 V c).before 4 t d4) Set.univ _)
        isplitl [H0]; · iexact H0
        isplitl [H1]; · iexact H1
        isplitl [H2]; · iexact H2
        isplitl [H3]; · iexists _; iexact H3
        isplitl [H4]; · iexact H4
        isplitl [HS0]; · iexact HS0
        isplitl [HS1]; · iexact HS1
        iintro ⟨H0, H1, H2, ⟨%e3, H3⟩, H4, ⟨%es0, HS0⟩, HS1⟩
        isplitl [HS0 HS1 Hrest Hg]
        · isplitl [HS0 HS1 Hrest]
          · isplitl [HS0 HS1]
            · isplitl [HS0]
              · iexists _; unfold owns; iexists _; isplitr
                swap; · iexact HS0
                ipureintro; rfl
              unfold owns; iexists _; isplitr
              swap; · iexact HS1
              ipureintro; rfl
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_B_3 c _ _ _ _ _ _ _ _ _ _ _ _ _ _ _ _ _ _ _ _ _ _ _)
        iexists _; iexact H4
      · by_cases h9 : t.val % 9 = 0
        · rw [outsAt1_C V c t h8 h63 h9]
          simp only [before1_3_K V c t h8]
          unfold out1_C_3 sout1_C; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩, ⟨%d4, H4⟩⟩
          iapply ((kernelRun1_C c (grid1.coords t) _ _ _ _ _ _ _ _ _ _ _ _ _ _ (conds1_C t h8 h63 h9).1 (conds1_C t h8 h63 h9).2.1 (conds1_C t h8 h63 h9).2.2.1 (conds1_C t h8 h63 h9).2.2.2 (iblk1 V c 0 t) (iblk1 V c 1 t) (iblk1 V c 2 t) _ _).2.2.2.2 ((dat1 V c).before 4 t d4) Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iintro ⟨H0, H1, H2, ⟨%e3, H3⟩, H4, ⟨%es0, HS0⟩, HS1⟩
          isplitl [HS0 HS1 Hrest Hg]
          · isplitl [HS0 HS1 Hrest]
            · isplitl [HS0 HS1]
              · isplitl [HS0]
                · iexists _; unfold owns; iexists _; isplitr
                  swap; · iexact HS0
                  ipureintro; rfl
                unfold owns; iexists _; isplitr
                swap; · iexact HS1
                ipureintro; rfl
              iexact Hrest
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover1_C_3 c _ _ _ _ _ _ _ _ _ _ _ _ _ _ _ _ _ _ _ _ _ _ _ _)
          iexists _; iexact H4
        · rw [outsAt1_D V c t h8 h9]
          simp only [before1_3_K V c t h8]
          unfold out1_D_3 sout1_D; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩, ⟨%d4, H4⟩⟩
          iapply ((kernelRun1_D c (grid1.coords t) _ _ _ _ _ _ _ _ _ _ _ _ _ _ (conds1_D t h8 h9).1 (conds1_D t h8 h9).2.1 (conds1_D t h8 h9).2.2.1 (conds1_D t h8 h9).2.2.2 (iblk1 V c 0 t) (iblk1 V c 1 t) (iblk1 V c 2 t) _ _).2.2.2.2 ((dat1 V c).before 4 t d4) Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iintro ⟨H0, H1, H2, ⟨%e3, H3⟩, H4, ⟨%es0, HS0⟩, HS1⟩
          isplitl [HS0 HS1 Hrest Hg]
          · isplitl [HS0 HS1 Hrest]
            · isplitl [HS0 HS1]
              · isplitl [HS0]
                · iexists _; unfold owns; iexists _; isplitr
                  swap; · iexact HS0
                  ipureintro; rfl
                unfold owns; iexists _; isplitr
                swap; · iexact HS1
                ipureintro; rfl
              iexact Hrest
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover1_D_3 c _ _ _ _ _ _ _ _ _ _ _ _ _ _ _ _ _ _ _ _ _ _ _ _)
          iexists _; iexact H4

set_option maxHeartbeats 4000000 in
/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Gen

end
-- ==== Proof.Region2.lean ====
import proofs.«152628_j8315056685239_2_alg».proof.Proof.Gen.KernelIdeal.Launch
import proofs.«152628_j8315056685239_2_alg».proof.Proof.Gen.KernelIdeal.Skeleton
import proofs.«152628_j8315056685239_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # Region 2: the accumulating product of a normalised adjacency block and a right-hand block

At grid point (g0, g1) the body forms, from the S2048x256 adjacency block, the row scale and the column scale, the
normalised block (adjacency times row scale times column scale, with the product of the two scales added where the
global row index equals the global column index), rounds it to bf16, multiplies it into the S256x1024 right-hand
block, and adds the product to the S2048x1024 accumulator; at the points with g1 = 0 the accumulator is first reset to
zero. The accumulator's buffer is written back after the last g1 of each g0, so over the 32 points of one g0 it
carries the running sum. Everything here is stated at any contents `V` of the core's buffers on entry to the region. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (where it did not, the block index has not moved since the last fetch), for any proof data over the entry
    arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not (where it did not, the block index has not moved since the last fetch), for any proof data over the entry
    arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not (where it did not, the block index has not moved since the last fetch), for any proof data over the entry
    arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there or
    not (where it did not, the block index has not moved since the last fetch), for any proof data over the entry
    arrays whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The reset condition -/

/-- The body's reset test: grid coordinate 1 is zero. -/
abbrev cond2_0 (i : grid2.Coords) : Prop := (Scalar.cmpi .ne (Scalar.extui (Scalar.cmpi .eq (BitVec.ofNat 32 (i 1).val) 0#32)) 0#32) = 1#1
/-- In the row-major order of the grid it holds exactly at the points that are multiples of 32. -/
theorem hcond2_0 : ∀ t : Fin cfg2.N, cond2_0 (grid2.coords t) ↔ t.val % 32 = 0 :=
  (by decide +kernel : ∀ t : Fin grid2.N, cond2_0 (grid2.coords t) ↔ t.val % 32 = 0)

/-! ## The staging memrefs -/

/-- One staging buffer of the accumulator window, through which its contents are stated (once the pieces cover the
    block the choice does not matter). -/
abbrev VO2_4 : View sig .tc .vmem S2048x1024 .f32 := (Memref.whole cc2_stg4_0 : Memref sig .tc .vmem S2048x1024 .f32).view
abbrev ms2_0 (t : Fin cfg2.N) : Memref sig .tc .vmem S2048x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)

/-! ## The body's two runs -/

set_option maxHeartbeats 1000000 in
/-- The resetting run (grid coordinate 1 zero): from the four input buffers at `x0 … x3` and the accumulator's
    buffer at anything, the body ends with the inputs as they were and the accumulator's buffer overwritten by the
    listed pieces (last store first): the zero block, then the sum of the zero block and the product. -/
noncomputable def kernelRun2_A (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : cond2_0 i)
    (x0 : Vec F S2048x256 .bf16) (x1 : Vec F S2048x1 .f32) (x2 : Vec F S1x256 .f32) (x3 : Vec F S256x1024 .bf16) :
    { L4 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2_kernel i arg2 harg2 arg3 harg3 arg4 harg4 arg5 harg5 arg6 harg6) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The accumulating run (grid coordinate 1 not zero): the accumulator's buffer holds the running sum `xo4`, and
    ends overwritten by the one piece "running sum plus product". -/
noncomputable def kernelRun2_B (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : ¬cond2_0 i)
    (x0 : Vec F S2048x256 .bf16) (x1 : Vec F S2048x1 .f32) (x2 : Vec F S1x256 .f32) (x3 : Vec F S256x1024 .bf16) (xo4 : Vec F S2048x1024 .f32) :
    { L4 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2_kernel i arg2 harg2 arg3 harg3 arg4 harg4 arg5 harg5 arg6 harg6) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What each run leaves in the accumulator's buffer -/

/-- The resetting run's pieces tile the accumulator block, so they cover it. -/
theorem cover2_A_4 (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : cond2_0 i)
    (x0 : Vec F S2048x256 .bf16) (x1 : Vec F S2048x1 .f32) (x2 : Vec F S1x256 .f32) (x3 : Vec F S256x1024 .bf16) (y : S2048x1024.Idx) :
    ∃ pc ∈ (kernelRun2_A c i arg2 harg2 arg3 harg3 arg4 harg4 arg5 harg5 arg6 harg6 hc0 x0 x1 x2 x3).1, y ∈ pc.1.set :=
  View.cover_of_tiledL (kernelRun2_A c i arg2 harg2 arg3 harg3 arg4 harg4 arg5 harg5 arg6 harg6 hc0 x0 x1 x2 x3).1 S2048x1024.size (by sl_kernel_rfl) y

/-- What the resetting run leaves in the accumulator's buffer: its pieces read back. -/
def out2_A_4 (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : cond2_0 i)
    (x0 : Vec F S2048x256 .bf16) (x1 : Vec F S2048x1 .f32) (x2 : Vec F S1x256 .f32) (x3 : Vec F S256x1024 .bf16) : Vec F S2048x1024 .f32 :=
  VO2_4.read (Elt F) (VO2_4.writes (Elt F) VO2_4.junk (kernelRun2_A c i arg2 harg2 arg3 harg3 arg4 harg4 arg5 harg5 arg6 harg6 hc0 x0 x1 x2 x3).1)

/-- The accumulating run's piece is the whole accumulator block, so it covers it. -/
theorem cover2_B_4 (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : ¬cond2_0 i)
    (x0 : Vec F S2048x256 .bf16) (x1 : Vec F S2048x1 .f32) (x2 : Vec F S1x256 .f32) (x3 : Vec F S256x1024 .bf16) (xo4 : Vec F S2048x1024 .f32) (y : S2048x1024.Idx) :
    ∃ pc ∈ (kernelRun2_B c i arg2 harg2 arg3 harg3 arg4 harg4 arg5 harg5 arg6 harg6 hc0 x0 x1 x2 x3 xo4).1, y ∈ pc.1.set :=
  View.cover_of_tiledL (kernelRun2_B c i arg2 harg2 arg3 harg3 arg4 harg4 arg5 harg5 arg6 harg6 hc0 x0 x1 x2 x3 xo4).1 S2048x1024.size (by sl_kernel_rfl) y

/-- What the accumulating run leaves in the accumulator's buffer: its piece read back. -/
def out2_B_4 (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : ¬cond2_0 i)
    (x0 : Vec F S2048x256 .bf16) (x1 : Vec F S2048x1 .f32) (x2 : Vec F S1x256 .f32) (x3 : Vec F S256x1024 .bf16) (xo4 : Vec F S2048x1024 .f32) : Vec F S2048x1024 .f32 :=
  VO2_4.read (Elt F) (VO2_4.writes (Elt F) VO2_4.junk (kernelRun2_B c i arg2 harg2 arg3 harg3 arg4 harg4 arg5 harg5 arg6 harg6 hc0 x0 x1 x2 x3 xo4).1)

/-! ## The accumulator point by point -/

/-- What the accumulator's staging buffer holds after the body at position `n` of the grid: at a multiple of 32 the
    resetting run on the point's blocks; elsewhere the accumulating run on the point's blocks over what position
    `n - 1` left (the buffer is not written back in between). -/
def outsAt2 (c : Dev nD) : (n : ℕ) → n < cfg2.N → Vec F S2048x1024 .f32
  | 0, hn => out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩)
  | n + 1, hn =>
    if h0 : (n + 1) % 32 = 0 then
      out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩)
    else
      out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn))

/-- At a resetting point: the resetting run's contents. -/
theorem outsAt2_A (c : Dev nD) (t : Fin cfg2.N) (h0 : t.val % 32 = 0) :
    outsAt2 V c t.val t.isLt = out2_A_4 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t) (iblk2 V c 3 t) := by
  obtain ⟨n, hn⟩ := t
  cases n with
  | zero => exact rfl
  | succ n => exact (dif_pos h0).trans rfl

/-- At an accumulating point: the accumulating run's contents over what the point before left. -/
theorem outsAt2_B (c : Dev nD) (t : Fin cfg2.N) (h0 : ¬t.val % 32 = 0) :
    outsAt2 V c t.val t.isLt = out2_B_4 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them; after the body at point `t` each
    input's buffer at its block and the accumulator's at `outsAt2`; the invariant is the untouched rest of the core;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At an accumulating point the accumulator's staging buffer holds what the body left at the point before: the
    point is not the first, and the buffer was written back only after the last point of a row of the grid. -/
theorem before2_4_B (c : Dev nD) (t : Fin cfg2.N) (h0 : ¬t.val % 32 = 0) (d) :
    (dat2 V c).before 4 t d = (outsAt2 V c (t.val - 1) (Nat.lt_of_le_of_lt (Nat.sub_le _ _) t.isLt)) := by
  have hN : t.val < 128 := lt_of_lt_of_eq t.isLt (show cfg2.N = 128 from N_2)
  rw [Dat.before_out_kept _ 4 rfl t (by omega) (Bool.eq_false_iff.mpr fun h => by have := (flush2_4 _).mp h; dsimp only at this; omega)
    (fun _ => rfl) (fun _ _ => rfl)]
  dsimp only [dat2]

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1000000 in
/-- The body at any point: the inputs' buffers hold their blocks; the point is a resetting or an accumulating one
    according to its position modulo 32, and at an accumulating one the accumulator's buffer holds what the point
    before left; so the matching run applies, and the rest of the core passes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 128 := lt_of_lt_of_eq t.isLt (show cfg2.N = 128 from N_2)
  by_cases h0 : t.val % 32 = 0
  · rw [outsAt2_A V c t h0]
    unfold out2_A_4
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2_0 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A_4 c _ _ _ _ _ _ _ _ _ _ _ _ _ _ _ _)
  · rw [outsAt2_B V c t h0]
    simp only [before2_4_B V c t h0]
    unfold out2_B_4
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2_0 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _)

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.Region3.lean ====
import proofs.«152628_j8315056685239_2_alg».proof.Proof.Gen.KernelIdeal.Launch
import proofs.«152628_j8315056685239_2_alg».proof.Proof.Gen.KernelIdeal.Skeleton
import proofs.«152628_j8315056685239_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # Region 3: the accumulating product of a TRANSPOSED normalised adjacency block and a right-hand block

At grid point (g0, g1) the body forms, from the S256x2048 adjacency block, the row scale and the column scale, the
normalised block (adjacency times row scale times column scale, with the product of the two scales added where the
global row index equals the global column index), rounds it to bf16, multiplies its transpose into the S256x512 right-hand
block (the product contracts the first axis of both, the adjacency block being indexed (g1, g0)), and adds the product to the S2048x512 accumulator; at the points with g1 = 0 the accumulator is first reset to
zero. The accumulator's buffer is written back after the last g1 of each g0, so over the 32 points of one g0 it
carries the running sum. Everything here is stated at any contents `V` of the core's buffers on entry to the region. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not (where it did not, the block index has not moved since the last fetch), for any proof data over the entry
    arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the pipeline fetched it there or
    not (where it did not, the block index has not moved since the last fetch), for any proof data over the entry
    arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the pipeline fetched it there or
    not (where it did not, the block index has not moved since the last fetch), for any proof data over the entry
    arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the pipeline fetched it there or
    not (where it did not, the block index has not moved since the last fetch), for any proof data over the entry
    arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The reset condition -/

/-- The body's reset test: grid coordinate 1 is zero. -/
abbrev cond3_0 (i : grid3.Coords) : Prop := (Scalar.cmpi .ne (Scalar.extui (Scalar.cmpi .eq (BitVec.ofNat 32 (i 1).val) 0#32)) 0#32) = 1#1
/-- In the row-major order of the grid it holds exactly at the points that are multiples of 32. -/
theorem hcond3_0 : ∀ t : Fin cfg3.N, cond3_0 (grid3.coords t) ↔ t.val % 32 = 0 :=
  (by decide +kernel : ∀ t : Fin grid3.N, cond3_0 (grid3.coords t) ↔ t.val % 32 = 0)

/-! ## The staging memrefs -/

/-- One staging buffer of the accumulator window, through which its contents are stated (once the pieces cover the
    block the choice does not matter). -/
abbrev VO3_4 : View sig .tc .vmem S2048x512 .f32 := (Memref.whole cc3_stg4_0 : Memref sig .tc .vmem S2048x512 .f32).view
abbrev ms3_0 (t : Fin cfg3.N) : Memref sig .tc .vmem S256x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x512 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x512 .f32 := win3_4.stage (cfg3.slots t 4)
abbrev hs3_4 (t : Fin cfg3.N) : (ms3_4 t).IsWhole := hstage3_4 ((cfg3.slots t 4).cast nbuf3_4)

/-! ## The body's two runs -/

set_option maxHeartbeats 1000000 in
/-- The resetting run (grid coordinate 1 zero): from the four input buffers at `x0 … x3` and the accumulator's
    buffer at anything, the body ends with the inputs as they were and the accumulator's buffer overwritten by the
    listed pieces (last store first): the zero block, then the sum of the zero block and the product. -/
noncomputable def kernelRun3_A (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : cond3_0 i)
    (x0 : Vec F S256x2048 .bf16) (x1 : Vec F S256x1 .f32) (x2 : Vec F S1x2048 .f32) (x3 : Vec F S256x512 .bf16) :
    { L4 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc3_kernel i arg2 harg2 arg3 harg3 arg4 harg4 arg5 harg5 arg6 harg6) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The accumulating run (grid coordinate 1 not zero): the accumulator's buffer holds the running sum `xo4`, and
    ends overwritten by the one piece "running sum plus product". -/
noncomputable def kernelRun3_B (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : ¬cond3_0 i)
    (x0 : Vec F S256x2048 .bf16) (x1 : Vec F S256x1 .f32) (x2 : Vec F S1x2048 .f32) (x3 : Vec F S256x512 .bf16) (xo4 : Vec F S2048x512 .f32) :
    { L4 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc3_kernel i arg2 harg2 arg3 harg3 arg4 harg4 arg5 harg5 arg6 harg6) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What each run leaves in the accumulator's buffer -/

/-- The resetting run's pieces tile the accumulator block, so they cover it. -/
theorem cover3_A_4 (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : cond3_0 i)
    (x0 : Vec F S256x2048 .bf16) (x1 : Vec F S256x1 .f32) (x2 : Vec F S1x2048 .f32) (x3 : Vec F S256x512 .bf16) (y : S2048x512.Idx) :
    ∃ pc ∈ (kernelRun3_A c i arg2 harg2 arg3 harg3 arg4 harg4 arg5 harg5 arg6 harg6 hc0 x0 x1 x2 x3).1, y ∈ pc.1.set :=
  View.cover_of_tiledL (kernelRun3_A c i arg2 harg2 arg3 harg3 arg4 harg4 arg5 harg5 arg6 harg6 hc0 x0 x1 x2 x3).1 S2048x512.size (by sl_kernel_rfl) y

/-- What the resetting run leaves in the accumulator's buffer: its pieces read back. -/
def out3_A_4 (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : cond3_0 i)
    (x0 : Vec F S256x2048 .bf16) (x1 : Vec F S256x1 .f32) (x2 : Vec F S1x2048 .f32) (x3 : Vec F S256x512 .bf16) : Vec F S2048x512 .f32 :=
  VO3_4.read (Elt F) (VO3_4.writes (Elt F) VO3_4.junk (kernelRun3_A c i arg2 harg2 arg3 harg3 arg4 harg4 arg5 harg5 arg6 harg6 hc0 x0 x1 x2 x3).1)

/-- The accumulating run's piece is the whole accumulator block, so it covers it. -/
theorem cover3_B_4 (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : ¬cond3_0 i)
    (x0 : Vec F S256x2048 .bf16) (x1 : Vec F S256x1 .f32) (x2 : Vec F S1x2048 .f32) (x3 : Vec F S256x512 .bf16) (xo4 : Vec F S2048x512 .f32) (y : S2048x512.Idx) :
    ∃ pc ∈ (kernelRun3_B c i arg2 harg2 arg3 harg3 arg4 harg4 arg5 harg5 arg6 harg6 hc0 x0 x1 x2 x3 xo4).1, y ∈ pc.1.set :=
  View.cover_of_tiledL (kernelRun3_B c i arg2 harg2 arg3 harg3 arg4 harg4 arg5 harg5 arg6 harg6 hc0 x0 x1 x2 x3 xo4).1 S2048x512.size (by sl_kernel_rfl) y

/-- What the accumulating run leaves in the accumulator's buffer: its piece read back. -/
def out3_B_4 (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : ¬cond3_0 i)
    (x0 : Vec F S256x2048 .bf16) (x1 : Vec F S256x1 .f32) (x2 : Vec F S1x2048 .f32) (x3 : Vec F S256x512 .bf16) (xo4 : Vec F S2048x512 .f32) : Vec F S2048x512 .f32 :=
  VO3_4.read (Elt F) (VO3_4.writes (Elt F) VO3_4.junk (kernelRun3_B c i arg2 harg2 arg3 harg3 arg4 harg4 arg5 harg5 arg6 harg6 hc0 x0 x1 x2 x3 xo4).1)

/-! ## The accumulator point by point -/

/-- What the accumulator's staging buffer holds after the body at position `n` of the grid: at a multiple of 32 the
    resetting run on the point's blocks; elsewhere the accumulating run on the point's blocks over what position
    `n - 1` left (the buffer is not written back in between). -/
def outsAt3 (c : Dev nD) : (n : ℕ) → n < cfg3.N → Vec F S2048x512 .f32
  | 0, hn => out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (iblk3 V c 0 ⟨0, hn⟩) (iblk3 V c 1 ⟨0, hn⟩) (iblk3 V c 2 ⟨0, hn⟩) (iblk3 V c 3 ⟨0, hn⟩)
  | n + 1, hn =>
    if h0 : (n + 1) % 32 = 0 then
      out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (iblk3 V c 0 ⟨n + 1, hn⟩) (iblk3 V c 1 ⟨n + 1, hn⟩) (iblk3 V c 2 ⟨n + 1, hn⟩) (iblk3 V c 3 ⟨n + 1, hn⟩)
    else
      out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn))

/-- At a resetting point: the resetting run's contents. -/
theorem outsAt3_A (c : Dev nD) (t : Fin cfg3.N) (h0 : t.val % 32 = 0) :
    outsAt3 V c t.val t.isLt = out3_A_4 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t) (iblk3 V c 3 t) := by
  obtain ⟨n, hn⟩ := t
  cases n with
  | zero => exact rfl
  | succ n => exact (dif_pos h0).trans rfl

/-- At an accumulating point: the accumulating run's contents over what the point before left. -/
theorem outsAt3_B (c : Dev nD) (t : Fin cfg3.N) (h0 : ¬t.val % 32 = 0) :
    outsAt3 V c t.val t.isLt = out3_B_4 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 3 on core `c`: the arrays as the region finds them; after the body at point `t` each
    input's buffer at its block and the accumulator's at `outsAt3`; the invariant is the untouched rest of the core;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- At an accumulating point the accumulator's staging buffer holds what the body left at the point before: the
    point is not the first, and the buffer was written back only after the last point of a row of the grid. -/
theorem before3_4_B (c : Dev nD) (t : Fin cfg3.N) (h0 : ¬t.val % 32 = 0) (d) :
    (dat3 V c).before 4 t d = (outsAt3 V c (t.val - 1) (Nat.lt_of_le_of_lt (Nat.sub_le _ _) t.isLt)) := by
  have hN : t.val < 128 := lt_of_lt_of_eq t.isLt (show cfg3.N = 128 from N_3)
  rw [Dat.before_out_kept _ 4 rfl t (by omega) (Bool.eq_false_iff.mpr fun h => by have := (flush3_4 _).mp h; dsimp only at this; omega)
    (fun _ => rfl) (fun _ _ => rfl)]
  dsimp only [dat3]

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

set_option maxHeartbeats 1000000 in
/-- The body at any point: the inputs' buffers hold their blocks; the point is a resetting or an accumulating one
    according to its position modulo 32, and at an accumulating one the accumulator's buffer holds what the point
    before left; so the matching run applies, and the rest of the core passes through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  have hN : t.val < 128 := lt_of_lt_of_eq t.isLt (show cfg3.N = 128 from N_3)
  by_cases h0 : t.val % 32 = 0
  · rw [outsAt3_A V c t h0]
    unfold out3_A_4
    iintro ⟨HΦ, Ho, ⟨%d0, H0⟩, ⟨%d1, H1⟩, ⟨%d2, H2⟩, ⟨%d3, H3⟩, ⟨%d4, H4⟩⟩
    iapply ((kernelRun3_A c (grid3.coords t) _ _ _ _ _ _ _ _ _ _ ((hcond3_0 t).mpr h0) (iblk3 V c 0 t) (iblk3 V c 1 t) (iblk3 V c 2 t) (iblk3 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_A_4 c _ _ _ _ _ _ _ _ _ _ _ _ _ _ _ _)
  · rw [outsAt3_B V c t h0]
    simp only [before3_4_B V c t h0]
    unfold out3_B_4
    iintro ⟨HΦ, Ho, ⟨%d0, H0⟩, ⟨%d1, H1⟩, ⟨%d2, H2⟩, ⟨%d3, H3⟩, ⟨%d4, H4⟩⟩
    iapply ((kernelRun3_B c (grid3.coords t) _ _ _ _ _ _ _ _ _ _ (fun h => h0 ((hcond3_0 t).mp h)) (iblk3 V c 0 t) (iblk3 V c 1 t) (iblk3 V c 2 t) (iblk3 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_B_4 c _ _ _ _ _ _ _ _ _ _ _ _ _ _ _ _ _)

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.Region4.lean ====
/- Region 4 of the program: the dense layer with a rectified output, out = max(x · W, 0), on a grid of 8 row blocks (1024 rows of x each, all of W).
   Everything is stated at a parameter `V`, the contents of the core's buffers when the region is entered, and
   generically in the float instance. Per grid point the body reads the whole operand block and the whole weight
   block and overwrites the whole output block with one value, a pure function of the two blocks read
   (`k4_pay1`); so the output buffer after the body does not depend on what it held before, and the region's
   proof data are: inputs left at their blocks, the output at that function of the two input blocks. -/
import proofs.«152628_j8315056685239_2_alg».proof.Proof.Gen.KernelIdeal.Launch
import proofs.«152628_j8315056685239_2_alg».proof.Proof.Gen.KernelIdeal.Skeleton
import proofs.«152628_j8315056685239_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the rectangle of the window's array (as the region finds it) that
    the window's index map selects there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The operand window's buffer holds the operand's block at every point, for any proof data over `V`'s arrays whose
    body leaves that block in place: a point that fetches puts it there, and a point that does not has the block
    index of the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the weight window, whose one block (the whole weight) is fetched at the first point only: at every
    later point the block index has not moved, so the buffer still holds it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: each buffer whole -/

abbrev r4_0 : Rect S1024x512 := Rect.unit (s := S1024x512) ![0, 0] S1024x512.size inb_S1024x512_S1024x512_0_0
abbrev r4_1 : Rect S512x256 := Rect.unit (s := S512x256) ![0, 0] S512x256.size inb_S512x256_S512x256_0_0
abbrev r4_2 : Rect S1024x256 := Rect.unit (s := S1024x256) ![0, 0] S1024x256.size inb_S1024x256_S1024x256_0_0

/-! ## What the body leaves in the output buffer -/

/-- The output buffer after the body, as a function of the operand block `x0` and the weight block `x1`: the one
    store, of the payload computed from the two blocks read whole, over the whole buffer. -/
def out4_2 (x0 : Vec F S1024x512 .f32) (x1 : Vec F S512x256 .f32) : Vec F S1024x256 .f32 :=
  View.canon [⟨r4_2, k4_pay1 (View.ld x0 r4_0) (View.ld x1 r4_1)⟩]

/-- The store's rectangle is the whole buffer, so every index of the buffer lies in it. -/
theorem cover4_2 (p0 : Vec F S1024x256 .f32) (y : S1024x256.Idx) :
    ∃ pc ∈ ([⟨r4_2, p0⟩] : List (View.Piece (Elt F) S1024x256 .f32)), y ∈ pc.1.set :=
  View.cover_of_tiled [⟨r4_2, p0⟩] S1024x256.size (by rfl) y

/-! ## The body's triple -/

set_option maxHeartbeats 1000000 in
/-- The body run on whole buffers: the two inputs at contents `x0`, `x1` and the output at anything. It ends with the
    inputs as they were and the output at `out4_2 x0 x1`. (The body also loads the output buffer before the store;
    that value is not used.) -/
theorem sound_kernel4 (c : Dev nD) (E : Set ℕ) (i : grid4.Coords)
    (arg1 : Memref sig .tc .vmem S1024x512 .f32) (harg1 : arg1.IsWhole)
    (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__dense_kernel i arg1 harg1 arg2 harg2 arg3 harg3) K := by
  simp only [cc4__dense_kernel_eq_skeleton]; unfold cc4__dense_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The region's proof data -/

/-- The proof data of the region on core `c`: the arrays as the region finds them; after the body at point `t` each
    input buffer still at its block and the output buffer at `out4_2` of the two input blocks; the invariant that
    carries the scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

/-- Each input buffer holds its block when the body is entered, at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation at a generic point -/

/-- What the body is entered with at point `t`: the invariant, the core's debts, and each window's current buffer
    whole at what the proof data say it holds there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- What it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input buffers hold their blocks, so the body's triple applies with those blocks; the
    invariant and the debts are not touched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.Region5.lean ====
import proofs.«152628_j8315056685239_2_alg».proof.Proof.Gen.KernelIdeal.Launch
import proofs.«152628_j8315056685239_2_alg».proof.Proof.Gen.KernelIdeal.Skeleton
import proofs.«152628_j8315056685239_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # Region 5: the accumulating product of a normalised adjacency block and a right-hand block

At grid point (g0, g1) the body forms, from the S2048x256 adjacency block, the row scale and the column scale, the
normalised block (adjacency times row scale times column scale, with the product of the two scales added where the
global row index equals the global column index), rounds it to bf16, multiplies it into the S256x256 right-hand
block, and adds the product to the S2048x256 accumulator; at the points with g1 = 0 the accumulator is first reset to
zero. The accumulator's buffer is written back after the last g1 of each g0, so over the 32 points of one g0 it
carries the running sum. Everything here is stated at any contents `V` of the core's buffers on entry to the region. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it there or
    not (where it did not, the block index has not moved since the last fetch), for any proof data over the entry
    arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the pipeline fetched it there or
    not (where it did not, the block index has not moved since the last fetch), for any proof data over the entry
    arrays whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the pipeline fetched it there or
    not (where it did not, the block index has not moved since the last fetch), for any proof data over the entry
    arrays whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the pipeline fetched it there or
    not (where it did not, the block index has not moved since the last fetch), for any proof data over the entry
    arrays whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The reset condition -/

/-- The body's reset test: grid coordinate 1 is zero. -/
abbrev cond5_0 (i : grid5.Coords) : Prop := (Scalar.cmpi .ne (Scalar.extui (Scalar.cmpi .eq (BitVec.ofNat 32 (i 1).val) 0#32)) 0#32) = 1#1
/-- In the row-major order of the grid it holds exactly at the points that are multiples of 32. -/
theorem hcond5_0 : ∀ t : Fin cfg5.N, cond5_0 (grid5.coords t) ↔ t.val % 32 = 0 :=
  (by decide +kernel : ∀ t : Fin grid5.N, cond5_0 (grid5.coords t) ↔ t.val % 32 = 0)

/-! ## The staging memrefs -/

/-- One staging buffer of the accumulator window, through which its contents are stated (once the pieces cover the
    block the choice does not matter). -/
abbrev VO5_4 : View sig .tc .vmem S2048x256 .f32 := (Memref.whole cc5_stg4_0 : Memref sig .tc .vmem S2048x256 .f32).view
abbrev ms5_0 (t : Fin cfg5.N) : Memref sig .tc .vmem S2048x256 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S256x256 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S2048x256 .f32 := win5_4.stage (cfg5.slots t 4)
abbrev hs5_4 (t : Fin cfg5.N) : (ms5_4 t).IsWhole := hstage5_4 ((cfg5.slots t 4).cast nbuf5_4)

/-! ## The body's two runs -/

set_option maxHeartbeats 1000000 in
/-- The resetting run (grid coordinate 1 zero): from the four input buffers at `x0 … x3` and the accumulator's
    buffer at anything, the body ends with the inputs as they were and the accumulator's buffer overwritten by the
    listed pieces (last store first): the zero block, then the sum of the zero block and the product. -/
noncomputable def kernelRun5_A (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : cond5_0 i)
    (x0 : Vec F S2048x256 .bf16) (x1 : Vec F S2048x1 .f32) (x2 : Vec F S1x256 .f32) (x3 : Vec F S256x256 .bf16) :
    { L4 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc5_kernel i arg2 harg2 arg3 harg3 arg4 harg4 arg5 harg5 arg6 harg6) K } := by
  refine ⟨?_, fun E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The accumulating run (grid coordinate 1 not zero): the accumulator's buffer holds the running sum `xo4`, and
    ends overwritten by the one piece "running sum plus product". -/
noncomputable def kernelRun5_B (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : ¬cond5_0 i)
    (x0 : Vec F S2048x256 .bf16) (x1 : Vec F S2048x1 .f32) (x2 : Vec F S1x256 .f32) (x3 : Vec F S256x256 .bf16) (xo4 : Vec F S2048x256 .f32) :
    { L4 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc5_kernel i arg2 harg2 arg3 harg3 arg4 harg4 arg5 harg5 arg6 harg6) K } := by
  refine ⟨?_, fun E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What each run leaves in the accumulator's buffer -/

/-- The resetting run's pieces tile the accumulator block, so they cover it. -/
theorem cover5_A_4 (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : cond5_0 i)
    (x0 : Vec F S2048x256 .bf16) (x1 : Vec F S2048x1 .f32) (x2 : Vec F S1x256 .f32) (x3 : Vec F S256x256 .bf16) (y : S2048x256.Idx) :
    ∃ pc ∈ (kernelRun5_A c i arg2 harg2 arg3 harg3 arg4 harg4 arg5 harg5 arg6 harg6 hc0 x0 x1 x2 x3).1, y ∈ pc.1.set :=
  View.cover_of_tiledL (kernelRun5_A c i arg2 harg2 arg3 harg3 arg4 harg4 arg5 harg5 arg6 harg6 hc0 x0 x1 x2 x3).1 S2048x256.size (by sl_kernel_rfl) y

/-- What the resetting run leaves in the accumulator's buffer: its pieces read back. -/
def out5_A_4 (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : cond5_0 i)
    (x0 : Vec F S2048x256 .bf16) (x1 : Vec F S2048x1 .f32) (x2 : Vec F S1x256 .f32) (x3 : Vec F S256x256 .bf16) : Vec F S2048x256 .f32 :=
  VO5_4.read (Elt F) (VO5_4.writes (Elt F) VO5_4.junk (kernelRun5_A c i arg2 harg2 arg3 harg3 arg4 harg4 arg5 harg5 arg6 harg6 hc0 x0 x1 x2 x3).1)

/-- The accumulating run's piece is the whole accumulator block, so it covers it. -/
theorem cover5_B_4 (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : ¬cond5_0 i)
    (x0 : Vec F S2048x256 .bf16) (x1 : Vec F S2048x1 .f32) (x2 : Vec F S1x256 .f32) (x3 : Vec F S256x256 .bf16) (xo4 : Vec F S2048x256 .f32) (y : S2048x256.Idx) :
    ∃ pc ∈ (kernelRun5_B c i arg2 harg2 arg3 harg3 arg4 harg4 arg5 harg5 arg6 harg6 hc0 x0 x1 x2 x3 xo4).1, y ∈ pc.1.set :=
  View.cover_of_tiledL (kernelRun5_B c i arg2 harg2 arg3 harg3 arg4 harg4 arg5 harg5 arg6 harg6 hc0 x0 x1 x2 x3 xo4).1 S2048x256.size (by sl_kernel_rfl) y

/-- What the accumulating run leaves in the accumulator's buffer: its piece read back. -/
def out5_B_4 (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : ¬cond5_0 i)
    (x0 : Vec F S2048x256 .bf16) (x1 : Vec F S2048x1 .f32) (x2 : Vec F S1x256 .f32) (x3 : Vec F S256x256 .bf16) (xo4 : Vec F S2048x256 .f32) : Vec F S2048x256 .f32 :=
  VO5_4.read (Elt F) (VO5_4.writes (Elt F) VO5_4.junk (kernelRun5_B c i arg2 harg2 arg3 harg3 arg4 harg4 arg5 harg5 arg6 harg6 hc0 x0 x1 x2 x3 xo4).1)

/-! ## The accumulator point by point -/

/-- What the accumulator's staging buffer holds after the body at position `n` of the grid: at a multiple of 32 the
    resetting run on the point's blocks; elsewhere the accumulating run on the point's blocks over what position
    `n - 1` left (the buffer is not written back in between). -/
def outsAt5 (c : Dev nD) : (n : ℕ) → n < cfg5.N → Vec F S2048x256 .f32
  | 0, hn => out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩)
  | n + 1, hn =>
    if h0 : (n + 1) % 32 = 0 then
      out5_A_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩)
    else
      out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn))

/-- At a resetting point: the resetting run's contents. -/
theorem outsAt5_A (c : Dev nD) (t : Fin cfg5.N) (h0 : t.val % 32 = 0) :
    outsAt5 V c t.val t.isLt = out5_A_4 c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t) (iblk5 V c 2 t) (iblk5 V c 3 t) := by
  obtain ⟨n, hn⟩ := t
  cases n with
  | zero => exact rfl
  | succ n => exact (dif_pos h0).trans rfl

/-- At an accumulating point: the accumulating run's contents over what the point before left. -/
theorem outsAt5_B (c : Dev nD) (t : Fin cfg5.N) (h0 : ¬t.val % 32 = 0) :
    outsAt5 V c t.val t.isLt = out5_B_4 c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 5 on core `c`: the arrays as the region finds them; after the body at point `t` each
    input's buffer at its block and the accumulator's at `outsAt5`; the invariant is the untouched rest of the core;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- At an accumulating point the accumulator's staging buffer holds what the body left at the point before: the
    point is not the first, and the buffer was written back only after the last point of a row of the grid. -/
theorem before5_4_B (c : Dev nD) (t : Fin cfg5.N) (h0 : ¬t.val % 32 = 0) (d) :
    (dat5 V c).before 4 t d = (outsAt5 V c (t.val - 1) (Nat.lt_of_le_of_lt (Nat.sub_le _ _) t.isLt)) := by
  have hN : t.val < 128 := lt_of_lt_of_eq t.isLt (show cfg5.N = 128 from N_5)
  rw [Dat.before_out_kept _ 4 rfl t (by omega) (Bool.eq_false_iff.mpr fun h => by have := (flush5_4 _).mp h; dsimp only at this; omega)
    (fun _ => rfl) (fun _ _ => rfl)]
  dsimp only [dat5]

/-! ## The body obligation -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t))

set_option maxHeartbeats 1000000 in
/-- The body at any point: the inputs' buffers hold their blocks; the point is a resetting or an accumulating one
    according to its position modulo 32, and at an accumulating one the accumulator's buffer holds what the point
    before left; so the matching run applies, and the rest of the core passes through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  have hN : t.val < 128 := lt_of_lt_of_eq t.isLt (show cfg5.N = 128 from N_5)
  by_cases h0 : t.val % 32 = 0
  · rw [outsAt5_A V c t h0]
    unfold out5_A_4
    iintro ⟨HΦ, Ho, ⟨%d0, H0⟩, ⟨%d1, H1⟩, ⟨%d2, H2⟩, ⟨%d3, H3⟩, ⟨%d4, H4⟩⟩
    iapply ((kernelRun5_A c (grid5.coords t) _ _ _ _ _ _ _ _ _ _ ((hcond5_0 t).mpr h0) (iblk5 V c 0 t) (iblk5 V c 1 t) (iblk5 V c 2 t) (iblk5 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover5_A_4 c _ _ _ _ _ _ _ _ _ _ _ _ _ _ _ _)
  · rw [outsAt5_B V c t h0]
    simp only [before5_4_B V c t h0]
    unfold out5_B_4
    iintro ⟨HΦ, Ho, ⟨%d0, H0⟩, ⟨%d1, H1⟩, ⟨%d2, H2⟩, ⟨%d3, H3⟩, ⟨%d4, H4⟩⟩
    iapply ((kernelRun5_B c (grid5.coords t) _ _ _ _ _ _ _ _ _ _ (fun h => h0 ((hcond5_0 t).mp h)) (iblk5 V c 0 t) (iblk5 V c 1 t) (iblk5 V c 2 t) (iblk5 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover5_B_4 c _ _ _ _ _ _ _ _ _ _ _ _ _ _ _ _ _)

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.Region6.lean ====
/- Region 6 of the program: the last dense layer, out = x · W, on a grid of 8 row blocks (1024 rows of x each, all of W).
   Everything is stated at a parameter `V`, the contents of the core's buffers when the region is entered, and
   generically in the float instance. Per grid point the body reads the whole operand block and the whole weight
   block and overwrites the whole output block with one value, a pure function of the two blocks read
   (`k6_pay1`); so the output buffer after the body does not depend on what it held before, and the region's
   proof data are: inputs left at their blocks, the output at that function of the two input blocks. -/
import proofs.«152628_j8315056685239_2_alg».proof.Proof.Gen.KernelIdeal.Launch
import proofs.«152628_j8315056685239_2_alg».proof.Proof.Gen.KernelIdeal.Skeleton
import proofs.«152628_j8315056685239_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the rectangle of the window's array (as the region finds it) that
    the window's index map selects there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The operand window's buffer holds the operand's block at every point, for any proof data over `V`'s arrays whose
    body leaves that block in place: a point that fetches puts it there, and a point that does not has the block
    index of the point before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The same for the weight window, whose one block (the whole weight) is fetched at the first point only: at every
    later point the block index has not moved, so the buffer still holds it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes: each buffer whole -/

abbrev r6_0 : Rect S1024x256 := Rect.unit (s := S1024x256) ![0, 0] S1024x256.size inb_S1024x256_S1024x256_0_0
abbrev r6_1 : Rect S256x16 := Rect.unit (s := S256x16) ![0, 0] S256x16.size inb_S256x16_S256x16_0_0
abbrev r6_2 : Rect S1024x16 := Rect.unit (s := S1024x16) ![0, 0] S1024x16.size inb_S1024x16_S1024x16_0_0

/-! ## What the body leaves in the output buffer -/

/-- The output buffer after the body, as a function of the operand block `x0` and the weight block `x1`: the one
    store, of the payload computed from the two blocks read whole, over the whole buffer. -/
def out6_2 (x0 : Vec F S1024x256 .f32) (x1 : Vec F S256x16 .f32) : Vec F S1024x16 .f32 :=
  View.canon [⟨r6_2, k6_pay1 (View.ld x0 r6_0) (View.ld x1 r6_1)⟩]

/-- The store's rectangle is the whole buffer, so every index of the buffer lies in it. -/
theorem cover6_2 (p0 : Vec F S1024x16 .f32) (y : S1024x16.Idx) :
    ∃ pc ∈ ([⟨r6_2, p0⟩] : List (View.Piece (Elt F) S1024x16 .f32)), y ∈ pc.1.set :=
  View.cover_of_tiled [⟨r6_2, p0⟩] S1024x16.size (by rfl) y

/-! ## The body's triple -/

set_option maxHeartbeats 1000000 in
/-- The body run on whole buffers: the two inputs at contents `x0`, `x1` and the output at anything. It ends with the
    inputs as they were and the output at `out6_2 x0 x1`. (The body also loads the output buffer before the store;
    that value is not used.) -/
theorem sound_kernel6 (c : Dev nD) (E : Set ℕ) (i : grid6.Coords)
    (arg1 : Memref sig .tc .vmem S1024x256 .f32) (harg1 : arg1.IsWhole)
    (arg2 : Memref sig .tc .vmem S256x16 .f32) (harg2 : arg2.IsWhole)
    (arg3 : Memref sig .tc .vmem S1024x16 .f32) (harg3 : arg3.IsWhole)
    (x0 : Vec F S1024x256 .f32) (x1 : Vec F S256x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__dense_kernel i arg1 harg1 arg2 harg2 arg3 harg3) K := by
  simp only [cc6__dense_kernel_eq_skeleton]; unfold cc6__dense_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The region's proof data -/

/-- The proof data of the region on core `c`: the arrays as the region finds them; after the body at point `t` each
    input buffer still at its block and the output buffer at `out6_2` of the two input blocks; the invariant that
    carries the scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = out6_2 (iblk6 V c 0 t) (iblk6 V c 1 t) := by dsimp only [dat6]

/-- Each input buffer holds its block when the body is entered, at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation at a generic point -/

/-- What the body is entered with at point `t`: the invariant, the core's debts, and each window's current buffer
    whole at what the proof data say it holds there. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- What it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input buffers hold their blocks, so the body's triple applies with those blocks; the
    invariant and the debts are not touched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.Assemble.lean ====
import proofs.«152628_j8315056685239_2_alg».proof.Proof.Region0
import proofs.«152628_j8315056685239_2_alg».proof.Proof.Region1
import proofs.«152628_j8315056685239_2_alg».proof.Proof.Region2
import proofs.«152628_j8315056685239_2_alg».proof.Proof.Region3
import proofs.«152628_j8315056685239_2_alg».proof.Proof.Region4
import proofs.«152628_j8315056685239_2_alg».proof.Proof.Region5
import proofs.«152628_j8315056685239_2_alg».proof.Proof.Region6
import proofs.«152628_j8315056685239_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # @main of the seven-region program as one run: the buffers' contents at every boundary, the regions as segments, the
    launch; then the frame (every argument array ends as launched). -/

variable (m : (ℓ : Loc nD τ sig) → Buf (Elt F) ℓ) (ρ : Dev nD → PrngReg)
/-! ## The buffer contents at each boundary of @main: a fold from the launch memory -/

/-- Core c's buffers at launch. -/
abbrev W0 : Dev nD → Valuation τ sig (Elt F) := fun c b => (s₀ m ρ).mem ((c : Dev nD), b)
abbrev VV0 : (c : Dev nD) → (b : Ref sig .tc) → Buf (Elt F) ((c : Thread nD τ).loc b) := fun c b => W0 m ρ c b
/-- At region 0's exit: its arrays at what the pipeline leaves (inputs as entered, each output's write-backs folded),
    every other buffer as entered. -/
def W1 (c : Dev nD) : Valuation τ sig (Elt F) :=
  Pipeline.withArrays spec0 c (W0 m ρ c) fun w => (dat0 (VV0 m ρ) c).arrAt w cfg0.N
theorem W1_arr (c : Dev nD) (w : Fin cfg0.W) :
    W1 m ρ c (Proc.devRef .tc (Pipeline.arrRef spec0 w)) = (dat0 (VV0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VV1 : (c : Dev nD) → (b : Ref sig .tc) → Buf (Elt F) ((c : Thread nD τ).loc b) := fun c b => W1 m ρ c b
theorem hF0 (c : Dev nD) (w : Fin cfg0.W) : (dat0 (VV0 m ρ) c).arrAt w cfg0.N = VV1 m ρ c (Pipeline.arrRef spec0 w) :=
  (W1_arr m ρ c w).symm
theorem hrest0 (c : Dev nD) : ∀ b, b ∉ Finset.univ.image (Pipeline.arrRef spec0) → VV1 m ρ c b = VV0 m ρ c b :=
  fun b hb => W1_of_ne m ρ c b fun w e => hb (Finset.mem_image.mpr ⟨w, Finset.mem_univ _, e⟩)
/-- Region 0 changes none of its input arrays and no buffer that is not one of its arrays. -/
theorem keep0 (c : Dev nD) (r : Ref sig .tc) (hr : r ∉ ([main_v0_0, main_v0_1] : List (Ref sig .tc))) :
    W1 m ρ c (Proc.devRef .tc r) = W0 m ρ c (Proc.devRef .tc r) := by
  by_cases hw : ∃ w, Pipeline.arrRef spec0 w = r
  · obtain ⟨w, rfl⟩ := hw
    fin_cases w
    · exact (W1_arr m ρ c 0).trans (((dat0 (VV0 m ρ) c).arrAt_in 0 rfl _).trans (A_eq0 (VV0 m ρ) c 0))
    · exact (W1_arr m ρ c 1).trans (((dat0 (VV0 m ρ) c).arrAt_in 1 rfl _).trans (A_eq0 (VV0 m ρ) c 1))
    · exact (W1_arr m ρ c 2).trans (((dat0 (VV0 m ρ) c).arrAt_in 2 rfl _).trans (A_eq0 (VV0 m ρ) c 2))
    · exact absurd hr (by decide)
    · exact absurd hr (by decide)
  · exact W1_of_ne m ρ c r fun w e => hw ⟨w, e⟩
/-- After the host stretch `hostOps1`. -/
abbrev W2 : Dev nD → Valuation τ sig (Elt F) := fun c => StableHlo.after hostOps1 (W1 m ρ c)
abbrev VV2 : (c : Dev nD) → (b : Ref sig .tc) → Buf (Elt F) ((c : Thread nD τ).loc b) := fun c b => W2 m ρ c b
/-- After the host stretch `hostOps1_1`. -/
abbrev W3 : Dev nD → Valuation τ sig (Elt F) := fun c => StableHlo.after hostOps1_1 (W2 m ρ c)
abbrev VV3 : (c : Dev nD) → (b : Ref sig .tc) → Buf (Elt F) ((c : Thread nD τ).loc b) := fun c b => W3 m ρ c b
/-- After the host stretch `hostOps1_2`. -/
abbrev W4 : Dev nD → Valuation τ sig (Elt F) := fun c => StableHlo.after hostOps1_2 (W3 m ρ c)
abbrev VV4 : (c : Dev nD) → (b : Ref sig .tc) → Buf (Elt F) ((c : Thread nD τ).loc b) := fun c b => W4 m ρ c b
/-- After the host stretch `hostOps1_3`. -/
abbrev W5 : Dev nD → Valuation τ sig (Elt F) := fun c => StableHlo.after hostOps1_3 (W4 m ρ c)
abbrev VV5 : (c : Dev nD) → (b : Ref sig .tc) → Buf (Elt F) ((c : Thread nD τ).loc b) := fun c b => W5 m ρ c b
/-- After the host stretch `hostOps1_4`. -/
abbrev W6 : Dev nD → Valuation τ sig (Elt F) := fun c => StableHlo.after hostOps1_4 (W5 m ρ c)
abbrev VV6 : (c : Dev nD) → (b : Ref sig .tc) → Buf (Elt F) ((c : Thread nD τ).loc b) := fun c b => W6 m ρ c b
/-- At region 1's exit: its arrays at what the pipeline leaves (inputs as entered, each output's write-backs folded),
    every other buffer as entered. -/
def W7 (c : Dev nD) : Valuation τ sig (Elt F) :=
  Pipeline.withArrays spec1 c (W6 m ρ c) fun w => (dat1 (VV6 m ρ) c).arrAt w cfg1.N
theorem W7_arr (c : Dev nD) (w : Fin cfg1.W) :
    W7 m ρ c (Proc.devRef .tc (Pipeline.arrRef spec1 w)) = (dat1 (VV6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev VV7 : (c : Dev nD) → (b : Ref sig .tc) → Buf (Elt F) ((c : Thread nD τ).loc b) := fun c b => W7 m ρ c b
theorem hF1 (c : Dev nD) (w : Fin cfg1.W) : (dat1 (VV6 m ρ) c).arrAt w cfg1.N = VV7 m ρ c (Pipeline.arrRef spec1 w) :=
  (W7_arr m ρ c w).symm
theorem hrest1 (c : Dev nD) : ∀ b, b ∉ Finset.univ.image (Pipeline.arrRef spec1) → VV7 m ρ c b = VV6 m ρ c b :=
  fun b hb => W7_of_ne m ρ c b fun w e => hb (Finset.mem_image.mpr ⟨w, Finset.mem_univ _, e⟩)
/-- Region 1 changes none of its input arrays and no buffer that is not one of its arrays. -/
theorem keep1 (c : Dev nD) (r : Ref sig .tc) (hr : r ∉ ([main_v8_0, main_v8_1] : List (Ref sig .tc))) :
    W7 m ρ c (Proc.devRef .tc r) = W6 m ρ c (Proc.devRef .tc r) := by
  by_cases hw : ∃ w, Pipeline.arrRef spec1 w = r
  · obtain ⟨w, rfl⟩ := hw
    fin_cases w
    · exact (W7_arr m ρ c 0).trans (((dat1 (VV6 m ρ) c).arrAt_in 0 rfl _).trans (A_eq1 (VV6 m ρ) c 0))
    · exact (W7_arr m ρ c 1).trans (((dat1 (VV6 m ρ) c).arrAt_in 1 rfl _).trans (A_eq1 (VV6 m ρ) c 1))
    · exact (W7_arr m ρ c 2).trans (((dat1 (VV6 m ρ) c).arrAt_in 2 rfl _).trans (A_eq1 (VV6 m ρ) c 2))
    · exact absurd hr (by decide)
    · exact absurd hr (by decide)
  · exact W7_of_ne m ρ c r fun w e => hw ⟨w, e⟩
/-- After the host stretch `hostOps2`. -/
abbrev W8 : Dev nD → Valuation τ sig (Elt F) := fun c => StableHlo.after hostOps2 (W7 m ρ c)
abbrev VV8 : (c : Dev nD) → (b : Ref sig .tc) → Buf (Elt F) ((c : Thread nD τ).loc b) := fun c b => W8 m ρ c b
/-- After the host stretch `hostOps2_1`. -/
abbrev W9 : Dev nD → Valuation τ sig (Elt F) := fun c => StableHlo.after hostOps2_1 (W8 m ρ c)
abbrev VV9 : (c : Dev nD) → (b : Ref sig .tc) → Buf (Elt F) ((c : Thread nD τ).loc b) := fun c b => W9 m ρ c b
/-- After the host stretch `hostOps2_2`. -/
abbrev W10 : Dev nD → Valuation τ sig (Elt F) := fun c => StableHlo.after hostOps2_2 (W9 m ρ c)
abbrev VV10 : (c : Dev nD) → (b : Ref sig .tc) → Buf (Elt F) ((c : Thread nD τ).loc b) := fun c b => W10 m ρ c b
/-- After the host stretch `hostOps2_3`. -/
abbrev W11 : Dev nD → Valuation τ sig (Elt F) := fun c => StableHlo.after hostOps2_3 (W10 m ρ c)
abbrev VV11 : (c : Dev nD) → (b : Ref sig .tc) → Buf (Elt F) ((c : Thread nD τ).loc b) := fun c b => W11 m ρ c b
/-- After the host stretch `hostOps2_4`. -/
abbrev W12 : Dev nD → Valuation τ sig (Elt F) := fun c => StableHlo.after hostOps2_4 (W11 m ρ c)
abbrev VV12 : (c : Dev nD) → (b : Ref sig .tc) → Buf (Elt F) ((c : Thread nD τ).loc b) := fun c b => W12 m ρ c b
/-- At region 2's exit: its arrays at what the pipeline leaves (inputs as entered, each output's write-backs folded),
    every other buffer as entered. -/
def W13 (c : Dev nD) : Valuation τ sig (Elt F) :=
  Pipeline.withArrays spec2 c (W12 m ρ c) fun w => (dat2 (VV12 m ρ) c).arrAt w cfg2.N
theorem W13_arr (c : Dev nD) (w : Fin cfg2.W) :
    W13 m ρ c (Proc.devRef .tc (Pipeline.arrRef spec2 w)) = (dat2 (VV12 m ρ) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m ρ c (Proc.devRef .tc b) = W12 m ρ c (Proc.devRef .tc b) := by
  unfold W13; exact Pipeline.withArrays_of_ne spec2 c _ _ b hb
abbrev VV13 : (c : Dev nD) → (b : Ref sig .tc) → Buf (Elt F) ((c : Thread nD τ).loc b) := fun c b => W13 m ρ c b
theorem hF2 (c : Dev nD) (w : Fin cfg2.W) : (dat2 (VV12 m ρ) c).arrAt w cfg2.N = VV13 m ρ c (Pipeline.arrRef spec2 w) :=
  (W13_arr m ρ c w).symm
theorem hrest2 (c : Dev nD) : ∀ b, b ∉ Finset.univ.image (Pipeline.arrRef spec2) → VV13 m ρ c b = VV12 m ρ c b :=
  fun b hb => W13_of_ne m ρ c b fun w e => hb (Finset.mem_image.mpr ⟨w, Finset.mem_univ _, e⟩)
/-- Region 2 changes none of its input arrays and no buffer that is not one of its arrays. -/
theorem keep2 (c : Dev nD) (r : Ref sig .tc) (hr : r ∉ ([main_v24] : List (Ref sig .tc))) :
    W13 m ρ c (Proc.devRef .tc r) = W12 m ρ c (Proc.devRef .tc r) := by
  by_cases hw : ∃ w, Pipeline.arrRef spec2 w = r
  · obtain ⟨w, rfl⟩ := hw
    fin_cases w
    · exact (W13_arr m ρ c 0).trans (((dat2 (VV12 m ρ) c).arrAt_in 0 rfl _).trans (A_eq2 (VV12 m ρ) c 0))
    · exact (W13_arr m ρ c 1).trans (((dat2 (VV12 m ρ) c).arrAt_in 1 rfl _).trans (A_eq2 (VV12 m ρ) c 1))
    · exact (W13_arr m ρ c 2).trans (((dat2 (VV12 m ρ) c).arrAt_in 2 rfl _).trans (A_eq2 (VV12 m ρ) c 2))
    · exact (W13_arr m ρ c 3).trans (((dat2 (VV12 m ρ) c).arrAt_in 3 rfl _).trans (A_eq2 (VV12 m ρ) c 3))
    · exact absurd hr (by decide)
  · exact W13_of_ne m ρ c r fun w e => hw ⟨w, e⟩
/-- After the host stretch `hostOps3`. -/
abbrev W14 : Dev nD → Valuation τ sig (Elt F) := fun c => StableHlo.after hostOps3 (W13 m ρ c)
abbrev VV14 : (c : Dev nD) → (b : Ref sig .tc) → Buf (Elt F) ((c : Thread nD τ).loc b) := fun c b => W14 m ρ c b
/-- At region 3's exit: its arrays at what the pipeline leaves (inputs as entered, each output's write-backs folded),
    every other buffer as entered. -/
def W15 (c : Dev nD) : Valuation τ sig (Elt F) :=
  Pipeline.withArrays spec3 c (W14 m ρ c) fun w => (dat3 (VV14 m ρ) c).arrAt w cfg3.N
theorem W15_arr (c : Dev nD) (w : Fin cfg3.W) :
    W15 m ρ c (Proc.devRef .tc (Pipeline.arrRef spec3 w)) = (dat3 (VV14 m ρ) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m ρ c (Proc.devRef .tc b) = W14 m ρ c (Proc.devRef .tc b) := by
  unfold W15; exact Pipeline.withArrays_of_ne spec3 c _ _ b hb
abbrev VV15 : (c : Dev nD) → (b : Ref sig .tc) → Buf (Elt F) ((c : Thread nD τ).loc b) := fun c b => W15 m ρ c b
theorem hF3 (c : Dev nD) (w : Fin cfg3.W) : (dat3 (VV14 m ρ) c).arrAt w cfg3.N = VV15 m ρ c (Pipeline.arrRef spec3 w) :=
  (W15_arr m ρ c w).symm
theorem hrest3 (c : Dev nD) : ∀ b, b ∉ Finset.univ.image (Pipeline.arrRef spec3) → VV15 m ρ c b = VV14 m ρ c b :=
  fun b hb => W15_of_ne m ρ c b fun w e => hb (Finset.mem_image.mpr ⟨w, Finset.mem_univ _, e⟩)
/-- Region 3 changes none of its input arrays and no buffer that is not one of its arrays. -/
theorem keep3 (c : Dev nD) (r : Ref sig .tc) (hr : r ∉ ([main_v27] : List (Ref sig .tc))) :
    W15 m ρ c (Proc.devRef .tc r) = W14 m ρ c (Proc.devRef .tc r) := by
  by_cases hw : ∃ w, Pipeline.arrRef spec3 w = r
  · obtain ⟨w, rfl⟩ := hw
    fin_cases w
    · exact (W15_arr m ρ c 0).trans (((dat3 (VV14 m ρ) c).arrAt_in 0 rfl _).trans (A_eq3 (VV14 m ρ) c 0))
    · exact (W15_arr m ρ c 1).trans (((dat3 (VV14 m ρ) c).arrAt_in 1 rfl _).trans (A_eq3 (VV14 m ρ) c 1))
    · exact (W15_arr m ρ c 2).trans (((dat3 (VV14 m ρ) c).arrAt_in 2 rfl _).trans (A_eq3 (VV14 m ρ) c 2))
    · exact (W15_arr m ρ c 3).trans (((dat3 (VV14 m ρ) c).arrAt_in 3 rfl _).trans (A_eq3 (VV14 m ρ) c 3))
    · exact absurd hr (by decide)
  · exact W15_of_ne m ρ c r fun w e => hw ⟨w, e⟩
/-- After the host stretch `hostOps4`. -/
abbrev W16 : Dev nD → Valuation τ sig (Elt F) := fun c => StableHlo.after hostOps4 (W15 m ρ c)
abbrev VV16 : (c : Dev nD) → (b : Ref sig .tc) → Buf (Elt F) ((c : Thread nD τ).loc b) := fun c b => W16 m ρ c b
/-- At region 4's exit: its arrays at what the pipeline leaves (inputs as entered, each output's write-backs folded),
    every other buffer as entered. -/
def W17 (c : Dev nD) : Valuation τ sig (Elt F) :=
  Pipeline.withArrays spec4 c (W16 m ρ c) fun w => (dat4 (VV16 m ρ) c).arrAt w cfg4.N
theorem W17_arr (c : Dev nD) (w : Fin cfg4.W) :
    W17 m ρ c (Proc.devRef .tc (Pipeline.arrRef spec4 w)) = (dat4 (VV16 m ρ) c).arrAt w cfg4.N := by
  unfold W17; exact Pipeline.withArrays_arr spec4 launch4.win.arr_inj c _ _ w
theorem W17_of_ne (c : Dev nD) (b : Ref sig .tc) (hb : ∀ w, Pipeline.arrRef spec4 w ≠ b) :
    W17 m ρ c (Proc.devRef .tc b) = W16 m ρ c (Proc.devRef .tc b) := by
  unfold W17; exact Pipeline.withArrays_of_ne spec4 c _ _ b hb
abbrev VV17 : (c : Dev nD) → (b : Ref sig .tc) → Buf (Elt F) ((c : Thread nD τ).loc b) := fun c b => W17 m ρ c b
theorem hF4 (c : Dev nD) (w : Fin cfg4.W) : (dat4 (VV16 m ρ) c).arrAt w cfg4.N = VV17 m ρ c (Pipeline.arrRef spec4 w) :=
  (W17_arr m ρ c w).symm
theorem hrest4 (c : Dev nD) : ∀ b, b ∉ Finset.univ.image (Pipeline.arrRef spec4) → VV17 m ρ c b = VV16 m ρ c b :=
  fun b hb => W17_of_ne m ρ c b fun w e => hb (Finset.mem_image.mpr ⟨w, Finset.mem_univ _, e⟩)
/-- Region 4 changes none of its input arrays and no buffer that is not one of its arrays. -/
theorem keep4 (c : Dev nD) (r : Ref sig .tc) (hr : r ∉ ([main_v38] : List (Ref sig .tc))) :
    W17 m ρ c (Proc.devRef .tc r) = W16 m ρ c (Proc.devRef .tc r) := by
  by_cases hw : ∃ w, Pipeline.arrRef spec4 w = r
  · obtain ⟨w, rfl⟩ := hw
    fin_cases w
    · exact (W17_arr m ρ c 0).trans (((dat4 (VV16 m ρ) c).arrAt_in 0 rfl _).trans (A_eq4 (VV16 m ρ) c 0))
    · exact (W17_arr m ρ c 1).trans (((dat4 (VV16 m ρ) c).arrAt_in 1 rfl _).trans (A_eq4 (VV16 m ρ) c 1))
    · exact absurd hr (by decide)
  · exact W17_of_ne m ρ c r fun w e => hw ⟨w, e⟩
/-- After the host stretch `hostOps5`. -/
abbrev W18 : Dev nD → Valuation τ sig (Elt F) := fun c => StableHlo.after hostOps5 (W17 m ρ c)
abbrev VV18 : (c : Dev nD) → (b : Ref sig .tc) → Buf (Elt F) ((c : Thread nD τ).loc b) := fun c b => W18 m ρ c b
/-- At region 5's exit: its arrays at what the pipeline leaves (inputs as entered, each output's write-backs folded),
    every other buffer as entered. -/
def W19 (c : Dev nD) : Valuation τ sig (Elt F) :=
  Pipeline.withArrays spec5 c (W18 m ρ c) fun w => (dat5 (VV18 m ρ) c).arrAt w cfg5.N
theorem W19_arr (c : Dev nD) (w : Fin cfg5.W) :
    W19 m ρ c (Proc.devRef .tc (Pipeline.arrRef spec5 w)) = (dat5 (VV18 m ρ) c).arrAt w cfg5.N := by
  unfold W19; exact Pipeline.withArrays_arr spec5 launch5.win.arr_inj c _ _ w
theorem W19_of_ne (c : Dev nD) (b : Ref sig .tc) (hb : ∀ w, Pipeline.arrRef spec5 w ≠ b) :
    W19 m ρ c (Proc.devRef .tc b) = W18 m ρ c (Proc.devRef .tc b) := by
  unfold W19; exact Pipeline.withArrays_of_ne spec5 c _ _ b hb
abbrev VV19 : (c : Dev nD) → (b : Ref sig .tc) → Buf (Elt F) ((c : Thread nD τ).loc b) := fun c b => W19 m ρ c b
theorem hF5 (c : Dev nD) (w : Fin cfg5.W) : (dat5 (VV18 m ρ) c).arrAt w cfg5.N = VV19 m ρ c (Pipeline.arrRef spec5 w) :=
  (W19_arr m ρ c w).symm
theorem hrest5 (c : Dev nD) : ∀ b, b ∉ Finset.univ.image (Pipeline.arrRef spec5) → VV19 m ρ c b = VV18 m ρ c b :=
  fun b hb => W19_of_ne m ρ c b fun w e => hb (Finset.mem_image.mpr ⟨w, Finset.mem_univ _, e⟩)
/-- Region 5 changes none of its input arrays and no buffer that is not one of its arrays. -/
theorem keep5 (c : Dev nD) (r : Ref sig .tc) (hr : r ∉ ([main_v40] : List (Ref sig .tc))) :
    W19 m ρ c (Proc.devRef .tc r) = W18 m ρ c (Proc.devRef .tc r) := by
  by_cases hw : ∃ w, Pipeline.arrRef spec5 w = r
  · obtain ⟨w, rfl⟩ := hw
    fin_cases w
    · exact (W19_arr m ρ c 0).trans (((dat5 (VV18 m ρ) c).arrAt_in 0 rfl _).trans (A_eq5 (VV18 m ρ) c 0))
    · exact (W19_arr m ρ c 1).trans (((dat5 (VV18 m ρ) c).arrAt_in 1 rfl _).trans (A_eq5 (VV18 m ρ) c 1))
    · exact (W19_arr m ρ c 2).trans (((dat5 (VV18 m ρ) c).arrAt_in 2 rfl _).trans (A_eq5 (VV18 m ρ) c 2))
    · exact (W19_arr m ρ c 3).trans (((dat5 (VV18 m ρ) c).arrAt_in 3 rfl _).trans (A_eq5 (VV18 m ρ) c 3))
    · exact absurd hr (by decide)
  · exact W19_of_ne m ρ c r fun w e => hw ⟨w, e⟩
/-- At region 6's exit: its arrays at what the pipeline leaves (inputs as entered, each output's write-backs folded),
    every other buffer as entered. -/
def W20 (c : Dev nD) : Valuation τ sig (Elt F) :=
  Pipeline.withArrays spec6 c (W19 m ρ c) fun w => (dat6 (VV19 m ρ) c).arrAt w cfg6.N
theorem W20_arr (c : Dev nD) (w : Fin cfg6.W) :
    W20 m ρ c (Proc.devRef .tc (Pipeline.arrRef spec6 w)) = (dat6 (VV19 m ρ) c).arrAt w cfg6.N := by
  unfold W20; exact Pipeline.withArrays_arr spec6 launch6.win.arr_inj c _ _ w
theorem W20_of_ne (c : Dev nD) (b : Ref sig .tc) (hb : ∀ w, Pipeline.arrRef spec6 w ≠ b) :
    W20 m ρ c (Proc.devRef .tc b) = W19 m ρ c (Proc.devRef .tc b) := by
  unfold W20; exact Pipeline.withArrays_of_ne spec6 c _ _ b hb
abbrev VV20 : (c : Dev nD) → (b : Ref sig .tc) → Buf (Elt F) ((c : Thread nD τ).loc b) := fun c b => W20 m ρ c b
theorem hF6 (c : Dev nD) (w : Fin cfg6.W) : (dat6 (VV19 m ρ) c).arrAt w cfg6.N = VV20 m ρ c (Pipeline.arrRef spec6 w) :=
  (W20_arr m ρ c w).symm
theorem hrest6 (c : Dev nD) : ∀ b, b ∉ Finset.univ.image (Pipeline.arrRef spec6) → VV20 m ρ c b = VV19 m ρ c b :=
  fun b hb => W20_of_ne m ρ c b fun w e => hb (Finset.mem_image.mpr ⟨w, Finset.mem_univ _, e⟩)
/-- Region 6 changes none of its input arrays and no buffer that is not one of its arrays. -/
theorem keep6 (c : Dev nD) (r : Ref sig .tc) (hr : r ∉ ([main_v41] : List (Ref sig .tc))) :
    W20 m ρ c (Proc.devRef .tc r) = W19 m ρ c (Proc.devRef .tc r) := by
  by_cases hw : ∃ w, Pipeline.arrRef spec6 w = r
  · obtain ⟨w, rfl⟩ := hw
    fin_cases w
    · exact (W20_arr m ρ c 0).trans (((dat6 (VV19 m ρ) c).arrAt_in 0 rfl _).trans (A_eq6 (VV19 m ρ) c 0))
    · exact (W20_arr m ρ c 1).trans (((dat6 (VV19 m ρ) c).arrAt_in 1 rfl _).trans (A_eq6 (VV19 m ρ) c 1))
    · exact absurd hr (by decide)
  · exact W20_of_ne m ρ c r fun w e => hw ⟨w, e⟩
/-- `main_arg0` reaches the end as launched: no host stretch writes it and no region changes it. -/
theorem W20_main_arg0 (c : Dev nD) : W20 m ρ c (Proc.devRef .tc main_arg0) = m ((c : Thread nD τ).loc main_arg0) :=
  (keep6 m ρ c main_arg0 (by decide)).trans <| (keep5 m ρ c main_arg0 (by decide)).trans <| (StableHlo.after_of_writes_sub hostOps5 (W17 m ρ c) hostOps5_writes (r := main_arg0) (by decide)).trans <| (keep4 m ρ c main_arg0 (by decide)).trans <| (StableHlo.after_of_writes_sub hostOps4 (W15 m ρ c) hostOps4_writes (r := main_arg0) (by decide)).trans <| (keep3 m ρ c main_arg0 (by decide)).trans <| (StableHlo.after_of_writes_sub hostOps3 (W13 m ρ c) hostOps3_writes (r := main_arg0) (by decide)).trans <| (keep2 m ρ c main_arg0 (by decide)).trans <| (StableHlo.after_of_writes_sub hostOps2_4 (W11 m ρ c) hostOps2_4_writes (r := main_arg0) (by decide)).trans <| (StableHlo.after_of_writes_sub hostOps2_3 (W10 m ρ c) hostOps2_3_writes (r := main_arg0) (by decide)).trans <| (StableHlo.after_of_writes_sub hostOps2_2 (W9 m ρ c) hostOps2_2_writes (r := main_arg0) (by decide)).trans <| (StableHlo.after_of_writes_sub hostOps2_1 (W8 m ρ c) hostOps2_1_writes (r := main_arg0) (by decide)).trans <| (StableHlo.after_of_writes_sub hostOps2 (W7 m ρ c) hostOps2_writes (r := main_arg0) (by decide)).trans <| (keep1 m ρ c main_arg0 (by decide)).trans <| (StableHlo.after_of_writes_sub hostOps1_4 (W5 m ρ c) hostOps1_4_writes (r := main_arg0) (by decide)).trans <| (StableHlo.after_of_writes_sub hostOps1_3 (W4 m ρ c) hostOps1_3_writes (r := main_arg0) (by decide)).trans <| (StableHlo.after_of_writes_sub hostOps1_2 (W3 m ρ c) hostOps1_2_writes (r := main_arg0) (by decide)).trans <| (StableHlo.after_of_writes_sub hostOps1_1 (W2 m ρ c) hostOps1_1_writes (r := main_arg0) (by decide)).trans <| (StableHlo.after_of_writes_sub hostOps1 (W1 m ρ c) hostOps1_writes (r := main_arg0) (by decide)).trans <| (keep0 m ρ c main_arg0 (by decide)).trans rfl
/-- `main_arg1` reaches the end as launched: no host stretch writes it and no region changes it. -/
theorem W20_main_arg1 (c : Dev nD) : W20 m ρ c (Proc.devRef .tc main_arg1) = m ((c : Thread nD τ).loc main_arg1) :=
  (keep6 m ρ c main_arg1 (by decide)).trans <| (keep5 m ρ c main_arg1 (by decide)).trans <| (StableHlo.after_of_writes_sub hostOps5 (W17 m ρ c) hostOps5_writes (r := main_arg1) (by decide)).trans <| (keep4 m ρ c main_arg1 (by decide)).trans <| (StableHlo.after_of_writes_sub hostOps4 (W15 m ρ c) hostOps4_writes (r := main_arg1) (by decide)).trans <| (keep3 m ρ c main_arg1 (by decide)).trans <| (StableHlo.after_of_writes_sub hostOps3 (W13 m ρ c) hostOps3_writes (r := main_arg1) (by decide)).trans <| (keep2 m ρ c main_arg1 (by decide)).trans <| (StableHlo.after_of_writes_sub hostOps2_4 (W11 m ρ c) hostOps2_4_writes (r := main_arg1) (by decide)).trans <| (StableHlo.after_of_writes_sub hostOps2_3 (W10 m ρ c) hostOps2_3_writes (r := main_arg1) (by decide)).trans <| (StableHlo.after_of_writes_sub hostOps2_2 (W9 m ρ c) hostOps2_2_writes (r := main_arg1) (by decide)).trans <| (StableHlo.after_of_writes_sub hostOps2_1 (W8 m ρ c) hostOps2_1_writes (r := main_arg1) (by decide)).trans <| (StableHlo.after_of_writes_sub hostOps2 (W7 m ρ c) hostOps2_writes (r := main_arg1) (by decide)).trans <| (keep1 m ρ c main_arg1 (by decide)).trans <| (StableHlo.after_of_writes_sub hostOps1_4 (W5 m ρ c) hostOps1_4_writes (r := main_arg1) (by decide)).trans <| (StableHlo.after_of_writes_sub hostOps1_3 (W4 m ρ c) hostOps1_3_writes (r := main_arg1) (by decide)).trans <| (StableHlo.after_of_writes_sub hostOps1_2 (W3 m ρ c) hostOps1_2_writes (r := main_arg1) (by decide)).trans <| (StableHlo.after_of_writes_sub hostOps1_1 (W2 m ρ c) hostOps1_1_writes (r := main_arg1) (by decide)).trans <| (StableHlo.after_of_writes_sub hostOps1 (W1 m ρ c) hostOps1_writes (r := main_arg1) (by decide)).trans <| (keep0 m ρ c main_arg1 (by decide)).trans rfl
/-- `main_arg2` reaches the end as launched: no host stretch writes it and no region changes it. -/
theorem W20_main_arg2 (c : Dev nD) : W20 m ρ c (Proc.devRef .tc main_arg2) = m ((c : Thread nD τ).loc main_arg2) :=
  (keep6 m ρ c main_arg2 (by decide)).trans <| (keep5 m ρ c main_arg2 (by decide)).trans <| (StableHlo.after_of_writes_sub hostOps5 (W17 m ρ c) hostOps5_writes (r := main_arg2) (by decide)).trans <| (keep4 m ρ c main_arg2 (by decide)).trans <| (StableHlo.after_of_writes_sub hostOps4 (W15 m ρ c) hostOps4_writes (r := main_arg2) (by decide)).trans <| (keep3 m ρ c main_arg2 (by decide)).trans <| (StableHlo.after_of_writes_sub hostOps3 (W13 m ρ c) hostOps3_writes (r := main_arg2) (by decide)).trans <| (keep2 m ρ c main_arg2 (by decide)).trans <| (StableHlo.after_of_writes_sub hostOps2_4 (W11 m ρ c) hostOps2_4_writes (r := main_arg2) (by decide)).trans <| (StableHlo.after_of_writes_sub hostOps2_3 (W10 m ρ c) hostOps2_3_writes (r := main_arg2) (by decide)).trans <| (StableHlo.after_of_writes_sub hostOps2_2 (W9 m ρ c) hostOps2_2_writes (r := main_arg2) (by decide)).trans <| (StableHlo.after_of_writes_sub hostOps2_1 (W8 m ρ c) hostOps2_1_writes (r := main_arg2) (by decide)).trans <| (StableHlo.after_of_writes_sub hostOps2 (W7 m ρ c) hostOps2_writes (r := main_arg2) (by decide)).trans <| (keep1 m ρ c main_arg2 (by decide)).trans <| (StableHlo.after_of_writes_sub hostOps1_4 (W5 m ρ c) hostOps1_4_writes (r := main_arg2) (by decide)).trans <| (StableHlo.after_of_writes_sub hostOps1_3 (W4 m ρ c) hostOps1_3_writes (r := main_arg2) (by decide)).trans <| (StableHlo.after_of_writes_sub hostOps1_2 (W3 m ρ c) hostOps1_2_writes (r := main_arg2) (by decide)).trans <| (StableHlo.after_of_writes_sub hostOps1_1 (W2 m ρ c) hostOps1_1_writes (r := main_arg2) (by decide)).trans <| (StableHlo.after_of_writes_sub hostOps1 (W1 m ρ c) hostOps1_writes (r := main_arg2) (by decide)).trans <| (keep0 m ρ c main_arg2 (by decide)).trans rfl
/-- `main_arg3` reaches the end as launched: no host stretch writes it and no region changes it. -/
theorem W20_main_arg3 (c : Dev nD) : W20 m ρ c (Proc.devRef .tc main_arg3) = m ((c : Thread nD τ).loc main_arg3) :=
  (keep6 m ρ c main_arg3 (by decide)).trans <| (keep5 m ρ c main_arg3 (by decide)).trans <| (StableHlo.after_of_writes_sub hostOps5 (W17 m ρ c) hostOps5_writes (r := main_arg3) (by decide)).trans <| (keep4 m ρ c main_arg3 (by decide)).trans <| (StableHlo.after_of_writes_sub hostOps4 (W15 m ρ c) hostOps4_writes (r := main_arg3) (by decide)).trans <| (keep3 m ρ c main_arg3 (by decide)).trans <| (StableHlo.after_of_writes_sub hostOps3 (W13 m ρ c) hostOps3_writes (r := main_arg3) (by decide)).trans <| (keep2 m ρ c main_arg3 (by decide)).trans <| (StableHlo.after_of_writes_sub hostOps2_4 (W11 m ρ c) hostOps2_4_writes (r := main_arg3) (by decide)).trans <| (StableHlo.after_of_writes_sub hostOps2_3 (W10 m ρ c) hostOps2_3_writes (r := main_arg3) (by decide)).trans <| (StableHlo.after_of_writes_sub hostOps2_2 (W9 m ρ c) hostOps2_2_writes (r := main_arg3) (by decide)).trans <| (StableHlo.after_of_writes_sub hostOps2_1 (W8 m ρ c) hostOps2_1_writes (r := main_arg3) (by decide)).trans <| (StableHlo.after_of_writes_sub hostOps2 (W7 m ρ c) hostOps2_writes (r := main_arg3) (by decide)).trans <| (keep1 m ρ c main_arg3 (by decide)).trans <| (StableHlo.after_of_writes_sub hostOps1_4 (W5 m ρ c) hostOps1_4_writes (r := main_arg3) (by decide)).trans <| (StableHlo.after_of_writes_sub hostOps1_3 (W4 m ρ c) hostOps1_3_writes (r := main_arg3) (by decide)).trans <| (StableHlo.after_of_writes_sub hostOps1_2 (W3 m ρ c) hostOps1_2_writes (r := main_arg3) (by decide)).trans <| (StableHlo.after_of_writes_sub hostOps1_1 (W2 m ρ c) hostOps1_1_writes (r := main_arg3) (by decide)).trans <| (StableHlo.after_of_writes_sub hostOps1 (W1 m ρ c) hostOps1_writes (r := main_arg3) (by decide)).trans <| (keep0 m ρ c main_arg3 (by decide)).trans rfl
/-- `main_arg4` reaches the end as launched: no host stretch writes it and no region changes it. -/
theorem W20_main_arg4 (c : Dev nD) : W20 m ρ c (Proc.devRef .tc main_arg4) = m ((c : Thread nD τ).loc main_arg4) :=
  (keep6 m ρ c main_arg4 (by decide)).trans <| (keep5 m ρ c main_arg4 (by decide)).trans <| (StableHlo.after_of_writes_sub hostOps5 (W17 m ρ c) hostOps5_writes (r := main_arg4) (by decide)).trans <| (keep4 m ρ c main_arg4 (by decide)).trans <| (StableHlo.after_of_writes_sub hostOps4 (W15 m ρ c) hostOps4_writes (r := main_arg4) (by decide)).trans <| (keep3 m ρ c main_arg4 (by decide)).trans <| (StableHlo.after_of_writes_sub hostOps3 (W13 m ρ c) hostOps3_writes (r := main_arg4) (by decide)).trans <| (keep2 m ρ c main_arg4 (by decide)).trans <| (StableHlo.after_of_writes_sub hostOps2_4 (W11 m ρ c) hostOps2_4_writes (r := main_arg4) (by decide)).trans <| (StableHlo.after_of_writes_sub hostOps2_3 (W10 m ρ c) hostOps2_3_writes (r := main_arg4) (by decide)).trans <| (StableHlo.after_of_writes_sub hostOps2_2 (W9 m ρ c) hostOps2_2_writes (r := main_arg4) (by decide)).trans <| (StableHlo.after_of_writes_sub hostOps2_1 (W8 m ρ c) hostOps2_1_writes (r := main_arg4) (by decide)).trans <| (StableHlo.after_of_writes_sub hostOps2 (W7 m ρ c) hostOps2_writes (r := main_arg4) (by decide)).trans <| (keep1 m ρ c main_arg4 (by decide)).trans <| (StableHlo.after_of_writes_sub hostOps1_4 (W5 m ρ c) hostOps1_4_writes (r := main_arg4) (by decide)).trans <| (StableHlo.after_of_writes_sub hostOps1_3 (W4 m ρ c) hostOps1_3_writes (r := main_arg4) (by decide)).trans <| (StableHlo.after_of_writes_sub hostOps1_2 (W3 m ρ c) hostOps1_2_writes (r := main_arg4) (by decide)).trans <| (StableHlo.after_of_writes_sub hostOps1_1 (W2 m ρ c) hostOps1_1_writes (r := main_arg4) (by decide)).trans <| (StableHlo.after_of_writes_sub hostOps1 (W1 m ρ c) hostOps1_writes (r := main_arg4) (by decide)).trans <| (keep0 m ρ c main_arg4 (by decide)).trans rfl
/-- `main_arg5` reaches the end as launched: no host stretch writes it and no region changes it. -/
theorem W20_main_arg5 (c : Dev nD) : W20 m ρ c (Proc.devRef .tc main_arg5) = m ((c : Thread nD τ).loc main_arg5) :=
  (keep6 m ρ c main_arg5 (by decide)).trans <| (keep5 m ρ c main_arg5 (by decide)).trans <| (StableHlo.after_of_writes_sub hostOps5 (W17 m ρ c) hostOps5_writes (r := main_arg5) (by decide)).trans <| (keep4 m ρ c main_arg5 (by decide)).trans <| (StableHlo.after_of_writes_sub hostOps4 (W15 m ρ c) hostOps4_writes (r := main_arg5) (by decide)).trans <| (keep3 m ρ c main_arg5 (by decide)).trans <| (StableHlo.after_of_writes_sub hostOps3 (W13 m ρ c) hostOps3_writes (r := main_arg5) (by decide)).trans <| (keep2 m ρ c main_arg5 (by decide)).trans <| (StableHlo.after_of_writes_sub hostOps2_4 (W11 m ρ c) hostOps2_4_writes (r := main_arg5) (by decide)).trans <| (StableHlo.after_of_writes_sub hostOps2_3 (W10 m ρ c) hostOps2_3_writes (r := main_arg5) (by decide)).trans <| (StableHlo.after_of_writes_sub hostOps2_2 (W9 m ρ c) hostOps2_2_writes (r := main_arg5) (by decide)).trans <| (StableHlo.after_of_writes_sub hostOps2_1 (W8 m ρ c) hostOps2_1_writes (r := main_arg5) (by decide)).trans <| (StableHlo.after_of_writes_sub hostOps2 (W7 m ρ c) hostOps2_writes (r := main_arg5) (by decide)).trans <| (keep1 m ρ c main_arg5 (by decide)).trans <| (StableHlo.after_of_writes_sub hostOps1_4 (W5 m ρ c) hostOps1_4_writes (r := main_arg5) (by decide)).trans <| (StableHlo.after_of_writes_sub hostOps1_3 (W4 m ρ c) hostOps1_3_writes (r := main_arg5) (by decide)).trans <| (StableHlo.after_of_writes_sub hostOps1_2 (W3 m ρ c) hostOps1_2_writes (r := main_arg5) (by decide)).trans <| (StableHlo.after_of_writes_sub hostOps1_1 (W2 m ρ c) hostOps1_1_writes (r := main_arg5) (by decide)).trans <| (StableHlo.after_of_writes_sub hostOps1 (W1 m ρ c) hostOps1_writes (r := main_arg5) (by decide)).trans <| (keep0 m ρ c main_arg5 (by decide)).trans rfl

/-! ## The proof data family and the thread state -/

abbrev adm' : (p : Fin 7) → (pcfgs (F := F) p).Adm := fun p => (cfgs p).toPCfg_adm
/-- Every pipeline's proof data, each at its region's entry contents — a literal match. -/
def pdats : (p : Fin 7) → (c : Dev nD) → Dat τ (Elt F) Unit ℕ (UR sig nD τ) ℕ (Pipeline.pin (pcfgs (F := F)) adm' p) c
  | ⟨0, _⟩ => fun c => dat0 (VV0 m ρ) c
  | ⟨1, _⟩ => fun c => dat1 (VV6 m ρ) c
  | ⟨2, _⟩ => fun c => dat2 (VV12 m ρ) c
  | ⟨3, _⟩ => fun c => dat3 (VV14 m ρ) c
  | ⟨4, _⟩ => fun c => dat4 (VV16 m ρ) c
  | ⟨5, _⟩ => fun c => dat5 (VV18 m ρ) c
  | ⟨6, _⟩ => fun c => dat6 (VV19 m ρ) c
abbrev 𝒱₀' : Variants := Variants.none
/-- No core owes another anything: no level is assigned. -/
abbrev L' : GSem nD τ sig → Finset Unit := fun _ => ∅
abbrev lv' : GSem nD τ sig → Unit → ℕ := fun _ _ => 0
/-- What rides beside the buffers through every segment: the generator register at some state and the core's dues, at nothing. -/
abbrev RR (c : Dev nD) : sProp 𝕄 := iprop((∃ r, prngReg c r) ∗ ∃ W, owes (c : Thread nD τ) (0 : CellTallies nD τ sig Unit) W)
/-- A host stretch as a segment over the unscoped references from the contents `W`, `RR` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ' (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- REGION 0 over the thread state: entered from every unscoped buffer at `W0`, left at `W1`. Its arrays are split out of
    the unscoped buffers and put back at the exit contents; the generator register goes into the region's invariant and
    comes out; nothing is owed; the kernel has no semaphore of its own. -/
def reg0 : Pipeline.RegionSeg (pcfgs (F := F)) adm' (pdats m ρ) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (VV0 m ρ) c).loose
  hwaits := Pipeline.hwaits_of_owed_zero _ _ _ _ L' lv' 0 fun _ _ => rfl
  pre c := iprop(StableHlo.held (c : Thread nD τ) (Pipeline.ucRefs τ sig) (W0 m ρ c) ∗ RR c)
  post c := iprop(StableHlo.held (c : Thread nD τ) (Pipeline.ucRefs τ sig) (W1 m ρ c) ∗ RR c)
  X c := iprop(∃ r, prngReg c r)
  Y c := iprop(∃ r, prngReg c r)
  Z c := Pipeline.unscopedRest (Ix := Unit) (Name := ℕ) (U := UR sig nD τ) (Lvl := ℕ) spec0 c (VV0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (VV0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (VV0 m ρ c) (VV1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. Its arrays are split out of
    the unscoped buffers and put back at the exit contents; the generator register goes into the region's invariant and
    comes out; nothing is owed; the kernel has no semaphore of its own. -/
def reg1 : Pipeline.RegionSeg (pcfgs (F := F)) adm' (pdats m ρ) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (VV6 m ρ) c).loose
  hwaits := Pipeline.hwaits_of_owed_zero _ _ _ _ L' lv' 1 fun _ _ => rfl
  pre c := iprop(StableHlo.held (c : Thread nD τ) (Pipeline.ucRefs τ sig) (W6 m ρ c) ∗ RR c)
  post c := iprop(StableHlo.held (c : Thread nD τ) (Pipeline.ucRefs τ sig) (W7 m ρ c) ∗ RR c)
  X c := iprop(∃ r, prngReg c r)
  Y c := iprop(∃ r, prngReg c r)
  Z c := Pipeline.unscopedRest (Ix := Unit) (Name := ℕ) (U := UR sig nD τ) (Lvl := ℕ) spec1 c (VV6 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (VV6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (VV6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (VV6 m ρ c) (VV7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W12`, left at `W13`. Its arrays are split out of
    the unscoped buffers and put back at the exit contents; the generator register goes into the region's invariant and
    comes out; nothing is owed; the kernel has no semaphore of its own. -/
def reg2 : Pipeline.RegionSeg (pcfgs (F := F)) adm' (pdats m ρ) () defs₀ 𝒱₀' L' lv' 2 where
  win := launch2.win.to₀
  block_pos := launch2.block_pos
  stage_whole := launch2.stage_whole
  K := PEmpty
  osem k := k.elim
  ho := Pipeline.OwnSemFacts.none _
  hbody c := (body_obligation2 (VV12 m ρ) c).loose
  hwaits := Pipeline.hwaits_of_owed_zero _ _ _ _ L' lv' 2 fun _ _ => rfl
  pre c := iprop(StableHlo.held (c : Thread nD τ) (Pipeline.ucRefs τ sig) (W12 m ρ c) ∗ RR c)
  post c := iprop(StableHlo.held (c : Thread nD τ) (Pipeline.ucRefs τ sig) (W13 m ρ c) ∗ RR c)
  X c := iprop(∃ r, prngReg c r)
  Y c := iprop(∃ r, prngReg c r)
  Z c := Pipeline.unscopedRest (Ix := Unit) (Name := ℕ) (U := UR sig nD τ) (Lvl := ℕ) spec2 c (VV12 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (VV12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (VV12 m ρ c) (VV13 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W14`, left at `W15`. Its arrays are split out of
    the unscoped buffers and put back at the exit contents; the generator register goes into the region's invariant and
    comes out; nothing is owed; the kernel has no semaphore of its own. -/
def reg3 : Pipeline.RegionSeg (pcfgs (F := F)) adm' (pdats m ρ) () defs₀ 𝒱₀' L' lv' 3 where
  win := launch3.win.to₀
  block_pos := launch3.block_pos
  stage_whole := launch3.stage_whole
  K := PEmpty
  osem k := k.elim
  ho := Pipeline.OwnSemFacts.none _
  hbody c := (body_obligation3 (VV14 m ρ) c).loose
  hwaits := Pipeline.hwaits_of_owed_zero _ _ _ _ L' lv' 3 fun _ _ => rfl
  pre c := iprop(StableHlo.held (c : Thread nD τ) (Pipeline.ucRefs τ sig) (W14 m ρ c) ∗ RR c)
  post c := iprop(StableHlo.held (c : Thread nD τ) (Pipeline.ucRefs τ sig) (W15 m ρ c) ∗ RR c)
  X c := iprop(∃ r, prngReg c r)
  Y c := iprop(∃ r, prngReg c r)
  Z c := Pipeline.unscopedRest (Ix := Unit) (Name := ℕ) (U := UR sig nD τ) (Lvl := ℕ) spec3 c (VV14 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (VV14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (VV14 m ρ c) (VV15 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W16`, left at `W17`. Its arrays are split out of
    the unscoped buffers and put back at the exit contents; the generator register goes into the region's invariant and
    comes out; nothing is owed; the kernel has no semaphore of its own. -/
def reg4 : Pipeline.RegionSeg (pcfgs (F := F)) adm' (pdats m ρ) () defs₀ 𝒱₀' L' lv' 4 where
  win := launch4.win.to₀
  block_pos := launch4.block_pos
  stage_whole := launch4.stage_whole
  K := PEmpty
  osem k := k.elim
  ho := Pipeline.OwnSemFacts.none _
  hbody c := (body_obligation4 (VV16 m ρ) c).loose
  hwaits := Pipeline.hwaits_of_owed_zero _ _ _ _ L' lv' 4 fun _ _ => rfl
  pre c := iprop(StableHlo.held (c : Thread nD τ) (Pipeline.ucRefs τ sig) (W16 m ρ c) ∗ RR c)
  post c := iprop(StableHlo.held (c : Thread nD τ) (Pipeline.ucRefs τ sig) (W17 m ρ c) ∗ RR c)
  X c := iprop(∃ r, prngReg c r)
  Y c := iprop(∃ r, prngReg c r)
  Z c := Pipeline.unscopedRest (Ix := Unit) (Name := ℕ) (U := UR sig nD τ) (Lvl := ℕ) spec4 c (VV16 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (VV16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (VV16 m ρ c) (VV17 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W18`, left at `W19`. Its arrays are split out of
    the unscoped buffers and put back at the exit contents; the generator register goes into the region's invariant and
    comes out; nothing is owed; the kernel has no semaphore of its own. -/
def reg5 : Pipeline.RegionSeg (pcfgs (F := F)) adm' (pdats m ρ) () defs₀ 𝒱₀' L' lv' 5 where
  win := launch5.win.to₀
  block_pos := launch5.block_pos
  stage_whole := launch5.stage_whole
  K := PEmpty
  osem k := k.elim
  ho := Pipeline.OwnSemFacts.none _
  hbody c := (body_obligation5 (VV18 m ρ) c).loose
  hwaits := Pipeline.hwaits_of_owed_zero _ _ _ _ L' lv' 5 fun _ _ => rfl
  pre c := iprop(StableHlo.held (c : Thread nD τ) (Pipeline.ucRefs τ sig) (W18 m ρ c) ∗ RR c)
  post c := iprop(StableHlo.held (c : Thread nD τ) (Pipeline.ucRefs τ sig) (W19 m ρ c) ∗ RR c)
  X c := iprop(∃ r, prngReg c r)
  Y c := iprop(∃ r, prngReg c r)
  Z c := Pipeline.unscopedRest (Ix := Unit) (Name := ℕ) (U := UR sig nD τ) (Lvl := ℕ) spec5 c (VV18 m ρ c)
  hentry c := by
    rw [Pipeline.ownSems0_none]
    have hsplit := Pipeline.arrays_of_unscopedBufs (p := 5) (pcfgs (F := F)) adm' (pdats m ρ) launch5.win launch5.arr_whole c
      ((pdats m ρ 5 c).share_full fun _ => rfl) (VV18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m ρ) ((pdats m ρ 5 c).share_full fun _ => rfl)
      (VV18 m ρ c) (VV19 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W19`, left at `W20`. Its arrays are split out of
    the unscoped buffers and put back at the exit contents; the generator register goes into the region's invariant and
    comes out; nothing is owed; the kernel has no semaphore of its own. -/
def reg6 : Pipeline.RegionSeg (pcfgs (F := F)) adm' (pdats m ρ) () defs₀ 𝒱₀' L' lv' 6 where
  win := launch6.win.to₀
  block_pos := launch6.block_pos
  stage_whole := launch6.stage_whole
  K := PEmpty
  osem k := k.elim
  ho := Pipeline.OwnSemFacts.none _
  hbody c := (body_obligation6 (VV19 m ρ) c).loose
  hwaits := Pipeline.hwaits_of_owed_zero _ _ _ _ L' lv' 6 fun _ _ => rfl
  pre c := iprop(StableHlo.held (c : Thread nD τ) (Pipeline.ucRefs τ sig) (W19 m ρ c) ∗ RR c)
  post c := iprop(Tₙ' m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (VV19 m ρ c)
  hentry c := by
    rw [Pipeline.ownSems0_none]
    have hsplit := Pipeline.arrays_of_unscopedBufs (p := 6) (pcfgs (F := F)) adm' (pdats m ρ) launch6.win launch6.arr_whole c
      ((pdats m ρ 6 c).share_full fun _ => rfl) (VV19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm' (Ix := Unit) (Name := ℕ) (U := UR sig nD τ) (Lvl := ℕ)
      launch6.win launch6.arr_whole c (pdats m ρ) ((pdats m ρ 6 c).share_full fun _ => rfl)
      (VV19 m ρ c) (VV20 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 20 segments in order: a host segment per stretch from its boundary's contents, a region per pallas_call. -/
abbrev segs' : List (Pipeline.Seg (pcfgs (F := F)) adm' (pdats m ρ) () defs₀ 𝒱₀' L' lv') :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .region (reg1 m ρ),
    .host (hseg hostOps2 hostOps2_sub hostOps2_fresh (W7 m ρ)),
    .host (hseg hostOps2_1 hostOps2_1_sub hostOps2_1_fresh (W8 m ρ)),
    .host (hseg hostOps2_2 hostOps2_2_sub hostOps2_2_fresh (W9 m ρ)),
    .host (hseg hostOps2_3 hostOps2_3_sub hostOps2_3_fresh (W10 m ρ)),
    .host (hseg hostOps2_4 hostOps2_4_sub hostOps2_4_fresh (W11 m ρ)),
    .region (reg2 m ρ),
    .host (hseg hostOps3 hostOps3_sub hostOps3_fresh (W13 m ρ)),
    .region (reg3 m ρ),
    .host (hseg hostOps4 hostOps4_sub hostOps4_fresh (W15 m ρ)),
    .region (reg4 m ρ),
    .host (hseg hostOps5 hostOps5_sub hostOps5_fresh (W17 m ρ)),
    .region (reg5 m ρ),
    .region (reg6 m ρ) ]
/-- @main IS the run of the segments. -/
theorem main_run' (c : Dev nD) : main (F := F) c = Pipeline.Seg.run (segs' m ρ) := (main_chain c).trans (by chain_rfl)

set_option backward.isDefEq.respectTransparency.types false in
/-- THE RUN: from any memory with zero counters every weakly fair execution of @main on the TensorCores terminates,
    nothing faulting, and in every final state every unscoped buffer holds the last boundary's contents `W20`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm' (pdats m ρ) () cellOf_inj emb₁ defs₀ 𝒱₀' L' lv' m ρ main (segs' m ρ)
    (fun c Q => by rw [main_run' m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RR c)) (Tₙ := Tₙ' m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c)⟩) (run_all m ρ)

end Cert.KernelIdeal.Gen

end
-- ==== Proof.BRegion0.lean ====
/- Region 0 of the program: the elementwise product of three 8192x8192 operands, written out in bf16, together with
   its row sums. The grid is 16 x 8 (row blocks of 512 by column blocks of 1024); at a point the body reads the three
   operand blocks, stores their product (rounded to bf16) over the whole product block, and adds the product's row
   sums into a 512x1 accumulator block that is shared by the 8 points of a row block: at the first of the 8 (grid
   coordinate 1 equal to 0) the body first overwrites the accumulator with zeros, at the other 7 it finds what the point
   before left, the accumulator being written back only after the 8th.
   So the body has two control cases, and what the accumulator holds after a point is defined by recursion on the
   point. Everything is stated at a parameter `V`, the contents of the core's buffers when the region is entered,
   and generically in the float instance. -/
import proofs.«152628_j8315056685239_2_alg».proof.Proof.Gen.Kernel.Launch
import proofs.«152628_j8315056685239_2_alg».proof.Proof.Gen.Kernel.Skeleton
import proofs.«152628_j8315056685239_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the rectangle of the window's array (as the region finds it) that
    the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each operand window's buffer holds the operand's block when the body is entered, for any proof data over `V`'s
    arrays whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional, from the grid coordinates: coordinate 1 is zero. -/
abbrev cond0_0 (i : grid0.Coords) : Prop := (Scalar.cmpi .ne (Scalar.extui (Scalar.cmpi .eq (BitVec.ofNat 32 (i 1).val) 0#32)) 0#32) = 1#1
/-- It holds exactly at the first point of each run of 8 (the points of one row block), decided over the 128 points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The buffers the body is called with -/

/-- One buffer of each output window, through which the window's contents are stated (the choice does not matter: the
    stores cover the buffer). -/
abbrev VO0_3 : View sig .tc .vmem S512x1024 .bf16 := (Memref.whole cc0_stg3_0 : Memref sig .tc .vmem S512x1024 .bf16).view
abbrev VO0_4 : View sig .tc .vmem S512x1 .f32 := (Memref.whole cc0_stg4_0 : Memref sig .tc .vmem S512x1 .f32).view
/-- Each window's current buffer at point `t`, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)

/-! ## The body's triple, case by case -/

set_option maxHeartbeats 1000000 in
/-- CASE A (coordinate 1 is zero: the first point of a row block). On whole buffers, the three operands' at contents
    `x0`, `x1`, `x2` and the two outputs' at anything, the body ends with the operands as they were and each output's
    buffer with a list of stores written into it (last first): the product block's one store, and the accumulator's two
    — zeros, then the zeros read back plus the product's row sums. The lists are what the run of the body finds. -/
noncomputable def kernelRun0_A (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) :
    Σ' (L3 : List (View.Piece (Elt F) S512x1024 .bf16)), { L4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__combine_rowsum_kernel i arg2 harg2 arg3 harg3 arg4 harg4 arg5 harg5 arg6 harg6) K } := by
  refine ⟨?_, ?_, fun E K => ?run⟩
  case run =>
    simp only [cc0__combine_rowsum_kernel_eq_skeleton]; unfold cc0__combine_rowsum_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

set_option maxHeartbeats 1000000 in
/-- CASE B (coordinate 1 is not zero). As case A, but the accumulator's buffer is entered at known contents `xo4`
    (what the point before left) and gets one store: `xo4` plus the product's row sums. -/
noncomputable def kernelRun0_B (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) :
    Σ' (L3 : List (View.Piece (Elt F) S512x1024 .bf16)), { L4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__combine_rowsum_kernel i arg2 harg2 arg3 harg3 arg4 harg4 arg5 harg5 arg6 harg6) K } := by
  refine ⟨?_, ?_, fun E K => ?run⟩
  case run =>
    simp only [cc0__combine_rowsum_kernel_eq_skeleton]; unfold cc0__combine_rowsum_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-! ## What each case leaves in the outputs' buffers -/

/-- In this case the product buffer's stores cover it (one store over the whole buffer). -/
theorem cover0_A_3 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) (y : S512x1024.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S512x1024.size (by sl_kernel_rfl) y

/-- What the case leaves in the product buffer: its stores read back (the prior contents do not matter, the stores
    covering the buffer). -/
def out0_A_3 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) : Vec F S512x1024 .bf16 :=
  VO0_3.read (Elt F) (VO0_3.writes (Elt F) VO0_3.junk (kernelRun0_A c i arg2 harg2 arg3 harg3 arg4 harg4 arg5 harg5 arg6 harg6 hc0 x0 x1 x2).1)

/-- In this case the row-sum buffer's stores cover it (each is over the whole buffer). -/
theorem cover0_A_4 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) (y : S512x1.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S512x1.size (by sl_kernel_rfl) y

/-- What the case leaves in the row-sum buffer. -/
def out0_A_4 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) : Vec F S512x1 .f32 :=
  VO0_4.read (Elt F) (VO0_4.writes (Elt F) VO0_4.junk (kernelRun0_A c i arg2 harg2 arg3 harg3 arg4 harg4 arg5 harg5 arg6 harg6 hc0 x0 x1 x2).2.1)

/-- In this case the product buffer's stores cover it (one store over the whole buffer). -/
theorem cover0_B_3 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) (y : S512x1024.Idx) :
    ∃ pc ∈ (kernelRun0_B c i arg2 harg2 arg3 harg3 arg4 harg4 arg5 harg5 arg6 harg6 hc0 x0 x1 x2 xo4).1, y ∈ pc.1.set :=
  View.cover_of_tiledL (kernelRun0_B c i arg2 harg2 arg3 harg3 arg4 harg4 arg5 harg5 arg6 harg6 hc0 x0 x1 x2 xo4).1 S512x1024.size (by sl_kernel_rfl) y

/-- What the case leaves in the product buffer: its stores read back (the prior contents do not matter, the stores
    covering the buffer). -/
def out0_B_3 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) : Vec F S512x1024 .bf16 :=
  VO0_3.read (Elt F) (VO0_3.writes (Elt F) VO0_3.junk (kernelRun0_B c i arg2 harg2 arg3 harg3 arg4 harg4 arg5 harg5 arg6 harg6 hc0 x0 x1 x2 xo4).1)

/-- In this case the row-sum buffer's stores cover it (each is over the whole buffer). -/
theorem cover0_B_4 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) (y : S512x1.Idx) :
    ∃ pc ∈ (kernelRun0_B c i arg2 harg2 arg3 harg3 arg4 harg4 arg5 harg5 arg6 harg6 hc0 x0 x1 x2 xo4).2.1, y ∈ pc.1.set :=
  View.cover_of_tiledL (kernelRun0_B c i arg2 harg2 arg3 harg3 arg4 harg4 arg5 harg5 arg6 harg6 hc0 x0 x1 x2 xo4).2.1 S512x1.size (by sl_kernel_rfl) y

/-- What the case leaves in the row-sum buffer. -/
def out0_B_4 (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) : Vec F S512x1 .f32 :=
  VO0_4.read (Elt F) (VO0_4.writes (Elt F) VO0_4.junk (kernelRun0_B c i arg2 harg2 arg3 harg3 arg4 harg4 arg5 harg5 arg6 harg6 hc0 x0 x1 x2 xo4).2.1)

/-! ## What the outputs hold after each point -/

/-- THE ACCUMULATION. What the row-sum buffer holds after the body at position `n`: at the first point of a row block
    case A's contents (zeros plus this point's row sums), elsewhere case B's over what position `n - 1` left (the
    buffer is not written back in between). -/
def outsAt0 (c : Dev nD) : (n : ℕ) → n < cfg0.N → Vec F S512x1 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩)
  | n + 1, hn =>
    if h0 : (n + 1) % 8 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn))

/-- `outsAt0` at a point of case A. -/
theorem outsAt0_A (c : Dev nD) (t : Fin cfg0.N) (h0 : t.val % 8 = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) := by
  obtain ⟨n, hn⟩ := t
  cases n with
  | zero => exact rfl
  | succ n => exact (dif_pos h0).trans rfl

/-- `outsAt0` at a point of case B: over what the point before left. -/
theorem outsAt0_B (c : Dev nD) (t : Fin cfg0.N) (h0 : ¬t.val % 8 = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the product buffer holds after the body at point `t`: the case's contents (in both cases the rounded product
    of the three operand blocks). -/
def out3At0 (c : Dev nD) (t : Fin cfg0.N) : Vec F S512x1024 .bf16 :=
  if h0 : t.val % 8 = 0 then
    out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)
  else
    out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt))

theorem out3At0_A (c : Dev nD) (t : Fin cfg0.N) (h0 : t.val % 8 = 0) :
    out3At0 V c t = out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) := dif_pos h0
theorem out3At0_B (c : Dev nD) (t : Fin cfg0.N) (h0 : ¬t.val % 8 = 0) :
    out3At0 V c t = out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)) := dif_neg h0

/-! ## The region's proof data -/

/-- The proof data of the region on core `c`: the arrays as the region finds them; after the body at point `t` each
    operand buffer still at its block, the product buffer at `out3At0` and the row-sum buffer at `outsAt0`; the
    invariant that carries the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out3At0 V c t
    | ⟨4, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out3At0 V c t := by dsimp only [dat0]
theorem after0_4 (c : Dev nD) (t : Fin cfg0.N) : (dat0 V c).after 4 t = outsAt0 V c t.val t.isLt := by dsimp only [dat0]

/-- Each operand buffer holds its block when the body is entered, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a point of case B the row-sum buffer holds what the body left at the point before: the point is not the first,
    and the point before is not the last of its row block, so the buffer was not written back in between. -/
theorem before0_4_B (c : Dev nD) (t : Fin cfg0.N) (h0 : ¬t.val % 8 = 0) (d) :
    (dat0 V c).before 4 t d = (outsAt0 V c (t.val - 1) (Nat.lt_of_le_of_lt (Nat.sub_le _ _) t.isLt)) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation at a generic point -/

/-- What the body is entered with at point `t`: the invariant, the core's debts, and each window's current buffer
    whole at what the proof data say it holds there. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1000000 in
/-- The body at any point: the operand buffers hold their blocks; the closed form of the condition says which case the
    point is in; in case B the row-sum buffer holds what the point before left; so the case's triple applies. The
    invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 8 = 0
  · rw [outsAt0_A V c t h0, out3At0_A V c t h0]
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B V c t h0, out3At0_B V c t h0]
    simp only [before0_4_B V c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _)

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.BRegion1Shared.lean ====
import proofs.«152628_j8315056685239_2_alg».proof.Proof.Gen.Kernel.Launch
import proofs.«152628_j8315056685239_2_alg».proof.Proof.Gen.Kernel.Skeleton
import proofs.«152628_j8315056685239_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the two sums of the normalised adjacency — what the case runs share

The body branches on four conditions of the grid point (g0, g1) of an 8 × 8 grid: "first point" (g0 = 0 and g1 = 0: the
column-sum scratch is zeroed), "row start" (g1 = 0: the row-sum accumulator is zeroed), "diagonal block" (g0 = g1: the
identity's contribution is added) and "last point" (g0 = 7 and g1 = 7: the column sums are copied out). -/

/-- The four conditions the body of region 1 branches on, as functions of the grid coordinates. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cond1_1 (i : grid1.Coords) : Prop := (Scalar.cmpi .ne (Scalar.extui (Scalar.cmpi .eq (BitVec.ofNat 32 (i 1).val) 0#32)) 0#32) = 1#1
abbrev cond1_2 (i : grid1.Coords) : Prop := (Scalar.cmpi .ne (Scalar.extui (Scalar.cmpi .eq (BitVec.ofNat 32 (i 0).val) (BitVec.ofNat 32 (i 1).val))) 0#32) = 1#1
abbrev cond1_3 (i : grid1.Coords) : Prop := k1_cond4 i = 1#1

/-- Window 4 (the column sums) is idle except at the last point, where it is stored and written back. -/
theorem idleAt1_4 : ∀ t : Fin cfg1.N, t.val ≠ 63 → cfg1.idle 4 (grid1.coords t) = true := by decide +kernel
theorem noFlush1_4 : ∀ t : Fin cfg1.N, t.val ≠ 63 → (cfg1.win 4).flush t = false := by decide +kernel
theorem liveAt1_4 : ∀ t : Fin cfg1.N, t.val = 63 → cfg1.idle 4 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- Which conditions hold at which points, by the point's position t = 8·g0 + g1 in the row-major order. -/
theorem conds1_A : ∀ t : Fin cfg1.N, t.val = 0 → cond1_0 (grid1.coords t) ∧ cond1_1 (grid1.coords t) ∧ cond1_2 (grid1.coords t) ∧ ¬cond1_3 (grid1.coords t) := by decide +kernel
theorem conds1_B : ∀ t : Fin cfg1.N, t.val ≠ 0 → t.val % 8 = 0 → ¬cond1_0 (grid1.coords t) ∧ cond1_1 (grid1.coords t) ∧ ¬cond1_2 (grid1.coords t) ∧ ¬cond1_3 (grid1.coords t) := by decide +kernel
theorem conds1_C : ∀ t : Fin cfg1.N, t.val % 8 ≠ 0 → t.val ≠ 63 → t.val % 9 = 0 → ¬cond1_0 (grid1.coords t) ∧ ¬cond1_1 (grid1.coords t) ∧ cond1_2 (grid1.coords t) ∧ ¬cond1_3 (grid1.coords t) := by decide +kernel
theorem conds1_D : ∀ t : Fin cfg1.N, t.val % 8 ≠ 0 → t.val % 9 ≠ 0 → ¬cond1_0 (grid1.coords t) ∧ ¬cond1_1 (grid1.coords t) ∧ ¬cond1_2 (grid1.coords t) ∧ ¬cond1_3 (grid1.coords t) := by decide +kernel
theorem conds1_E : ∀ t : Fin cfg1.N, t.val = 63 → ¬cond1_0 (grid1.coords t) ∧ ¬cond1_1 (grid1.coords t) ∧ cond1_2 (grid1.coords t) ∧ cond1_3 (grid1.coords t) := by decide +kernel

/-- Each window's current staging memref at point t, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8192 .f32 := win1_4.stage (cfg1.slots t 4)
abbrev hs1_4 (t : Fin cfg1.N) : (ms1_4 t).IsWhole := hstage1_4 ((cfg1.slots t 4).cast nbuf1_4)
/-- The two scratch operands: whole scoped buffers of the kernel's own. -/
abbrev scM1_0 : Memref sig .tc .vmem S1024x1024 .f32 := Memref.whole cc1_scratch0
abbrev scM1_1 : Memref sig .tc .vmem S8x8192 .f32 := Memref.whole cc1_scratch1

end Cert.Kernel.Gen

end
-- ==== Proof.BRegion1Runs.lean ====
import proofs.«152628_j8315056685239_2_alg».proof.Proof.BRegion1Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- The body of region 1 in case A of its four conditions: on whole memrefs holding the three input blocks, the row-sum
    accumulator, the column-sum output and the two scratch buffers, it runs to the end and leaves each buffer it stores
    into with the listed pieces written (last first); the pieces are found by running the body. -/
noncomputable def kernelRun1_A (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) :
    Σ' (L3 : List (View.Piece (Elt F) S1024x1 .f32)) (L4 : List (View.Piece (Elt F) S1x8192 .f32)) (LS0 : List (View.Piece (Elt F) S1024x1024 .f32)), { LS1 : List (View.Piece (Elt F) S8x8192 .f32) //
      ∀ (xi4 : Vec F S1x8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ owns (c : Thread nD τ) arg6 fullShare xi4
            ∗ (∃ d, owns (c : Thread nD τ) arg7 fullShare d)
            ∗ (∃ d, owns (c : Thread nD τ) arg8 fullShare d)
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__dual_sum_kernel i arg2 harg2 arg3 harg3 arg4 harg4 arg5 harg5 arg6 harg6 arg7 harg7 arg8 harg8) K } := by
  refine ⟨?_, [], ?_, ?_, fun xi4 E K => ?run⟩
  case run =>
    simp only [cc1__dual_sum_kernel_eq_skeleton]; unfold cc1__dual_sum_kernel_skel
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg6.eq_unread hf4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexists _; iexact HS1

-- the run's proof term is large
set_option maxHeartbeats 1000000 in
/-- The body of region 1 in case B of its four conditions: on whole memrefs holding the three input blocks, the row-sum
    accumulator, the column-sum output and the two scratch buffers, it runs to the end and leaves each buffer it stores
    into with the listed pieces written (last first); the pieces are found by running the body. -/
noncomputable def kernelRun1_B (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) :
    Σ' (L3 : List (View.Piece (Elt F) S1024x1 .f32)) (L4 : List (View.Piece (Elt F) S1x8192 .f32)) (LS0 : List (View.Piece (Elt F) S1024x1024 .f32)), { LS1 : List (View.Piece (Elt F) S8x8192 .f32) //
      ∀ (xi4 : Vec F S1x8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ owns (c : Thread nD τ) arg6 fullShare xi4
            ∗ (∃ d, owns (c : Thread nD τ) arg7 fullShare d)
            ∗ owns (c : Thread nD τ) arg8 fullShare xs1
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__dual_sum_kernel i arg2 harg2 arg3 harg3 arg4 harg4 arg5 harg5 arg6 harg6 arg7 harg7 arg8 harg8) K } := by
  refine ⟨?_, [], ?_, ?_, fun xi4 E K => ?run⟩
  case run =>
    simp only [cc1__dual_sum_kernel_eq_skeleton]; unfold cc1__dual_sum_kernel_skel
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg6.eq_unread hf4; obtain rfl := harg8.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexact HS1

-- the run's proof term is large
set_option maxHeartbeats 1000000 in
/-- The body of region 1 in case C of its four conditions: on whole memrefs holding the three input blocks, the row-sum
    accumulator, the column-sum output and the two scratch buffers, it runs to the end and leaves each buffer it stores
    into with the listed pieces written (last first); the pieces are found by running the body. -/
noncomputable def kernelRun1_C (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) :
    Σ' (L3 : List (View.Piece (Elt F) S1024x1 .f32)) (L4 : List (View.Piece (Elt F) S1x8192 .f32)) (LS0 : List (View.Piece (Elt F) S1024x1024 .f32)), { LS1 : List (View.Piece (Elt F) S8x8192 .f32) //
      ∀ (xi4 : Vec F S1x8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xo3
            ∗ owns (c : Thread nD τ) arg6 fullShare xi4
            ∗ (∃ d, owns (c : Thread nD τ) arg7 fullShare d)
            ∗ owns (c : Thread nD τ) arg8 fullShare xs1
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__dual_sum_kernel i arg2 harg2 arg3 harg3 arg4 harg4 arg5 harg5 arg6 harg6 arg7 harg7 arg8 harg8) K } := by
  refine ⟨?_, [], ?_, ?_, fun xi4 E K => ?run⟩
  case run =>
    simp only [cc1__dual_sum_kernel_eq_skeleton]; unfold cc1__dual_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexact HS1

-- the run's proof term is large
set_option maxHeartbeats 1000000 in
/-- The body of region 1 in case D of its four conditions: on whole memrefs holding the three input blocks, the row-sum
    accumulator, the column-sum output and the two scratch buffers, it runs to the end and leaves each buffer it stores
    into with the listed pieces written (last first); the pieces are found by running the body. -/
noncomputable def kernelRun1_D (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) :
    Σ' (L3 : List (View.Piece (Elt F) S1024x1 .f32)) (L4 : List (View.Piece (Elt F) S1x8192 .f32)) (LS0 : List (View.Piece (Elt F) S1024x1024 .f32)), { LS1 : List (View.Piece (Elt F) S8x8192 .f32) //
      ∀ (xi4 : Vec F S1x8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xo3
            ∗ owns (c : Thread nD τ) arg6 fullShare xi4
            ∗ (∃ d, owns (c : Thread nD τ) arg7 fullShare d)
            ∗ owns (c : Thread nD τ) arg8 fullShare xs1
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__dual_sum_kernel i arg2 harg2 arg3 harg3 arg4 harg4 arg5 harg5 arg6 harg6 arg7 harg7 arg8 harg8) K } := by
  refine ⟨?_, [], ?_, ?_, fun xi4 E K => ?run⟩
  case run =>
    simp only [cc1__dual_sum_kernel_eq_skeleton]; unfold cc1__dual_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]; · iexists _; iexact HS0
    iexact HS1

-- the run's proof term is large
set_option maxHeartbeats 1000000 in
/-- The body of region 1 in case E of its four conditions: on whole memrefs holding the three input blocks, the row-sum
    accumulator, the column-sum output and the two scratch buffers, it runs to the end and leaves each buffer it stores
    into with the listed pieces written (last first); the pieces are found by running the body. -/
noncomputable def kernelRun1_E (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) :
    Σ' (L3 : List (View.Piece (Elt F) S1024x1 .f32)) (L4 : List (View.Piece (Elt F) S1x8192 .f32)) (LS0 : List (View.Piece (Elt F) S1024x1024 .f32)), { LS1 : List (View.Piece (Elt F) S8x8192 .f32) //
      ∀ (xi4 : Vec F S1x8192 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xo3
            ∗ (∃ d, owns (c : Thread nD τ) arg6 fullShare d)
            ∗ (∃ d, owns (c : Thread nD τ) arg7 fullShare d)
            ∗ owns (c : Thread nD τ) arg8 fullShare xs1
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__dual_sum_kernel i arg2 harg2 arg3 harg3 arg4 harg4 arg5 harg5 arg6 harg6 arg7 harg7 arg8 harg8) K } := by
  refine ⟨?_, ?_, ?_, ?_, fun xi4 E K => ?run⟩
  case run =>
    simp only [cc1__dual_sum_kernel_eq_skeleton]; unfold cc1__dual_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexact HS1

end Cert.Kernel.Gen

end
-- ==== Proof.BRegion1Data.lean ====
import proofs.«152628_j8315056685239_2_alg».proof.Proof.BRegion1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the proof data and the body obligation

The row-sum accumulator (window 3) is zeroed at the start of each grid row and added to at every point; the column sums are
accumulated in a scratch buffer that lives across the whole grid — zeroed at the first point, one slab of 1024 columns
added to at each point — and copied to the output window 4 at the last point, the only point where that window is stored
or written back. What the scratch holds after each point is stated (`outsAt1`'s third component) and carried by the
region's invariant. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of each output window, through which its contents are stated (the choice does not matter). -/
abbrev VO1_3 : View sig .tc .vmem S1024x1 .f32 := (Memref.whole cc1_stg3_0 : Memref sig .tc .vmem S1024x1 .f32).view
abbrev VO1_4 : View sig .tc .vmem S1x8192 .f32 := (Memref.whole cc1_stg4_0 : Memref sig .tc .vmem S1x8192 .f32).view

/-- The class invariant with the two scratch operands split out as memrefs owned at some contents. -/
theorem PhiA1_eq (c : Dev nD) :
    (Pipeline.ΦA spec1 c : sProp 𝕄)
      = iprop(iprop(iprop(iprop((∃ d, owns (c : Thread nD τ) scM1_0 fullShare d) ∗ (∃ d, owns (c : Thread nD τ) scM1_1 fullShare d)) ∗ Pipeline.scopedRestBut (Ix := Unit) (Name := ℕ) (U := UR sig nD τ) (Lvl := ℕ) (Val := Elt F) spec1 c [cc1_scratch0, cc1_scratch1]) ∗ (∃ r, prngReg c r))) := by
  unfold Pipeline.ΦA; rw [scopedRest1_split]; simp only [scM1_0, scM1_1, owns_whole]; try rfl

/-- Case A: the row-sum accumulator's pieces tile its block, so they cover it. -/
theorem cover1_A_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) (y : S1024x1.Idx) :
    ∃ pc ∈ (kernelRun1_A c i arg2 harg2 arg3 harg3 arg4 harg4 arg5 harg5 arg6 harg6 arg7 harg7 arg8 harg8 hc0 hc1 hc2 hc3 x0 x1 x2).1, y ∈ pc.1.set :=
  View.cover_of_tiledL (kernelRun1_A c i arg2 harg2 arg3 harg3 arg4 harg4 arg5 harg5 arg6 harg6 arg7 harg7 arg8 harg8 hc0 hc1 hc2 hc3 x0 x1 x2).1 S1024x1.size (by sl_kernel_rfl) y

/-- What case A leaves in the row-sum accumulator's staging buffer: its pieces read back. -/
def out1_A_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) : Vec F S1024x1 .f32 :=
  VO1_3.read (Elt F) (VO1_3.writes (Elt F) VO1_3.junk (kernelRun1_A c i arg2 harg2 arg3 harg3 arg4 harg4 arg5 harg5 arg6 harg6 arg7 harg7 arg8 harg8 hc0 hc1 hc2 hc3 x0 x1 x2).1)

/-- What case A leaves in the column-sum output's staging buffer (nothing is stored: a placeholder nothing consults, the window being idle and not written back there). -/
def out1_A_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) : Vec F S1x8192 .f32 :=
  VO1_4.read (Elt F) (VO1_4.writes (Elt F) VO1_4.junk (kernelRun1_A c i arg2 harg2 arg3 harg3 arg4 harg4 arg5 harg5 arg6 harg6 arg7 harg7 arg8 harg8 hc0 hc1 hc2 hc3 x0 x1 x2).2.1)

/-- Case A zeroes the whole column-sum scratch before adding its slab: the older piece covers it. -/
theorem scover1_A (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) (y : S8x8192.Idx) :
    ∃ pc ∈ (kernelRun1_A c i arg2 harg2 arg3 harg3 arg4 harg4 arg5 harg5 arg6 harg6 arg7 harg7 arg8 harg8 hc0 hc1 hc2 hc3 x0 x1 x2).2.2.2.1, y ∈ pc.1.set := by
  obtain ⟨p1, p2, hL, hp2⟩ : ∃ p1 p2, (kernelRun1_A c i arg2 harg2 arg3 harg3 arg4 harg4 arg5 harg5 arg6 harg6 arg7 harg7 arg8 harg8 hc0 hc1 hc2 hc3 x0 x1 x2).2.2.2.1 = [p1, p2] ∧ p2.1 = Rect.unit (s := S8x8192) ![0, 0] S8x8192.size inb_S8x8192_S8x8192_0_0 := ⟨_, _, rfl, rfl⟩
  refine ⟨p2, by rw [hL]; exact List.mem_cons_of_mem _ (List.mem_singleton.mpr rfl), ?_⟩
  rw [hp2]
  obtain ⟨pc, hpc, hy⟩ := View.cover_of_tiled [(⟨Rect.unit (s := S8x8192) ![0, 0] S8x8192.size inb_S8x8192_S8x8192_0_0, k1_pay2 (F := F)⟩ : View.Piece (Elt F) S8x8192 .f32)] S8x8192.size (by rfl) y
  rw [List.mem_singleton] at hpc; subst hpc; exact hy

/-- What case A leaves in the column-sum scratch: its pieces read back. -/
def sout1_A (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : cond1_0 i) (hc1 : cond1_1 i) (hc2 : cond1_2 i) (hc3 : ¬cond1_3 i)
    (x0 : Vec F S1024x1024 .bf16) (x1 : Vec F S1024x1 .f32) (x2 : Vec F S1x1024 .f32) : Vec F S8x8192 .f32 :=
  arg8.view.read (Elt F) (arg8.view.writes (Elt F) arg8.view.junk (kernelRun1_A c i arg2 harg2 arg3 harg3 arg4 harg4 arg5 harg5 arg6 harg6 arg7 harg7 arg8 harg8 hc0 hc1 hc2 hc3 x0 x1 x2).2.2.2.1)

/-- Case B: the row-sum accumulator's pieces tile its block, so they cover it. -/
theorem cover1_B_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) (y : S1024x1.Idx) :
    ∃ pc ∈ (kernelRun1_B c i arg2 harg2 arg3 harg3 arg4 harg4 arg5 harg5 arg6 harg6 arg7 harg7 arg8 harg8 hc0 hc1 hc2 hc3 x0 x1 x2 xs1).1, y ∈ pc.1.set :=
  View.cover_of_tiledL (kernelRun1_B c i arg2 harg2 arg3 harg3 arg4 harg4 arg5 harg5 arg6 harg6 arg7 harg7 arg8 harg8 hc0 hc1 hc2 hc3 x0 x1 x2 xs1).1 S1024x1.size (by sl_kernel_rfl) y

/-- What case B leaves in the row-sum accumulator's staging buffer: its pieces read back. -/
def out1_B_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) : Vec F S1024x1 .f32 :=
  VO1_3.read (Elt F) (VO1_3.writes (Elt F) VO1_3.junk (kernelRun1_B c i arg2 harg2 arg3 harg3 arg4 harg4 arg5 harg5 arg6 harg6 arg7 harg7 arg8 harg8 hc0 hc1 hc2 hc3 x0 x1 x2 xs1).1)

/-- What case B leaves in the column-sum output's staging buffer (nothing is stored: a placeholder nothing consults, the window being idle and not written back there). -/
def out1_B_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) : Vec F S1x8192 .f32 :=
  VO1_4.read (Elt F) (VO1_4.writes (Elt F) VO1_4.junk (kernelRun1_B c i arg2 harg2 arg3 harg3 arg4 harg4 arg5 harg5 arg6 harg6 arg7 harg7 arg8 harg8 hc0 hc1 hc2 hc3 x0 x1 x2 xs1).2.1)

/-- What case B leaves in the column-sum scratch: its one slab written over what the point before left. -/
def sout1_B (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) : Vec F S8x8192 .f32 :=
  arg8.view.read (Elt F) (arg8.view.writes (Elt F) (harg8.unread xs1) (kernelRun1_B c i arg2 harg2 arg3 harg3 arg4 harg4 arg5 harg5 arg6 harg6 arg7 harg7 arg8 harg8 hc0 hc1 hc2 hc3 x0 x1 x2 xs1).2.2.2.1)

/-- Case C: the row-sum accumulator's pieces tile its block, so they cover it. -/
theorem cover1_C_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) (y : S1024x1.Idx) :
    ∃ pc ∈ (kernelRun1_C c i arg2 harg2 arg3 harg3 arg4 harg4 arg5 harg5 arg6 harg6 arg7 harg7 arg8 harg8 hc0 hc1 hc2 hc3 x0 x1 x2 xo3 xs1).1, y ∈ pc.1.set :=
  View.cover_of_tiledL (kernelRun1_C c i arg2 harg2 arg3 harg3 arg4 harg4 arg5 harg5 arg6 harg6 arg7 harg7 arg8 harg8 hc0 hc1 hc2 hc3 x0 x1 x2 xo3 xs1).1 S1024x1.size (by sl_kernel_rfl) y

/-- What case C leaves in the row-sum accumulator's staging buffer: its pieces read back. -/
def out1_C_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S1024x1 .f32 :=
  VO1_3.read (Elt F) (VO1_3.writes (Elt F) VO1_3.junk (kernelRun1_C c i arg2 harg2 arg3 harg3 arg4 harg4 arg5 harg5 arg6 harg6 arg7 harg7 arg8 harg8 hc0 hc1 hc2 hc3 x0 x1 x2 xo3 xs1).1)

/-- What case C leaves in the column-sum output's staging buffer (nothing is stored: a placeholder nothing consults, the window being idle and not written back there). -/
def out1_C_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S1x8192 .f32 :=
  VO1_4.read (Elt F) (VO1_4.writes (Elt F) VO1_4.junk (kernelRun1_C c i arg2 harg2 arg3 harg3 arg4 harg4 arg5 harg5 arg6 harg6 arg7 harg7 arg8 harg8 hc0 hc1 hc2 hc3 x0 x1 x2 xo3 xs1).2.1)

/-- What case C leaves in the column-sum scratch: its one slab written over what the point before left. -/
def sout1_C (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S8x8192 .f32 :=
  arg8.view.read (Elt F) (arg8.view.writes (Elt F) (harg8.unread xs1) (kernelRun1_C c i arg2 harg2 arg3 harg3 arg4 harg4 arg5 harg5 arg6 harg6 arg7 harg7 arg8 harg8 hc0 hc1 hc2 hc3 x0 x1 x2 xo3 xs1).2.2.2.1)

/-- Case D: the row-sum accumulator's pieces tile its block, so they cover it. -/
theorem cover1_D_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) (y : S1024x1.Idx) :
    ∃ pc ∈ (kernelRun1_D c i arg2 harg2 arg3 harg3 arg4 harg4 arg5 harg5 arg6 harg6 arg7 harg7 arg8 harg8 hc0 hc1 hc2 hc3 x0 x1 x2 xo3 xs1).1, y ∈ pc.1.set :=
  View.cover_of_tiledL (kernelRun1_D c i arg2 harg2 arg3 harg3 arg4 harg4 arg5 harg5 arg6 harg6 arg7 harg7 arg8 harg8 hc0 hc1 hc2 hc3 x0 x1 x2 xo3 xs1).1 S1024x1.size (by sl_kernel_rfl) y

/-- What case D leaves in the row-sum accumulator's staging buffer: its pieces read back. -/
def out1_D_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S1024x1 .f32 :=
  VO1_3.read (Elt F) (VO1_3.writes (Elt F) VO1_3.junk (kernelRun1_D c i arg2 harg2 arg3 harg3 arg4 harg4 arg5 harg5 arg6 harg6 arg7 harg7 arg8 harg8 hc0 hc1 hc2 hc3 x0 x1 x2 xo3 xs1).1)

/-- What case D leaves in the column-sum output's staging buffer (nothing is stored: a placeholder nothing consults, the window being idle and not written back there). -/
def out1_D_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S1x8192 .f32 :=
  VO1_4.read (Elt F) (VO1_4.writes (Elt F) VO1_4.junk (kernelRun1_D c i arg2 harg2 arg3 harg3 arg4 harg4 arg5 harg5 arg6 harg6 arg7 harg7 arg8 harg8 hc0 hc1 hc2 hc3 x0 x1 x2 xo3 xs1).2.1)

/-- What case D leaves in the column-sum scratch: its one slab written over what the point before left. -/
def sout1_D (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) : Vec F S8x8192 .f32 :=
  arg8.view.read (Elt F) (arg8.view.writes (Elt F) (harg8.unread xs1) (kernelRun1_D c i arg2 harg2 arg3 harg3 arg4 harg4 arg5 harg5 arg6 harg6 arg7 harg7 arg8 harg8 hc0 hc1 hc2 hc3 x0 x1 x2 xo3 xs1).2.2.2.1)

/-- Case E: the row-sum accumulator's pieces tile its block, so they cover it. -/
theorem cover1_E_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) (y : S1024x1.Idx) :
    ∃ pc ∈ (kernelRun1_E c i arg2 harg2 arg3 harg3 arg4 harg4 arg5 harg5 arg6 harg6 arg7 harg7 arg8 harg8 hc0 hc1 hc2 hc3 x0 x1 x2 xo3 xs1).1, y ∈ pc.1.set :=
  View.cover_of_tiledL (kernelRun1_E c i arg2 harg2 arg3 harg3 arg4 harg4 arg5 harg5 arg6 harg6 arg7 harg7 arg8 harg8 hc0 hc1 hc2 hc3 x0 x1 x2 xo3 xs1).1 S1024x1.size (by sl_kernel_rfl) y

/-- What case E leaves in the row-sum accumulator's staging buffer: its pieces read back. -/
def out1_E_3 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) : Vec F S1024x1 .f32 :=
  VO1_3.read (Elt F) (VO1_3.writes (Elt F) VO1_3.junk (kernelRun1_E c i arg2 harg2 arg3 harg3 arg4 harg4 arg5 harg5 arg6 harg6 arg7 harg7 arg8 harg8 hc0 hc1 hc2 hc3 x0 x1 x2 xo3 xs1).1)

/-- What case E leaves in the column-sum output's staging buffer. -/
def out1_E_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) : Vec F S1x8192 .f32 :=
  VO1_4.read (Elt F) (VO1_4.writes (Elt F) VO1_4.junk (kernelRun1_E c i arg2 harg2 arg3 harg3 arg4 harg4 arg5 harg5 arg6 harg6 arg7 harg7 arg8 harg8 hc0 hc1 hc2 hc3 x0 x1 x2 xo3 xs1).2.1)

/-- Case E stores the whole column-sum block: one piece covering it. -/
theorem cover1_E_4 (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) (y : S1x8192.Idx) :
    ∃ pc ∈ (kernelRun1_E c i arg2 harg2 arg3 harg3 arg4 harg4 arg5 harg5 arg6 harg6 arg7 harg7 arg8 harg8 hc0 hc1 hc2 hc3 x0 x1 x2 xo3 xs1).2.1, y ∈ pc.1.set :=
  View.cover_of_tiledL (kernelRun1_E c i arg2 harg2 arg3 harg3 arg4 harg4 arg5 harg5 arg6 harg6 arg7 harg7 arg8 harg8 hc0 hc1 hc2 hc3 x0 x1 x2 xo3 xs1).2.1 S1x8192.size (by sl_kernel_rfl) y

/-- What case E leaves in the column-sum scratch: its one slab written over what the point before left. -/
def sout1_E (c : Dev nD) (i : grid1.Coords) (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1 .f32) (harg5 : arg5.IsWhole)
    (arg6 : Memref sig .tc .vmem S1x8192 .f32) (harg6 : arg6.IsWhole) (arg7 : Memref sig .tc .vmem S1024x1024 .f32) (harg7 : arg7.IsWhole)
    (arg8 : Memref sig .tc .vmem S8x8192 .f32) (harg8 : arg8.IsWhole)
    (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) : Vec F S8x8192 .f32 :=
  arg8.view.read (Elt F) (arg8.view.writes (Elt F) (harg8.unread xs1) (kernelRun1_E c i arg2 harg2 arg3 harg3 arg4 harg4 arg5 harg5 arg6 harg6 arg7 harg7 arg8 harg8 hc0 hc1 hc2 hc3 x0 x1 x2 xo3 xs1).2.2.2.1)

/-- THE ACCUMULATION. What the row-sum accumulator's buffer, the column-sum output's buffer and the column-sum scratch hold
    after the body at position n: the case the position selects, run at the point's memrefs and input blocks, over what
    the point before left where the case reads it. -/
def outsAt1 (c : Dev nD) : (n : ℕ) → n < cfg1.N → Vec F S1024x1 .f32 × Vec F S1x8192 .f32 × Vec F S8x8192 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (conds1_A ⟨0, hn⟩ rfl).1 (conds1_A ⟨0, hn⟩ rfl).2.1 (conds1_A ⟨0, hn⟩ rfl).2.2.1 (conds1_A ⟨0, hn⟩ rfl).2.2.2 (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (conds1_A ⟨0, hn⟩ rfl).1 (conds1_A ⟨0, hn⟩ rfl).2.1 (conds1_A ⟨0, hn⟩ rfl).2.2.1 (conds1_A ⟨0, hn⟩ rfl).2.2.2 (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (conds1_A ⟨0, hn⟩ rfl).1 (conds1_A ⟨0, hn⟩ rfl).2.1 (conds1_A ⟨0, hn⟩ rfl).2.2.1 (conds1_A ⟨0, hn⟩ rfl).2.2.2 (iblk1 V c 0 ⟨0, hn⟩) (iblk1 V c 1 ⟨0, hn⟩) (iblk1 V c 2 ⟨0, hn⟩))
  | n + 1, hn =>
    if h63 : n + 1 = 63 then
      (out1_E_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_E ⟨n + 1, hn⟩ h63).1 (conds1_E ⟨n + 1, hn⟩ h63).2.1 (conds1_E ⟨n + 1, hn⟩ h63).2.2.1 (conds1_E ⟨n + 1, hn⟩ h63).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, out1_E_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_E ⟨n + 1, hn⟩ h63).1 (conds1_E ⟨n + 1, hn⟩ h63).2.1 (conds1_E ⟨n + 1, hn⟩ h63).2.2.1 (conds1_E ⟨n + 1, hn⟩ h63).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, sout1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_E ⟨n + 1, hn⟩ h63).1 (conds1_E ⟨n + 1, hn⟩ h63).2.1 (conds1_E ⟨n + 1, hn⟩ h63).2.2.1 (conds1_E ⟨n + 1, hn⟩ h63).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2)
    else if h8 : (n + 1) % 8 = 0 then
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_B ⟨n + 1, hn⟩ (Nat.succ_ne_zero n) h8).1 (conds1_B ⟨n + 1, hn⟩ (Nat.succ_ne_zero n) h8).2.1 (conds1_B ⟨n + 1, hn⟩ (Nat.succ_ne_zero n) h8).2.2.1 (conds1_B ⟨n + 1, hn⟩ (Nat.succ_ne_zero n) h8).2.2.2 (iblk1 V c 0 ⟨n + 1, hn⟩) (iblk1 V c 1 ⟨n + 1, hn⟩) (iblk1 V c 2 ⟨n + 1, hn⟩) ((outsAt1 c n (Nat.lt_of_succ_lt hn))).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_B ⟨n + 1, hn⟩ (Nat.succ_ne_zero n) h8).1 (conds1_B ⟨n + 1, hn⟩ (Nat.succ_ne_zero n) h8).2.1 (conds1_B ⟨n + 1, hn⟩ (Nat.succ_ne_zero n) h8).2.2.1 (conds1_B ⟨n + 1, hn⟩ (Nat.succ_ne_zero n) h8).2.2.2 (iblk1 V c 0 ⟨n + 1, hn⟩) (iblk1 V c 1 ⟨n + 1, hn⟩) (iblk1 V c 2 ⟨n + 1, hn⟩) ((outsAt1 c n (Nat.lt_of_succ_lt hn))).2.2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_B ⟨n + 1, hn⟩ (Nat.succ_ne_zero n) h8).1 (conds1_B ⟨n + 1, hn⟩ (Nat.succ_ne_zero n) h8).2.1 (conds1_B ⟨n + 1, hn⟩ (Nat.succ_ne_zero n) h8).2.2.1 (conds1_B ⟨n + 1, hn⟩ (Nat.succ_ne_zero n) h8).2.2.2 (iblk1 V c 0 ⟨n + 1, hn⟩) (iblk1 V c 1 ⟨n + 1, hn⟩) (iblk1 V c 2 ⟨n + 1, hn⟩) ((outsAt1 c n (Nat.lt_of_succ_lt hn))).2.2)
    else if h9 : (n + 1) % 9 = 0 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_C ⟨n + 1, hn⟩ h8 h63 h9).1 (conds1_C ⟨n + 1, hn⟩ h8 h63 h9).2.1 (conds1_C ⟨n + 1, hn⟩ h8 h63 h9).2.2.1 (conds1_C ⟨n + 1, hn⟩ h8 h63 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_C ⟨n + 1, hn⟩ h8 h63 h9).1 (conds1_C ⟨n + 1, hn⟩ h8 h63 h9).2.1 (conds1_C ⟨n + 1, hn⟩ h8 h63 h9).2.2.1 (conds1_C ⟨n + 1, hn⟩ h8 h63 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_C ⟨n + 1, hn⟩ h8 h63 h9).1 (conds1_C ⟨n + 1, hn⟩ h8 h63 h9).2.1 (conds1_C ⟨n + 1, hn⟩ h8 h63 h9).2.2.1 (conds1_C ⟨n + 1, hn⟩ h8 h63 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2)
    else
      (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_D ⟨n + 1, hn⟩ h8 h9).1 (conds1_D ⟨n + 1, hn⟩ h8 h9).2.1 (conds1_D ⟨n + 1, hn⟩ h8 h9).2.2.1 (conds1_D ⟨n + 1, hn⟩ h8 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, out1_D_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_D ⟨n + 1, hn⟩ h8 h9).1 (conds1_D ⟨n + 1, hn⟩ h8 h9).2.1 (conds1_D ⟨n + 1, hn⟩ h8 h9).2.2.1 (conds1_D ⟨n + 1, hn⟩ h8 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2, sout1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (conds1_D ⟨n + 1, hn⟩ h8 h9).1 (conds1_D ⟨n + 1, hn⟩ h8 h9).2.1 (conds1_D ⟨n + 1, hn⟩ h8 h9).2.2.1 (conds1_D ⟨n + 1, hn⟩ h8 h9).2.2.2 (iblk1 V c 0 ⟨n + 1, hn⟩) (iblk1 V c 1 ⟨n + 1, hn⟩) (iblk1 V c 2 ⟨n + 1, hn⟩) ((outsAt1 c n (Nat.lt_of_succ_lt hn))).1 ((outsAt1 c n (Nat.lt_of_succ_lt hn))).2.2)

theorem outsAt1_A (c : Dev nD) (t : Fin cfg1.N) (hz : t.val = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_A t hz).1 (conds1_A t hz).2.1 (conds1_A t hz).2.2.1 (conds1_A t hz).2.2.2 (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_A t hz).1 (conds1_A t hz).2.1 (conds1_A t hz).2.2.1 (conds1_A t hz).2.2.2 (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_A t hz).1 (conds1_A t hz).2.1 (conds1_A t hz).2.2.1 (conds1_A t hz).2.2.2 (iblk1 V c 0 t) (iblk1 V c 1 t) (iblk1 V c 2 t)) := by
  obtain ⟨n, hn⟩ := t
  cases n with
  | zero => exact rfl
  | succ n => exact absurd hz (Nat.succ_ne_zero n)

theorem outsAt1_E (c : Dev nD) (t : Fin cfg1.N) (h63 : t.val = 63) :
    outsAt1 V c t.val t.isLt = (out1_E_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_E t h63).1 (conds1_E t h63).2.1 (conds1_E t h63).2.2.1 (conds1_E t h63).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, out1_E_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_E t h63).1 (conds1_E t h63).2.1 (conds1_E t h63).2.2.1 (conds1_E t h63).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, sout1_E c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_E t h63).1 (conds1_E t h63).2.1 (conds1_E t h63).2.2.1 (conds1_E t h63).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2) := by
  obtain ⟨n, hn⟩ := t
  cases n with
  | zero => exact absurd (show (0 : ℕ) = 63 from h63) (by decide)
  | succ n => exact (dif_pos h63).trans rfl

theorem outsAt1_B (c : Dev nD) (t : Fin cfg1.N) (hz : t.val ≠ 0) (h8 : t.val % 8 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_B t hz h8).1 (conds1_B t hz h8).2.1 (conds1_B t hz h8).2.2.1 (conds1_B t hz h8).2.2.2 (iblk1 V c 0 t) (iblk1 V c 1 t) (iblk1 V c 2 t) ((outsAt1 V c (t.val - 1) (Nat.lt_of_le_of_lt (Nat.sub_le _ _) t.isLt))).2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_B t hz h8).1 (conds1_B t hz h8).2.1 (conds1_B t hz h8).2.2.1 (conds1_B t hz h8).2.2.2 (iblk1 V c 0 t) (iblk1 V c 1 t) (iblk1 V c 2 t) ((outsAt1 V c (t.val - 1) (Nat.lt_of_le_of_lt (Nat.sub_le _ _) t.isLt))).2.2, sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_B t hz h8).1 (conds1_B t hz h8).2.1 (conds1_B t hz h8).2.2.1 (conds1_B t hz h8).2.2.2 (iblk1 V c 0 t) (iblk1 V c 1 t) (iblk1 V c 2 t) ((outsAt1 V c (t.val - 1) (Nat.lt_of_le_of_lt (Nat.sub_le _ _) t.isLt))).2.2) := by
  obtain ⟨n, hn⟩ := t
  cases n with
  | zero => exact absurd rfl hz
  | succ n => exact (dif_neg (fun h : n + 1 = 63 => by have h8' : (n + 1) % 8 = 0 := h8; omega)).trans ((dif_pos h8).trans rfl)

theorem outsAt1_C (c : Dev nD) (t : Fin cfg1.N) (h8 : t.val % 8 ≠ 0) (h63 : t.val ≠ 63) (h9 : t.val % 9 = 0) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_C t h8 h63 h9).1 (conds1_C t h8 h63 h9).2.1 (conds1_C t h8 h63 h9).2.2.1 (conds1_C t h8 h63 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_C t h8 h63 h9).1 (conds1_C t h8 h63 h9).2.1 (conds1_C t h8 h63 h9).2.2.1 (conds1_C t h8 h63 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_C t h8 h63 h9).1 (conds1_C t h8 h63 h9).2.1 (conds1_C t h8 h63 h9).2.2.1 (conds1_C t h8 h63 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2) := by
  obtain ⟨n, hn⟩ := t
  cases n with
  | zero => exact absurd (Nat.zero_mod 8) h8
  | succ n => exact (dif_neg h63).trans ((dif_neg h8).trans ((dif_pos h9).trans rfl))

theorem outsAt1_D (c : Dev nD) (t : Fin cfg1.N) (h8 : t.val % 8 ≠ 0) (h9 : t.val % 9 ≠ 0) :
    outsAt1 V c t.val t.isLt = (out1_D_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_D t h8 h9).1 (conds1_D t h8 h9).2.1 (conds1_D t h8 h9).2.2.1 (conds1_D t h8 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, out1_D_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_D t h8 h9).1 (conds1_D t h8 h9).2.1 (conds1_D t h8 h9).2.2.1 (conds1_D t h8 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2, sout1_D c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_D t h8 h9).1 (conds1_D t h8 h9).2.1 (conds1_D t h8 h9).2.2.1 (conds1_D t h8 h9).2.2.2 (iblk1 V c 0 t) (iblk1 V c 1 t) (iblk1 V c 2 t) ((outsAt1 V c (t.val - 1) (Nat.lt_of_le_of_lt (Nat.sub_le _ _) t.isLt))).1 ((outsAt1 V c (t.val - 1) (Nat.lt_of_le_of_lt (Nat.sub_le _ _) t.isLt))).2.2) := by
  obtain ⟨n, hn⟩ := t
  cases n with
  | zero => exact absurd (Nat.zero_mod 8) h8
  | succ n => exact (dif_neg (fun h : n + 1 = 63 => by have h9' : (n + 1) % 9 ≠ 0 := h9; omega)).trans ((dif_neg h8).trans ((dif_neg h9).trans rfl))

/-- The region invariant before position n: before the first point the class's (every scratch at anything); afterwards the
    column-sum scratch at what the point before left in it, the other scratch at anything, the other scoped buffers and the
    generator register untouched. -/
def PhiS1 (c : Dev nD) : (n : ℕ) → n ≤ cfg1.N → sProp 𝕄
  | 0, _ => Pipeline.ΦA spec1 c
  | n + 1, hn => iprop(iprop(iprop(iprop((∃ d, owns (c : Thread nD τ) scM1_0 fullShare d) ∗ owns (c : Thread nD τ) scM1_1 fullShare ((outsAt1 V c n hn).2.2)) ∗ Pipeline.scopedRestBut (Ix := Unit) (Name := ℕ) (U := UR sig nD τ) (Lvl := ℕ) (Val := Elt F) spec1 c [cc1_scratch0, cc1_scratch1]) ∗ (∃ r, prngReg c r)))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(iprop((∃ d, owns (c : Thread nD τ) scM1_0 fullShare d) ∗ owns (c : Thread nD τ) scM1_1 fullShare ((outsAt1 V c n hn).2.2)) ∗ Pipeline.scopedRestBut (Ix := Unit) (Name := ℕ) (U := UR sig nD τ) (Lvl := ℕ) (Val := Elt F) spec1 c [cc1_scratch0, cc1_scratch1]) ∗ (∃ r, prngReg c r))) := rfl

theorem PhiS1_pos (c : Dev nD) (n : ℕ) (h : n ≤ cfg1.N) (hz : n ≠ 0) :
    PhiS1 V c n h = iprop(iprop(iprop(iprop((∃ d, owns (c : Thread nD τ) scM1_0 fullShare d) ∗ owns (c : Thread nD τ) scM1_1 fullShare ((outsAt1 V c (n - 1) (by omega)).2.2)) ∗ Pipeline.scopedRestBut (Ix := Unit) (Name := ℕ) (U := UR sig nD τ) (Lvl := ℕ) (Val := Elt F) spec1 c [cc1_scratch0, cc1_scratch1]) ∗ (∃ r, prngReg c r))) := by
  cases n with
  | zero => exact absurd rfl hz
  | succ n => rfl

/-! ## The pipeline's proof data -/

/-- The proof data of pipeline 1 on core c: the arrays as the region finds them; after the body at point t each input's
    buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- Inside a grid row the row-sum accumulator's current staging buffer holds what the body left at the point before: the
    buffer is not written back between. -/
theorem before1_3_K (c : Dev nD) (t : Fin cfg1.N) (h8 : t.val % 8 ≠ 0) (d) :
    (dat1 V c).before 3 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

end Cert.Kernel.Gen

end
-- ==== Proof.BRegion1.lean ====
import proofs.«152628_j8315056685239_2_alg».proof.Proof.BRegion1Data

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the body obligation at every point, and the invariant's two ends -/

variable (V : (c : Dev nD) → (b : Ref sig .tc) → Buf (Elt F) ((c : Thread nD τ).loc b))

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 2000000 in
/-- The body at any point: the position says which case the point is in; the inputs' memrefs hold their blocks, the
    accumulator what the point before left (inside a row) or anything (at a row's start, where it is zeroed first); the
    invariant hands over the scratch buffers and takes the column-sum scratch back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h63 : t.val = 63
  · have hz : t.val ≠ 0 := by omega
    have h8 : t.val % 8 ≠ 0 := by omega
    rw [show (dat1 V c).leavesExact 4 t = owns (c : Thread nD τ) (ms1_4 t) fullShare ((dat1 V c).after 4 t) from by
      unfold Dat.leavesExact; rw [liveAt1_4 t h63], after1_4]
    rw [outsAt1_E V c t h63]
    simp only [before1_3_K V c t h8]
    unfold out1_E_3 out1_E_4 sout1_E; (try dsimp only)
    rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((kernelRun1_E c (grid1.coords t) _ _ _ _ _ _ _ _ _ _ _ _ _ _ (conds1_E t h63).1 (conds1_E t h63).2.1 (conds1_E t h63).2.2.1 (conds1_E t h63).2.2.2 (iblk1 V c 0 t) (iblk1 V c 1 t) (iblk1 V c 2 t) _ _).2.2.2.2 ((dat1 V c).before 4 t d4) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, HS1⟩
    isplitl [HS0 HS1 Hrest Hg]
    · isplitl [HS0 HS1 Hrest]
      · isplitl [HS0 HS1]
        · isplitl [HS0]
          · iexists _; unfold owns; iexists _; isplitr
            swap; · iexact HS0
            ipureintro; rfl
          unfold owns; iexists _; isplitr
          swap; · iexact HS1
          ipureintro; rfl
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_E_3 c _ _ _ _ _ _ _ _ _ _ _ _ _ _ _ _ _ _ _ _ _ _ _ _)
    unfold owns; iexists _; isplitr
    swap; · iexact H4
    ipureintro; exact View.read_writes_of_cover _ _ _ _ _ (cover1_E_4 c _ _ _ _ _ _ _ _ _ _ _ _ _ _ _ _ _ _ _ _ _ _ _ _)
  · rw [Dat.leavesExact_idle (dat1 V c) 4 t (idleAt1_4 t h63) (noFlush1_4 t h63)]
    by_cases hz : t.val = 0
    · rw [outsAt1_A V c t hz]
      unfold out1_A_3 sout1_A; (try dsimp only)
      rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ (conds1_A t hz).1 (conds1_A t hz).2.1 (conds1_A t hz).2.2.1 (conds1_A t hz).2.2.2 (iblk1 V c 0 t) (iblk1 V c 1 t) (iblk1 V c 2 t)).2.2.2.2 ((dat1 V c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover1_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _ _ _ _ _ _)
      iexists _; iexact H4
    · by_cases h8 : t.val % 8 = 0
      · rw [outsAt1_B V c t hz h8]
        unfold out1_B_3 sout1_B; (try dsimp only)
        rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ (conds1_B t hz h8).1 (conds1_B t hz h8).2.1 (conds1_B t hz h8).2.2.1 (conds1_B t hz h8).2.2.2 (iblk1 V c 0 t) (iblk1 V c 1 t) (iblk1 V c 2 t) _).2.2.2.2 ((dat1 V c).before 4 t d4) Set.univ _)
        isplitl [H0]; · iexact H0
        isplitl [H1]; · iexact H1
        isplitl [H2]; · iexact H2
        isplitl [H3]; · iexists _; iexact H3
        isplitl [H4]; · iexact H4
        isplitl [HS0]; · iexact HS0
        isplitl [HS1]; · iexact HS1
        iintro ⟨H0, H1, H2, ⟨%e3, H3⟩, H4, ⟨%es0, HS0⟩, HS1⟩
        isplitl [HS0 HS1 Hrest Hg]
        · isplitl [HS0 HS1 Hrest]
          · isplitl [HS0 HS1]
            · isplitl [HS0]
              · iexists _; unfold owns; iexists _; isplitr
                swap; · iexact HS0
                ipureintro; rfl
              unfold owns; iexists _; isplitr
              swap; · iexact HS1
              ipureintro; rfl
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_B_3 c _ _ _ _ _ _ _ _ _ _ _ _ _ _ _ _ _ _ _ _ _ _ _)
        iexists _; iexact H4
      · by_cases h9 : t.val % 9 = 0
        · rw [outsAt1_C V c t h8 h63 h9]
          simp only [before1_3_K V c t h8]
          unfold out1_C_3 sout1_C; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩, ⟨%d4, H4⟩⟩
          iapply ((kernelRun1_C c (grid1.coords t) _ _ _ _ _ _ _ _ _ _ _ _ _ _ (conds1_C t h8 h63 h9).1 (conds1_C t h8 h63 h9).2.1 (conds1_C t h8 h63 h9).2.2.1 (conds1_C t h8 h63 h9).2.2.2 (iblk1 V c 0 t) (iblk1 V c 1 t) (iblk1 V c 2 t) _ _).2.2.2.2 ((dat1 V c).before 4 t d4) Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iintro ⟨H0, H1, H2, ⟨%e3, H3⟩, H4, ⟨%es0, HS0⟩, HS1⟩
          isplitl [HS0 HS1 Hrest Hg]
          · isplitl [HS0 HS1 Hrest]
            · isplitl [HS0 HS1]
              · isplitl [HS0]
                · iexists _; unfold owns; iexists _; isplitr
                  swap; · iexact HS0
                  ipureintro; rfl
                unfold owns; iexists _; isplitr
                swap; · iexact HS1
                ipureintro; rfl
              iexact Hrest
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover1_C_3 c _ _ _ _ _ _ _ _ _ _ _ _ _ _ _ _ _ _ _ _ _ _ _ _)
          iexists _; iexact H4
        · rw [outsAt1_D V c t h8 h9]
          simp only [before1_3_K V c t h8]
          unfold out1_D_3 sout1_D; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩, ⟨%d4, H4⟩⟩
          iapply ((kernelRun1_D c (grid1.coords t) _ _ _ _ _ _ _ _ _ _ _ _ _ _ (conds1_D t h8 h9).1 (conds1_D t h8 h9).2.1 (conds1_D t h8 h9).2.2.1 (conds1_D t h8 h9).2.2.2 (iblk1 V c 0 t) (iblk1 V c 1 t) (iblk1 V c 2 t) _ _).2.2.2.2 ((dat1 V c).before 4 t d4) Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iintro ⟨H0, H1, H2, ⟨%e3, H3⟩, H4, ⟨%es0, HS0⟩, HS1⟩
          isplitl [HS0 HS1 Hrest Hg]
          · isplitl [HS0 HS1 Hrest]
            · isplitl [HS0 HS1]
              · isplitl [HS0]
                · iexists _; unfold owns; iexists _; isplitr
                  swap; · iexact HS0
                  ipureintro; rfl
                unfold owns; iexists _; isplitr
                swap; · iexact HS1
                ipureintro; rfl
              iexact Hrest
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover1_D_3 c _ _ _ _ _ _ _ _ _ _ _ _ _ _ _ _ _ _ _ _ _ _ _ _)
          iexists _; iexact H4

set_option maxHeartbeats 4000000 in
/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Gen

end
-- ==== Proof.BRegion2.lean ====
import proofs.«152628_j8315056685239_2_alg».proof.Proof.Gen.Kernel.Launch
import proofs.«152628_j8315056685239_2_alg».proof.Proof.Gen.Kernel.Skeleton
import proofs.«152628_j8315056685239_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # Region 2: the accumulating product of a normalised adjacency block and a right-hand block

At grid point (g0, g1) the body forms, from the S2048x256 adjacency block, the row scale and the column scale, the
normalised block (adjacency times row scale times column scale, with the product of the two scales added where the
global row index equals the global column index), rounds it to bf16, multiplies it into the S256x1024 right-hand
block, and adds the product to the S2048x1024 accumulator; at the points with g1 = 0 the accumulator is first reset to
zero. The accumulator's buffer is written back after the last g1 of each g0, so over the 32 points of one g0 it
carries the running sum. Everything here is stated at any contents `V` of the core's buffers on entry to the region. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (where it did not, the block index has not moved since the last fetch), for any proof data over the entry
    arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not (where it did not, the block index has not moved since the last fetch), for any proof data over the entry
    arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not (where it did not, the block index has not moved since the last fetch), for any proof data over the entry
    arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there or
    not (where it did not, the block index has not moved since the last fetch), for any proof data over the entry
    arrays whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The reset condition -/

/-- The body's reset test: grid coordinate 1 is zero. -/
abbrev cond2_0 (i : grid2.Coords) : Prop := (Scalar.cmpi .ne (Scalar.extui (Scalar.cmpi .eq (BitVec.ofNat 32 (i 1).val) 0#32)) 0#32) = 1#1
/-- In the row-major order of the grid it holds exactly at the points that are multiples of 32. -/
theorem hcond2_0 : ∀ t : Fin cfg2.N, cond2_0 (grid2.coords t) ↔ t.val % 32 = 0 :=
  (by decide +kernel : ∀ t : Fin grid2.N, cond2_0 (grid2.coords t) ↔ t.val % 32 = 0)

/-! ## The staging memrefs -/

/-- One staging buffer of the accumulator window, through which its contents are stated (once the pieces cover the
    block the choice does not matter). -/
abbrev VO2_4 : View sig .tc .vmem S2048x1024 .f32 := (Memref.whole cc2_stg4_0 : Memref sig .tc .vmem S2048x1024 .f32).view
abbrev ms2_0 (t : Fin cfg2.N) : Memref sig .tc .vmem S2048x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)

/-! ## The body's two runs -/

set_option maxHeartbeats 1000000 in
/-- The resetting run (grid coordinate 1 zero): from the four input buffers at `x0 … x3` and the accumulator's
    buffer at anything, the body ends with the inputs as they were and the accumulator's buffer overwritten by the
    listed pieces (last store first): the zero block, then the sum of the zero block and the product. -/
noncomputable def kernelRun2_A (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : cond2_0 i)
    (x0 : Vec F S2048x256 .bf16) (x1 : Vec F S2048x1 .f32) (x2 : Vec F S1x256 .f32) (x3 : Vec F S256x1024 .bf16) :
    { L4 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2_kernel i arg2 harg2 arg3 harg3 arg4 harg4 arg5 harg5 arg6 harg6) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The accumulating run (grid coordinate 1 not zero): the accumulator's buffer holds the running sum `xo4`, and
    ends overwritten by the one piece "running sum plus product". -/
noncomputable def kernelRun2_B (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : ¬cond2_0 i)
    (x0 : Vec F S2048x256 .bf16) (x1 : Vec F S2048x1 .f32) (x2 : Vec F S1x256 .f32) (x3 : Vec F S256x1024 .bf16) (xo4 : Vec F S2048x1024 .f32) :
    { L4 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2_kernel i arg2 harg2 arg3 harg3 arg4 harg4 arg5 harg5 arg6 harg6) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What each run leaves in the accumulator's buffer -/

/-- The resetting run's pieces tile the accumulator block, so they cover it. -/
theorem cover2_A_4 (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : cond2_0 i)
    (x0 : Vec F S2048x256 .bf16) (x1 : Vec F S2048x1 .f32) (x2 : Vec F S1x256 .f32) (x3 : Vec F S256x1024 .bf16) (y : S2048x1024.Idx) :
    ∃ pc ∈ (kernelRun2_A c i arg2 harg2 arg3 harg3 arg4 harg4 arg5 harg5 arg6 harg6 hc0 x0 x1 x2 x3).1, y ∈ pc.1.set :=
  View.cover_of_tiledL (kernelRun2_A c i arg2 harg2 arg3 harg3 arg4 harg4 arg5 harg5 arg6 harg6 hc0 x0 x1 x2 x3).1 S2048x1024.size (by sl_kernel_rfl) y

/-- What the resetting run leaves in the accumulator's buffer: its pieces read back. -/
def out2_A_4 (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : cond2_0 i)
    (x0 : Vec F S2048x256 .bf16) (x1 : Vec F S2048x1 .f32) (x2 : Vec F S1x256 .f32) (x3 : Vec F S256x1024 .bf16) : Vec F S2048x1024 .f32 :=
  VO2_4.read (Elt F) (VO2_4.writes (Elt F) VO2_4.junk (kernelRun2_A c i arg2 harg2 arg3 harg3 arg4 harg4 arg5 harg5 arg6 harg6 hc0 x0 x1 x2 x3).1)

/-- The accumulating run's piece is the whole accumulator block, so it covers it. -/
theorem cover2_B_4 (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : ¬cond2_0 i)
    (x0 : Vec F S2048x256 .bf16) (x1 : Vec F S2048x1 .f32) (x2 : Vec F S1x256 .f32) (x3 : Vec F S256x1024 .bf16) (xo4 : Vec F S2048x1024 .f32) (y : S2048x1024.Idx) :
    ∃ pc ∈ (kernelRun2_B c i arg2 harg2 arg3 harg3 arg4 harg4 arg5 harg5 arg6 harg6 hc0 x0 x1 x2 x3 xo4).1, y ∈ pc.1.set :=
  View.cover_of_tiledL (kernelRun2_B c i arg2 harg2 arg3 harg3 arg4 harg4 arg5 harg5 arg6 harg6 hc0 x0 x1 x2 x3 xo4).1 S2048x1024.size (by sl_kernel_rfl) y

/-- What the accumulating run leaves in the accumulator's buffer: its piece read back. -/
def out2_B_4 (c : Dev nD) (i : grid2.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S2048x1024 .f32) (harg6 : arg6.IsWhole) (hc0 : ¬cond2_0 i)
    (x0 : Vec F S2048x256 .bf16) (x1 : Vec F S2048x1 .f32) (x2 : Vec F S1x256 .f32) (x3 : Vec F S256x1024 .bf16) (xo4 : Vec F S2048x1024 .f32) : Vec F S2048x1024 .f32 :=
  VO2_4.read (Elt F) (VO2_4.writes (Elt F) VO2_4.junk (kernelRun2_B c i arg2 harg2 arg3 harg3 arg4 harg4 arg5 harg5 arg6 harg6 hc0 x0 x1 x2 x3 xo4).1)

/-! ## The accumulator point by point -/

/-- What the accumulator's staging buffer holds after the body at position `n` of the grid: at a multiple of 32 the
    resetting run on the point's blocks; elsewhere the accumulating run on the point's blocks over what position
    `n - 1` left (the buffer is not written back in between). -/
def outsAt2 (c : Dev nD) : (n : ℕ) → n < cfg2.N → Vec F S2048x1024 .f32
  | 0, hn => out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩)
  | n + 1, hn =>
    if h0 : (n + 1) % 32 = 0 then
      out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩)
    else
      out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn))

/-- At a resetting point: the resetting run's contents. -/
theorem outsAt2_A (c : Dev nD) (t : Fin cfg2.N) (h0 : t.val % 32 = 0) :
    outsAt2 V c t.val t.isLt = out2_A_4 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t) (iblk2 V c 3 t) := by
  obtain ⟨n, hn⟩ := t
  cases n with
  | zero => exact rfl
  | succ n => exact (dif_pos h0).trans rfl

/-- At an accumulating point: the accumulating run's contents over what the point before left. -/
theorem outsAt2_B (c : Dev nD) (t : Fin cfg2.N) (h0 : ¬t.val % 32 = 0) :
    outsAt2 V c t.val t.isLt = out2_B_4 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them; after the body at point `t` each
    input's buffer at its block and the accumulator's at `outsAt2`; the invariant is the untouched rest of the core;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At an accumulating point the accumulator's staging buffer holds what the body left at the point before: the
    point is not the first, and the buffer was written back only after the last point of a row of the grid. -/
theorem before2_4_B (c : Dev nD) (t : Fin cfg2.N) (h0 : ¬t.val % 32 = 0) (d) :
    (dat2 V c).before 4 t d = (outsAt2 V c (t.val - 1) (Nat.lt_of_le_of_lt (Nat.sub_le _ _) t.isLt)) := by
  have hN : t.val < 128 := lt_of_lt_of_eq t.isLt (show cfg2.N = 128 from N_2)
  rw [Dat.before_out_kept _ 4 rfl t (by omega) (Bool.eq_false_iff.mpr fun h => by have := (flush2_4 _).mp h; dsimp only at this; omega)
    (fun _ => rfl) (fun _ _ => rfl)]
  dsimp only [dat2]

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1000000 in
/-- The body at any point: the inputs' buffers hold their blocks; the point is a resetting or an accumulating one
    according to its position modulo 32, and at an accumulating one the accumulator's buffer holds what the point
    before left; so the matching run applies, and the rest of the core passes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 128 := lt_of_lt_of_eq t.isLt (show cfg2.N = 128 from N_2)
  by_cases h0 : t.val % 32 = 0
  · rw [outsAt2_A V c t h0]
    unfold out2_A_4
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2_0 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A_4 c _ _ _ _ _ _ _ _ _ _ _ _ _ _ _ _)
  · rw [outsAt2_B V c t h0]
    simp only [before2_4_B V c t h0]
    unfold out2_B_4
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2_0 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _)

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.BRegion3.lean ====
import proofs.«152628_j8315056685239_2_alg».proof.Proof.Gen.Kernel.Launch
import proofs.«152628_j8315056685239_2_alg».proof.Proof.Gen.Kernel.Skeleton
import proofs.«152628_j8315056685239_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # Region 3: the accumulating product of a TRANSPOSED normalised adjacency block and a right-hand block

At grid point (g0, g1) the body forms, from the S256x2048 adjacency block, the row scale and the column scale, the
normalised block (adjacency times row scale times column scale, with the product of the two scales added where the
global row index equals the global column index), rounds it to bf16, multiplies its transpose into the S256x512 right-hand
block (the product contracts the first axis of both, the adjacency block being indexed (g1, g0)), and adds the product to the S2048x512 accumulator; at the points with g1 = 0 the accumulator is first reset to
zero. The accumulator's buffer is written back after the last g1 of each g0, so over the 32 points of one g0 it
carries the running sum. Everything here is stated at any contents `V` of the core's buffers on entry to the region. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not (where it did not, the block index has not moved since the last fetch), for any proof data over the entry
    arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the pipeline fetched it there or
    not (where it did not, the block index has not moved since the last fetch), for any proof data over the entry
    arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the pipeline fetched it there or
    not (where it did not, the block index has not moved since the last fetch), for any proof data over the entry
    arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the pipeline fetched it there or
    not (where it did not, the block index has not moved since the last fetch), for any proof data over the entry
    arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The reset condition -/

/-- The body's reset test: grid coordinate 1 is zero. -/
abbrev cond3_0 (i : grid3.Coords) : Prop := (Scalar.cmpi .ne (Scalar.extui (Scalar.cmpi .eq (BitVec.ofNat 32 (i 1).val) 0#32)) 0#32) = 1#1
/-- In the row-major order of the grid it holds exactly at the points that are multiples of 32. -/
theorem hcond3_0 : ∀ t : Fin cfg3.N, cond3_0 (grid3.coords t) ↔ t.val % 32 = 0 :=
  (by decide +kernel : ∀ t : Fin grid3.N, cond3_0 (grid3.coords t) ↔ t.val % 32 = 0)

/-! ## The staging memrefs -/

/-- One staging buffer of the accumulator window, through which its contents are stated (once the pieces cover the
    block the choice does not matter). -/
abbrev VO3_4 : View sig .tc .vmem S2048x512 .f32 := (Memref.whole cc3_stg4_0 : Memref sig .tc .vmem S2048x512 .f32).view
abbrev ms3_0 (t : Fin cfg3.N) : Memref sig .tc .vmem S256x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x512 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x512 .f32 := win3_4.stage (cfg3.slots t 4)
abbrev hs3_4 (t : Fin cfg3.N) : (ms3_4 t).IsWhole := hstage3_4 ((cfg3.slots t 4).cast nbuf3_4)

/-! ## The body's two runs -/

set_option maxHeartbeats 1000000 in
/-- The resetting run (grid coordinate 1 zero): from the four input buffers at `x0 … x3` and the accumulator's
    buffer at anything, the body ends with the inputs as they were and the accumulator's buffer overwritten by the
    listed pieces (last store first): the zero block, then the sum of the zero block and the product. -/
noncomputable def kernelRun3_A (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : cond3_0 i)
    (x0 : Vec F S256x2048 .bf16) (x1 : Vec F S256x1 .f32) (x2 : Vec F S1x2048 .f32) (x3 : Vec F S256x512 .bf16) :
    { L4 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc3_kernel i arg2 harg2 arg3 harg3 arg4 harg4 arg5 harg5 arg6 harg6) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The accumulating run (grid coordinate 1 not zero): the accumulator's buffer holds the running sum `xo4`, and
    ends overwritten by the one piece "running sum plus product". -/
noncomputable def kernelRun3_B (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : ¬cond3_0 i)
    (x0 : Vec F S256x2048 .bf16) (x1 : Vec F S256x1 .f32) (x2 : Vec F S1x2048 .f32) (x3 : Vec F S256x512 .bf16) (xo4 : Vec F S2048x512 .f32) :
    { L4 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc3_kernel i arg2 harg2 arg3 harg3 arg4 harg4 arg5 harg5 arg6 harg6) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What each run leaves in the accumulator's buffer -/

/-- The resetting run's pieces tile the accumulator block, so they cover it. -/
theorem cover3_A_4 (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : cond3_0 i)
    (x0 : Vec F S256x2048 .bf16) (x1 : Vec F S256x1 .f32) (x2 : Vec F S1x2048 .f32) (x3 : Vec F S256x512 .bf16) (y : S2048x512.Idx) :
    ∃ pc ∈ (kernelRun3_A c i arg2 harg2 arg3 harg3 arg4 harg4 arg5 harg5 arg6 harg6 hc0 x0 x1 x2 x3).1, y ∈ pc.1.set :=
  View.cover_of_tiledL (kernelRun3_A c i arg2 harg2 arg3 harg3 arg4 harg4 arg5 harg5 arg6 harg6 hc0 x0 x1 x2 x3).1 S2048x512.size (by sl_kernel_rfl) y

/-- What the resetting run leaves in the accumulator's buffer: its pieces read back. -/
def out3_A_4 (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : cond3_0 i)
    (x0 : Vec F S256x2048 .bf16) (x1 : Vec F S256x1 .f32) (x2 : Vec F S1x2048 .f32) (x3 : Vec F S256x512 .bf16) : Vec F S2048x512 .f32 :=
  VO3_4.read (Elt F) (VO3_4.writes (Elt F) VO3_4.junk (kernelRun3_A c i arg2 harg2 arg3 harg3 arg4 harg4 arg5 harg5 arg6 harg6 hc0 x0 x1 x2 x3).1)

/-- The accumulating run's piece is the whole accumulator block, so it covers it. -/
theorem cover3_B_4 (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : ¬cond3_0 i)
    (x0 : Vec F S256x2048 .bf16) (x1 : Vec F S256x1 .f32) (x2 : Vec F S1x2048 .f32) (x3 : Vec F S256x512 .bf16) (xo4 : Vec F S2048x512 .f32) (y : S2048x512.Idx) :
    ∃ pc ∈ (kernelRun3_B c i arg2 harg2 arg3 harg3 arg4 harg4 arg5 harg5 arg6 harg6 hc0 x0 x1 x2 x3 xo4).1, y ∈ pc.1.set :=
  View.cover_of_tiledL (kernelRun3_B c i arg2 harg2 arg3 harg3 arg4 harg4 arg5 harg5 arg6 harg6 hc0 x0 x1 x2 x3 xo4).1 S2048x512.size (by sl_kernel_rfl) y

/-- What the accumulating run leaves in the accumulator's buffer: its piece read back. -/
def out3_B_4 (c : Dev nD) (i : grid3.Coords) (arg2 : Memref sig .tc .vmem S256x2048 .bf16) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x512 .bf16) (harg5 : arg5.IsWhole) (arg6 : Memref sig .tc .vmem S2048x512 .f32) (harg6 : arg6.IsWhole) (hc0 : ¬cond3_0 i)
    (x0 : Vec F S256x2048 .bf16) (x1 : Vec F S256x1 .f32) (x2 : Vec F S1x2048 .f32) (x3 : Vec F S256x512 .bf16) (xo4 : Vec F S2048x512 .f32) : Vec F S2048x512 .f32 :=
  VO3_4.read (Elt F) (VO3_4.writes (Elt F) VO3_4.junk (kernelRun3_B c i arg2 harg2 arg3 harg3 arg4 harg4 arg5 harg5 arg6 harg6 hc0 x0 x1 x2 x3 xo4).1)

/-! ## The accumulator point by point -/

/-- What the accumulator's staging buffer holds after the body at position `n` of the grid: at a multiple of 32 the
    resetting run on the point's blocks; elsewhere the accumulating run on the point's blocks over what position
    `n - 1` left (the buffer is not written back in between). -/
def outsAt3 (c : Dev nD) : (n : ℕ) → n < cfg3.N → Vec F S2048x512 .f32
  | 0, hn => out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (iblk3 V c 0 ⟨0, hn⟩) (iblk3 V c 1 ⟨0, hn⟩) (iblk3 V c 2 ⟨0, hn⟩) (iblk3 V c 3 ⟨0, hn⟩)
  | n + 1, hn =>
    if h0 : (n + 1) % 32 = 0 then
      out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (iblk3 V c 0 ⟨n + 1, hn⟩) (iblk3 V c 1 ⟨n + 1, hn⟩) (iblk3 V c 2 ⟨n + 1, hn⟩) (iblk3 V c 3 ⟨n + 1, hn⟩)
    else
      out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn))

/-- At a resetting point: the resetting run's contents. -/
theorem outsAt3_A (c : Dev nD) (t : Fin cfg3.N) (h0 : t.val % 32 = 0) :
    outsAt3 V c t.val t.isLt = out3_A_4 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t) (iblk3 V c 3 t) := by
  obtain ⟨n, hn⟩ := t
  cases n with
  | zero => exact rfl
  | succ n => exact (dif_pos h0).trans rfl

/-- At an accumulating point: the accumulating run's contents over what the point before left. -/
theorem outsAt3_B (c : Dev nD) (t : Fin cfg3.N) (h0 : ¬t.val % 32 = 0) :
    outsAt3 V c t.val t.isLt = out3_B_4 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 3 on core `c`: the arrays as the region finds them; after the body at point `t` each
    input's buffer at its block and the accumulator's at `outsAt3`; the invariant is the untouched rest of the core;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- At an accumulating point the accumulator's staging buffer holds what the body left at the point before: the
    point is not the first, and the buffer was written back only after the last point of a row of the grid. -/
theorem before3_4_B (c : Dev nD) (t : Fin cfg3.N) (h0 : ¬t.val % 32 = 0) (d) :
    (dat3 V c).before 4 t d = (outsAt3 V c (t.val - 1) (Nat.lt_of_le_of_lt (Nat.sub_le _ _) t.isLt)) := by
  have hN : t.val < 128 := lt_of_lt_of_eq t.isLt (show cfg3.N = 128 from N_3)
  rw [Dat.before_out_kept _ 4 rfl t (by omega) (Bool.eq_false_iff.mpr fun h => by have := (flush3_4 _).mp h; dsimp only at this; omega)
    (fun _ => rfl) (fun _ _ => rfl)]
  dsimp only [dat3]

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

set_option maxHeartbeats 1000000 in
/-- The body at any point: the inputs' buffers hold their blocks; the point is a resetting or an accumulating one
    according to its position modulo 32, and at an accumulating one the accumulator's buffer holds what the point
    before left; so the matching run applies, and the rest of the core passes through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  have hN : t.val < 128 := lt_of_lt_of_eq t.isLt (show cfg3.N = 128 from N_3)
  by_cases h0 : t.val % 32 = 0
  · rw [outsAt3_A V c t h0]
    unfold out3_A_4
    iintro ⟨HΦ, Ho, ⟨%d0, H0⟩, ⟨%d1, H1⟩, ⟨%d2, H2⟩, ⟨%d3, H3⟩, ⟨%d4, H4⟩⟩
    iapply ((kernelRun3_A c (grid3.coords t) _ _ _ _ _ _ _ _ _ _ ((hcond3_0 t).mpr h0) (iblk3 V c 0 t) (iblk3 V c 1 t) (iblk3 V c 2 t) (iblk3 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_A_4 c _ _ _ _ _ _ _ _ _ _ _ _ _ _ _ _)
  · rw [outsAt3_B V c t h0]
    simp only [before3_4_B V c t h0]
    unfold out3_B_4
    iintro ⟨HΦ, Ho, ⟨%d0, H0⟩, ⟨%d1, H1⟩, ⟨%d2, H2⟩, ⟨%d3, H3⟩, ⟨%d4, H4⟩⟩
    iapply ((kernelRun3_B c (grid3.coords t) _ _ _ _ _ _ _ _ _ _ (fun h => h0 ((hcond3_0 t).mp h)) (iblk3 V c 0 t) (iblk3 V c 1 t) (iblk3 V c 2 t) (iblk3 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_B_4 c _ _ _ _ _ _ _ _ _ _ _ _ _ _ _ _ _)

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.BRegion4.lean ====
/- Region 4 of the program: the dense layer with a rectified output, out = max(x · W, 0), on a grid of 8 row blocks (1024 rows of x each, all of W).
   Everything is stated at a parameter `V`, the contents of the core's buffers when the region is entered, and
   generically in the float instance. Per grid point the body reads the whole operand block and the whole weight
   block and overwrites the whole output block with one value, a pure function of the two blocks read
   (`k4_pay1`); so the output buffer after the body does not depend on what it held before, and the region's
   proof data are: inputs left at their blocks, the output at that function of the two input blocks. -/
import proofs.«152628_j8315056685239_2_alg».proof.Proof.Gen.Kernel.Launch
import proofs.«152628_j8315056685239_2_alg».proof.Proof.Gen.Kernel.Skeleton
import proofs.«152628_j8315056685239_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the rectangle of the window's array (as the region finds it) that
    the window's index map selects there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The operand window's buffer holds the operand's block at every point, for any proof data over `V`'s arrays whose
    body leaves that block in place: a point that fetches puts it there, and a point that does not has the block
    index of the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the weight window, whose one block (the whole weight) is fetched at the first point only: at every
    later point the block index has not moved, so the buffer still holds it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: each buffer whole -/

abbrev r4_0 : Rect S1024x512 := Rect.unit (s := S1024x512) ![0, 0] S1024x512.size inb_S1024x512_S1024x512_0_0
abbrev r4_1 : Rect S512x256 := Rect.unit (s := S512x256) ![0, 0] S512x256.size inb_S512x256_S512x256_0_0
abbrev r4_2 : Rect S1024x256 := Rect.unit (s := S1024x256) ![0, 0] S1024x256.size inb_S1024x256_S1024x256_0_0

/-! ## What the body leaves in the output buffer -/

/-- The output buffer after the body, as a function of the operand block `x0` and the weight block `x1`: the one
    store, of the payload computed from the two blocks read whole, over the whole buffer. -/
def out4_2 (x0 : Vec F S1024x512 .f32) (x1 : Vec F S512x256 .f32) : Vec F S1024x256 .f32 :=
  View.canon [⟨r4_2, k4_pay1 (View.ld x0 r4_0) (View.ld x1 r4_1)⟩]

/-- The store's rectangle is the whole buffer, so every index of the buffer lies in it. -/
theorem cover4_2 (p0 : Vec F S1024x256 .f32) (y : S1024x256.Idx) :
    ∃ pc ∈ ([⟨r4_2, p0⟩] : List (View.Piece (Elt F) S1024x256 .f32)), y ∈ pc.1.set :=
  View.cover_of_tiled [⟨r4_2, p0⟩] S1024x256.size (by rfl) y

/-! ## The body's triple -/

set_option maxHeartbeats 1000000 in
/-- The body run on whole buffers: the two inputs at contents `x0`, `x1` and the output at anything. It ends with the
    inputs as they were and the output at `out4_2 x0 x1`. (The body also loads the output buffer before the store;
    that value is not used.) -/
theorem sound_kernel4 (c : Dev nD) (E : Set ℕ) (i : grid4.Coords)
    (arg1 : Memref sig .tc .vmem S1024x512 .f32) (harg1 : arg1.IsWhole)
    (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__dense_kernel i arg1 harg1 arg2 harg2 arg3 harg3) K := by
  simp only [cc4__dense_kernel_eq_skeleton]; unfold cc4__dense_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The region's proof data -/

/-- The proof data of the region on core `c`: the arrays as the region finds them; after the body at point `t` each
    input buffer still at its block and the output buffer at `out4_2` of the two input blocks; the invariant that
    carries the scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

/-- Each input buffer holds its block when the body is entered, at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation at a generic point -/

/-- What the body is entered with at point `t`: the invariant, the core's debts, and each window's current buffer
    whole at what the proof data say it holds there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- What it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input buffers hold their blocks, so the body's triple applies with those blocks; the
    invariant and the debts are not touched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.BRegion5.lean ====
import proofs.«152628_j8315056685239_2_alg».proof.Proof.Gen.Kernel.Launch
import proofs.«152628_j8315056685239_2_alg».proof.Proof.Gen.Kernel.Skeleton
import proofs.«152628_j8315056685239_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # Region 5: the accumulating product of a normalised adjacency block and a right-hand block

At grid point (g0, g1) the body forms, from the S2048x256 adjacency block, the row scale and the column scale, the
normalised block (adjacency times row scale times column scale, with the product of the two scales added where the
global row index equals the global column index), rounds it to bf16, multiplies it into the S256x256 right-hand
block, and adds the product to the S2048x256 accumulator; at the points with g1 = 0 the accumulator is first reset to
zero. The accumulator's buffer is written back after the last g1 of each g0, so over the 32 points of one g0 it
carries the running sum. Everything here is stated at any contents `V` of the core's buffers on entry to the region. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it there or
    not (where it did not, the block index has not moved since the last fetch), for any proof data over the entry
    arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the pipeline fetched it there or
    not (where it did not, the block index has not moved since the last fetch), for any proof data over the entry
    arrays whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the pipeline fetched it there or
    not (where it did not, the block index has not moved since the last fetch), for any proof data over the entry
    arrays whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the pipeline fetched it there or
    not (where it did not, the block index has not moved since the last fetch), for any proof data over the entry
    arrays whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The reset condition -/

/-- The body's reset test: grid coordinate 1 is zero. -/
abbrev cond5_0 (i : grid5.Coords) : Prop := (Scalar.cmpi .ne (Scalar.extui (Scalar.cmpi .eq (BitVec.ofNat 32 (i 1).val) 0#32)) 0#32) = 1#1
/-- In the row-major order of the grid it holds exactly at the points that are multiples of 32. -/
theorem hcond5_0 : ∀ t : Fin cfg5.N, cond5_0 (grid5.coords t) ↔ t.val % 32 = 0 :=
  (by decide +kernel : ∀ t : Fin grid5.N, cond5_0 (grid5.coords t) ↔ t.val % 32 = 0)

/-! ## The staging memrefs -/

/-- One staging buffer of the accumulator window, through which its contents are stated (once the pieces cover the
    block the choice does not matter). -/
abbrev VO5_4 : View sig .tc .vmem S2048x256 .f32 := (Memref.whole cc5_stg4_0 : Memref sig .tc .vmem S2048x256 .f32).view
abbrev ms5_0 (t : Fin cfg5.N) : Memref sig .tc .vmem S2048x256 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S256x256 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S2048x256 .f32 := win5_4.stage (cfg5.slots t 4)
abbrev hs5_4 (t : Fin cfg5.N) : (ms5_4 t).IsWhole := hstage5_4 ((cfg5.slots t 4).cast nbuf5_4)

/-! ## The body's two runs -/

set_option maxHeartbeats 1000000 in
/-- The resetting run (grid coordinate 1 zero): from the four input buffers at `x0 … x3` and the accumulator's
    buffer at anything, the body ends with the inputs as they were and the accumulator's buffer overwritten by the
    listed pieces (last store first): the zero block, then the sum of the zero block and the product. -/
noncomputable def kernelRun5_A (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : cond5_0 i)
    (x0 : Vec F S2048x256 .bf16) (x1 : Vec F S2048x1 .f32) (x2 : Vec F S1x256 .f32) (x3 : Vec F S256x256 .bf16) :
    { L4 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc5_kernel i arg2 harg2 arg3 harg3 arg4 harg4 arg5 harg5 arg6 harg6) K } := by
  refine ⟨?_, fun E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The accumulating run (grid coordinate 1 not zero): the accumulator's buffer holds the running sum `xo4`, and
    ends overwritten by the one piece "running sum plus product". -/
noncomputable def kernelRun5_B (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : ¬cond5_0 i)
    (x0 : Vec F S2048x256 .bf16) (x1 : Vec F S2048x1 .f32) (x2 : Vec F S1x256 .f32) (x3 : Vec F S256x256 .bf16) (xo4 : Vec F S2048x256 .f32) :
    { L4 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc5_kernel i arg2 harg2 arg3 harg3 arg4 harg4 arg5 harg5 arg6 harg6) K } := by
  refine ⟨?_, fun E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What each run leaves in the accumulator's buffer -/

/-- The resetting run's pieces tile the accumulator block, so they cover it. -/
theorem cover5_A_4 (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : cond5_0 i)
    (x0 : Vec F S2048x256 .bf16) (x1 : Vec F S2048x1 .f32) (x2 : Vec F S1x256 .f32) (x3 : Vec F S256x256 .bf16) (y : S2048x256.Idx) :
    ∃ pc ∈ (kernelRun5_A c i arg2 harg2 arg3 harg3 arg4 harg4 arg5 harg5 arg6 harg6 hc0 x0 x1 x2 x3).1, y ∈ pc.1.set :=
  View.cover_of_tiledL (kernelRun5_A c i arg2 harg2 arg3 harg3 arg4 harg4 arg5 harg5 arg6 harg6 hc0 x0 x1 x2 x3).1 S2048x256.size (by sl_kernel_rfl) y

/-- What the resetting run leaves in the accumulator's buffer: its pieces read back. -/
def out5_A_4 (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : cond5_0 i)
    (x0 : Vec F S2048x256 .bf16) (x1 : Vec F S2048x1 .f32) (x2 : Vec F S1x256 .f32) (x3 : Vec F S256x256 .bf16) : Vec F S2048x256 .f32 :=
  VO5_4.read (Elt F) (VO5_4.writes (Elt F) VO5_4.junk (kernelRun5_A c i arg2 harg2 arg3 harg3 arg4 harg4 arg5 harg5 arg6 harg6 hc0 x0 x1 x2 x3).1)

/-- The accumulating run's piece is the whole accumulator block, so it covers it. -/
theorem cover5_B_4 (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : ¬cond5_0 i)
    (x0 : Vec F S2048x256 .bf16) (x1 : Vec F S2048x1 .f32) (x2 : Vec F S1x256 .f32) (x3 : Vec F S256x256 .bf16) (xo4 : Vec F S2048x256 .f32) (y : S2048x256.Idx) :
    ∃ pc ∈ (kernelRun5_B c i arg2 harg2 arg3 harg3 arg4 harg4 arg5 harg5 arg6 harg6 hc0 x0 x1 x2 x3 xo4).1, y ∈ pc.1.set :=
  View.cover_of_tiledL (kernelRun5_B c i arg2 harg2 arg3 harg3 arg4 harg4 arg5 harg5 arg6 harg6 hc0 x0 x1 x2 x3 xo4).1 S2048x256.size (by sl_kernel_rfl) y

/-- What the accumulating run leaves in the accumulator's buffer: its piece read back. -/
def out5_B_4 (c : Dev nD) (i : grid5.Coords) (arg2 : Memref sig .tc .vmem S2048x256 .bf16) (harg2 : arg2.IsWhole) (arg3 : Memref sig .tc .vmem S2048x1 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S2048x256 .f32) (harg6 : arg6.IsWhole) (hc0 : ¬cond5_0 i)
    (x0 : Vec F S2048x256 .bf16) (x1 : Vec F S2048x1 .f32) (x2 : Vec F S1x256 .f32) (x3 : Vec F S256x256 .bf16) (xo4 : Vec F S2048x256 .f32) : Vec F S2048x256 .f32 :=
  VO5_4.read (Elt F) (VO5_4.writes (Elt F) VO5_4.junk (kernelRun5_B c i arg2 harg2 arg3 harg3 arg4 harg4 arg5 harg5 arg6 harg6 hc0 x0 x1 x2 x3 xo4).1)

/-! ## The accumulator point by point -/

/-- What the accumulator's staging buffer holds after the body at position `n` of the grid: at a multiple of 32 the
    resetting run on the point's blocks; elsewhere the accumulating run on the point's blocks over what position
    `n - 1` left (the buffer is not written back in between). -/
def outsAt5 (c : Dev nD) : (n : ℕ) → n < cfg5.N → Vec F S2048x256 .f32
  | 0, hn => out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩)
  | n + 1, hn =>
    if h0 : (n + 1) % 32 = 0 then
      out5_A_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩)
    else
      out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn))

/-- At a resetting point: the resetting run's contents. -/
theorem outsAt5_A (c : Dev nD) (t : Fin cfg5.N) (h0 : t.val % 32 = 0) :
    outsAt5 V c t.val t.isLt = out5_A_4 c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t) (iblk5 V c 2 t) (iblk5 V c 3 t) := by
  obtain ⟨n, hn⟩ := t
  cases n with
  | zero => exact rfl
  | succ n => exact (dif_pos h0).trans rfl

/-- At an accumulating point: the accumulating run's contents over what the point before left. -/
theorem outsAt5_B (c : Dev nD) (t : Fin cfg5.N) (h0 : ¬t.val % 32 = 0) :
    outsAt5 V c t.val t.isLt = out5_B_4 c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 5 on core `c`: the arrays as the region finds them; after the body at point `t` each
    input's buffer at its block and the accumulator's at `outsAt5`; the invariant is the untouched rest of the core;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- At an accumulating point the accumulator's staging buffer holds what the body left at the point before: the
    point is not the first, and the buffer was written back only after the last point of a row of the grid. -/
theorem before5_4_B (c : Dev nD) (t : Fin cfg5.N) (h0 : ¬t.val % 32 = 0) (d) :
    (dat5 V c).before 4 t d = (outsAt5 V c (t.val - 1) (Nat.lt_of_le_of_lt (Nat.sub_le _ _) t.isLt)) := by
  have hN : t.val < 128 := lt_of_lt_of_eq t.isLt (show cfg5.N = 128 from N_5)
  rw [Dat.before_out_kept _ 4 rfl t (by omega) (Bool.eq_false_iff.mpr fun h => by have := (flush5_4 _).mp h; dsimp only at this; omega)
    (fun _ => rfl) (fun _ _ => rfl)]
  dsimp only [dat5]

/-! ## The body obligation -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t))

set_option maxHeartbeats 1000000 in
/-- The body at any point: the inputs' buffers hold their blocks; the point is a resetting or an accumulating one
    according to its position modulo 32, and at an accumulating one the accumulator's buffer holds what the point
    before left; so the matching run applies, and the rest of the core passes through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  have hN : t.val < 128 := lt_of_lt_of_eq t.isLt (show cfg5.N = 128 from N_5)
  by_cases h0 : t.val % 32 = 0
  · rw [outsAt5_A V c t h0]
    unfold out5_A_4
    iintro ⟨HΦ, Ho, ⟨%d0, H0⟩, ⟨%d1, H1⟩, ⟨%d2, H2⟩, ⟨%d3, H3⟩, ⟨%d4, H4⟩⟩
    iapply ((kernelRun5_A c (grid5.coords t) _ _ _ _ _ _ _ _ _ _ ((hcond5_0 t).mpr h0) (iblk5 V c 0 t) (iblk5 V c 1 t) (iblk5 V c 2 t) (iblk5 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover5_A_4 c _ _ _ _ _ _ _ _ _ _ _ _ _ _ _ _)
  · rw [outsAt5_B V c t h0]
    simp only [before5_4_B V c t h0]
    unfold out5_B_4
    iintro ⟨HΦ, Ho, ⟨%d0, H0⟩, ⟨%d1, H1⟩, ⟨%d2, H2⟩, ⟨%d3, H3⟩, ⟨%d4, H4⟩⟩
    iapply ((kernelRun5_B c (grid5.coords t) _ _ _ _ _ _ _ _ _ _ (fun h => h0 ((hcond5_0 t).mp h)) (iblk5 V c 0 t) (iblk5 V c 1 t) (iblk5 V c 2 t) (iblk5 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover5_B_4 c _ _ _ _ _ _ _ _ _ _ _ _ _ _ _ _ _)

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.BRegion6.lean ====
/- Region 6 of the program: the last dense layer, out = x · W, on a grid of 8 row blocks (1024 rows of x each, all of W).
   Everything is stated at a parameter `V`, the contents of the core's buffers when the region is entered, and
   generically in the float instance. Per grid point the body reads the whole operand block and the whole weight
   block and overwrites the whole output block with one value, a pure function of the two blocks read
   (`k6_pay1`); so the output buffer after the body does not depend on what it held before, and the region's
   proof data are: inputs left at their blocks, the output at that function of the two input blocks. -/
import proofs.«152628_j8315056685239_2_alg».proof.Proof.Gen.Kernel.Launch
import proofs.«152628_j8315056685239_2_alg».proof.Proof.Gen.Kernel.Skeleton
import proofs.«152628_j8315056685239_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the rectangle of the window's array (as the region finds it) that
    the window's index map selects there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The operand window's buffer holds the operand's block at every point, for any proof data over `V`'s arrays whose
    body leaves that block in place: a point that fetches puts it there, and a point that does not has the block
    index of the point before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The same for the weight window, whose one block (the whole weight) is fetched at the first point only: at every
    later point the block index has not moved, so the buffer still holds it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes: each buffer whole -/

abbrev r6_0 : Rect S1024x256 := Rect.unit (s := S1024x256) ![0, 0] S1024x256.size inb_S1024x256_S1024x256_0_0
abbrev r6_1 : Rect S256x16 := Rect.unit (s := S256x16) ![0, 0] S256x16.size inb_S256x16_S256x16_0_0
abbrev r6_2 : Rect S1024x16 := Rect.unit (s := S1024x16) ![0, 0] S1024x16.size inb_S1024x16_S1024x16_0_0

/-! ## What the body leaves in the output buffer -/

/-- The output buffer after the body, as a function of the operand block `x0` and the weight block `x1`: the one
    store, of the payload computed from the two blocks read whole, over the whole buffer. -/
def out6_2 (x0 : Vec F S1024x256 .f32) (x1 : Vec F S256x16 .f32) : Vec F S1024x16 .f32 :=
  View.canon [⟨r6_2, k6_pay1 (View.ld x0 r6_0) (View.ld x1 r6_1)⟩]

/-- The store's rectangle is the whole buffer, so every index of the buffer lies in it. -/
theorem cover6_2 (p0 : Vec F S1024x16 .f32) (y : S1024x16.Idx) :
    ∃ pc ∈ ([⟨r6_2, p0⟩] : List (View.Piece (Elt F) S1024x16 .f32)), y ∈ pc.1.set :=
  View.cover_of_tiled [⟨r6_2, p0⟩] S1024x16.size (by rfl) y

/-! ## The body's triple -/

set_option maxHeartbeats 1000000 in
/-- The body run on whole buffers: the two inputs at contents `x0`, `x1` and the output at anything. It ends with the
    inputs as they were and the output at `out6_2 x0 x1`. (The body also loads the output buffer before the store;
    that value is not used.) -/
theorem sound_kernel6 (c : Dev nD) (E : Set ℕ) (i : grid6.Coords)
    (arg1 : Memref sig .tc .vmem S1024x256 .f32) (harg1 : arg1.IsWhole)
    (arg2 : Memref sig .tc .vmem S256x16 .f32) (harg2 : arg2.IsWhole)
    (arg3 : Memref sig .tc .vmem S1024x16 .f32) (harg3 : arg3.IsWhole)
    (x0 : Vec F S1024x256 .f32) (x1 : Vec F S256x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__dense_kernel i arg1 harg1 arg2 harg2 arg3 harg3) K := by
  simp only [cc6__dense_kernel_eq_skeleton]; unfold cc6__dense_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The region's proof data -/

/-- The proof data of the region on core `c`: the arrays as the region finds them; after the body at point `t` each
    input buffer still at its block and the output buffer at `out6_2` of the two input blocks; the invariant that
    carries the scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = out6_2 (iblk6 V c 0 t) (iblk6 V c 1 t) := by dsimp only [dat6]

/-- Each input buffer holds its block when the body is entered, at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation at a generic point -/

/-- What the body is entered with at point `t`: the invariant, the core's debts, and each window's current buffer
    whole at what the proof data say it holds there. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- What it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input buffers hold their blocks, so the body's triple applies with those blocks; the
    invariant and the debts are not touched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.BAssemble.lean ====
import proofs.«152628_j8315056685239_2_alg».proof.Proof.BRegion0
import proofs.«152628_j8315056685239_2_alg».proof.Proof.BRegion1
import proofs.«152628_j8315056685239_2_alg».proof.Proof.BRegion2
import proofs.«152628_j8315056685239_2_alg».proof.Proof.BRegion3
import proofs.«152628_j8315056685239_2_alg».proof.Proof.BRegion4
import proofs.«152628_j8315056685239_2_alg».proof.Proof.BRegion5
import proofs.«152628_j8315056685239_2_alg».proof.Proof.BRegion6
import proofs.«152628_j8315056685239_2_alg».proof.Proof.Gen.Kernel.Regions
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # @main of the seven-region program as one run: the buffers' contents at every boundary, the regions as segments, the
    launch; then the frame (every argument array ends as launched). -/

variable (m : (ℓ : Loc nD τ sig) → Buf (Elt F) ℓ) (ρ : Dev nD → PrngReg)
/-! ## The buffer contents at each boundary of @main: a fold from the launch memory -/

/-- Core c's buffers at launch. -/
abbrev W0 : Dev nD → Valuation τ sig (Elt F) := fun c b => (s₀ m ρ).mem ((c : Dev nD), b)
abbrev VV0 : (c : Dev nD) → (b : Ref sig .tc) → Buf (Elt F) ((c : Thread nD τ).loc b) := fun c b => W0 m ρ c b
/-- At region 0's exit: its arrays at what the pipeline leaves (inputs as entered, each output's write-backs folded),
    every other buffer as entered. -/
def W1 (c : Dev nD) : Valuation τ sig (Elt F) :=
  Pipeline.withArrays spec0 c (W0 m ρ c) fun w => (dat0 (VV0 m ρ) c).arrAt w cfg0.N
theorem W1_arr (c : Dev nD) (w : Fin cfg0.W) :
    W1 m ρ c (Proc.devRef .tc (Pipeline.arrRef spec0 w)) = (dat0 (VV0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VV1 : (c : Dev nD) → (b : Ref sig .tc) → Buf (Elt F) ((c : Thread nD τ).loc b) := fun c b => W1 m ρ c b
theorem hF0 (c : Dev nD) (w : Fin cfg0.W) : (dat0 (VV0 m ρ) c).arrAt w cfg0.N = VV1 m ρ c (Pipeline.arrRef spec0 w) :=
  (W1_arr m ρ c w).symm
theorem hrest0 (c : Dev nD) : ∀ b, b ∉ Finset.univ.image (Pipeline.arrRef spec0) → VV1 m ρ c b = VV0 m ρ c b :=
  fun b hb => W1_of_ne m ρ c b fun w e => hb (Finset.mem_image.mpr ⟨w, Finset.mem_univ _, e⟩)
/-- Region 0 changes none of its input arrays and no buffer that is not one of its arrays. -/
theorem keep0 (c : Dev nD) (r : Ref sig .tc) (hr : r ∉ ([main_v0_0, main_v0_1] : List (Ref sig .tc))) :
    W1 m ρ c (Proc.devRef .tc r) = W0 m ρ c (Proc.devRef .tc r) := by
  by_cases hw : ∃ w, Pipeline.arrRef spec0 w = r
  · obtain ⟨w, rfl⟩ := hw
    fin_cases w
    · exact (W1_arr m ρ c 0).trans (((dat0 (VV0 m ρ) c).arrAt_in 0 rfl _).trans (A_eq0 (VV0 m ρ) c 0))
    · exact (W1_arr m ρ c 1).trans (((dat0 (VV0 m ρ) c).arrAt_in 1 rfl _).trans (A_eq0 (VV0 m ρ) c 1))
    · exact (W1_arr m ρ c 2).trans (((dat0 (VV0 m ρ) c).arrAt_in 2 rfl _).trans (A_eq0 (VV0 m ρ) c 2))
    · exact absurd hr (by decide)
    · exact absurd hr (by decide)
  · exact W1_of_ne m ρ c r fun w e => hw ⟨w, e⟩
/-- After the host stretch `hostOps1`. -/
abbrev W2 : Dev nD → Valuation τ sig (Elt F) := fun c => StableHlo.after hostOps1 (W1 m ρ c)
abbrev VV2 : (c : Dev nD) → (b : Ref sig .tc) → Buf (Elt F) ((c : Thread nD τ).loc b) := fun c b => W2 m ρ c b
/-- After the host stretch `hostOps1_1`. -/
abbrev W3 : Dev nD → Valuation τ sig (Elt F) := fun c => StableHlo.after hostOps1_1 (W2 m ρ c)
abbrev VV3 : (c : Dev nD) → (b : Ref sig .tc) → Buf (Elt F) ((c : Thread nD τ).loc b) := fun c b => W3 m ρ c b
/-- After the host stretch `hostOps1_2`. -/
abbrev W4 : Dev nD → Valuation τ sig (Elt F) := fun c => StableHlo.after hostOps1_2 (W3 m ρ c)
abbrev VV4 : (c : Dev nD) → (b : Ref sig .tc) → Buf (Elt F) ((c : Thread nD τ).loc b) := fun c b => W4 m ρ c b
/-- After the host stretch `hostOps1_3`. -/
abbrev W5 : Dev nD → Valuation τ sig (Elt F) := fun c => StableHlo.after hostOps1_3 (W4 m ρ c)
abbrev VV5 : (c : Dev nD) → (b : Ref sig .tc) → Buf (Elt F) ((c : Thread nD τ).loc b) := fun c b => W5 m ρ c b
/-- After the host stretch `hostOps1_4`. -/
abbrev W6 : Dev nD → Valuation τ sig (Elt F) := fun c => StableHlo.after hostOps1_4 (W5 m ρ c)
abbrev VV6 : (c : Dev nD) → (b : Ref sig .tc) → Buf (Elt F) ((c : Thread nD τ).loc b) := fun c b => W6 m ρ c b
/-- At region 1's exit: its arrays at what the pipeline leaves (inputs as entered, each output's write-backs folded),
    every other buffer as entered. -/
def W7 (c : Dev nD) : Valuation τ sig (Elt F) :=
  Pipeline.withArrays spec1 c (W6 m ρ c) fun w => (dat1 (VV6 m ρ) c).arrAt w cfg1.N
theorem W7_arr (c : Dev nD) (w : Fin cfg1.W) :
    W7 m ρ c (Proc.devRef .tc (Pipeline.arrRef spec1 w)) = (dat1 (VV6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev VV7 : (c : Dev nD) → (b : Ref sig .tc) → Buf (Elt F) ((c : Thread nD τ).loc b) := fun c b => W7 m ρ c b
theorem hF1 (c : Dev nD) (w : Fin cfg1.W) : (dat1 (VV6 m ρ) c).arrAt w cfg1.N = VV7 m ρ c (Pipeline.arrRef spec1 w) :=
  (W7_arr m ρ c w).symm
theorem hrest1 (c : Dev nD) : ∀ b, b ∉ Finset.univ.image (Pipeline.arrRef spec1) → VV7 m ρ c b = VV6 m ρ c b :=
  fun b hb => W7_of_ne m ρ c b fun w e => hb (Finset.mem_image.mpr ⟨w, Finset.mem_univ _, e⟩)
/-- Region 1 changes none of its input arrays and no buffer that is not one of its arrays. -/
theorem keep1 (c : Dev nD) (r : Ref sig .tc) (hr : r ∉ ([main_v8_0, main_v8_1] : List (Ref sig .tc))) :
    W7 m ρ c (Proc.devRef .tc r) = W6 m ρ c (Proc.devRef .tc r) := by
  by_cases hw : ∃ w, Pipeline.arrRef spec1 w = r
  · obtain ⟨w, rfl⟩ := hw
    fin_cases w
    · exact (W7_arr m ρ c 0).trans (((dat1 (VV6 m ρ) c).arrAt_in 0 rfl _).trans (A_eq1 (VV6 m ρ) c 0))
    · exact (W7_arr m ρ c 1).trans (((dat1 (VV6 m ρ) c).arrAt_in 1 rfl _).trans (A_eq1 (VV6 m ρ) c 1))
    · exact (W7_arr m ρ c 2).trans (((dat1 (VV6 m ρ) c).arrAt_in 2 rfl _).trans (A_eq1 (VV6 m ρ) c 2))
    · exact absurd hr (by decide)
    · exact absurd hr (by decide)
  · exact W7_of_ne m ρ c r fun w e => hw ⟨w, e⟩
/-- After the host stretch `hostOps2`. -/
abbrev W8 : Dev nD → Valuation τ sig (Elt F) := fun c => StableHlo.after hostOps2 (W7 m ρ c)
abbrev VV8 : (c : Dev nD) → (b : Ref sig .tc) → Buf (Elt F) ((c : Thread nD τ).loc b) := fun c b => W8 m ρ c b
/-- After the host stretch `hostOps2_1`. -/
abbrev W9 : Dev nD → Valuation τ sig (Elt F) := fun c => StableHlo.after hostOps2_1 (W8 m ρ c)
abbrev VV9 : (c : Dev nD) → (b : Ref sig .tc) → Buf (Elt F) ((c : Thread nD τ).loc b) := fun c b => W9 m ρ c b
/-- After the host stretch `hostOps2_2`. -/
abbrev W10 : Dev nD → Valuation τ sig (Elt F) := fun c => StableHlo.after hostOps2_2 (W9 m ρ c)
abbrev VV10 : (c : Dev nD) → (b : Ref sig .tc) → Buf (Elt F) ((c : Thread nD τ).loc b) := fun c b => W10 m ρ c b
/-- After the host stretch `hostOps2_3`. -/
abbrev W11 : Dev nD → Valuation τ sig (Elt F) := fun c => StableHlo.after hostOps2_3 (W10 m ρ c)
abbrev VV11 : (c : Dev nD) → (b : Ref sig .tc) → Buf (Elt F) ((c : Thread nD τ).loc b) := fun c b => W11 m ρ c b
/-- After the host stretch `hostOps2_4`. -/
abbrev W12 : Dev nD → Valuation τ sig (Elt F) := fun c => StableHlo.after hostOps2_4 (W11 m ρ c)
abbrev VV12 : (c : Dev nD) → (b : Ref sig .tc) → Buf (Elt F) ((c : Thread nD τ).loc b) := fun c b => W12 m ρ c b
/-- At region 2's exit: its arrays at what the pipeline leaves (inputs as entered, each output's write-backs folded),
    every other buffer as entered. -/
def W13 (c : Dev nD) : Valuation τ sig (Elt F) :=
  Pipeline.withArrays spec2 c (W12 m ρ c) fun w => (dat2 (VV12 m ρ) c).arrAt w cfg2.N
theorem W13_arr (c : Dev nD) (w : Fin cfg2.W) :
    W13 m ρ c (Proc.devRef .tc (Pipeline.arrRef spec2 w)) = (dat2 (VV12 m ρ) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m ρ c (Proc.devRef .tc b) = W12 m ρ c (Proc.devRef .tc b) := by
  unfold W13; exact Pipeline.withArrays_of_ne spec2 c _ _ b hb
abbrev VV13 : (c : Dev nD) → (b : Ref sig .tc) → Buf (Elt F) ((c : Thread nD τ).loc b) := fun c b => W13 m ρ c b
theorem hF2 (c : Dev nD) (w : Fin cfg2.W) : (dat2 (VV12 m ρ) c).arrAt w cfg2.N = VV13 m ρ c (Pipeline.arrRef spec2 w) :=
  (W13_arr m ρ c w).symm
theorem hrest2 (c : Dev nD) : ∀ b, b ∉ Finset.univ.image (Pipeline.arrRef spec2) → VV13 m ρ c b = VV12 m ρ c b :=
  fun b hb => W13_of_ne m ρ c b fun w e => hb (Finset.mem_image.mpr ⟨w, Finset.mem_univ _, e⟩)
/-- Region 2 changes none of its input arrays and no buffer that is not one of its arrays. -/
theorem keep2 (c : Dev nD) (r : Ref sig .tc) (hr : r ∉ ([main_v24] : List (Ref sig .tc))) :
    W13 m ρ c (Proc.devRef .tc r) = W12 m ρ c (Proc.devRef .tc r) := by
  by_cases hw : ∃ w, Pipeline.arrRef spec2 w = r
  · obtain ⟨w, rfl⟩ := hw
    fin_cases w
    · exact (W13_arr m ρ c 0).trans (((dat2 (VV12 m ρ) c).arrAt_in 0 rfl _).trans (A_eq2 (VV12 m ρ) c 0))
    · exact (W13_arr m ρ c 1).trans (((dat2 (VV12 m ρ) c).arrAt_in 1 rfl _).trans (A_eq2 (VV12 m ρ) c 1))
    · exact (W13_arr m ρ c 2).trans (((dat2 (VV12 m ρ) c).arrAt_in 2 rfl _).trans (A_eq2 (VV12 m ρ) c 2))
    · exact (W13_arr m ρ c 3).trans (((dat2 (VV12 m ρ) c).arrAt_in 3 rfl _).trans (A_eq2 (VV12 m ρ) c 3))
    · exact absurd hr (by decide)
  · exact W13_of_ne m ρ c r fun w e => hw ⟨w, e⟩
/-- After the host stretch `hostOps3`. -/
abbrev W14 : Dev nD → Valuation τ sig (Elt F) := fun c => StableHlo.after hostOps3 (W13 m ρ c)
abbrev VV14 : (c : Dev nD) → (b : Ref sig .tc) → Buf (Elt F) ((c : Thread nD τ).loc b) := fun c b => W14 m ρ c b
/-- At region 3's exit: its arrays at what the pipeline leaves (inputs as entered, each output's write-backs folded),
    every other buffer as entered. -/
def W15 (c : Dev nD) : Valuation τ sig (Elt F) :=
  Pipeline.withArrays spec3 c (W14 m ρ c) fun w => (dat3 (VV14 m ρ) c).arrAt w cfg3.N
theorem W15_arr (c : Dev nD) (w : Fin cfg3.W) :
    W15 m ρ c (Proc.devRef .tc (Pipeline.arrRef spec3 w)) = (dat3 (VV14 m ρ) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m ρ c (Proc.devRef .tc b) = W14 m ρ c (Proc.devRef .tc b) := by
  unfold W15; exact Pipeline.withArrays_of_ne spec3 c _ _ b hb
abbrev VV15 : (c : Dev nD) → (b : Ref sig .tc) → Buf (Elt F) ((c : Thread nD τ).loc b) := fun c b => W15 m ρ c b
theorem hF3 (c : Dev nD) (w : Fin cfg3.W) : (dat3 (VV14 m ρ) c).arrAt w cfg3.N = VV15 m ρ c (Pipeline.arrRef spec3 w) :=
  (W15_arr m ρ c w).symm
theorem hrest3 (c : Dev nD) : ∀ b, b ∉ Finset.univ.image (Pipeline.arrRef spec3) → VV15 m ρ c b = VV14 m ρ c b :=
  fun b hb => W15_of_ne m ρ c b fun w e => hb (Finset.mem_image.mpr ⟨w, Finset.mem_univ _, e⟩)
/-- Region 3 changes none of its input arrays and no buffer that is not one of its arrays. -/
theorem keep3 (c : Dev nD) (r : Ref sig .tc) (hr : r ∉ ([main_v27] : List (Ref sig .tc))) :
    W15 m ρ c (Proc.devRef .tc r) = W14 m ρ c (Proc.devRef .tc r) := by
  by_cases hw : ∃ w, Pipeline.arrRef spec3 w = r
  · obtain ⟨w, rfl⟩ := hw
    fin_cases w
    · exact (W15_arr m ρ c 0).trans (((dat3 (VV14 m ρ) c).arrAt_in 0 rfl _).trans (A_eq3 (VV14 m ρ) c 0))
    · exact (W15_arr m ρ c 1).trans (((dat3 (VV14 m ρ) c).arrAt_in 1 rfl _).trans (A_eq3 (VV14 m ρ) c 1))
    · exact (W15_arr m ρ c 2).trans (((dat3 (VV14 m ρ) c).arrAt_in 2 rfl _).trans (A_eq3 (VV14 m ρ) c 2))
    · exact (W15_arr m ρ c 3).trans (((dat3 (VV14 m ρ) c).arrAt_in 3 rfl _).trans (A_eq3 (VV14 m ρ) c 3))
    · exact absurd hr (by decide)
  · exact W15_of_ne m ρ c r fun w e => hw ⟨w, e⟩
/-- After the host stretch `hostOps4`. -/
abbrev W16 : Dev nD → Valuation τ sig (Elt F) := fun c => StableHlo.after hostOps4 (W15 m ρ c)
abbrev VV16 : (c : Dev nD) → (b : Ref sig .tc) → Buf (Elt F) ((c : Thread nD τ).loc b) := fun c b => W16 m ρ c b
/-- At region 4's exit: its arrays at what the pipeline leaves (inputs as entered, each output's write-backs folded),
    every other buffer as entered. -/
def W17 (c : Dev nD) : Valuation τ sig (Elt F) :=
  Pipeline.withArrays spec4 c (W16 m ρ c) fun w => (dat4 (VV16 m ρ) c).arrAt w cfg4.N
theorem W17_arr (c : Dev nD) (w : Fin cfg4.W) :
    W17 m ρ c (Proc.devRef .tc (Pipeline.arrRef spec4 w)) = (dat4 (VV16 m ρ) c).arrAt w cfg4.N := by
  unfold W17; exact Pipeline.withArrays_arr spec4 launch4.win.arr_inj c _ _ w
theorem W17_of_ne (c : Dev nD) (b : Ref sig .tc) (hb : ∀ w, Pipeline.arrRef spec4 w ≠ b) :
    W17 m ρ c (Proc.devRef .tc b) = W16 m ρ c (Proc.devRef .tc b) := by
  unfold W17; exact Pipeline.withArrays_of_ne spec4 c _ _ b hb
abbrev VV17 : (c : Dev nD) → (b : Ref sig .tc) → Buf (Elt F) ((c : Thread nD τ).loc b) := fun c b => W17 m ρ c b
theorem hF4 (c : Dev nD) (w : Fin cfg4.W) : (dat4 (VV16 m ρ) c).arrAt w cfg4.N = VV17 m ρ c (Pipeline.arrRef spec4 w) :=
  (W17_arr m ρ c w).symm
theorem hrest4 (c : Dev nD) : ∀ b, b ∉ Finset.univ.image (Pipeline.arrRef spec4) → VV17 m ρ c b = VV16 m ρ c b :=
  fun b hb => W17_of_ne m ρ c b fun w e => hb (Finset.mem_image.mpr ⟨w, Finset.mem_univ _, e⟩)
/-- Region 4 changes none of its input arrays and no buffer that is not one of its arrays. -/
theorem keep4 (c : Dev nD) (r : Ref sig .tc) (hr : r ∉ ([main_v38] : List (Ref sig .tc))) :
    W17 m ρ c (Proc.devRef .tc r) = W16 m ρ c (Proc.devRef .tc r) := by
  by_cases hw : ∃ w, Pipeline.arrRef spec4 w = r
  · obtain ⟨w, rfl⟩ := hw
    fin_cases w
    · exact (W17_arr m ρ c 0).trans (((dat4 (VV16 m ρ) c).arrAt_in 0 rfl _).trans (A_eq4 (VV16 m ρ) c 0))
    · exact (W17_arr m ρ c 1).trans (((dat4 (VV16 m ρ) c).arrAt_in 1 rfl _).trans (A_eq4 (VV16 m ρ) c 1))
    · exact absurd hr (by decide)
  · exact W17_of_ne m ρ c r fun w e => hw ⟨w, e⟩
/-- After the host stretch `hostOps5`. -/
abbrev W18 : Dev nD → Valuation τ sig (Elt F) := fun c => StableHlo.after hostOps5 (W17 m ρ c)
abbrev VV18 : (c : Dev nD) → (b : Ref sig .tc) → Buf (Elt F) ((c : Thread nD τ).loc b) := fun c b => W18 m ρ c b
/-- At region 5's exit: its arrays at what the pipeline leaves (inputs as entered, each output's write-backs folded),
    every other buffer as entered. -/
def W19 (c : Dev nD) : Valuation τ sig (Elt F) :=
  Pipeline.withArrays spec5 c (W18 m ρ c) fun w => (dat5 (VV18 m ρ) c).arrAt w cfg5.N
theorem W19_arr (c : Dev nD) (w : Fin cfg5.W) :
    W19 m ρ c (Proc.devRef .tc (Pipeline.arrRef spec5 w)) = (dat5 (VV18 m ρ) c).arrAt w cfg5.N := by
  unfold W19; exact Pipeline.withArrays_arr spec5 launch5.win.arr_inj c _ _ w
theorem W19_of_ne (c : Dev nD) (b : Ref sig .tc) (hb : ∀ w, Pipeline.arrRef spec5 w ≠ b) :
    W19 m ρ c (Proc.devRef .tc b) = W18 m ρ c (Proc.devRef .tc b) := by
  unfold W19; exact Pipeline.withArrays_of_ne spec5 c _ _ b hb
abbrev VV19 : (c : Dev nD) → (b : Ref sig .tc) → Buf (Elt F) ((c : Thread nD τ).loc b) := fun c b => W19 m ρ c b
theorem hF5 (c : Dev nD) (w : Fin cfg5.W) : (dat5 (VV18 m ρ) c).arrAt w cfg5.N = VV19 m ρ c (Pipeline.arrRef spec5 w) :=
  (W19_arr m ρ c w).symm
theorem hrest5 (c : Dev nD) : ∀ b, b ∉ Finset.univ.image (Pipeline.arrRef spec5) → VV19 m ρ c b = VV18 m ρ c b :=
  fun b hb => W19_of_ne m ρ c b fun w e => hb (Finset.mem_image.mpr ⟨w, Finset.mem_univ _, e⟩)
/-- Region 5 changes none of its input arrays and no buffer that is not one of its arrays. -/
theorem keep5 (c : Dev nD) (r : Ref sig .tc) (hr : r ∉ ([main_v40] : List (Ref sig .tc))) :
    W19 m ρ c (Proc.devRef .tc r) = W18 m ρ c (Proc.devRef .tc r) := by
  by_cases hw : ∃ w, Pipeline.arrRef spec5 w = r
  · obtain ⟨w, rfl⟩ := hw
    fin_cases w
    · exact (W19_arr m ρ c 0).trans (((dat5 (VV18 m ρ) c).arrAt_in 0 rfl _).trans (A_eq5 (VV18 m ρ) c 0))
    · exact (W19_arr m ρ c 1).trans (((dat5 (VV18 m ρ) c).arrAt_in 1 rfl _).trans (A_eq5 (VV18 m ρ) c 1))
    · exact (W19_arr m ρ c 2).trans (((dat5 (VV18 m ρ) c).arrAt_in 2 rfl _).trans (A_eq5 (VV18 m ρ) c 2))
    · exact (W19_arr m ρ c 3).trans (((dat5 (VV18 m ρ) c).arrAt_in 3 rfl _).trans (A_eq5 (VV18 m ρ) c 3))
    · exact absurd hr (by decide)
  · exact W19_of_ne m ρ c r fun w e => hw ⟨w, e⟩
/-- At region 6's exit: its arrays at what the pipeline leaves (inputs as entered, each output's write-backs folded),
    every other buffer as entered. -/
def W20 (c : Dev nD) : Valuation τ sig (Elt F) :=
  Pipeline.withArrays spec6 c (W19 m ρ c) fun w => (dat6 (VV19 m ρ) c).arrAt w cfg6.N
theorem W20_arr (c : Dev nD) (w : Fin cfg6.W) :
    W20 m ρ c (Proc.devRef .tc (Pipeline.arrRef spec6 w)) = (dat6 (VV19 m ρ) c).arrAt w cfg6.N := by
  unfold W20; exact Pipeline.withArrays_arr spec6 launch6.win.arr_inj c _ _ w
theorem W20_of_ne (c : Dev nD) (b : Ref sig .tc) (hb : ∀ w, Pipeline.arrRef spec6 w ≠ b) :
    W20 m ρ c (Proc.devRef .tc b) = W19 m ρ c (Proc.devRef .tc b) := by
  unfold W20; exact Pipeline.withArrays_of_ne spec6 c _ _ b hb
abbrev VV20 : (c : Dev nD) → (b : Ref sig .tc) → Buf (Elt F) ((c : Thread nD τ).loc b) := fun c b => W20 m ρ c b
theorem hF6 (c : Dev nD) (w : Fin cfg6.W) : (dat6 (VV19 m ρ) c).arrAt w cfg6.N = VV20 m ρ c (Pipeline.arrRef spec6 w) :=
  (W20_arr m ρ c w).symm
theorem hrest6 (c : Dev nD) : ∀ b, b ∉ Finset.univ.image (Pipeline.arrRef spec6) → VV20 m ρ c b = VV19 m ρ c b :=
  fun b hb => W20_of_ne m ρ c b fun w e => hb (Finset.mem_image.mpr ⟨w, Finset.mem_univ _, e⟩)
/-- Region 6 changes none of its input arrays and no buffer that is not one of its arrays. -/
theorem keep6 (c : Dev nD) (r : Ref sig .tc) (hr : r ∉ ([main_v41] : List (Ref sig .tc))) :
    W20 m ρ c (Proc.devRef .tc r) = W19 m ρ c (Proc.devRef .tc r) := by
  by_cases hw : ∃ w, Pipeline.arrRef spec6 w = r
  · obtain ⟨w, rfl⟩ := hw
    fin_cases w
    · exact (W20_arr m ρ c 0).trans (((dat6 (VV19 m ρ) c).arrAt_in 0 rfl _).trans (A_eq6 (VV19 m ρ) c 0))
    · exact (W20_arr m ρ c 1).trans (((dat6 (VV19 m ρ) c).arrAt_in 1 rfl _).trans (A_eq6 (VV19 m ρ) c 1))
    · exact absurd hr (by decide)
  · exact W20_of_ne m ρ c r fun w e => hw ⟨w, e⟩
/-- `main_arg0` reaches the end as launched: no host stretch writes it and no region changes it. -/
theorem W20_main_arg0 (c : Dev nD) : W20 m ρ c (Proc.devRef .tc main_arg0) = m ((c : Thread nD τ).loc main_arg0) :=
  (keep6 m ρ c main_arg0 (by decide)).trans <| (keep5 m ρ c main_arg0 (by decide)).trans <| (StableHlo.after_of_writes_sub hostOps5 (W17 m ρ c) hostOps5_writes (r := main_arg0) (by decide)).trans <| (keep4 m ρ c main_arg0 (by decide)).trans <| (StableHlo.after_of_writes_sub hostOps4 (W15 m ρ c) hostOps4_writes (r := main_arg0) (by decide)).trans <| (keep3 m ρ c main_arg0 (by decide)).trans <| (StableHlo.after_of_writes_sub hostOps3 (W13 m ρ c) hostOps3_writes (r := main_arg0) (by decide)).trans <| (keep2 m ρ c main_arg0 (by decide)).trans <| (StableHlo.after_of_writes_sub hostOps2_4 (W11 m ρ c) hostOps2_4_writes (r := main_arg0) (by decide)).trans <| (StableHlo.after_of_writes_sub hostOps2_3 (W10 m ρ c) hostOps2_3_writes (r := main_arg0) (by decide)).trans <| (StableHlo.after_of_writes_sub hostOps2_2 (W9 m ρ c) hostOps2_2_writes (r := main_arg0) (by decide)).trans <| (StableHlo.after_of_writes_sub hostOps2_1 (W8 m ρ c) hostOps2_1_writes (r := main_arg0) (by decide)).trans <| (StableHlo.after_of_writes_sub hostOps2 (W7 m ρ c) hostOps2_writes (r := main_arg0) (by decide)).trans <| (keep1 m ρ c main_arg0 (by decide)).trans <| (StableHlo.after_of_writes_sub hostOps1_4 (W5 m ρ c) hostOps1_4_writes (r := main_arg0) (by decide)).trans <| (StableHlo.after_of_writes_sub hostOps1_3 (W4 m ρ c) hostOps1_3_writes (r := main_arg0) (by decide)).trans <| (StableHlo.after_of_writes_sub hostOps1_2 (W3 m ρ c) hostOps1_2_writes (r := main_arg0) (by decide)).trans <| (StableHlo.after_of_writes_sub hostOps1_1 (W2 m ρ c) hostOps1_1_writes (r := main_arg0) (by decide)).trans <| (StableHlo.after_of_writes_sub hostOps1 (W1 m ρ c) hostOps1_writes (r := main_arg0) (by decide)).trans <| (keep0 m ρ c main_arg0 (by decide)).trans rfl
/-- `main_arg1` reaches the end as launched: no host stretch writes it and no region changes it. -/
theorem W20_main_arg1 (c : Dev nD) : W20 m ρ c (Proc.devRef .tc main_arg1) = m ((c : Thread nD τ).loc main_arg1) :=
  (keep6 m ρ c main_arg1 (by decide)).trans <| (keep5 m ρ c main_arg1 (by decide)).trans <| (StableHlo.after_of_writes_sub hostOps5 (W17 m ρ c) hostOps5_writes (r := main_arg1) (by decide)).trans <| (keep4 m ρ c main_arg1 (by decide)).trans <| (StableHlo.after_of_writes_sub hostOps4 (W15 m ρ c) hostOps4_writes (r := main_arg1) (by decide)).trans <| (keep3 m ρ c main_arg1 (by decide)).trans <| (StableHlo.after_of_writes_sub hostOps3 (W13 m ρ c) hostOps3_writes (r := main_arg1) (by decide)).trans <| (keep2 m ρ c main_arg1 (by decide)).trans <| (StableHlo.after_of_writes_sub hostOps2_4 (W11 m ρ c) hostOps2_4_writes (r := main_arg1) (by decide)).trans <| (StableHlo.after_of_writes_sub hostOps2_3 (W10 m ρ c) hostOps2_3_writes (r := main_arg1) (by decide)).trans <| (StableHlo.after_of_writes_sub hostOps2_2 (W9 m ρ c) hostOps2_2_writes (r := main_arg1) (by decide)).trans <| (StableHlo.after_of_writes_sub hostOps2_1 (W8 m ρ c) hostOps2_1_writes (r := main_arg1) (by decide)).trans <| (StableHlo.after_of_writes_sub hostOps2 (W7 m ρ c) hostOps2_writes (r := main_arg1) (by decide)).trans <| (keep1 m ρ c main_arg1 (by decide)).trans <| (StableHlo.after_of_writes_sub hostOps1_4 (W5 m ρ c) hostOps1_4_writes (r := main_arg1) (by decide)).trans <| (StableHlo.after_of_writes_sub hostOps1_3 (W4 m ρ c) hostOps1_3_writes (r := main_arg1) (by decide)).trans <| (StableHlo.after_of_writes_sub hostOps1_2 (W3 m ρ c) hostOps1_2_writes (r := main_arg1) (by decide)).trans <| (StableHlo.after_of_writes_sub hostOps1_1 (W2 m ρ c) hostOps1_1_writes (r := main_arg1) (by decide)).trans <| (StableHlo.after_of_writes_sub hostOps1 (W1 m ρ c) hostOps1_writes (r := main_arg1) (by decide)).trans <| (keep0 m ρ c main_arg1 (by decide)).trans rfl
/-- `main_arg2` reaches the end as launched: no host stretch writes it and no region changes it. -/
theorem W20_main_arg2 (c : Dev nD) : W20 m ρ c (Proc.devRef .tc main_arg2) = m ((c : Thread nD τ).loc main_arg2) :=
  (keep6 m ρ c main_arg2 (by decide)).trans <| (keep5 m ρ c main_arg2 (by decide)).trans <| (StableHlo.after_of_writes_sub hostOps5 (W17 m ρ c) hostOps5_writes (r := main_arg2) (by decide)).trans <| (keep4 m ρ c main_arg2 (by decide)).trans <| (StableHlo.after_of_writes_sub hostOps4 (W15 m ρ c) hostOps4_writes (r := main_arg2) (by decide)).trans <| (keep3 m ρ c main_arg2 (by decide)).trans <| (StableHlo.after_of_writes_sub hostOps3 (W13 m ρ c) hostOps3_writes (r := main_arg2) (by decide)).trans <| (keep2 m ρ c main_arg2 (by decide)).trans <| (StableHlo.after_of_writes_sub hostOps2_4 (W11 m ρ c) hostOps2_4_writes (r := main_arg2) (by decide)).trans <| (StableHlo.after_of_writes_sub hostOps2_3 (W10 m ρ c) hostOps2_3_writes (r := main_arg2) (by decide)).trans <| (StableHlo.after_of_writes_sub hostOps2_2 (W9 m ρ c) hostOps2_2_writes (r := main_arg2) (by decide)).trans <| (StableHlo.after_of_writes_sub hostOps2_1 (W8 m ρ c) hostOps2_1_writes (r := main_arg2) (by decide)).trans <| (StableHlo.after_of_writes_sub hostOps2 (W7 m ρ c) hostOps2_writes (r := main_arg2) (by decide)).trans <| (keep1 m ρ c main_arg2 (by decide)).trans <| (StableHlo.after_of_writes_sub hostOps1_4 (W5 m ρ c) hostOps1_4_writes (r := main_arg2) (by decide)).trans <| (StableHlo.after_of_writes_sub hostOps1_3 (W4 m ρ c) hostOps1_3_writes (r := main_arg2) (by decide)).trans <| (StableHlo.after_of_writes_sub hostOps1_2 (W3 m ρ c) hostOps1_2_writes (r := main_arg2) (by decide)).trans <| (StableHlo.after_of_writes_sub hostOps1_1 (W2 m ρ c) hostOps1_1_writes (r := main_arg2) (by decide)).trans <| (StableHlo.after_of_writes_sub hostOps1 (W1 m ρ c) hostOps1_writes (r := main_arg2) (by decide)).trans <| (keep0 m ρ c main_arg2 (by decide)).trans rfl
/-- `main_arg3` reaches the end as launched: no host stretch writes it and no region changes it. -/
theorem W20_main_arg3 (c : Dev nD) : W20 m ρ c (Proc.devRef .tc main_arg3) = m ((c : Thread nD τ).loc main_arg3) :=
  (keep6 m ρ c main_arg3 (by decide)).trans <| (keep5 m ρ c main_arg3 (by decide)).trans <| (StableHlo.after_of_writes_sub hostOps5 (W17 m ρ c) hostOps5_writes (r := main_arg3) (by decide)).trans <| (keep4 m ρ c main_arg3 (by decide)).trans <| (StableHlo.after_of_writes_sub hostOps4 (W15 m ρ c) hostOps4_writes (r := main_arg3) (by decide)).trans <| (keep3 m ρ c main_arg3 (by decide)).trans <| (StableHlo.after_of_writes_sub hostOps3 (W13 m ρ c) hostOps3_writes (r := main_arg3) (by decide)).trans <| (keep2 m ρ c main_arg3 (by decide)).trans <| (StableHlo.after_of_writes_sub hostOps2_4 (W11 m ρ c) hostOps2_4_writes (r := main_arg3) (by decide)).trans <| (StableHlo.after_of_writes_sub hostOps2_3 (W10 m ρ c) hostOps2_3_writes (r := main_arg3) (by decide)).trans <| (StableHlo.after_of_writes_sub hostOps2_2 (W9 m ρ c) hostOps2_2_writes (r := main_arg3) (by decide)).trans <| (StableHlo.after_of_writes_sub hostOps2_1 (W8 m ρ c) hostOps2_1_writes (r := main_arg3) (by decide)).trans <| (StableHlo.after_of_writes_sub hostOps2 (W7 m ρ c) hostOps2_writes (r := main_arg3) (by decide)).trans <| (keep1 m ρ c main_arg3 (by decide)).trans <| (StableHlo.after_of_writes_sub hostOps1_4 (W5 m ρ c) hostOps1_4_writes (r := main_arg3) (by decide)).trans <| (StableHlo.after_of_writes_sub hostOps1_3 (W4 m ρ c) hostOps1_3_writes (r := main_arg3) (by decide)).trans <| (StableHlo.after_of_writes_sub hostOps1_2 (W3 m ρ c) hostOps1_2_writes (r := main_arg3) (by decide)).trans <| (StableHlo.after_of_writes_sub hostOps1_1 (W2 m ρ c) hostOps1_1_writes (r := main_arg3) (by decide)).trans <| (StableHlo.after_of_writes_sub hostOps1 (W1 m ρ c) hostOps1_writes (r := main_arg3) (by decide)).trans <| (keep0 m ρ c main_arg3 (by decide)).trans rfl
/-- `main_arg4` reaches the end as launched: no host stretch writes it and no region changes it. -/
theorem W20_main_arg4 (c : Dev nD) : W20 m ρ c (Proc.devRef .tc main_arg4) = m ((c : Thread nD τ).loc main_arg4) :=
  (keep6 m ρ c main_arg4 (by decide)).trans <| (keep5 m ρ c main_arg4 (by decide)).trans <| (StableHlo.after_of_writes_sub hostOps5 (W17 m ρ c) hostOps5_writes (r := main_arg4) (by decide)).trans <| (keep4 m ρ c main_arg4 (by decide)).trans <| (StableHlo.after_of_writes_sub hostOps4 (W15 m ρ c) hostOps4_writes (r := main_arg4) (by decide)).trans <| (keep3 m ρ c main_arg4 (by decide)).trans <| (StableHlo.after_of_writes_sub hostOps3 (W13 m ρ c) hostOps3_writes (r := main_arg4) (by decide)).trans <| (keep2 m ρ c main_arg4 (by decide)).trans <| (StableHlo.after_of_writes_sub hostOps2_4 (W11 m ρ c) hostOps2_4_writes (r := main_arg4) (by decide)).trans <| (StableHlo.after_of_writes_sub hostOps2_3 (W10 m ρ c) hostOps2_3_writes (r := main_arg4) (by decide)).trans <| (StableHlo.after_of_writes_sub hostOps2_2 (W9 m ρ c) hostOps2_2_writes (r := main_arg4) (by decide)).trans <| (StableHlo.after_of_writes_sub hostOps2_1 (W8 m ρ c) hostOps2_1_writes (r := main_arg4) (by decide)).trans <| (StableHlo.after_of_writes_sub hostOps2 (W7 m ρ c) hostOps2_writes (r := main_arg4) (by decide)).trans <| (keep1 m ρ c main_arg4 (by decide)).trans <| (StableHlo.after_of_writes_sub hostOps1_4 (W5 m ρ c) hostOps1_4_writes (r := main_arg4) (by decide)).trans <| (StableHlo.after_of_writes_sub hostOps1_3 (W4 m ρ c) hostOps1_3_writes (r := main_arg4) (by decide)).trans <| (StableHlo.after_of_writes_sub hostOps1_2 (W3 m ρ c) hostOps1_2_writes (r := main_arg4) (by decide)).trans <| (StableHlo.after_of_writes_sub hostOps1_1 (W2 m ρ c) hostOps1_1_writes (r := main_arg4) (by decide)).trans <| (StableHlo.after_of_writes_sub hostOps1 (W1 m ρ c) hostOps1_writes (r := main_arg4) (by decide)).trans <| (keep0 m ρ c main_arg4 (by decide)).trans rfl
/-- `main_arg5` reaches the end as launched: no host stretch writes it and no region changes it. -/
theorem W20_main_arg5 (c : Dev nD) : W20 m ρ c (Proc.devRef .tc main_arg5) = m ((c : Thread nD τ).loc main_arg5) :=
  (keep6 m ρ c main_arg5 (by decide)).trans <| (keep5 m ρ c main_arg5 (by decide)).trans <| (StableHlo.after_of_writes_sub hostOps5 (W17 m ρ c) hostOps5_writes (r := main_arg5) (by decide)).trans <| (keep4 m ρ c main_arg5 (by decide)).trans <| (StableHlo.after_of_writes_sub hostOps4 (W15 m ρ c) hostOps4_writes (r := main_arg5) (by decide)).trans <| (keep3 m ρ c main_arg5 (by decide)).trans <| (StableHlo.after_of_writes_sub hostOps3 (W13 m ρ c) hostOps3_writes (r := main_arg5) (by decide)).trans <| (keep2 m ρ c main_arg5 (by decide)).trans <| (StableHlo.after_of_writes_sub hostOps2_4 (W11 m ρ c) hostOps2_4_writes (r := main_arg5) (by decide)).trans <| (StableHlo.after_of_writes_sub hostOps2_3 (W10 m ρ c) hostOps2_3_writes (r := main_arg5) (by decide)).trans <| (StableHlo.after_of_writes_sub hostOps2_2 (W9 m ρ c) hostOps2_2_writes (r := main_arg5) (by decide)).trans <| (StableHlo.after_of_writes_sub hostOps2_1 (W8 m ρ c) hostOps2_1_writes (r := main_arg5) (by decide)).trans <| (StableHlo.after_of_writes_sub hostOps2 (W7 m ρ c) hostOps2_writes (r := main_arg5) (by decide)).trans <| (keep1 m ρ c main_arg5 (by decide)).trans <| (StableHlo.after_of_writes_sub hostOps1_4 (W5 m ρ c) hostOps1_4_writes (r := main_arg5) (by decide)).trans <| (StableHlo.after_of_writes_sub hostOps1_3 (W4 m ρ c) hostOps1_3_writes (r := main_arg5) (by decide)).trans <| (StableHlo.after_of_writes_sub hostOps1_2 (W3 m ρ c) hostOps1_2_writes (r := main_arg5) (by decide)).trans <| (StableHlo.after_of_writes_sub hostOps1_1 (W2 m ρ c) hostOps1_1_writes (r := main_arg5) (by decide)).trans <| (StableHlo.after_of_writes_sub hostOps1 (W1 m ρ c) hostOps1_writes (r := main_arg5) (by decide)).trans <| (keep0 m ρ c main_arg5 (by decide)).trans rfl

/-! ## The proof data family and the thread state -/

abbrev adm' : (p : Fin 7) → (pcfgs (F := F) p).Adm := fun p => (cfgs p).toPCfg_adm
/-- Every pipeline's proof data, each at its region's entry contents — a literal match. -/
def pdats : (p : Fin 7) → (c : Dev nD) → Dat τ (Elt F) Unit ℕ (UR sig nD τ) ℕ (Pipeline.pin (pcfgs (F := F)) adm' p) c
  | ⟨0, _⟩ => fun c => dat0 (VV0 m ρ) c
  | ⟨1, _⟩ => fun c => dat1 (VV6 m ρ) c
  | ⟨2, _⟩ => fun c => dat2 (VV12 m ρ) c
  | ⟨3, _⟩ => fun c => dat3 (VV14 m ρ) c
  | ⟨4, _⟩ => fun c => dat4 (VV16 m ρ) c
  | ⟨5, _⟩ => fun c => dat5 (VV18 m ρ) c
  | ⟨6, _⟩ => fun c => dat6 (VV19 m ρ) c
abbrev 𝒱₀' : Variants := Variants.none
/-- No core owes another anything: no level is assigned. -/
abbrev L' : GSem nD τ sig → Finset Unit := fun _ => ∅
abbrev lv' : GSem nD τ sig → Unit → ℕ := fun _ _ => 0
/-- What rides beside the buffers through every segment: the generator register at some state and the core's dues, at nothing. -/
abbrev RR (c : Dev nD) : sProp 𝕄 := iprop((∃ r, prngReg c r) ∗ ∃ W, owes (c : Thread nD τ) (0 : CellTallies nD τ sig Unit) W)
/-- A host stretch as a segment over the unscoped references from the contents `W`, `RR` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ' (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- REGION 0 over the thread state: entered from every unscoped buffer at `W0`, left at `W1`. Its arrays are split out of
    the unscoped buffers and put back at the exit contents; the generator register goes into the region's invariant and
    comes out; nothing is owed; the kernel has no semaphore of its own. -/
def reg0 : Pipeline.RegionSeg (pcfgs (F := F)) adm' (pdats m ρ) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (VV0 m ρ) c).loose
  hwaits := Pipeline.hwaits_of_owed_zero _ _ _ _ L' lv' 0 fun _ _ => rfl
  pre c := iprop(StableHlo.held (c : Thread nD τ) (Pipeline.ucRefs τ sig) (W0 m ρ c) ∗ RR c)
  post c := iprop(StableHlo.held (c : Thread nD τ) (Pipeline.ucRefs τ sig) (W1 m ρ c) ∗ RR c)
  X c := iprop(∃ r, prngReg c r)
  Y c := iprop(∃ r, prngReg c r)
  Z c := Pipeline.unscopedRest (Ix := Unit) (Name := ℕ) (U := UR sig nD τ) (Lvl := ℕ) spec0 c (VV0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (VV0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (VV0 m ρ c) (VV1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. Its arrays are split out of
    the unscoped buffers and put back at the exit contents; the generator register goes into the region's invariant and
    comes out; nothing is owed; the kernel has no semaphore of its own. -/
def reg1 : Pipeline.RegionSeg (pcfgs (F := F)) adm' (pdats m ρ) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (VV6 m ρ) c).loose
  hwaits := Pipeline.hwaits_of_owed_zero _ _ _ _ L' lv' 1 fun _ _ => rfl
  pre c := iprop(StableHlo.held (c : Thread nD τ) (Pipeline.ucRefs τ sig) (W6 m ρ c) ∗ RR c)
  post c := iprop(StableHlo.held (c : Thread nD τ) (Pipeline.ucRefs τ sig) (W7 m ρ c) ∗ RR c)
  X c := iprop(∃ r, prngReg c r)
  Y c := iprop(∃ r, prngReg c r)
  Z c := Pipeline.unscopedRest (Ix := Unit) (Name := ℕ) (U := UR sig nD τ) (Lvl := ℕ) spec1 c (VV6 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (VV6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (VV6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (VV6 m ρ c) (VV7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W12`, left at `W13`. Its arrays are split out of
    the unscoped buffers and put back at the exit contents; the generator register goes into the region's invariant and
    comes out; nothing is owed; the kernel has no semaphore of its own. -/
def reg2 : Pipeline.RegionSeg (pcfgs (F := F)) adm' (pdats m ρ) () defs₀ 𝒱₀' L' lv' 2 where
  win := launch2.win.to₀
  block_pos := launch2.block_pos
  stage_whole := launch2.stage_whole
  K := PEmpty
  osem k := k.elim
  ho := Pipeline.OwnSemFacts.none _
  hbody c := (body_obligation2 (VV12 m ρ) c).loose
  hwaits := Pipeline.hwaits_of_owed_zero _ _ _ _ L' lv' 2 fun _ _ => rfl
  pre c := iprop(StableHlo.held (c : Thread nD τ) (Pipeline.ucRefs τ sig) (W12 m ρ c) ∗ RR c)
  post c := iprop(StableHlo.held (c : Thread nD τ) (Pipeline.ucRefs τ sig) (W13 m ρ c) ∗ RR c)
  X c := iprop(∃ r, prngReg c r)
  Y c := iprop(∃ r, prngReg c r)
  Z c := Pipeline.unscopedRest (Ix := Unit) (Name := ℕ) (U := UR sig nD τ) (Lvl := ℕ) spec2 c (VV12 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (VV12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (VV12 m ρ c) (VV13 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W14`, left at `W15`. Its arrays are split out of
    the unscoped buffers and put back at the exit contents; the generator register goes into the region's invariant and
    comes out; nothing is owed; the kernel has no semaphore of its own. -/
def reg3 : Pipeline.RegionSeg (pcfgs (F := F)) adm' (pdats m ρ) () defs₀ 𝒱₀' L' lv' 3 where
  win := launch3.win.to₀
  block_pos := launch3.block_pos
  stage_whole := launch3.stage_whole
  K := PEmpty
  osem k := k.elim
  ho := Pipeline.OwnSemFacts.none _
  hbody c := (body_obligation3 (VV14 m ρ) c).loose
  hwaits := Pipeline.hwaits_of_owed_zero _ _ _ _ L' lv' 3 fun _ _ => rfl
  pre c := iprop(StableHlo.held (c : Thread nD τ) (Pipeline.ucRefs τ sig) (W14 m ρ c) ∗ RR c)
  post c := iprop(StableHlo.held (c : Thread nD τ) (Pipeline.ucRefs τ sig) (W15 m ρ c) ∗ RR c)
  X c := iprop(∃ r, prngReg c r)
  Y c := iprop(∃ r, prngReg c r)
  Z c := Pipeline.unscopedRest (Ix := Unit) (Name := ℕ) (U := UR sig nD τ) (Lvl := ℕ) spec3 c (VV14 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (VV14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (VV14 m ρ c) (VV15 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W16`, left at `W17`. Its arrays are split out of
    the unscoped buffers and put back at the exit contents; the generator register goes into the region's invariant and
    comes out; nothing is owed; the kernel has no semaphore of its own. -/
def reg4 : Pipeline.RegionSeg (pcfgs (F := F)) adm' (pdats m ρ) () defs₀ 𝒱₀' L' lv' 4 where
  win := launch4.win.to₀
  block_pos := launch4.block_pos
  stage_whole := launch4.stage_whole
  K := PEmpty
  osem k := k.elim
  ho := Pipeline.OwnSemFacts.none _
  hbody c := (body_obligation4 (VV16 m ρ) c).loose
  hwaits := Pipeline.hwaits_of_owed_zero _ _ _ _ L' lv' 4 fun _ _ => rfl
  pre c := iprop(StableHlo.held (c : Thread nD τ) (Pipeline.ucRefs τ sig) (W16 m ρ c) ∗ RR c)
  post c := iprop(StableHlo.held (c : Thread nD τ) (Pipeline.ucRefs τ sig) (W17 m ρ c) ∗ RR c)
  X c := iprop(∃ r, prngReg c r)
  Y c := iprop(∃ r, prngReg c r)
  Z c := Pipeline.unscopedRest (Ix := Unit) (Name := ℕ) (U := UR sig nD τ) (Lvl := ℕ) spec4 c (VV16 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (VV16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (VV16 m ρ c) (VV17 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W18`, left at `W19`. Its arrays are split out of
    the unscoped buffers and put back at the exit contents; the generator register goes into the region's invariant and
    comes out; nothing is owed; the kernel has no semaphore of its own. -/
def reg5 : Pipeline.RegionSeg (pcfgs (F := F)) adm' (pdats m ρ) () defs₀ 𝒱₀' L' lv' 5 where
  win := launch5.win.to₀
  block_pos := launch5.block_pos
  stage_whole := launch5.stage_whole
  K := PEmpty
  osem k := k.elim
  ho := Pipeline.OwnSemFacts.none _
  hbody c := (body_obligation5 (VV18 m ρ) c).loose
  hwaits := Pipeline.hwaits_of_owed_zero _ _ _ _ L' lv' 5 fun _ _ => rfl
  pre c := iprop(StableHlo.held (c : Thread nD τ) (Pipeline.ucRefs τ sig) (W18 m ρ c) ∗ RR c)
  post c := iprop(StableHlo.held (c : Thread nD τ) (Pipeline.ucRefs τ sig) (W19 m ρ c) ∗ RR c)
  X c := iprop(∃ r, prngReg c r)
  Y c := iprop(∃ r, prngReg c r)
  Z c := Pipeline.unscopedRest (Ix := Unit) (Name := ℕ) (U := UR sig nD τ) (Lvl := ℕ) spec5 c (VV18 m ρ c)
  hentry c := by
    rw [Pipeline.ownSems0_none]
    have hsplit := Pipeline.arrays_of_unscopedBufs (p := 5) (pcfgs (F := F)) adm' (pdats m ρ) launch5.win launch5.arr_whole c
      ((pdats m ρ 5 c).share_full fun _ => rfl) (VV18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m ρ) ((pdats m ρ 5 c).share_full fun _ => rfl)
      (VV18 m ρ c) (VV19 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W19`, left at `W20`. Its arrays are split out of
    the unscoped buffers and put back at the exit contents; the generator register goes into the region's invariant and
    comes out; nothing is owed; the kernel has no semaphore of its own. -/
def reg6 : Pipeline.RegionSeg (pcfgs (F := F)) adm' (pdats m ρ) () defs₀ 𝒱₀' L' lv' 6 where
  win := launch6.win.to₀
  block_pos := launch6.block_pos
  stage_whole := launch6.stage_whole
  K := PEmpty
  osem k := k.elim
  ho := Pipeline.OwnSemFacts.none _
  hbody c := (body_obligation6 (VV19 m ρ) c).loose
  hwaits := Pipeline.hwaits_of_owed_zero _ _ _ _ L' lv' 6 fun _ _ => rfl
  pre c := iprop(StableHlo.held (c : Thread nD τ) (Pipeline.ucRefs τ sig) (W19 m ρ c) ∗ RR c)
  post c := iprop(Tₙ' m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (VV19 m ρ c)
  hentry c := by
    rw [Pipeline.ownSems0_none]
    have hsplit := Pipeline.arrays_of_unscopedBufs (p := 6) (pcfgs (F := F)) adm' (pdats m ρ) launch6.win launch6.arr_whole c
      ((pdats m ρ 6 c).share_full fun _ => rfl) (VV19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm' (Ix := Unit) (Name := ℕ) (U := UR sig nD τ) (Lvl := ℕ)
      launch6.win launch6.arr_whole c (pdats m ρ) ((pdats m ρ 6 c).share_full fun _ => rfl)
      (VV19 m ρ c) (VV20 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 20 segments in order: a host segment per stretch from its boundary's contents, a region per pallas_call. -/
abbrev segs' : List (Pipeline.Seg (pcfgs (F := F)) adm' (pdats m ρ) () defs₀ 𝒱₀' L' lv') :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .region (reg1 m ρ),
    .host (hseg hostOps2 hostOps2_sub hostOps2_fresh (W7 m ρ)),
    .host (hseg hostOps2_1 hostOps2_1_sub hostOps2_1_fresh (W8 m ρ)),
    .host (hseg hostOps2_2 hostOps2_2_sub hostOps2_2_fresh (W9 m ρ)),
    .host (hseg hostOps2_3 hostOps2_3_sub hostOps2_3_fresh (W10 m ρ)),
    .host (hseg hostOps2_4 hostOps2_4_sub hostOps2_4_fresh (W11 m ρ)),
    .region (reg2 m ρ),
    .host (hseg hostOps3 hostOps3_sub hostOps3_fresh (W13 m ρ)),
    .region (reg3 m ρ),
    .host (hseg hostOps4 hostOps4_sub hostOps4_fresh (W15 m ρ)),
    .region (reg4 m ρ),
    .host (hseg hostOps5 hostOps5_sub hostOps5_fresh (W17 m ρ)),
    .region (reg5 m ρ),
    .region (reg6 m ρ) ]
/-- @main IS the run of the segments. -/
theorem main_run' (c : Dev nD) : main (F := F) c = Pipeline.Seg.run (segs' m ρ) := (main_chain c).trans (by chain_rfl)

set_option backward.isDefEq.respectTransparency.types false in
/-- THE RUN: from any memory with zero counters every weakly fair execution of @main on the TensorCores terminates,
    nothing faulting, and in every final state every unscoped buffer holds the last boundary's contents `W20`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm' (pdats m ρ) () cellOf_inj emb₁ defs₀ 𝒱₀' L' lv' m ρ main (segs' m ρ)
    (fun c Q => by rw [main_run' m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RR c)) (Tₙ := Tₙ' m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c)⟩) (run_all m ρ)

end Cert.Kernel.Gen

end
-- ==== Proof.Spec.lean ====
/-
  The mathematics both programs compute, as plain functions of indices over the extended reals.

  With M = adj ∘ mask1 ∘ mask2 (entrywise products), rs i = Σ_k M i k, and d i the guarded inverse square root of
  rs i + 1 (zero where the power is infinite), the NORMALISED ADJACENCY is
      nadj i k = M i k · d i · d k   off the diagonal,   M i i · d i · d i + d i · d i   on it
  — the symmetric normalisation D^{-1/2} (M + I) D^{-1/2} with the identity's share added separately. Every later
  quantity is a sum of products of its entries: row and column sums, products with a dense matrix from the left in
  either orientation.
-/
import Idealize.ShloMosaic.PureOps.Ideal
import Mathlib.Algebra.BigOperators.Group.Finset.Basic

noncomputable section

namespace Cert.Spec

open scoped BigOperators

/-- Entry (i, k) of the normalised adjacency from the masked adjacency `A`, the row scale `dr` and the column scale
    `dc` (in the programs both scales are the same vector, once as a column and once as a row). -/
def nadj {n : ℕ} (A : Fin n → Fin n → EReal) (dr dc : Fin n → EReal) (i k : Fin n) : EReal :=
  if i = k then A i k * dr i * dc k + dr i * dc k else A i k * dr i * dc k

/-- Row sums and column sums of the normalised adjacency. -/
def nadjRowSum {n : ℕ} (A : Fin n → Fin n → EReal) (dr dc : Fin n → EReal) (i : Fin n) : EReal :=
  ∑ k : Fin n, nadj A dr dc i k
def nadjColSum {n : ℕ} (A : Fin n → Fin n → EReal) (dr dc : Fin n → EReal) (k : Fin n) : EReal :=
  ∑ i : Fin n, nadj A dr dc i k

/-- The normalised adjacency times a dense matrix, `(N · B) i j = Σ_k N i k · B k j`, -/
def nadjMul {n w : ℕ} (A : Fin n → Fin n → EReal) (dr dc : Fin n → EReal) (B : Fin n → Fin w → EReal) (i : Fin n) (j : Fin w) : EReal :=
  ∑ k : Fin n, nadj A dr dc i k * B k j
/-- and its transpose times a dense matrix, `(Nᵀ · B) i j = Σ_k N k i · B k j`. -/
def nadjTMul {n w : ℕ} (A : Fin n → Fin n → EReal) (dr dc : Fin n → EReal) (B : Fin n → Fin w → EReal) (i : Fin n) (j : Fin w) : EReal :=
  ∑ k : Fin n, nadj A dr dc k i * B k j

/-- A dense product `(X · W) i j = Σ_k X i k · W k j`. -/
def matMul {n k w : ℕ} (X : Fin n → Fin k → EReal) (W : Fin k → Fin w → EReal) (i : Fin n) (j : Fin w) : EReal :=
  ∑ l : Fin k, X i l * W l j

end Cert.Spec

end
-- ==== Proof.SpecFull.lean ====
/-
  The whole computation, end to end, in the arrangement that sums the masked adjacency once.

  From the six argument arrays — the features x, the three factors a1, a2, a3 of the masked adjacency, and the two
  weight matrices w0, w1 — everything below is a plain function of indices into the extended reals:

    M = a1 ∘ a2 ∘ a3 (entrywise),  rs i = Σ_k M i k,  d i = g (rs i + 1),
  where g is the GUARDED inverse square root  g z = z ^ (-1/2), replaced by 0 where that power is infinite.
  N = D^{-1/2} (M + I) D^{-1/2} is the normalised adjacency of Spec (the identity's share d i · d i added on the
  diagonal), R and C its row and column sums, and S = (R + C)/2 the row sums of its symmetric part.

  The output is  N · max(N · x · w0, 0) · w1.  The smoothing loss is  Σ_{i,f} x i f · (r i · LY i f)  with
  r i = g (S i + ε), Y = r ∘ x (row scaling) and LY = S ∘ Y − (N·Y + Nᵀ·Y)/2: the Laplacian of the symmetric part,
  D_S − (N + Nᵀ)/2, scaled by r on both sides and traced against x.

  The four scalar constants are kept as the words the programs print (1, 1/2, 1/1000 rounded, and 0); three of them are
  evaluated below because the algebra needs their values, the fourth (ε) never is.
-/
import proofs.«152628_j8315056685239_2_alg».proof.Proof.Spec
import Idealize.ShloMosaic.PureOps.Ideal.Laws

noncomputable section

namespace Cert.Spec

open scoped BigOperators
open Idealize.ShloMosaic

/-! ## The constants, as printed words -/

/-- The word of 1.0. -/
abbrev one : EReal := Ideal.ofBits .f32 0x3F800000#32
/-- The word of 0.5. -/
abbrev half : EReal := Ideal.ofBits .f32 0x3F000000#32
/-- The word of 0.001 (rounded to the format; its value is never used). -/
abbrev eps : EReal := Ideal.ofBits .f32 0x3A83126F#32
/-- The word of 0.0. -/
abbrev zero : EReal := Ideal.ofBits .f32 0x00000000#32
/-- The word of -0.5, the exponent of the inverse square root. -/
abbrev negHalf : EReal := Ideal.ofBits .f32 0xBF000000#32
/-- The word of +∞, against which the magnitude of the power is compared. -/
abbrev posInf : EReal := Ideal.ofBits .f32 0x7F800000#32

theorem zero_eq : zero = 0 := Ideal.ofBits_zero_f32
theorem one_eq : one = 1 := by
  simp [Ideal.ofBits, Ideal.ieee]
  rw [← EReal.coe_mul, ← EReal.coe_one]
  congr 1
  norm_num
theorem half_eq : half = ((1 / 2 : ℝ) : EReal) := by
  simp [Ideal.ofBits, Ideal.ieee]
  rw [← EReal.coe_mul]
  congr 1
  norm_num
theorem negHalf_eq : negHalf = ((-(1 / 2) : ℝ) : EReal) := by
  simp [Ideal.ofBits, Ideal.ieee]
  rw [← EReal.coe_mul]
  congr 1
  norm_num
theorem posInf_eq : posInf = ⊤ := by
  simp [Ideal.ofBits, Ideal.ieee]

/-! ## The guarded inverse square root -/

/-- `g z`: the power `z ^ (-1/2)`, replaced by 0 where its magnitude `max p (-p)` equals +∞ — the scalar form of
    "power, then where(isinf(·), 0, ·)" over the extended reals' own operations. -/
def gpow (z : EReal) : EReal :=
  Scalar.select (Ideal.cmp .oeq (max (Ideal.pow z negHalf) (-Ideal.pow z negHalf)) posInf) zero (Ideal.pow z negHalf)

/-- The same function written through the float operations' names (host power and magnitude, comparison, select): the
    form an operation-by-operation reading of either program arrives at. -/
theorem gpow_eq_ops (z : EReal) :
    gpow z = Scalar.select
      (FloatOps.cmpf (F := Ideal) (φ := .f32) .oeq
        (FloatOps.hostAbsf (F := Ideal) (φ := .f32) (FloatOps.hostPowf (F := Ideal) (φ := .f32) z (FloatOps.ofBits (F := Ideal) .f32 0xBF000000#32)))
        (FloatOps.ofBits (F := Ideal) .f32 0x7F800000#32))
      (FloatOps.ofBits (F := Ideal) .f32 0x00000000#32)
      (FloatOps.hostPowf (F := Ideal) (φ := .f32) z (FloatOps.ofBits (F := Ideal) .f32 0xBF000000#32)) := rfl

/-- The guarded power is always a real number: a real base gives a real power; at +∞ the power is 0; at −∞ the power is
    −∞, whose magnitude is +∞, so the guard answers 0. -/
theorem gpow_real (z : EReal) : ∃ t : ℝ, gpow z = (t : EReal) := by
  unfold gpow Scalar.select
  split
  · exact ⟨0, by rw [zero_eq, EReal.coe_zero]⟩
  · rename_i hc
    induction z using EReal.rec with
    | bot =>
      exfalso; apply hc
      simp [Ideal.cmp, posInf_eq]
    | top =>
      refine ⟨0, ?_⟩
      rw [Ideal.pow_top, negHalf_eq, if_neg, if_neg, EReal.coe_zero]
      · rw [← EReal.coe_zero, EReal.coe_eq_coe_iff]; norm_num
      · rw [← EReal.coe_zero, EReal.coe_lt_coe_iff]; norm_num
    | coe x =>
      rw [negHalf_eq, Ideal.pow_coe_coe]
      exact ⟨_, rfl⟩

/-! ## The masked adjacency and its normalisation -/

section
variable (x : Fin 8192 → Fin 512 → EReal) (a1 a2 a3 : Fin 8192 → Fin 8192 → EReal)
  (w0 : Fin 512 → Fin 256 → EReal) (w1 : Fin 256 → Fin 16 → EReal)

/-- The masked adjacency: the entrywise product of the three factors. -/
def M (i k : Fin 8192) : EReal := a1 i k * a2 i k * a3 i k
/-- Its row sums. -/
def rs (i : Fin 8192) : EReal := ∑ k : Fin 8192, M a1 a2 a3 i k
/-- The degree scale: the guarded inverse square root of the row sum plus one (the identity's share). -/
def d (i : Fin 8192) : EReal := gpow (rs a1 a2 a3 i + one)
/-- The normalised adjacency. -/
def N (i k : Fin 8192) : EReal := nadj (M a1 a2 a3) (d a1 a2 a3) (d a1 a2 a3) i k
/-- Its row sums, -/
def R (i : Fin 8192) : EReal := nadjRowSum (M a1 a2 a3) (d a1 a2 a3) (d a1 a2 a3) i
/-- its column sums, -/
def C (i : Fin 8192) : EReal := nadjColSum (M a1 a2 a3) (d a1 a2 a3) (d a1 a2 a3) i
/-- and the row sums of its symmetric part (N + Nᵀ)/2. -/
def S (i : Fin 8192) : EReal := half * (R a1 a2 a3 i + C a1 a2 a3 i)
/-- The smoothing scale: the guarded inverse square root of that row sum plus ε. -/
def r (i : Fin 8192) : EReal := gpow (S a1 a2 a3 i + eps)

/-! ## The smoothing loss -/

/-- The features scaled row by row. -/
def Y (i : Fin 8192) (f : Fin 512) : EReal := r a1 a2 a3 i * x i f
/-- N · x, the first layer's aggregation. -/
def H0 (i : Fin 8192) (f : Fin 512) : EReal := nadjMul (M a1 a2 a3) (d a1 a2 a3) (d a1 a2 a3) x i f
/-- N · Y and -/
def P (i : Fin 8192) (f : Fin 512) : EReal := nadjMul (M a1 a2 a3) (d a1 a2 a3) (d a1 a2 a3) (Y x a1 a2 a3) i f
/-- Nᵀ · Y. -/
def Q (i : Fin 8192) (f : Fin 512) : EReal := nadjTMul (M a1 a2 a3) (d a1 a2 a3) (d a1 a2 a3) (Y x a1 a2 a3) i f
/-- The Laplacian of the symmetric part applied to Y: D_S · Y − ((N + Nᵀ)/2) · Y. -/
def LY (i : Fin 8192) (f : Fin 512) : EReal :=
  S a1 a2 a3 i * Y x a1 a2 a3 i f - half * (P x a1 a2 a3 i f + Q x a1 a2 a3 i f)
/-- The loss: the trace of xᵀ · (r ∘ LY), summed over every entry, from the zero word. -/
def kLoss : EReal :=
  zero + ∑ i : Fin 8192, ∑ f : Fin 512, x i f * (r a1 a2 a3 i * LY x a1 a2 a3 i f)

/-! ## The two layers -/

/-- The first layer: N · x · w0, clamped below at zero. -/
def h0w (i : Fin 8192) (g : Fin 256) : EReal := max (matMul (H0 x a1 a2 a3) w0 i g) 0
/-- The second aggregation: N · (first layer). -/
def h1 (i : Fin 8192) (g : Fin 256) : EReal :=
  nadjMul (M a1 a2 a3) (d a1 a2 a3) (d a1 a2 a3) (h0w x a1 a2 a3 w0) i g
/-- The output: N · max(N · x · w0, 0) · w1. -/
def kOut (i : Fin 8192) (o : Fin 16) : EReal := matMul (h1 x a1 a2 a3 w0) w1 i o

end

end Cert.Spec

end
-- ==== Proof.RefAlgebra.lean ====
/-
  The algebra between the two arrangements, over finite index types.

  The reference forms the normalised adjacency as  d ∘ (A + I) ∘ dᵀ  (scale the rows, then the columns, of the
  masked adjacency plus the identity) and symmetrises it as (Nᵀ + N) · ½ before summing rows or multiplying by a dense
  matrix. The specification keeps N's diagonal share separate and applies ½ after the sums. The two agree by
  distributivity, which on the extended reals holds for real numbers only: each law is proved over ℝ and carried to
  the extended reals by choosing real witnesses and pushing the coercion outward.
-/
import proofs.«152628_j8315056685239_2_alg».proof.Proof.Spec

noncomputable section

namespace Cert.Spec

open scoped BigOperators

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## Over the reals -/

section Real
variable {ι : Type*} [Fintype ι]

/-- Row sums of the symmetrised matrix: Σ_k (n k i + n i k) · h = h · (Σ_k n i k + Σ_k n k i). -/
theorem sym_rowsum_real (n : ι → ι → ℝ) (h : ℝ) (i : ι) :
    ∑ k, (n k i + n i k) * h = h * (∑ k, n i k + ∑ k, n k i) := by
  rw [← Finset.sum_add_distrib, Finset.mul_sum]
  exact Finset.sum_congr rfl fun k _ => by ring

/-- The symmetrised matrix times a vector: Σ_k ((n k i + n i k) · h) · y k = h · (Σ_k n i k · y k + Σ_k n k i · y k). -/
theorem sym_mul_real (n : ι → ι → ℝ) (h : ℝ) (y : ι → ℝ) (i : ι) :
    ∑ k, ((n k i + n i k) * h) * y k = h * (∑ k, n i k * y k + ∑ k, n k i * y k) := by
  rw [← Finset.sum_add_distrib, Finset.mul_sum]
  exact Finset.sum_congr rfl fun k _ => by ring

end Real

/-! ## Carried to the extended reals, for real entries -/

section Ext
variable {ι : Type*} [Fintype ι]

theorem sym_rowsum (N : ι → ι → EReal) (H : EReal) (hN : ∀ i k, ∃ t : ℝ, N i k = (t : EReal))
    (hH : ∃ t : ℝ, H = (t : EReal)) (i : ι) :
    ∑ k, (N k i + N i k) * H = H * (∑ k, N i k + ∑ k, N k i) := by
  choose n hn using hN
  obtain ⟨h, rfl⟩ := hH
  simp only [hn]
  simp only [← EReal.coe_add, ← EReal.coe_mul, ← coe_sum]
  rw [sym_rowsum_real]

theorem sym_mul (N : ι → ι → EReal) (H : EReal) (Y : ι → EReal) (hN : ∀ i k, ∃ t : ℝ, N i k = (t : EReal))
    (hH : ∃ t : ℝ, H = (t : EReal)) (hY : ∀ k, ∃ t : ℝ, Y k = (t : EReal)) (i : ι) :
    ∑ k, ((N k i + N i k) * H) * Y k = H * (∑ k, N i k * Y k + ∑ k, N k i * Y k) := by
  choose n hn using hN
  choose y hy using hY
  obtain ⟨h, rfl⟩ := hH
  simp only [hn, hy]
  simp only [← EReal.coe_add, ← EReal.coe_mul, ← coe_sum]
  rw [sym_mul_real]

end Ext

/-! ## The normalised adjacency, formed the reference's way -/

section Nadj
variable {n : ℕ}

/-- A product and sum of reals is a real: every entry of the normalised adjacency is one when the masked adjacency and
    the scales are. -/
theorem nadj_real (A : Fin n → Fin n → EReal) (dr dc : Fin n → EReal)
    (hA : ∀ i k, ∃ t : ℝ, A i k = (t : EReal)) (hr : ∀ i, ∃ t : ℝ, dr i = (t : EReal))
    (hc : ∀ i, ∃ t : ℝ, dc i = (t : EReal)) (i k : Fin n) : ∃ t : ℝ, nadj A dr dc i k = (t : EReal) := by
  obtain ⟨a, ha⟩ := hA i k
  obtain ⟨p, hp⟩ := hr i
  obtain ⟨q, hq⟩ := hc k
  unfold nadj
  rw [ha, hp, hq]
  split
  · exact ⟨a * p * q + p * q, by rw [EReal.coe_add, EReal.coe_mul, EReal.coe_mul, EReal.coe_mul]⟩
  · exact ⟨a * p * q, by rw [EReal.coe_mul, EReal.coe_mul]⟩

/-- Scaling the rows and then the columns of the masked adjacency plus the identity gives the normalised adjacency:
    off the diagonal by commuting the factors; on it by distributing the row scale over A i i + 1, which needs A i i and
    the row scale real. -/
theorem scaled_eq_nadj (A : Fin n → Fin n → EReal) (dr dc : Fin n → EReal)
    (hA : ∀ i, ∃ t : ℝ, A i i = (t : EReal)) (hr : ∀ i, ∃ t : ℝ, dr i = (t : EReal))
    (hc : ∀ i, ∃ t : ℝ, dc i = (t : EReal)) (i k : Fin n) :
    dr i * (A i k + (if i = k then (1 : EReal) else 0)) * dc k = nadj A dr dc i k := by
  unfold nadj
  split
  · rename_i hik
    subst hik
    obtain ⟨a, ha⟩ := hA i
    obtain ⟨p, hp⟩ := hr i
    obtain ⟨q, hq⟩ := hc i
    rw [ha, hp, hq, ← EReal.coe_one]
    simp only [← EReal.coe_add, ← EReal.coe_mul]
    congr 1
    ring
  · rw [add_zero, mul_comm (dr i) (A i k)]

end Nadj

end Cert.Spec

end
-- ==== Proof.RefValue.lean ====
/-
  The reference computes the specification, under finiteness of the inputs.

  Operation by operation the reference forms the masked adjacency M = a1 ∘ a2 ∘ a3, adds the identity, takes row sums
  (Σ_k (M i k + δ i k) = Σ_k M i k + 1 by commutativity and associativity alone), applies the guarded inverse square
  root, and scales rows and columns: d i · (M i k + δ i k) · d k. That is the normalised adjacency of the
  specification — off the diagonal by commuting factors, on it by distributing d i over M i i + 1, which needs M i i real
  (the guarded power is always real). The two layers then read off as the specification's sums, term for term.

  For the smoothing loss the reference symmetrises, (Nᵀ + N) · ½, before summing rows and before multiplying by the
  scaled features; the specification applies ½ after the sums. Moving the factor across the sums needs every entry of N
  and of the scaled features real, which the inputs' finiteness gives.
-/
import proofs.«152628_j8315056685239_2_alg».proof.Proof.Gen.ReferenceIdeal.Read
import proofs.«152628_j8315056685239_2_alg».proof.Proof.SpecFull
import proofs.«152628_j8315056685239_2_alg».proof.Proof.RefAlgebra

noncomputable section

namespace Cert.ReferenceIdeal.RefValue

open Cert.ReferenceIdeal Cert.ReferenceIdeal.Read Idealize.ShloMosaic Idealize.ShloMosaic.ValueIdx
open scoped BigOperators

variable (X0 : (⟨S8192x512, .f32⟩ : BufTy).Contents (Elt Ideal))
  (X1 X2 X3 : (⟨S8192x8192, .f32⟩ : BufTy).Contents (Elt Ideal))
  (X4 : (⟨S512x256, .f32⟩ : BufTy).Contents (Elt Ideal)) (X5 : (⟨S256x16, .f32⟩ : BufTy).Contents (Elt Ideal))

/-- An array of rank two as a function of its two coordinates. -/
abbrev byCoord {n0 n1 : ℕ} (X : (⟨2, ![n0, n1]⟩ : Shape).Idx → EReal) : Fin n0 → Fin n1 → EReal :=
  fun a b => X (ix2 a b)

/-! ## The identity matrix, entry by entry -/

/-- The reference's identity — compare the row number with the column number, convert the bit — is 1 on the diagonal
    and 0 off it: the numbers are below 2^32, so equal words mean equal indices. -/
theorem eye_apply (i k : Fin 8192) :
    val_main_v7 (F := Ideal) (ix2 i k) = if i = k then (1 : EReal) else 0 := by
  rw [val_main_v7_apply, val_main_v6_apply, val_main_v5_apply, val_main_v2_apply, val_main_v3_apply,
    val_main_v4_apply, val_main_c_apply]
  have key : IntOp.cmpi .eq (IntOp.addi (BitVec.ofNat 32 ((ix2 i k : S8192x8192.Idx) 0).val) 0#32)
      (BitVec.ofNat 32 ((ix2 i k : S8192x8192.Idx) 1).val) = if i = k then 1#1 else 0#1 := by
    show IntOp.cmpi .eq (IntOp.addi (BitVec.ofNat 32 i.val) 0#32) (BitVec.ofNat 32 k.val) = _
    have h0 : IntOp.addi (BitVec.ofNat 32 i.val) 0#32 = BitVec.ofNat 32 i.val := BitVec.add_zero _
    rw [h0]
    by_cases h : i = k
    · rw [if_pos h, h]; exact IntOp.cmpi_eq.2 rfl
    · rw [if_neg h]
      refine eq_zero_of_ne_one fun hc => h ?_
      have := congrArg BitVec.toNat (IntOp.cmpi_eq.1 hc)
      rw [BitVec.toNat_ofNat, BitVec.toNat_ofNat] at this
      have hi := i.isLt
      have hk := k.isLt
      exact Fin.ext (by omega)
  rw [key]
  by_cases h : i = k
  · simp only [if_pos h]
    show (((1#1 : BitVec 1).toNat : ℝ) : EReal) = 1
    simp
  · simp only [if_neg h]
    show (((0#1 : BitVec 1).toNat : ℝ) : EReal) = 0
    simp

/-! ## The normalised adjacency -/

/-- The masked adjacency plus the identity. -/
theorem v8_at (i k : Fin 8192) :
    val_main_v8 (F := Ideal) X1 X2 X3 (ix2 i k)
      = Spec.M (byCoord X1) (byCoord X2) (byCoord X3) i k + (if i = k then (1 : EReal) else 0) := by
  rw [val_main_v8_apply, val_main_v1_apply, val_main_v0_apply, eye_apply]
  rfl

/-- Its row sums: the masked adjacency's row sum plus one. -/
theorem v9_at (i : Fin 8192) :
    val_main_v9 (F := Ideal) X1 X2 X3 (ix1 i) = Spec.rs (byCoord X1) (byCoord X2) (byCoord X3) i + Spec.one := by
  rw [val_main_v9_apply, val_main_cst_apply]
  have hidx : ∀ k, idx_main_v9 (ix1 i) k = ix2 i k := fun k =>
    funext fun a => Fin.ext (by match a with | ⟨0, _⟩ => rfl | ⟨1, _⟩ => rfl)
  simp only [hidx, v8_at]
  show Ideal.ofBits .f32 0x00000000#32 + _ = _
  rw [Ideal.ofBits_zero_f32, zero_add, Finset.sum_add_distrib, Finset.sum_ite_eq, if_pos (Finset.mem_univ _),
    Spec.one_eq]
  rfl

/-- The degree scale. -/
theorem v13_at (i : Fin 8192) :
    val_main_v13 (F := Ideal) X1 X2 X3 (ix1 i) = Spec.d (byCoord X1) (byCoord X2) (byCoord X3) i := by
  rw [val_main_v13_apply, val_main_v12_apply, val_main_call0_v0_apply, val_main_v11_apply, val_main_call0_v1_apply,
    val_main_call0_cst_apply, val_main_call1_v1_apply, val_main_call1_v0_apply, val_main_cst_1_apply,
    val_main_v10_apply, val_main_cst_0_apply, v9_at]
  rfl

section Finite
variable (hM : ∀ i k, ∃ t : ℝ, Spec.M (byCoord X1) (byCoord X2) (byCoord X3) i k = (t : EReal))
include hM

/-- Rows scaled, then columns: the normalised adjacency, the diagonal by distributivity over reals. -/
theorem v19_at (i k : Fin 8192) :
    val_main_v19 (F := Ideal) X1 X2 X3 (ix2 i k) = Spec.N (byCoord X1) (byCoord X2) (byCoord X3) i k := by
  have e1 : idx_main_v14 (idx_main_v15 (ix2 i k)) = ix1 i :=
    funext fun a => Fin.ext (by match a with | ⟨0, _⟩ => rfl)
  have e2 : idx_main_v17 (idx_main_v18 (ix2 i k)) = ix1 k :=
    funext fun a => Fin.ext (by match a with | ⟨0, _⟩ => rfl)
  have h15 : val_main_v15 (F := Ideal) X1 X2 X3 (ix2 i k) = Spec.d (byCoord X1) (byCoord X2) (byCoord X3) i := by
    rw [val_main_v15_apply, val_main_v14_apply, e1, v13_at]
  have h18 : val_main_v18 (F := Ideal) X1 X2 X3 (ix2 i k) = Spec.d (byCoord X1) (byCoord X2) (byCoord X3) k := by
    rw [val_main_v18_apply, val_main_v17_apply, e2, v13_at]
  rw [val_main_v19_apply, val_main_v16_apply, h15, h18, v8_at]
  exact Spec.scaled_eq_nadj (Spec.M (byCoord X1) (byCoord X2) (byCoord X3))
    (Spec.d (byCoord X1) (byCoord X2) (byCoord X3)) (Spec.d (byCoord X1) (byCoord X2) (byCoord X3))
    (fun j => hM j j) (fun j => Spec.gpow_real _) (fun j => Spec.gpow_real _) i k

/-! ## The two layers -/

/-- The first aggregation, N · x. -/
theorem v20_at (i : Fin 8192) (f : Fin 512) :
    val_main_v20 (F := Ideal) X0 X1 X2 X3 (ix2 i f)
      = Spec.H0 (byCoord X0) (byCoord X1) (byCoord X2) (byCoord X3) i f := by
  rw [val_main_v20_apply]
  have el : ∀ k, lidx_main_v20 (ix2 i f) k = ix2 i k := fun k =>
    funext fun a => Fin.ext (by match a with | ⟨0, _⟩ => rfl | ⟨1, _⟩ => rfl)
  have er : ∀ k, ridx_main_v20 (ix2 i f) k = ix2 k f := fun k =>
    funext fun a => Fin.ext (by match a with | ⟨0, _⟩ => rfl | ⟨1, _⟩ => rfl)
  simp only [el, er, v19_at X1 X2 X3 hM]
  rfl

/-- Times the first weight matrix. -/
theorem v21_at (i : Fin 8192) (g : Fin 256) :
    val_main_v21 (F := Ideal) X0 X1 X2 X3 X4 (ix2 i g)
      = Spec.matMul (Spec.H0 (byCoord X0) (byCoord X1) (byCoord X2) (byCoord X3)) (byCoord X4) i g := by
  rw [val_main_v21_apply]
  have el : ∀ k, lidx_main_v21 (ix2 i g) k = ix2 i k := fun k =>
    funext fun a => Fin.ext (by match a with | ⟨0, _⟩ => rfl | ⟨1, _⟩ => rfl)
  have er : ∀ k, ridx_main_v21 (ix2 i g) k = ix2 k g := fun k =>
    funext fun a => Fin.ext (by match a with | ⟨0, _⟩ => rfl | ⟨1, _⟩ => rfl)
  simp only [el, er, v20_at X0 X1 X2 X3 hM]
  rfl

/-- Clamped below at zero. -/
theorem v22_at (i : Fin 8192) (g : Fin 256) :
    val_main_v22 (F := Ideal) X0 X1 X2 X3 X4 (ix2 i g)
      = Spec.h0w (byCoord X0) (byCoord X1) (byCoord X2) (byCoord X3) (byCoord X4) i g := by
  rw [val_main_v22_apply, val_main_call2_v0_apply, val_main_call2_cst_apply, v21_at X0 X1 X2 X3 X4 hM]
  show max _ (Ideal.ofBits .f32 0x00000000#32) = _
  rw [Ideal.ofBits_zero_f32]
  rfl

/-- The second aggregation. -/
theorem v23_at (i : Fin 8192) (g : Fin 256) :
    val_main_v23 (F := Ideal) X0 X1 X2 X3 X4 (ix2 i g)
      = Spec.h1 (byCoord X0) (byCoord X1) (byCoord X2) (byCoord X3) (byCoord X4) i g := by
  rw [val_main_v23_apply]
  have el : ∀ k, lidx_main_v23 (ix2 i g) k = ix2 i k := fun k =>
    funext fun a => Fin.ext (by match a with | ⟨0, _⟩ => rfl | ⟨1, _⟩ => rfl)
  have er : ∀ k, ridx_main_v23 (ix2 i g) k = ix2 k g := fun k =>
    funext fun a => Fin.ext (by match a with | ⟨0, _⟩ => rfl | ⟨1, _⟩ => rfl)
  simp only [el, er, v19_at X1 X2 X3 hM, v22_at X0 X1 X2 X3 X4 hM]
  rfl

/-- The reference's first result is the specification's output, entry by entry, given that the masked adjacency is real. -/
theorem ref_out_of_M (i : Fin 8192) (o : Fin 16) :
    val_main_v24 (F := Ideal) X0 X1 X2 X3 X4 X5 (ix2 i o)
      = Spec.kOut (fun a b => X0 (ix2 a b)) (fun a b => X1 (ix2 a b)) (fun a b => X2 (ix2 a b))
          (fun a b => X3 (ix2 a b)) (fun a b => X4 (ix2 a b)) (fun a b => X5 (ix2 a b)) i o := by
  rw [val_main_v24_apply]
  have el : ∀ k, lidx_main_v24 (ix2 i o) k = ix2 i k := fun k =>
    funext fun a => Fin.ext (by match a with | ⟨0, _⟩ => rfl | ⟨1, _⟩ => rfl)
  have er : ∀ k, ridx_main_v24 (ix2 i o) k = ix2 k o := fun k =>
    funext fun a => Fin.ext (by match a with | ⟨0, _⟩ => rfl | ⟨1, _⟩ => rfl)
  simp only [el, er, v23_at X0 X1 X2 X3 X4 hM]
  rfl

/-! ## The smoothing loss -/

/-- Every entry of the normalised adjacency is a real. -/
theorem N_real (i k : Fin 8192) :
    ∃ t : ℝ, Spec.N (byCoord X1) (byCoord X2) (byCoord X3) i k = (t : EReal) :=
  Spec.nadj_real _ _ _ hM (fun _ => Spec.gpow_real _) (fun _ => Spec.gpow_real _) i k

/-- The symmetrised adjacency, (Nᵀ + N) · ½. -/
theorem v28_at (i k : Fin 8192) :
    val_main_v28 (F := Ideal) X1 X2 X3 (ix2 i k)
      = (Spec.N (byCoord X1) (byCoord X2) (byCoord X3) k i + Spec.N (byCoord X1) (byCoord X2) (byCoord X3) i k)
          * Spec.half := by
  rw [val_main_v28_apply, val_main_v26_apply, val_main_v25_apply, val_main_v27_apply, val_main_cst_2_apply]
  have e : idx_main_v25 (ix2 i k) = ix2 k i :=
    funext fun a => Fin.ext (by match a with | ⟨0, _⟩ => rfl | ⟨1, _⟩ => rfl)
  rw [e, v19_at X1 X2 X3 hM, v19_at X1 X2 X3 hM]
  rfl

/-- Its row sums: half the sum of N's row and column sums, the factor moved across a sum of reals. -/
theorem v29_at (i : Fin 8192) :
    val_main_v29 (F := Ideal) X1 X2 X3 (ix1 i) = Spec.S (byCoord X1) (byCoord X2) (byCoord X3) i := by
  rw [val_main_v29_apply, val_main_cst_3_apply]
  have hidx : ∀ k, idx_main_v29 (ix1 i) k = ix2 i k := fun k =>
    funext fun a => Fin.ext (by match a with | ⟨0, _⟩ => rfl | ⟨1, _⟩ => rfl)
  simp only [hidx, v28_at X1 X2 X3 hM]
  show Ideal.ofBits .f32 0x00000000#32 + _ = _
  rw [Ideal.ofBits_zero_f32, zero_add,
    Spec.sym_rowsum (Spec.N (byCoord X1) (byCoord X2) (byCoord X3)) Spec.half (N_real X1 X2 X3 hM)
      ⟨_, Spec.half_eq⟩ i]
  rfl

/-- The smoothing scale. -/
theorem v35_at (i : Fin 8192) :
    val_main_v35 (F := Ideal) X1 X2 X3 (ix1 i) = Spec.r (byCoord X1) (byCoord X2) (byCoord X3) i := by
  rw [val_main_v35_apply, val_main_v34_apply, val_main_call3_v0_apply, val_main_v33_apply, val_main_call3_v1_apply,
    val_main_call3_cst_apply, val_main_call4_v1_apply, val_main_call4_v0_apply, val_main_cst_6_apply,
    val_main_v32_apply, val_main_cst_5_apply, val_main_v31_apply, val_main_v30_apply, val_main_cst_4_apply,
    v29_at X1 X2 X3 hM]
  rfl

/-- The features scaled row by row. -/
theorem v38_at (i : Fin 8192) (f : Fin 512) :
    val_main_v38 (F := Ideal) X0 X1 X2 X3 (ix2 i f)
      = Spec.Y (byCoord X0) (byCoord X1) (byCoord X2) (byCoord X3) i f := by
  rw [val_main_v38_apply, val_main_v37_apply, val_main_v36_apply]
  have e : idx_main_v36 (idx_main_v37 (ix2 i f)) = ix1 i :=
    funext fun a => Fin.ext (by match a with | ⟨0, _⟩ => rfl)
  rw [e, v35_at X1 X2 X3 hM]
  rfl

section FiniteX
variable (hx : ∀ j, ∃ t : ℝ, X0 j = (t : EReal))
include hx

/-- The scaled features are reals. -/
theorem Y_real (k : Fin 8192) (f : Fin 512) :
    ∃ t : ℝ, Spec.Y (byCoord X0) (byCoord X1) (byCoord X2) (byCoord X3) k f = (t : EReal) := by
  obtain ⟨p, hp⟩ := Spec.gpow_real (Spec.S (byCoord X1) (byCoord X2) (byCoord X3) k + Spec.eps)
  obtain ⟨q, hq⟩ := hx (ix2 k f)
  refine ⟨p * q, ?_⟩
  show Spec.gpow _ * X0 (ix2 k f) = _
  rw [hp, hq, EReal.coe_mul]

/-- The symmetrised adjacency times the scaled features: half of N · Y + Nᵀ · Y. -/
theorem v42_at (i : Fin 8192) (f : Fin 512) :
    val_main_v42 (F := Ideal) X0 X1 X2 X3 (ix2 i f)
      = Spec.half * (Spec.P (byCoord X0) (byCoord X1) (byCoord X2) (byCoord X3) i f
          + Spec.Q (byCoord X0) (byCoord X1) (byCoord X2) (byCoord X3) i f) := by
  rw [val_main_v42_apply]
  have el : ∀ k, lidx_main_v42 (ix2 i f) k = ix2 i k := fun k =>
    funext fun a => Fin.ext (by match a with | ⟨0, _⟩ => rfl | ⟨1, _⟩ => rfl)
  have er : ∀ k, ridx_main_v42 (ix2 i f) k = ix2 k f := fun k =>
    funext fun a => Fin.ext (by match a with | ⟨0, _⟩ => rfl | ⟨1, _⟩ => rfl)
  simp only [el, er, v28_at X1 X2 X3 hM, v38_at X0 X1 X2 X3 hM]
  exact Spec.sym_mul (Spec.N (byCoord X1) (byCoord X2) (byCoord X3)) Spec.half
    (fun k => Spec.Y (byCoord X0) (byCoord X1) (byCoord X2) (byCoord X3) k f) (N_real X1 X2 X3 hM)
    ⟨_, Spec.half_eq⟩ (fun k => Y_real X0 X1 X2 X3 hM hx k f) i

/-- One summand of the loss. -/
theorem v47_at (i : Fin 8192) (f : Fin 512) :
    val_main_v47 (F := Ideal) X0 X1 X2 X3 (ix2 i f)
      = X0 (ix2 i f) * (Spec.r (byCoord X1) (byCoord X2) (byCoord X3) i
          * Spec.LY (byCoord X0) (byCoord X1) (byCoord X2) (byCoord X3) i f) := by
  rw [val_main_v47_apply, val_main_v46_apply, val_main_v45_apply, val_main_v44_apply, val_main_v43_apply,
    val_main_v41_apply, val_main_v40_apply, val_main_v39_apply]
  have e1 : idx_main_v44 (idx_main_v45 (ix2 i f)) = ix1 i :=
    funext fun a => Fin.ext (by match a with | ⟨0, _⟩ => rfl)
  have e2 : idx_main_v39 (idx_main_v40 (ix2 i f)) = ix1 i :=
    funext fun a => Fin.ext (by match a with | ⟨0, _⟩ => rfl)
  rw [e1, e2, v35_at X1 X2 X3 hM, v29_at X1 X2 X3 hM, v38_at X0 X1 X2 X3 hM, v42_at X0 X1 X2 X3 hM hx]
  rfl

/-- The reference's second result is the specification's loss, given that the masked adjacency and the features are real. -/
theorem ref_loss_of_M :
    val_main_v48 (F := Ideal) X0 X1 X2 X3 ix0
      = Spec.kLoss (fun a b => X0 (ix2 a b)) (fun a b => X1 (ix2 a b)) (fun a b => X2 (ix2 a b))
          (fun a b => X3 (ix2 a b)) := by
  rw [val_main_v48_apply, val_main_cst_7_apply, sum_idx2]
  simp only [v47_at X0 X1 X2 X3 hM hx]
  rfl

end FiniteX

end Finite

/-! ## From the inputs' finiteness -/

/-- The masked adjacency is real when its three factors are. -/
theorem M_real (h1 : ∀ j, ∃ t : ℝ, X1 j = (t : EReal)) (h2 : ∀ j, ∃ t : ℝ, X2 j = (t : EReal))
    (h3 : ∀ j, ∃ t : ℝ, X3 j = (t : EReal)) (i k : Fin 8192) :
    ∃ t : ℝ, Spec.M (byCoord X1) (byCoord X2) (byCoord X3) i k = (t : EReal) := by
  obtain ⟨a, ha⟩ := h1 (ix2 i k)
  obtain ⟨b, hb⟩ := h2 (ix2 i k)
  obtain ⟨c, hc⟩ := h3 (ix2 i k)
  refine ⟨a * b * c, ?_⟩
  show X1 (ix2 i k) * X2 (ix2 i k) * X3 (ix2 i k) = _
  rw [ha, hb, hc, EReal.coe_mul, EReal.coe_mul]

/-- THE OUTPUT: with every entry of the three adjacency factors real, the reference's first result is the
    specification's output, entry by entry. -/
theorem ref_out (h1 : ∀ j, ∃ t : ℝ, X1 j = (t : EReal)) (h2 : ∀ j, ∃ t : ℝ, X2 j = (t : EReal))
    (h3 : ∀ j, ∃ t : ℝ, X3 j = (t : EReal)) (i : Fin 8192) (o : Fin 16) :
    val_main_v24 (F := Ideal) X0 X1 X2 X3 X4 X5 (ix2 i o)
      = Spec.kOut (fun a b => X0 (ix2 a b)) (fun a b => X1 (ix2 a b)) (fun a b => X2 (ix2 a b))
          (fun a b => X3 (ix2 a b)) (fun a b => X4 (ix2 a b)) (fun a b => X5 (ix2 a b)) i o :=
  ref_out_of_M X0 X1 X2 X3 X4 X5 (M_real X1 X2 X3 h1 h2 h3) i o

/-- THE LOSS: with every entry of the features and of the three adjacency factors real, the reference's second result
    is the specification's loss. -/
theorem ref_loss (h0 : ∀ j, ∃ t : ℝ, X0 j = (t : EReal)) (h1 : ∀ j, ∃ t : ℝ, X1 j = (t : EReal))
    (h2 : ∀ j, ∃ t : ℝ, X2 j = (t : EReal)) (h3 : ∀ j, ∃ t : ℝ, X3 j = (t : EReal)) :
    val_main_v48 (F := Ideal) X0 X1 X2 X3 ix0
      = Spec.kLoss (fun a b => X0 (ix2 a b)) (fun a b => X1 (ix2 a b)) (fun a b => X2 (ix2 a b))
          (fun a b => X3 (ix2 a b)) :=
  ref_loss_of_M X0 X1 X2 X3 (M_real X1 X2 X3 h1 h2 h3) h0

end Cert.ReferenceIdeal.RefValue

end
-- ==== Proof.PreFinite.lean ====
/-
  From the precondition to "every entry is a real number".

  The precondition is the conjunction, over the six argument arrays, of "every entry's magnitude is below +∞". A
  conjunction of one-bit words that is 1 has every conjunct 1; a reduction by "and" over all axes that is 1 had a 1 at
  every entry; and an extended real whose magnitude max x (−x) is strictly below ⊤ is neither ⊤ nor ⊥, hence a real.
-/
import proofs.«152628_j8315056685239_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.PreFinite

open Idealize.ShloMosaic Cert.Pre_finite_inputs

/-- The scalar shape has one index. -/
instance : Subsingleton S_.Idx := ⟨fun a b => funext fun d => d.elim0⟩

/-- An extended real whose magnitude is strictly below +∞ is a real. -/
theorem real_of_abs_lt (x : EReal)
    (h : Ideal.cmp .olt (max x (-x)) (Ideal.ofBits .f32 0x7F800000#32) = 1#1) : ∃ t : ℝ, x = (t : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe t => exact ⟨t, rfl⟩

/-- The same, read at one entry of an array compared against the broadcast word of +∞. -/
theorem real_of_lt_inf {s : Shape} (x : FVec Ideal s .f32) (dims : Fin S_.rank → Fin s.rank)
    (hb : S_.BroadcastsInDim s dims) (j : s.Idx)
    (h : cmpf .olt (Host.absf x) (broadcastInDim s dims hb (constant (F := Ideal) S_ .f32 0x7F800000#32)) j = 1#1) :
    ∃ t : ℝ, x j = (t : EReal) := by
  have e : broadcastInDim s dims hb (constant (F := Ideal) S_ .f32 0x7F800000#32) j = Ideal.ofBits .f32 0x7F800000#32 :=
    broadcastInDim_apply dims hb _ j ValueIdx.ix0 (fun a => a.elim0)
  apply real_of_abs_lt
  rw [← e]
  exact h

/-- A conjunction of two one-bit arrays that is 1 at an index has both 1 there. -/
theorem andi_split {s : Shape} (a b : IVec s 1) (i : s.Idx) (h : andi a b i = 1#1) : a i = 1#1 ∧ b i = 1#1 :=
  IntOp.andi_eq_one.1 h

/-- Under the precondition every entry of each of the six argument arrays is a real number. -/
theorem entries_real [Facts] (x0 : FVec Ideal S8192x512 .f32) (x1 x2 x3 : FVec Ideal S8192x8192 .f32)
    (x4 : FVec Ideal S512x256 .f32) (x5 : FVec Ideal S256x16 .f32)
    (h : fn (F := Ideal) x0 x1 x2 x3 x4 x5 = fun _ => 1#1) :
    (∀ j, ∃ t : ℝ, x0 j = (t : EReal)) ∧ (∀ j, ∃ t : ℝ, x1 j = (t : EReal)) ∧ (∀ j, ∃ t : ℝ, x2 j = (t : EReal))
      ∧ (∀ j, ∃ t : ℝ, x3 j = (t : EReal)) ∧ (∀ j, ∃ t : ℝ, x4 j = (t : EReal)) ∧ (∀ j, ∃ t : ℝ, x5 j = (t : EReal)) := by
  have h0 := congrFun h ValueIdx.ix0
  dsimp only [fn, fn_part1] at h0
  obtain ⟨h0, e5⟩ := andi_split _ _ _ h0
  obtain ⟨h0, e4⟩ := andi_split _ _ _ h0
  obtain ⟨h0, e3⟩ := andi_split _ _ _ h0
  obtain ⟨h0, e2⟩ := andi_split _ _ _ h0
  obtain ⟨e0, e1⟩ := andi_split _ _ _ h0
  exact ⟨fun j => real_of_lt_inf x0 _ _ j (Host.reduce_andi_all _ _ _ _ _ e0 j),
    fun j => real_of_lt_inf x1 _ _ j (Host.reduce_andi_all _ _ _ _ _ e1 j),
    fun j => real_of_lt_inf x2 _ _ j (Host.reduce_andi_all _ _ _ _ _ e2 j),
    fun j => real_of_lt_inf x3 _ _ j (Host.reduce_andi_all _ _ _ _ _ e3 j),
    fun j => real_of_lt_inf x4 _ _ j (Host.reduce_andi_all _ _ _ _ _ e4 j),
    fun j => real_of_lt_inf x5 _ _ j (Host.reduce_andi_all _ _ _ _ _ e5 j)⟩

end Cert.PreFinite

end
-- ==== Proof.Claims.lean ====
/-
  The claims, assembled around the specification.

  The two results every run must end with are named once, as arrays over the kernel program's result buffers: the
  output array holds the specification's output N · max(N · x · w0, 0) · w1 at each (row, column), the loss array the
  specification's smoothing loss at its one index, both as functions of the six argument arrays read by coordinates.
  Given that the idealized kernel's run ends with exactly these arrays (its arguments unchanged), the equivalence claim
  follows: the reference's run ends with its operations' composed term, which under the precondition — every input entry
  a real number — is the same specification, entry by entry; and the two programs' arguments agree.
-/
import proofs.«152628_j8315056685239_2_alg».proof.Defs
import proofs.«152628_j8315056685239_2_alg».proof.Proof.Gen.ReferenceIdeal.Run
import proofs.«152628_j8315056685239_2_alg».proof.Proof.Gen.ReferenceIdeal.Read
import proofs.«152628_j8315056685239_2_alg».proof.Proof.SpecFull
import proofs.«152628_j8315056685239_2_alg».proof.Proof.RefValue
import proofs.«152628_j8315056685239_2_alg».proof.Proof.PreFinite

noncomputable section

open Idealize.ShloMosaic Idealize.ShloMosaic.TcCoe Idealize.SL.Sem Idealize.ShloMosaic.ValueIdx

namespace Cert.Proof.Claims

open Cert.ReferenceIdeal.RefValue (byCoord)

/-! ## The target arrays -/

/-- The specification's output as an array over (row, column), from the six argument arrays. -/
def outOf (A0 : (⟨2, ![8192, 512]⟩ : Shape).Idx → EReal) (A1 A2 A3 : (⟨2, ![8192, 8192]⟩ : Shape).Idx → EReal)
    (A4 : (⟨2, ![512, 256]⟩ : Shape).Idx → EReal) (A5 : (⟨2, ![256, 16]⟩ : Shape).Idx → EReal) :
    (⟨2, ![8192, 16]⟩ : Shape).Idx → EReal :=
  fun idx => Spec.kOut (byCoord A0) (byCoord A1) (byCoord A2) (byCoord A3) (byCoord A4) (byCoord A5) (idx 0) (idx 1)

/-- The specification's loss as an array over the scalar shape's one index. -/
def lossOf (A0 : (⟨2, ![8192, 512]⟩ : Shape).Idx → EReal) (A1 A2 A3 : (⟨2, ![8192, 8192]⟩ : Shape).Idx → EReal) :
    (⟨0, ![]⟩ : Shape).Idx → EReal :=
  fun _ => Spec.kLoss (byCoord A0) (byCoord A1) (byCoord A2) (byCoord A3)

theorem outOf_apply (A0 : (⟨2, ![8192, 512]⟩ : Shape).Idx → EReal) (A1 A2 A3 : (⟨2, ![8192, 8192]⟩ : Shape).Idx → EReal)
    (A4 : (⟨2, ![512, 256]⟩ : Shape).Idx → EReal) (A5 : (⟨2, ![256, 16]⟩ : Shape).Idx → EReal) (i : Fin 8192) (o : Fin 16) :
    outOf A0 A1 A2 A3 A4 A5 (ix2 i o)
      = Spec.kOut (byCoord A0) (byCoord A1) (byCoord A2) (byCoord A3) (byCoord A4) (byCoord A5) i o := rfl

section Kernel
variable [hKernelIdeal : Cert.KernelIdeal.Facts]

/-- The output array over the idealized kernel's first result buffer, from the launch contents of its arguments. -/
def outArr (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v41) :=
  outOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- The loss array over the idealized kernel's second result buffer. -/
def lossArr (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v37) :=
  lossOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

/-- The output array at (row i, column o). -/
theorem outArr_apply (m : (ℓ : Loc Cert.KernelIdeal.nD Cert.KernelIdeal.τ Cert.KernelIdeal.sig) → Buf (Elt Ideal) ℓ)
    (c : Dev Cert.KernelIdeal.nD) (i : Fin 8192) (o : Fin 16) :
    outArr m c (ix2 i o)
      = Spec.kOut (byCoord (m ((c.tc : Thread Cert.KernelIdeal.nD Cert.KernelIdeal.τ).loc Cert.KernelIdeal.main_arg0)))
          (byCoord (m ((c.tc : Thread Cert.KernelIdeal.nD Cert.KernelIdeal.τ).loc Cert.KernelIdeal.main_arg1)))
          (byCoord (m ((c.tc : Thread Cert.KernelIdeal.nD Cert.KernelIdeal.τ).loc Cert.KernelIdeal.main_arg2)))
          (byCoord (m ((c.tc : Thread Cert.KernelIdeal.nD Cert.KernelIdeal.τ).loc Cert.KernelIdeal.main_arg3)))
          (byCoord (m ((c.tc : Thread Cert.KernelIdeal.nD Cert.KernelIdeal.τ).loc Cert.KernelIdeal.main_arg4)))
          (byCoord (m ((c.tc : Thread Cert.KernelIdeal.nD Cert.KernelIdeal.τ).loc Cert.KernelIdeal.main_arg5))) i o := rfl

/-- The loss array at its one index. -/
theorem lossArr_apply (m : (ℓ : Loc Cert.KernelIdeal.nD Cert.KernelIdeal.τ Cert.KernelIdeal.sig) → Buf (Elt Ideal) ℓ)
    (c : Dev Cert.KernelIdeal.nD) :
    lossArr m c ix0
      = Spec.kLoss (byCoord (m ((c.tc : Thread Cert.KernelIdeal.nD Cert.KernelIdeal.τ).loc Cert.KernelIdeal.main_arg0)))
          (byCoord (m ((c.tc : Thread Cert.KernelIdeal.nD Cert.KernelIdeal.τ).loc Cert.KernelIdeal.main_arg1)))
          (byCoord (m ((c.tc : Thread Cert.KernelIdeal.nD Cert.KernelIdeal.τ).loc Cert.KernelIdeal.main_arg2)))
          (byCoord (m ((c.tc : Thread Cert.KernelIdeal.nD Cert.KernelIdeal.τ).loc Cert.KernelIdeal.main_arg3))) := rfl

/-! ## The kernel's half, as a hypothesis -/

/-- The idealized kernel runs — every weakly fair execution terminates, nothing faulting — and ends with the output
    array, the loss array, and its six arguments unchanged. -/
def KernelRun (m : (ℓ : Loc Cert.KernelIdeal.nD Cert.KernelIdeal.τ Cert.KernelIdeal.sig) → Buf (Elt Ideal) ℓ)
    (ρ : Dev Cert.KernelIdeal.nD → PrngReg) : Prop :=
  θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
    r.2.mem ((c.tc : Thread Cert.KernelIdeal.nD Cert.KernelIdeal.τ).loc Cert.KernelIdeal.main_v41) = outArr m c
    ∧ r.2.mem ((c.tc : Thread Cert.KernelIdeal.nD Cert.KernelIdeal.τ).loc Cert.KernelIdeal.main_v37) = lossArr m c
    ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

end Kernel

/-! ## The reference's results as whole arrays -/

/-- With the three adjacency factors real, the reference's first result is the output array. -/
theorem ref_out_array (X0 : (⟨2, ![8192, 512]⟩ : Shape).Idx → EReal) (X1 X2 X3 : (⟨2, ![8192, 8192]⟩ : Shape).Idx → EReal)
    (X4 : (⟨2, ![512, 256]⟩ : Shape).Idx → EReal) (X5 : (⟨2, ![256, 16]⟩ : Shape).Idx → EReal)
    (h1 : ∀ j, ∃ t : ℝ, X1 j = (t : EReal)) (h2 : ∀ j, ∃ t : ℝ, X2 j = (t : EReal))
    (h3 : ∀ j, ∃ t : ℝ, X3 j = (t : EReal)) :
    Cert.ReferenceIdeal.Read.val_main_v24 (F := Ideal) X0 X1 X2 X3 X4 X5 = outOf X0 X1 X2 X3 X4 X5 := by
  funext idx
  rw [eq_ix2 idx]
  exact Cert.ReferenceIdeal.RefValue.ref_out X0 X1 X2 X3 X4 X5 h1 h2 h3 (idx 0) (idx 1)

/-- With the features real too, the reference's second result is the loss array. -/
theorem ref_loss_array (X0 : (⟨2, ![8192, 512]⟩ : Shape).Idx → EReal) (X1 X2 X3 : (⟨2, ![8192, 8192]⟩ : Shape).Idx → EReal)
    (h0 : ∀ j, ∃ t : ℝ, X0 j = (t : EReal)) (h1 : ∀ j, ∃ t : ℝ, X1 j = (t : EReal))
    (h2 : ∀ j, ∃ t : ℝ, X2 j = (t : EReal)) (h3 : ∀ j, ∃ t : ℝ, X3 j = (t : EReal)) :
    Cert.ReferenceIdeal.Read.val_main_v48 (F := Ideal) X0 X1 X2 X3 = lossOf X0 X1 X2 X3 := by
  funext idx
  rw [eq_ix0 idx]
  exact Cert.ReferenceIdeal.RefValue.ref_loss X0 X1 X2 X3 h0 h1 h2 h3

/-! ## The claims -/

/-- The reference runs and leaves its arguments unchanged. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to preserve. -/
theorem preserves : Cert.preserves_Kernel_KernelIdeal := trivial

/-- THE EQUIVALENCE, given the kernel's half: both programs end with the specification's two arrays. The reference's
    half: its run ends at its operations' composed term of its own arguments; those agree with the kernel's; under the
    precondition every entry is real, so the term is the specification, entry by entry. -/
theorem algebraic_of [hKernelIdeal : Cert.KernelIdeal.Facts] [hReferenceIdeal : Cert.ReferenceIdeal.Facts]
    [hPre_finite_inputs : Cert.Pre_finite_inputs.Facts] (hk : ∀ m ρ, KernelRun m ρ) :
    Cert.algebraic_KernelIdeal_ReferenceIdeal := by
  intro m ρ m' ρ' hpre hagree
  refine ⟨outArr m, lossArr m, hk m ρ, ?_⟩
  refine (θ_run Cert.ReferenceIdeal.defs _ _).mono (fun r h c => ?_)
    (Cert.ReferenceIdeal.Value.run (F := Ideal) m' ρ')
  obtain ⟨h24, h48, hargs⟩ := h c
  obtain ⟨e0, e1, e2, e3, e4, e5⟩ := hagree c
  obtain ⟨r0, r1, r2, r3, -, -⟩ := Cert.PreFinite.entries_real _ _ _ _ _ _ (hpre c)
  refine ⟨h24.trans ?_, h48.trans ?_, hargs⟩
  · rw [Cert.ReferenceIdeal.Read.val_main_v24_eq, e0, e1, e2, e3, e4, e5]
    exact ref_out_array _ _ _ _ _ _ r1 r2 r3
  · rw [Cert.ReferenceIdeal.Read.val_main_v48_eq, e0, e1, e2, e3]
    exact ref_loss_array _ _ _ _ r0 r1 r2 r3

end Cert.Proof.Claims

end
-- ==== Proof.HostChain.lean ====
/- What the program's host stretches compute, at the exact values, read entry by entry off an arbitrary valuation of
   the buffers: the degree scale and the smoothing scale (a power with exponent -1/2 whose infinite values are replaced
   by zero), the scaled features and their concatenation with the features, the two halves of a product cut apart
   again, and the smoothing loss as one sum over all entries. Every constant stays the word the program prints. -/
import proofs.«152628_j8315056685239_2_alg».proof.Proof.Gen.KernelIdeal.Regions
import proofs.«152628_j8315056685239_2_alg».proof.Proof.SpecFull
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open scoped BigOperators

/-- A buffer's contents read as a function into the extended reals (the identity, with the type written out), -/
abbrev rd (S : Shape) (f : S.Idx → EReal) : S.Idx → EReal := f
/-- and a buffer of truth values read as a function into the one-bit words. -/
abbrev rdB (S : Shape) (f : S.Idx → BitVec 1) : S.Idx → BitVec 1 := f

variable (W V : Valuation τ sig (Elt Ideal))

/-! ## Between regions 0 and 1: the degree scale -/

/-- The power: (row sum + 1) ^ (-1/2). -/
theorem h1_v4 (i : Fin 8192) :
    rd S8192x1 (StableHlo.after hostOps1 W (Proc.devRef .tc main_v4)) (ix2 i (0 : Fin 1))
      = Ideal.pow (rd S8192x1 (W (Proc.devRef .tc main_v0_1)) (ix2 i (0 : Fin 1)) + Cert.Spec.one) Cert.Spec.negHalf := by
  (simp only [hostOps1]; after_results) <;> rfl

/-- Whether its magnitude is +∞. -/
theorem h1_1_v5 (i : Fin 8192) :
    rdB S8192x1 (StableHlo.after hostOps1_1 W (Proc.devRef .tc main_v5)) (ix2 i (0 : Fin 1))
      = Ideal.cmp .oeq (max (rd S8192x1 (W (Proc.devRef .tc main_v4)) (ix2 i (0 : Fin 1))) (-(rd S8192x1 (W (Proc.devRef .tc main_v4)) (ix2 i (0 : Fin 1))))) Cert.Spec.posInf := by
  (simp only [hostOps1_1]; after_results) <;> rfl

/-- The zero. -/
theorem h1_2_cst : rd S_ (StableHlo.after hostOps1_2 W (Proc.devRef .tc main_cst_1)) ix0 = Cert.Spec.zero := by
  (simp only [hostOps1_2]; after_results) <;> rfl

/-- The choice between the zero and the power. -/
theorem h1_3_v6 (i : Fin 8192) :
    rd S8192x1 (StableHlo.after hostOps1_3 W (Proc.devRef .tc main_v6)) (ix2 i (0 : Fin 1))
      = Scalar.select (rdB S8192x1 (W (Proc.devRef .tc main_v5)) (ix2 i (0 : Fin 1))) (rd S_ (W (Proc.devRef .tc main_cst_1)) ix0)
          (rd S8192x1 (W (Proc.devRef .tc main_v4)) (ix2 i (0 : Fin 1))) := by
  simp only [hostOps1_3]; after_results
  show Scalar.select _ (broadcastInDim S8192x1 ![] bcast_S_S8192x1 (W (Proc.devRef .tc main_cst_1)) (ix2 i (0 : Fin 1))) _ = _
  rw [broadcastInDim_apply (![] : Fin 0 → Fin S8192x1.rank) bcast_S_S8192x1 (W (Proc.devRef .tc main_cst_1)) (ix2 i (0 : Fin 1)) ix0 (fun a => a.elim0)]
  rfl

/-- The column laid out as a row. -/
theorem h1_4_v7 (k : Fin 8192) :
    rd S1x8192 (StableHlo.after hostOps1_4 W (Proc.devRef .tc main_v7)) (ix2 (0 : Fin 1) k)
      = rd S8192x1 (W (Proc.devRef .tc main_v6)) (ix2 k (0 : Fin 1)) := by
  simp only [hostOps1_4]; after_results
  exact shapeCast_apply _ _ _ _ (by
    show (S8192x1.rowMajor (ix2 k (0 : Fin 1))).val = (S1x8192.rowMajor (ix2 (0 : Fin 1) k)).val
    rw [Shape.rowMajor_val_two, Shape.rowMajor_val_two]
    show k.val * 1 + 0 = 0 * 8192 + k.val
    omega)

/-- The five stretches between regions 0 and 1, one after the other. -/
def S1 : Valuation τ sig (Elt Ideal) :=
  StableHlo.after hostOps1_4 (StableHlo.after hostOps1_3 (StableHlo.after hostOps1_2 (StableHlo.after hostOps1_1 (StableHlo.after hostOps1 V))))

/-- The degree scale as a column: the guarded power of the row sum plus one. -/
theorem S1_v6 (i : Fin 8192) :
    rd S8192x1 (S1 V (Proc.devRef .tc main_v6)) (ix2 i (0 : Fin 1))
      = Cert.Spec.gpow (rd S8192x1 (V (Proc.devRef .tc main_v0_1)) (ix2 i (0 : Fin 1)) + Cert.Spec.one) := by
  unfold S1
  rw [StableHlo.after_of_writes_sub hostOps1_4 _ (hostOps1_4_writes (F := Ideal)) (r := main_v6) (by decide), h1_3_v6,
    StableHlo.after_of_writes_sub hostOps1_2 _ (hostOps1_2_writes (F := Ideal)) (r := main_v5) (by decide),
    StableHlo.after_of_writes_sub hostOps1_2 _ (hostOps1_2_writes (F := Ideal)) (r := main_v4) (by decide),
    h1_2_cst, h1_1_v5,
    StableHlo.after_of_writes_sub hostOps1_1 _ (hostOps1_1_writes (F := Ideal)) (r := main_v4) (by decide), h1_v4]
  rfl

/-- The degree scale as a row. -/
theorem S1_v7 (k : Fin 8192) :
    rd S1x8192 (S1 V (Proc.devRef .tc main_v7)) (ix2 (0 : Fin 1) k)
      = Cert.Spec.gpow (rd S8192x1 (V (Proc.devRef .tc main_v0_1)) (ix2 k (0 : Fin 1)) + Cert.Spec.one) := by
  have h := S1_v6 V k
  unfold S1 at h ⊢
  rw [h1_4_v7]
  rw [StableHlo.after_of_writes_sub hostOps1_4 _ (hostOps1_4_writes (F := Ideal)) (r := main_v6) (by decide)] at h
  exact h

/-- A buffer none of the five stretches writes is kept. -/
theorem S1_kept (b : Ref sig .tc) (hb : b ∉ hostOps1_W ++ hostOps1_1_W ++ hostOps1_2_W ++ hostOps1_3_W ++ hostOps1_4_W) :
    S1 V (Proc.devRef .tc b) = V (Proc.devRef .tc b) := by
  simp only [List.mem_append, not_or] at hb
  obtain ⟨⟨⟨⟨h0, h1⟩, h2⟩, h3⟩, h4⟩ := hb
  unfold S1
  rw [StableHlo.after_of_writes_sub hostOps1_4 _ (hostOps1_4_writes (F := Ideal)) h4,
    StableHlo.after_of_writes_sub hostOps1_3 _ (hostOps1_3_writes (F := Ideal)) h3,
    StableHlo.after_of_writes_sub hostOps1_2 _ (hostOps1_2_writes (F := Ideal)) h2,
    StableHlo.after_of_writes_sub hostOps1_1 _ (hostOps1_1_writes (F := Ideal)) h1,
    StableHlo.after_of_writes_sub hostOps1 _ (hostOps1_writes (F := Ideal)) h0]

/-! ## Between regions 1 and 2: the smoothing scale and the scaled features -/

/-- Half the sum of the row sums (a column) and the column sums (a row, laid out as a column). -/
theorem h2_v12 (i : Fin 8192) :
    rd S8192x1 (StableHlo.after hostOps2 W (Proc.devRef .tc main_v12)) (ix2 i (0 : Fin 1))
      = Cert.Spec.half * (rd S8192x1 (W (Proc.devRef .tc main_v8_0)) (ix2 i (0 : Fin 1)) + rd S1x8192 (W (Proc.devRef .tc main_v8_1)) (ix2 (0 : Fin 1) i)) := by
  simp only [hostOps2]; after_results_simp
  show Cert.Spec.half * (_ + shapeCast S8192x1 (W (Proc.devRef .tc main_v8_1)) shapeCasts_S1x8192_S8192x1 (ix2 i (0 : Fin 1))) = _
  rw [shapeCast_apply (W (Proc.devRef .tc main_v8_1)) shapeCasts_S1x8192_S8192x1 (ix2 i (0 : Fin 1)) (ix2 (0 : Fin 1) i) (by
    show (S1x8192.rowMajor (ix2 (0 : Fin 1) i)).val = (S8192x1.rowMajor (ix2 i (0 : Fin 1))).val
    rw [Shape.rowMajor_val_two, Shape.rowMajor_val_two]
    show 0 * 8192 + i.val = i.val * 1 + 0
    omega)]

/-- The power: (that + ε) ^ (-1/2). -/
theorem h2_v16 (i : Fin 8192) :
    rd S8192x1 (StableHlo.after hostOps2 W (Proc.devRef .tc main_v16)) (ix2 i (0 : Fin 1))
      = Ideal.pow (rd S8192x1 (StableHlo.after hostOps2 W (Proc.devRef .tc main_v12)) (ix2 i (0 : Fin 1)) + Cert.Spec.eps) Cert.Spec.negHalf := by
  (simp only [hostOps2]; after_results_simp) <;> rfl

theorem h2_1_v17 (i : Fin 8192) :
    rdB S8192x1 (StableHlo.after hostOps2_1 W (Proc.devRef .tc main_v17)) (ix2 i (0 : Fin 1))
      = Ideal.cmp .oeq (max (rd S8192x1 (W (Proc.devRef .tc main_v16)) (ix2 i (0 : Fin 1))) (-(rd S8192x1 (W (Proc.devRef .tc main_v16)) (ix2 i (0 : Fin 1))))) Cert.Spec.posInf := by
  (simp only [hostOps2_1]; after_results) <;> rfl

theorem h2_2_cst : rd S_ (StableHlo.after hostOps2_2 W (Proc.devRef .tc main_cst_5)) ix0 = Cert.Spec.zero := by
  (simp only [hostOps2_2]; after_results) <;> rfl

theorem h2_3_v18 (i : Fin 8192) :
    rd S8192x1 (StableHlo.after hostOps2_3 W (Proc.devRef .tc main_v18)) (ix2 i (0 : Fin 1))
      = Scalar.select (rdB S8192x1 (W (Proc.devRef .tc main_v17)) (ix2 i (0 : Fin 1))) (rd S_ (W (Proc.devRef .tc main_cst_5)) ix0)
          (rd S8192x1 (W (Proc.devRef .tc main_v16)) (ix2 i (0 : Fin 1))) := by
  simp only [hostOps2_3]; after_results
  show Scalar.select _ (broadcastInDim S8192x1 ![] bcast_S_S8192x1 (W (Proc.devRef .tc main_cst_5)) (ix2 i (0 : Fin 1))) _ = _
  rw [broadcastInDim_apply (![] : Fin 0 → Fin S8192x1.rank) bcast_S_S8192x1 (W (Proc.devRef .tc main_cst_5)) (ix2 i (0 : Fin 1)) ix0 (fun a => a.elim0)]
  rfl

/-- A column spread over 512 columns, read at an entry. -/
theorem spread_apply (x : S8192x1.Idx → EReal) (i : Fin 8192) (f : Fin 512) :
    broadcastInDim S8192x512 ![0, 1] bcast_S8192x1_S8192x512_0_1 x (ix2 i f) = x (ix2 i (0 : Fin 1)) :=
  broadcastInDim_apply (![0, 1] : Fin 2 → Fin S8192x512.rank) bcast_S8192x1_S8192x512_0_1 x (ix2 i f) (ix2 i (0 : Fin 1)) (fun a => by
    match a with
    | ⟨0, _⟩ => rfl
    | ⟨1, _⟩ => rfl)

/-- The scaled features: each row of the features times the row's smoothing scale. -/
theorem h2_4_v20 (i : Fin 8192) (f : Fin 512) :
    rd S8192x512 (StableHlo.after hostOps2_4 W (Proc.devRef .tc main_v20)) (ix2 i f)
      = rd S8192x1 (W (Proc.devRef .tc main_v18)) (ix2 i (0 : Fin 1)) * rd S8192x512 (W (Proc.devRef .tc main_arg0)) (ix2 i f) := by
  simp only [hostOps2_4]; after_results
  dsimp only [rd]
  rw [mulf_apply, spread_apply]

/-- The features and the scaled features side by side: the left half is the features, -/
theorem h2_4_v22_left (i : Fin 8192) (f : Fin 512) :
    rd S8192x1024 (StableHlo.after hostOps2_4 W (Proc.devRef .tc main_v22)) (ix2 i (⟨f.val, by omega⟩ : Fin 1024))
      = rd S8192x512 (W (Proc.devRef .tc main_arg0)) (ix2 i f) := by
  simp only [hostOps2_4]; after_results
  show concatenate S8192x1024 1 [⟨S8192x512, W (Proc.devRef .tc main_arg0)⟩, ⟨S8192x512, _⟩] concatenates_S8192x512_S8192x512_S8192x1024_d1 (ix2 i (⟨f.val, by omega⟩ : Fin 1024)) = _
  exact concatenate_pair_apply_left (1 : Fin S8192x1024.rank) _ _ concatenates_S8192x512_S8192x512_S8192x1024_d1 _ rfl (ix2 i f) (fun b => by
    match b with
    | ⟨0, _⟩ => rfl
    | ⟨1, _⟩ => rfl)

/-- and the right half is the scaled features. -/
theorem h2_4_v22_right (i : Fin 8192) (f : Fin 512) :
    rd S8192x1024 (StableHlo.after hostOps2_4 W (Proc.devRef .tc main_v22)) (ix2 i (⟨512 + f.val, by omega⟩ : Fin 1024))
      = rd S8192x512 (StableHlo.after hostOps2_4 W (Proc.devRef .tc main_v20)) (ix2 i f) := by
  simp only [hostOps2_4]; after_results
  show concatenate S8192x1024 1 [⟨S8192x512, W (Proc.devRef .tc main_arg0)⟩, ⟨S8192x512, _⟩] concatenates_S8192x512_S8192x512_S8192x1024_d1 (ix2 i (⟨512 + f.val, by omega⟩ : Fin 1024)) = _
  exact concatenate_pair_apply_right (1 : Fin S8192x1024.rank) _ _ concatenates_S8192x512_S8192x512_S8192x1024_d1 _ rfl rfl (ix2 i f) (fun b hb => by
    match b, hb with
    | ⟨0, _⟩, _ => rfl
    | ⟨1, _⟩, hb => exact absurd rfl hb) (by show f.val + 512 = 512 + f.val; omega)

/-- The scaled features once more, in the narrower format (the same values). -/
theorem h2_4_v23 (i : Fin 8192) (f : Fin 512) :
    rd S8192x512 (StableHlo.after hostOps2_4 W (Proc.devRef .tc main_v23)) (ix2 i f)
      = rd S8192x512 (StableHlo.after hostOps2_4 W (Proc.devRef .tc main_v20)) (ix2 i f) := by
  (simp only [hostOps2_4]; after_results) <;> rfl

/-- The five stretches between regions 1 and 2, one after the other. -/
def S2 : Valuation τ sig (Elt Ideal) :=
  StableHlo.after hostOps2_4 (StableHlo.after hostOps2_3 (StableHlo.after hostOps2_2 (StableHlo.after hostOps2_1 (StableHlo.after hostOps2 V))))

theorem S2_v12 (i : Fin 8192) :
    rd S8192x1 (S2 V (Proc.devRef .tc main_v12)) (ix2 i (0 : Fin 1))
      = Cert.Spec.half * (rd S8192x1 (V (Proc.devRef .tc main_v8_0)) (ix2 i (0 : Fin 1)) + rd S1x8192 (V (Proc.devRef .tc main_v8_1)) (ix2 (0 : Fin 1) i)) := by
  unfold S2
  rw [StableHlo.after_of_writes_sub hostOps2_4 _ (hostOps2_4_writes (F := Ideal)) (r := main_v12) (by decide), StableHlo.after_of_writes_sub hostOps2_3 _ (hostOps2_3_writes (F := Ideal)) (r := main_v12) (by decide),
    StableHlo.after_of_writes_sub hostOps2_2 _ (hostOps2_2_writes (F := Ideal)) (r := main_v12) (by decide), StableHlo.after_of_writes_sub hostOps2_1 _ (hostOps2_1_writes (F := Ideal)) (r := main_v12) (by decide), h2_v12]

theorem S2_v18 (i : Fin 8192) :
    rd S8192x1 (S2 V (Proc.devRef .tc main_v18)) (ix2 i (0 : Fin 1))
      = Cert.Spec.gpow (rd S8192x1 (S2 V (Proc.devRef .tc main_v12)) (ix2 i (0 : Fin 1)) + Cert.Spec.eps) := by
  unfold S2
  rw [StableHlo.after_of_writes_sub hostOps2_4 _ (hostOps2_4_writes (F := Ideal)) (r := main_v18) (by decide), h2_3_v18,
    StableHlo.after_of_writes_sub hostOps2_2 _ (hostOps2_2_writes (F := Ideal)) (r := main_v17) (by decide),
    StableHlo.after_of_writes_sub hostOps2_2 _ (hostOps2_2_writes (F := Ideal)) (r := main_v16) (by decide),
    h2_2_cst, h2_1_v17,
    StableHlo.after_of_writes_sub hostOps2_1 _ (hostOps2_1_writes (F := Ideal)) (r := main_v16) (by decide), h2_v16,
    StableHlo.after_of_writes_sub hostOps2_4 _ (hostOps2_4_writes (F := Ideal)) (r := main_v12) (by decide), StableHlo.after_of_writes_sub hostOps2_3 _ (hostOps2_3_writes (F := Ideal)) (r := main_v12) (by decide),
    StableHlo.after_of_writes_sub hostOps2_2 _ (hostOps2_2_writes (F := Ideal)) (r := main_v12) (by decide), StableHlo.after_of_writes_sub hostOps2_1 _ (hostOps2_1_writes (F := Ideal)) (r := main_v12) (by decide)]
  rfl

theorem S2_v20 (i : Fin 8192) (f : Fin 512) :
    rd S8192x512 (S2 V (Proc.devRef .tc main_v20)) (ix2 i f)
      = rd S8192x1 (S2 V (Proc.devRef .tc main_v18)) (ix2 i (0 : Fin 1)) * rd S8192x512 (V (Proc.devRef .tc main_arg0)) (ix2 i f) := by
  unfold S2
  rw [h2_4_v20, StableHlo.after_of_writes_sub hostOps2_4 _ (hostOps2_4_writes (F := Ideal)) (r := main_v18) (by decide),
    StableHlo.after_of_writes_sub hostOps2_3 _ (hostOps2_3_writes (F := Ideal)) (r := main_arg0) (by decide), StableHlo.after_of_writes_sub hostOps2_2 _ (hostOps2_2_writes (F := Ideal)) (r := main_arg0) (by decide),
    StableHlo.after_of_writes_sub hostOps2_1 _ (hostOps2_1_writes (F := Ideal)) (r := main_arg0) (by decide), StableHlo.after_of_writes_sub hostOps2 _ (hostOps2_writes (F := Ideal)) (r := main_arg0) (by decide)]

theorem S2_v22_left (i : Fin 8192) (f : Fin 512) :
    rd S8192x1024 (S2 V (Proc.devRef .tc main_v22)) (ix2 i (⟨f.val, by omega⟩ : Fin 1024))
      = rd S8192x512 (V (Proc.devRef .tc main_arg0)) (ix2 i f) := by
  unfold S2
  rw [h2_4_v22_left, StableHlo.after_of_writes_sub hostOps2_3 _ (hostOps2_3_writes (F := Ideal)) (r := main_arg0) (by decide), StableHlo.after_of_writes_sub hostOps2_2 _ (hostOps2_2_writes (F := Ideal)) (r := main_arg0) (by decide),
    StableHlo.after_of_writes_sub hostOps2_1 _ (hostOps2_1_writes (F := Ideal)) (r := main_arg0) (by decide), StableHlo.after_of_writes_sub hostOps2 _ (hostOps2_writes (F := Ideal)) (r := main_arg0) (by decide)]

theorem S2_v22_right (i : Fin 8192) (f : Fin 512) :
    rd S8192x1024 (S2 V (Proc.devRef .tc main_v22)) (ix2 i (⟨512 + f.val, by omega⟩ : Fin 1024))
      = rd S8192x512 (S2 V (Proc.devRef .tc main_v20)) (ix2 i f) := by
  unfold S2
  rw [h2_4_v22_right]

theorem S2_v23 (i : Fin 8192) (f : Fin 512) :
    rd S8192x512 (S2 V (Proc.devRef .tc main_v23)) (ix2 i f) = rd S8192x512 (S2 V (Proc.devRef .tc main_v20)) (ix2 i f) := by
  unfold S2
  rw [h2_4_v23]

/-- A buffer none of the five stretches writes is kept. -/
theorem S2_kept (b : Ref sig .tc) (hb : b ∉ hostOps2_W ++ hostOps2_1_W ++ hostOps2_2_W ++ hostOps2_3_W ++ hostOps2_4_W) :
    S2 V (Proc.devRef .tc b) = V (Proc.devRef .tc b) := by
  simp only [List.mem_append, not_or] at hb
  obtain ⟨⟨⟨⟨h0, h1⟩, h2⟩, h3⟩, h4⟩ := hb
  unfold S2
  rw [StableHlo.after_of_writes_sub hostOps2_4 _ (hostOps2_4_writes (F := Ideal)) h4,
    StableHlo.after_of_writes_sub hostOps2_3 _ (hostOps2_3_writes (F := Ideal)) h3,
    StableHlo.after_of_writes_sub hostOps2_2 _ (hostOps2_2_writes (F := Ideal)) h2,
    StableHlo.after_of_writes_sub hostOps2_1 _ (hostOps2_1_writes (F := Ideal)) h1,
    StableHlo.after_of_writes_sub hostOps2 _ (hostOps2_writes (F := Ideal)) h0]

/-! ## Between regions 2 and 3: the two halves of the product cut apart -/

/-- The left half, -/
theorem h3_v25 (i : Fin 8192) (f : Fin 512) :
    rd S8192x512 (StableHlo.after hostOps3 W (Proc.devRef .tc main_v25)) (ix2 i f)
      = rd S8192x1024 (W (Proc.devRef .tc main_v24)) (ix2 i (⟨f.val, by omega⟩ : Fin 1024)) := by
  simp only [hostOps3]; after_results
  exact slice2_axis1_apply (α := EReal) (n0 := 8192) (n1 := 1024) (m := 512) 0 (W (Proc.devRef .tc main_v24)) slices_S8192x1024_S8192x512_0_0 i f ⟨f.val, by omega⟩
    (by show f.val = 0 + f.val; omega)

/-- and the right half. -/
theorem h3_v26 (i : Fin 8192) (f : Fin 512) :
    rd S8192x512 (StableHlo.after hostOps3 W (Proc.devRef .tc main_v26)) (ix2 i f)
      = rd S8192x1024 (W (Proc.devRef .tc main_v24)) (ix2 i (⟨512 + f.val, by omega⟩ : Fin 1024)) := by
  simp only [hostOps3]; after_results
  exact slice2_axis1_apply (α := EReal) (n0 := 8192) (n1 := 1024) (m := 512) 512 (W (Proc.devRef .tc main_v24)) slices_S8192x1024_S8192x512_0_512 i f ⟨512 + f.val, by omega⟩ rfl

/-- A buffer `hostOps3` does not write is kept. -/
theorem h3_kept (b : Ref sig .tc) (hb : b ∉ hostOps3_W) :
    StableHlo.after hostOps3 W (Proc.devRef .tc b) = W (Proc.devRef .tc b) :=
  StableHlo.after_of_writes_sub hostOps3 W (hostOps3_writes (F := Ideal)) hb

/-! ## Between regions 4 and 5: the first layer in the narrower format (the same values) -/

theorem h5_v39 (i : Fin 8192) (g : Fin 256) :
    rd S8192x256 (StableHlo.after hostOps5 W (Proc.devRef .tc main_v39)) (ix2 i g) = rd S8192x256 (W (Proc.devRef .tc main_v38)) (ix2 i g) := by
  (simp only [hostOps5]; after_results) <;> rfl

/-- A buffer `hostOps5` does not write is kept. -/
theorem h5_kept (b : Ref sig .tc) (hb : b ∉ hostOps5_W) :
    StableHlo.after hostOps5 W (Proc.devRef .tc b) = W (Proc.devRef .tc b) :=
  StableHlo.after_of_writes_sub hostOps5 W (hostOps5_writes (F := Ideal)) hb

/-! ## Between regions 3 and 4: the smoothing loss -/

set_option maxHeartbeats 1000000 in
/-- The loss: from the zero word, the sum over every entry (i, f) of
    x[i,f] · (r[i] · (S[i] · Y[i,f] − ½ · (P[i,f] + Q[i,f]))), read off the buffers that hold x, r, S, Y, P and Q. -/
theorem h4_v37 :
    rd S_ (StableHlo.after hostOps4 W (Proc.devRef .tc main_v37)) ix0
      = Cert.Spec.zero + ∑ i : Fin 8192, ∑ f : Fin 512,
          rd S8192x512 (W (Proc.devRef .tc main_arg0)) (ix2 i f)
            * (rd S8192x1 (W (Proc.devRef .tc main_v18)) (ix2 i (0 : Fin 1))
              * (rd S8192x1 (W (Proc.devRef .tc main_v12)) (ix2 i (0 : Fin 1)) * rd S8192x512 (W (Proc.devRef .tc main_v20)) (ix2 i f)
                - Cert.Spec.half * (rd S8192x512 (W (Proc.devRef .tc main_v26)) (ix2 i f) + rd S8192x512 (W (Proc.devRef .tc main_v27)) (ix2 i f)))) := by
  simp only [hostOps4]; after_results_simp
  dsimp only [rd]
  rw [hostReduceAdd_apply, Ideal.hostReduceAdd_total reducesTo_S8192x512_S_d0_1 (fun b => b.elim0), sum_idx2]
  refine congrArg₂ (· + ·) rfl (Finset.sum_congr rfl fun i _ => Finset.sum_congr rfl fun f _ => ?_)
  rw [mulf_apply, mulf_apply, subf_apply, mulf_apply, mulf_apply, addf_apply, spread_apply, spread_apply]
  rfl

/-- A buffer `hostOps4` does not write is kept. -/
theorem h4_kept (b : Ref sig .tc) (hb : b ∉ hostOps4_W) :
    StableHlo.after hostOps4 W (Proc.devRef .tc b) = W (Proc.devRef .tc b) :=
  StableHlo.after_of_writes_sub hostOps4 W (hostOps4_writes (F := Ideal)) hb

end Cert.KernelIdeal.Gen

end
-- ==== Proof.Region0Value.lean ====
/- The values of region 0. With M i k = adj[i,k] · m1[i,k] · m2[i,k] (the three operand arrays as the region finds
   them, multiplied entry by entry in that order), after the region the product array holds M and the row-sum array
   holds, in row i, the sum over all 8192 columns k of M i k.
   The product array: a grid point stores the product of its three blocks over its whole block, and the 16 x 8 blocks
   tile the array. The row sums: over the 8 points of a row block the accumulator block is first set to zero and then
   receives, point after point, the row sums of that point's 1024 columns; by induction on the point it holds the sum
   over the columns done so far, a prefix of the row; after the 8th point that is the whole row, and then it is written
   back. Over the extended reals addition is associative and commutative, so no order or finiteness question arises. -/
import proofs.«152628_j8315056685239_2_alg».proof.Proof.Region0
import Idealize.ShloMosaic.Lib.Pipeline.Value
import Idealize.ShloMosaic.Lib.ValueIdx
import Idealize.ShloMosaic.Lib.Tactic
import Idealize.ShloMosaic.PureOps.Ideal.Laws
import Mathlib.Algebra.BigOperators.Fin

set_option maxRecDepth 16384

noncomputable section

namespace Cert.KernelIdeal.Gen

open Idealize.ShloMosaic Idealize.ShloMosaic.TcCoe Idealize.SL.Sem Idealize.ShloMosaic.ValueIdx Idealize.ShloMosaic.Tactic
open Idealize.ShloMosaic.Pipeline (Dat)
open scoped BigOperators

theorem hz0 : (![0, 0] : Fin 2 → Nat) = fun _ => 0 := funext fun a => by fin_cases a <;> rfl

/-! ## What each case leaves in the two output buffers, as the body's stored values -/

section AnyFloat
variable {F : FTy → Type} [FloatOps F]

/-- Case B leaves the rounded product of the three blocks in the product buffer, -/
theorem out0_B_3_eq (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) :
    out0_B_3 c i arg2 harg2 arg3 harg3 arg4 harg4 arg5 harg5 arg6 harg6 hc0 x0 x1 x2 xo4 = k0_pay3 x0 x1 x2 := by
  unfold out0_B_3
  rw [View.read_writes_eq_canon _ _ _ (cover0_B_3 c i arg2 harg2 arg3 harg3 arg4 harg4 arg5 harg5 arg6 harg6 hc0 x0 x1 x2 xo4)]
  unfold kernelRun0_B
  dsimp only
  rw [View.canon_unit_zero hz0]
  simp only [View.readAt_eq_ld, harg2.read_unread, harg3.read_unread, harg4.read_unread, View.ld_unit_zero (S := S512x1024) hz0]

/-- and in the row-sum buffer, entered at `xo4`, `xo4` plus the product's row sums. -/
theorem out0_B_4_eq (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : ¬cond0_0 i)
    (x0 x1 x2 : Vec F S512x1024 .f32) (xo4 : Vec F S512x1 .f32) :
    out0_B_4 c i arg2 harg2 arg3 harg3 arg4 harg4 arg5 harg5 arg6 harg6 hc0 x0 x1 x2 xo4 = k0_pay4 x0 x1 x2 xo4 := by
  unfold out0_B_4
  rw [View.read_writes_eq_canon _ _ _ (cover0_B_4 c i arg2 harg2 arg3 harg3 arg4 harg4 arg5 harg5 arg6 harg6 hc0 x0 x1 x2 xo4)]
  unfold kernelRun0_B
  dsimp only
  rw [View.canon_unit_zero hz0]
  simp only [View.readAt_eq_ld, harg2.read_unread, harg3.read_unread, harg4.read_unread, harg6.read_unread,
    View.ld_unit_zero (S := S512x1024) hz0, View.ld_unit_zero (S := S512x1) hz0]

/-- Case A leaves the same in the product buffer, -/
theorem out0_A_3_eq (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) :
    out0_A_3 c i arg2 harg2 arg3 harg3 arg4 harg4 arg5 harg5 arg6 harg6 hc0 x0 x1 x2 = k0_pay3 x0 x1 x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  rw [View.canon_unit_zero hz0]
  simp only [View.readAt_eq_ld, harg2.read_unread, harg3.read_unread, harg4.read_unread, View.ld_unit_zero (S := S512x1024) hz0]

/-- and in the row-sum buffer the zero column (stored first, then read back) plus the product's row sums. -/
theorem out0_A_4_eq (c : Dev nD) (i : grid0.Coords) (arg2 : Memref sig .tc .vmem S512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S512x1024 .bf16) (harg5 : arg5.IsWhole)
    (arg6 : Memref sig .tc .vmem S512x1 .f32) (harg6 : arg6.IsWhole) (hc0 : cond0_0 i)
    (x0 x1 x2 : Vec F S512x1024 .f32) :
    out0_A_4 c i arg2 harg2 arg3 harg3 arg4 harg4 arg5 harg5 arg6 harg6 hc0 x0 x1 x2 = k0_pay4 x0 x1 x2 (k0_pay1 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S512x1) hz0, View.readCov_unit_zero (S := S512x1) _ hz0]
  simp only [View.readAt_eq_ld, harg2.read_unread, harg3.read_unread, harg4.read_unread, View.ld_unit_zero (S := S512x1024) hz0]

end AnyFloat

/-! ## The stored values at one entry, at the exact values -/

/-- The sum over the 1024 columns of a block of the product of three blocks, in row `p`. -/
def rowsum0 (x0 x1 x2 : Vec Ideal S512x1024 .f32) (p : Fin 512) : EReal :=
  ∑ q : Fin 1024, x0 (ix2 p q) * x1 (ix2 p q) * x2 (ix2 p q)

theorem pay0_3_apply (x0 x1 x2 : Vec Ideal S512x1024 .f32) (y : S512x1024.Idx) :
    k0_pay3 x0 x1 x2 y = x0 y * x1 y * x2 y := rfl

theorem pay0_1_apply (y : S512x1.Idx) : k0_pay1 (F := Ideal) y = 0 := by
  show Ideal.ofBits .f32 0x00000000#32 = 0
  exact Ideal.ofBits_zero_f32

/-- A 512-vector viewed as a 512 x 1 column, read at row `p`. -/
theorem column_apply (r : FVec Ideal S512 .f32) (p : Fin 512) :
    shapeCast S512x1 r shapeCasts_S512_S512x1 (ix2 p (0 : Fin 1)) = r (ix1 p) :=
  shapeCast_apply r shapeCasts_S512_S512x1 (ix2 p (0 : Fin 1)) (ix1 p) (by
    rw [Shape.rowMajor_val_one, Shape.rowMajor_val_two]
    show p.val = p.val * 1 + 0
    omega)

/-- The sum along the second axis of a 512 x 1024 block, read at row `p`. -/
theorem lanesum_apply (src : FVec Ideal S512x1024 .f32) (hφ : FKind.Formats .f32)
    (hacc : (0x00000000#32 : BitVec 32) = FKind.add.neutral .f32 hφ) (p : Fin 512) :
    multiReduction .add [1] S512 src 0x00000000#32 reduces_S512x1024_S512 hφ hacc (ix1 p) = ∑ q : Fin 1024, src (ix2 p q) := by
  refine (Ideal.multiReduction_add_single src 0x00000000#32 reduces_S512x1024_S512 hφ hacc (ix1 p)).trans ?_
  refine Finset.sum_congr rfl fun q _ => congrArg src ?_
  funext a
  match a with
  | ⟨0, _⟩ => rfl
  | ⟨1, _⟩ => rfl

/-- Row `p` of what the body stores into the row-sum buffer: what it read there plus the row sum of the product. -/
theorem pay0_4_apply (x0 x1 x2 : Vec Ideal S512x1024 .f32) (v : Vec Ideal S512x1 .f32) (p : Fin 512) :
    k0_pay4 x0 x1 x2 v (ix2 p (0 : Fin 1)) = v (ix2 p (0 : Fin 1)) + rowsum0 x0 x1 x2 p := by
  unfold k0_pay4
  show shapeCast S512x1 v shapeCasts_S512x1_S512x1 (ix2 p (0 : Fin 1))
      + shapeCast S512x1 (multiReduction .add [1] S512 (k0_pay2 x0 x1 x2) 0x00000000#32 reduces_S512x1024_S512 (.inl rfl) rfl) shapeCasts_S512_S512x1 (ix2 p (0 : Fin 1)) = _
  refine congrArg₂ (· + ·) (congrFun (shapeCast_self v _) _) ?_
  refine (column_apply _ p).trans ?_
  exact lanesum_apply (k0_pay2 x0 x1 x2) (.inl rfl) rfl p

/-! ## Entries of the arrays -/

/-- Entry (i, k) of the entrywise product of three square arrays, multiplied in the body's order. -/
def mask3 {n : ℕ} (X1 X2 X3 : Fin n → Fin n → EReal) (i k : Fin n) : EReal := X1 i k * X2 i k * X3 i k

/-- The same over natural-number coordinates, zero outside the array: sums over ranges of columns then split and
    join freely. -/
def mask3N (X1 X2 X3 : Fin 8192 → Fin 8192 → EReal) (r k : ℕ) : EReal :=
  if h : r < 8192 ∧ k < 8192 then mask3 X1 X2 X3 ⟨r, h.1⟩ ⟨k, h.2⟩ else 0

variable (V : (c : Dev nD) → (b : Ref sig .tc) → Buf (Elt Ideal) ((c : Thread nD τ).loc b))

/-- The three operand arrays as the region finds them, as functions of row and column. -/
abbrev adj0 (c : Dev nD) : Fin 8192 → Fin 8192 → EReal := fun a b => V c main_arg1 (ix2 a b)
abbrev mka0 (c : Dev nD) : Fin 8192 → Fin 8192 → EReal := fun a b => V c main_arg2 (ix2 a b)
abbrev mkb0 (c : Dev nD) : Fin 8192 → Fin 8192 → EReal := fun a b => V c main_arg3 (ix2 a b)

/-! ## Where a block sits in its array -/

theorem hN0 (t : Fin cfg0.N) : t.val < 128 := lt_of_lt_of_eq t.isLt (show cfg0.N = 128 from N_0)
theorem row_lt0 (t : Fin cfg0.N) (p : Fin 512) : t.val / 8 * 512 + p.val < 8192 := by have := hN0 t; omega
theorem col_lt0 (t : Fin cfg0.N) (q : Fin 1024) : t.val % 8 * 1024 + q.val < 8192 := by omega

/-- The index maps over the grid: point `t` is row block `t / 8` and column block `t % 8`; the row-sum window follows
    the row block only. -/
theorem idx_facts0 : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = t.val % 8
    ∧ win0_4.index t (0 : Fin 2) = t.val / 8 ∧ win0_4.index t (1 : Fin 2) = 0 :=
  (by decide +kernel : ∀ t : Fin grid0.N, _)

theorem emb0_0 (t : Fin cfg0.N) (p : Fin 512) (q : Fin 1024) :
    ((cfg0.win 0).blk t).view.emb (ix2 p q) = ix2 (⟨t.val / 8 * 512 + p.val, row_lt0 t p⟩ : Fin 8192) (⟨t.val % 8 * 1024 + q.val, col_lt0 t q⟩ : Fin 8192) := by
  obtain ⟨a0, a1, b0, b1, c0, c1, d0, d1, e0, e1⟩ := idx_facts0 t
  funext a; apply Fin.ext
  match a with
  | ⟨0, _⟩ => show win0_0.index t (0 : Fin 2) * 512 + 1 * p.val = t.val / 8 * 512 + p.val; omega
  | ⟨1, _⟩ => show win0_0.index t (1 : Fin 2) * 1024 + 1 * q.val = t.val % 8 * 1024 + q.val; omega
theorem emb0_1 (t : Fin cfg0.N) (p : Fin 512) (q : Fin 1024) :
    ((cfg0.win 1).blk t).view.emb (ix2 p q) = ix2 (⟨t.val / 8 * 512 + p.val, row_lt0 t p⟩ : Fin 8192) (⟨t.val % 8 * 1024 + q.val, col_lt0 t q⟩ : Fin 8192) := by
  obtain ⟨a0, a1, b0, b1, c0, c1, d0, d1, e0, e1⟩ := idx_facts0 t
  funext a; apply Fin.ext
  match a with
  | ⟨0, _⟩ => show win0_1.index t (0 : Fin 2) * 512 + 1 * p.val = t.val / 8 * 512 + p.val; omega
  | ⟨1, _⟩ => show win0_1.index t (1 : Fin 2) * 1024 + 1 * q.val = t.val % 8 * 1024 + q.val; omega
theorem emb0_2 (t : Fin cfg0.N) (p : Fin 512) (q : Fin 1024) :
    ((cfg0.win 2).blk t).view.emb (ix2 p q) = ix2 (⟨t.val / 8 * 512 + p.val, row_lt0 t p⟩ : Fin 8192) (⟨t.val % 8 * 1024 + q.val, col_lt0 t q⟩ : Fin 8192) := by
  obtain ⟨a0, a1, b0, b1, c0, c1, d0, d1, e0, e1⟩ := idx_facts0 t
  funext a; apply Fin.ext
  match a with
  | ⟨0, _⟩ => show win0_2.index t (0 : Fin 2) * 512 + 1 * p.val = t.val / 8 * 512 + p.val; omega
  | ⟨1, _⟩ => show win0_2.index t (1 : Fin 2) * 1024 + 1 * q.val = t.val % 8 * 1024 + q.val; omega
theorem emb0_3 (t : Fin cfg0.N) (p : Fin 512) (q : Fin 1024) :
    ((cfg0.win 3).blk t).view.emb (ix2 p q) = ix2 (⟨t.val / 8 * 512 + p.val, row_lt0 t p⟩ : Fin 8192) (⟨t.val % 8 * 1024 + q.val, col_lt0 t q⟩ : Fin 8192) := by
  obtain ⟨a0, a1, b0, b1, c0, c1, d0, d1, e0, e1⟩ := idx_facts0 t
  funext a; apply Fin.ext
  match a with
  | ⟨0, _⟩ => show win0_3.index t (0 : Fin 2) * 512 + 1 * p.val = t.val / 8 * 512 + p.val; omega
  | ⟨1, _⟩ => show win0_3.index t (1 : Fin 2) * 1024 + 1 * q.val = t.val % 8 * 1024 + q.val; omega

theorem emb0_4 (t : Fin cfg0.N) (p : Fin 512) :
    ((cfg0.win 4).blk t).view.emb (ix2 p (0 : Fin 1)) = ix2 (⟨t.val / 8 * 512 + p.val, row_lt0 t p⟩ : Fin 8192) (0 : Fin 1) := by
  obtain ⟨a0, a1, b0, b1, c0, c1, d0, d1, e0, e1⟩ := idx_facts0 t
  funext a; apply Fin.ext
  match a with
  | ⟨0, _⟩ => show win0_4.index t (0 : Fin 2) * 512 + 1 * p.val = t.val / 8 * 512 + p.val; omega
  | ⟨1, _⟩ => show win0_4.index t (1 : Fin 2) * 1 + 1 * 0 = 0; omega

/-- The three blocks of point `t` multiplied at (p, q) are the arrays' product at the block's place. -/
theorem blk_prod0 (c : Dev nD) (t : Fin cfg0.N) (p : Fin 512) (q : Fin 1024) :
    k0_pay3 (iblk0 V c 0 t) (iblk0 V c 1 t) (iblk0 V c 2 t) (ix2 p q)
      = mask3 (adj0 V c) (mka0 V c) (mkb0 V c) ⟨t.val / 8 * 512 + p.val, row_lt0 t p⟩ ⟨t.val % 8 * 1024 + q.val, col_lt0 t q⟩ := by
  have h : ∀ (A1 A2 A3 : S8192x8192.Idx → EReal),
      A1 (((cfg0.win 0).blk t).view.emb (ix2 p q)) * A2 (((cfg0.win 1).blk t).view.emb (ix2 p q)) * A3 (((cfg0.win 2).blk t).view.emb (ix2 p q))
        = A1 (ix2 (⟨t.val / 8 * 512 + p.val, row_lt0 t p⟩ : Fin 8192) (⟨t.val % 8 * 1024 + q.val, col_lt0 t q⟩ : Fin 8192))
          * A2 (ix2 (⟨t.val / 8 * 512 + p.val, row_lt0 t p⟩ : Fin 8192) (⟨t.val % 8 * 1024 + q.val, col_lt0 t q⟩ : Fin 8192))
          * A3 (ix2 (⟨t.val / 8 * 512 + p.val, row_lt0 t p⟩ : Fin 8192) (⟨t.val % 8 * 1024 + q.val, col_lt0 t q⟩ : Fin 8192)) :=
    fun A1 A2 A3 => by rw [emb0_0, emb0_1, emb0_2]
  exact h (V c main_arg1) (V c main_arg2) (V c main_arg3)

/-- The row sums of point `t`'s product block are the arrays' product summed over the block's 1024 columns. -/
theorem blk_rowsum0 (c : Dev nD) (t : Fin cfg0.N) (p : Fin 512) :
    rowsum0 (iblk0 V c 0 t) (iblk0 V c 1 t) (iblk0 V c 2 t) p
      = ∑ j ∈ Finset.range 1024, mask3N (adj0 V c) (mka0 V c) (mkb0 V c) (t.val / 8 * 512 + p.val) (t.val % 8 * 1024 + j) := by
  rw [Finset.sum_range]
  unfold rowsum0
  refine Finset.sum_congr rfl fun q _ => ?_
  unfold mask3N
  rw [dif_pos ⟨row_lt0 t p, col_lt0 t q⟩]
  exact blk_prod0 V c t p q

/-! ## The accumulation -/

/-- After position `n` the row-sum buffer holds, in row `p`, the sum of the row's product over the columns of the
    column blocks done so far in this row block: the first `(n % 8 + 1) · 1024` columns. By induction on the position. -/
theorem acc0 (c : Dev nD) : ∀ (n : ℕ) (hn : n < cfg0.N) (p : Fin 512),
    outsAt0 V c n hn (ix2 p (0 : Fin 1))
      = ∑ k ∈ Finset.range ((n % 8 + 1) * 1024), mask3N (adj0 V c) (mka0 V c) (mkb0 V c) (n / 8 * 512 + p.val) k
  | 0, hn, p => by
    rw [outsAt0_A V c ⟨0, hn⟩ rfl, out0_A_4_eq]
    refine (pay0_4_apply _ _ _ _ p).trans ?_
    rw [pay0_1_apply, zero_add, blk_rowsum0 V c ⟨0, hn⟩ p]
    show _ = ∑ k ∈ Finset.range 1024, _
    refine Finset.sum_congr rfl fun j _ => ?_
    show mask3N _ _ _ (0 / 8 * 512 + p.val) (0 % 8 * 1024 + j) = mask3N _ _ _ (0 / 8 * 512 + p.val) j
    rw [show 0 % 8 * 1024 + j = j from by omega]
  | n + 1, hn, p => by
    have hN : n + 1 < 128 := lt_of_lt_of_eq hn (show cfg0.N = 128 from N_0)
    by_cases h0 : (n + 1) % 8 = 0
    · rw [outsAt0_A V c ⟨n + 1, hn⟩ h0, out0_A_4_eq]
      refine (pay0_4_apply _ _ _ _ p).trans ?_
      rw [pay0_1_apply, zero_add, blk_rowsum0 V c ⟨n + 1, hn⟩ p]
      show ∑ j ∈ Finset.range 1024, mask3N _ _ _ ((n + 1) / 8 * 512 + p.val) ((n + 1) % 8 * 1024 + j) = _
      rw [h0]
      show _ = ∑ k ∈ Finset.range 1024, _
      refine Finset.sum_congr rfl fun j _ => ?_
      rw [show 0 * 1024 + j = j from by omega]
    · have hB : ¬(⟨n + 1, hn⟩ : Fin cfg0.N).val % 8 = 0 := h0
      rw [outsAt0_B V c ⟨n + 1, hn⟩ hB, out0_B_4_eq]
      refine (pay0_4_apply _ _ _ _ p).trans ?_
      rw [blk_rowsum0 V c ⟨n + 1, hn⟩ p]
      show outsAt0 V c n _ (ix2 p (0 : Fin 1)) + ∑ j ∈ Finset.range 1024, mask3N _ _ _ ((n + 1) / 8 * 512 + p.val) ((n + 1) % 8 * 1024 + j) = _
      rw [acc0 c n (Nat.lt_of_succ_lt hn) p]
      rw [show (n + 1) / 8 = n / 8 from by omega, show ((n + 1) % 8 + 1) * 1024 = (n % 8 + 1) * 1024 + 1024 from by omega,
        Finset.sum_range_add, show (n + 1) % 8 * 1024 = (n % 8 + 1) * 1024 from by omega]

/-! ## From the blocks to the arrays: the product -/

/-- The product array as one function of the three arrays. -/
def G0_3 (A1 A2 A3 : S8192x8192.Idx → EReal) : S8192x8192.Idx → Elt Ideal .bf16 := fun i => A1 i * A2 i * A3 i

/-- Every block of the product array is some point's. -/
theorem idx_onto0_3 : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

theorem flushed0_3_eq (c : Dev nD) (t : Fin cfg0.N) :
    (dat0 (F := Ideal) V c).flushed 3 t = ((cfg0.win 3).blk t).view.read (Elt Ideal) (G0_3 (V c main_arg1) (V c main_arg2) (V c main_arg3)) := by
  show (cfg0.win 3).cut (grid0.coords t) ((dat0 V c).after 3 t) = _
  rw [after0_3]
  have hpay : out3At0 V c t = k0_pay3 (iblk0 V c 0 t) (iblk0 V c 1 t) (iblk0 V c 2 t) := by
    by_cases h0 : t.val % 8 = 0
    · rw [out3At0_A V c t h0, out0_A_3_eq]
    · rw [out3At0_B V c t h0, out0_B_3_eq]
  rw [hpay]
  funext y
  obtain ⟨p, q, rfl⟩ : ∃ (p : Fin 512) (q : Fin 1024), y = ix2 p q := ⟨y 0, y 1, eq_ix2 y⟩
  show k0_pay3 (iblk0 V c 0 t) (iblk0 V c 1 t) (iblk0 V c 2 t) (ix2 p q)
    = G0_3 (V c main_arg1) (V c main_arg2) (V c main_arg3) (((cfg0.win 3).blk t).view.emb (ix2 p q))
  rw [blk_prod0 V c t p q, emb0_3]
  rfl

theorem mem_blk0_3 (t : Fin cfg0.N) (i : S8192x8192.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0_0).slice (win0_3.rect t)).set ↔ _
  rw [View.set_slice_whole, Rect.mem_set_unit]
  exact Iff.rfl

/-- The 16 x 8 blocks tile the product array. -/
theorem covered0_3 (i : S8192x8192.Idx) :
    ∃ t : Fin cfg0.N, (cfg0.win 3).flush t = true ∧ i ∈ ((cfg0.win 3).blk t).view.set := by
  have hi0 : (i 0).val < 8192 := idx2_lt0 i
  have hi1 : (i 1).val < 8192 := idx2_lt1 i
  obtain ⟨t, ht⟩ := idx_onto0_3 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The product array after the region, whole. -/
theorem final0_3_arr (c : Dev nD) :
    (dat0 (F := Ideal) V c).arrAt 3 cfg0.N = G0_3 (V c main_arg1) (V c main_arg2) (V c main_arg3) :=
  (dat0 (F := Ideal) V c).arrAt_eq_of_cover 3 (G0_3 (V c main_arg1) (V c main_arg2) (V c main_arg3))
    (fun t _ => flushed0_3_eq V c t) covered0_3

/-- The product array after the region, entry by entry. -/
theorem final0_3 (c : Dev nD) (i k : Fin 8192) :
    (dat0 (F := Ideal) V c).arrAt 3 cfg0.N (ix2 i k) = mask3 (adj0 V c) (mka0 V c) (mkb0 V c) i k := by
  rw [final0_3_arr]
  rfl

/-! ## From the blocks to the arrays: the row sums -/

/-- The row-sum array as one function of the three arrays: in row i the sum of the product over all columns. -/
def G0_4 (X1 X2 X3 : Fin 8192 → Fin 8192 → EReal) : S8192x1.Idx → Elt Ideal .f32 :=
  fun i => ∑ k : Fin 8192, mask3 X1 X2 X3 (⟨(i 0).val, idx2_lt0 i⟩ : Fin 8192) k

/-- A sum over all 8192 columns, on natural-number coordinates. -/
theorem sum_mask3N (X1 X2 X3 : Fin 8192 → Fin 8192 → EReal) (r : ℕ) (hr : r < 8192) :
    ∑ k ∈ Finset.range 8192, mask3N X1 X2 X3 r k = ∑ k : Fin 8192, mask3 X1 X2 X3 ⟨r, hr⟩ k := by
  rw [Finset.sum_range]
  refine Finset.sum_congr rfl fun k _ => ?_
  unfold mask3N
  rw [dif_pos ⟨hr, k.isLt⟩]

/-- Every row block is the row block of a point that writes the row sums back. -/
theorem idx_onto0_4 : ∀ q0 : Fin 16, ∃ t : Fin cfg0.N, t.val % 8 = 7 ∧ win0_4.index t = ![q0.val, 0] :=
  (by decide +kernel : ∀ q0 : Fin 16, ∃ t : Fin grid0.N, t.val % 8 = 7 ∧ win0_4.index t = ![q0.val, 0])

theorem flushed0_4_eq (c : Dev nD) (t : Fin cfg0.N) (hf : (cfg0.win 4).flush t = true) :
    (dat0 (F := Ideal) V c).flushed 4 t = ((cfg0.win 4).blk t).view.read (Elt Ideal) (G0_4 (adj0 V c) (mka0 V c) (mkb0 V c)) := by
  have h7 : t.val % 8 = 7 := (flush0_4 t).mp hf
  show (cfg0.win 4).cut (grid0.coords t) ((dat0 V c).after 4 t) = _
  rw [after0_4]
  funext y
  obtain ⟨p, z, rfl⟩ : ∃ (p : Fin 512) (z : Fin 1), y = ix2 p z := ⟨y 0, y 1, eq_ix2 y⟩
  obtain rfl : z = 0 := Subsingleton.elim _ _
  show outsAt0 V c t.val t.isLt (ix2 p (0 : Fin 1)) = G0_4 (adj0 V c) (mka0 V c) (mkb0 V c) (((cfg0.win 4).blk t).view.emb (ix2 p (0 : Fin 1)))
  rw [acc0 V c t.val t.isLt p, emb0_4, h7]
  show ∑ k ∈ Finset.range 8192, _ = _
  exact sum_mask3N _ _ _ _ (row_lt0 t p)

theorem mem_blk0_4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v0_1).slice (win0_4.rect t)).set ↔ _
  rw [View.set_slice_whole, Rect.mem_set_unit]
  exact Iff.rfl

/-- The 16 row blocks written back tile the row-sum array. -/
theorem covered0_4 (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  obtain ⟨t, h7, ht⟩ := idx_onto0_4 ⟨(i 0).val / 512, by omega⟩
  have q0 : win0_4.index t (0 : Fin 2) = (i 0).val / 512 := congrFun ht 0
  have q1 : win0_4.index t (1 : Fin 2) = 0 := congrFun ht 1
  refine ⟨t, (flush0_4 t).mpr h7, ?_⟩
  rw [mem_blk0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

/-- The row-sum array after the region, whole. -/
theorem final0_4_arr (c : Dev nD) :
    (dat0 (F := Ideal) V c).arrAt 4 cfg0.N = G0_4 (adj0 V c) (mka0 V c) (mkb0 V c) :=
  (dat0 (F := Ideal) V c).arrAt_eq_of_cover 4 (G0_4 (adj0 V c) (mka0 V c) (mkb0 V c))
    (fun t hf => flushed0_4_eq V c t hf) covered0_4

/-- The row-sum array after the region, row by row. -/
theorem final0_4 (c : Dev nD) (i : Fin 8192) :
    (dat0 (F := Ideal) V c).arrAt 4 cfg0.N (ix2 i (0 : Fin 1)) = ∑ k : Fin 8192, mask3 (adj0 V c) (mka0 V c) (mkb0 V c) i k := by
  rw [final0_4_arr]
  rfl

end Cert.KernelIdeal.Gen

end
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.Region1Blocks.lean ====
import proofs.«152628_j8315056685239_2_alg».proof.Proof.Region1Data
import proofs.«152628_j8315056685239_2_alg».proof.Proof.Spec
import proofs.«152628_j8315056685239_2_alg».proof.Proof.LibBlockSum
import Idealize.ShloMosaic.PureOps.Ideal.Laws
import Idealize.ShloMosaic.Lib.Pipeline.Value
import Idealize.ShloMosaic.Lib.ValueIdx
import Idealize.ShloMosaic.Lib.WritesUnit
import Idealize.ShloMosaic.Lib.Tactic

/-! # Region 1: the block each point forms, entry by entry

At grid point (g0, g1) the body scales the 1024×1024 adjacency block by the row scale of its rows and the column scale
of its columns; on a diagonal block (g0 = g1) it adds the product of the two scales where the local row and column
indices coincide — which, the block being on the diagonal, is where the global ones do. Either way the block it sums
is the block (g0, g1) of the normalised adjacency of the entry arrays. Its rows are then summed into the row-sum
accumulator and its columns into one slab of the column-sum scratch. This file reads the body's stores at an entry
(over the extended reals), reads every load of each case's run, and identifies the block with the normalised
adjacency. -/

set_option maxRecDepth 16384

noncomputable section

namespace Cert.KernelIdeal.Gen

open Idealize.ShloMosaic Idealize.ShloMosaic.TcCoe Idealize.ShloMosaic.Tactic Idealize.SL.Sem
open Idealize.ShloMosaic.ValueIdx
open Idealize.ShloMosaic.Pipeline (Dat)
open scoped BigOperators

/-! ## The body's values at an entry, over the extended reals -/

theorem zero_offsets1 : (![0, 0] : Fin 2 → Nat) = fun _ => 0 := funext fun a => by fin_cases a <;> rfl

section Layout
variable {α : Type}

/-- A 1024×1 column spread over 1024 columns holds, at (p, k), the column's entry of row p; -/
theorem spread_col1 (x : S1024x1.Idx → α) (h : S1024x1.Broadcasts S1024x1024) (p k : Fin 1024) :
    broadcastTo S1024x1024 x h (ix2 p k) = x (ix2 p (0 : Fin 1)) :=
  broadcastTo_apply x h (ix2 p k) (ix2 p (0 : Fin 1)) fun a => by
    match a with
    | ⟨0, _⟩ => rfl
    | ⟨1, _⟩ => rfl

/-- a 1×1024 row spread over 1024 rows holds, at (p, k), the row's entry of column k; -/
theorem spread_row1 (x : S1x1024.Idx → α) (h : S1x1024.Broadcasts S1024x1024) (p k : Fin 1024) :
    broadcastTo S1024x1024 x h (ix2 p k) = x (ix2 (0 : Fin 1) k) :=
  broadcastTo_apply x h (ix2 p k) (ix2 (0 : Fin 1) k) fun a => by
    match a with
    | ⟨0, _⟩ => rfl
    | ⟨1, _⟩ => rfl

/-- and spread over 8 rows likewise. -/
theorem spread_row8 (x : S1x1024.Idx → α) (h : S1x1024.Broadcasts S8x1024) (r : Fin 8) (k : Fin 1024) :
    broadcastTo S8x1024 x h (ix2 r k) = x (ix2 (0 : Fin 1) k) :=
  broadcastTo_apply x h (ix2 r k) (ix2 (0 : Fin 1) k) fun a => by
    match a with
    | ⟨0, _⟩ => rfl
    | ⟨1, _⟩ => rfl

/-- A vector of 1024 entries viewed as a column holds entry p at (p, 0); -/
theorem as_col1 (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    omega)

/-- viewed as a row, entry k at (0, k). -/
theorem as_row1 (x : S1024.Idx → α) (h : S1024.ShapeCasts S1x1024) (u : Fin 1) (k : Fin 1024) :
    shapeCast S1x1024 x h (ix2 u k) = x (ix1 k) :=
  shapeCast_apply x h _ _ (by
    have hu : u.val = 0 := by omega
    rw [Shape.rowMajor_val_two, Shape.rowMajor_val_one]
    show k.val = u.val * 1024 + k.val
    omega)

end Layout

/-- The scaled block: adjacency times row scale times column scale. -/
theorem k1_pay6_apply (x1 : Vec Ideal S1024x1 .f32) (x2 : Vec Ideal S1x1024 .f32) (x0 : Vec Ideal S1024x1024 .bf16) (p k : Fin 1024) :
    (k1_pay6 (F := Ideal) x1 x2 x0 (ix2 p k) : EReal)
      = (x0 (ix2 p k) : EReal) * (x1 (ix2 p (0 : Fin 1)) : EReal) * (x2 (ix2 (0 : Fin 1) k) : EReal) := by
  unfold k1_pay6 k1_pay4 k1_pay5
  simp only [shapeCast_self, mulf_apply, extf_apply, spread_col1, spread_row1]

/-- On a diagonal block the product of the two scales is added where the local row and column indices coincide. -/
theorem k1_pay7_apply (x1 : Vec Ideal S1024x1 .f32) (x2 : Vec Ideal S1x1024 .f32) (v55 v60 : Vec Ideal S1024x1024 .f32) (p k : Fin 1024) :
    (k1_pay7 (F := Ideal) x1 x2 v55 v60 (ix2 p k) : EReal)
      = if p = k then (v55 (ix2 p k) : EReal) + (x1 (ix2 p (0 : Fin 1)) : EReal) * (x2 (ix2 (0 : Fin 1) k) : EReal) else (v60 (ix2 p k) : EReal) := by
  unfold k1_pay7 k1_pay4 k1_pay5
  simp only [shapeCast_self]
  rw [select_apply]
  have hbit : cmpi CmpIPredicate.eq (broadcastTo S1024x1024 (iota .tc S1024x1 32 [0] iota_S1024x1_d0_w32) broadcasts_S1024x1_S1024x1024)
      (broadcastTo S1024x1024 (iota .tc S1x1024 32 [1] iota_S1x1024_d1_w32) broadcasts_S1x1024_S1024x1024) (ix2 p k)
      = if p = k then 1#1 else 0#1 := by
    show IntOp.cmpi .eq (broadcastTo S1024x1024 (iota .tc S1024x1 32 [0] iota_S1024x1_d0_w32) broadcasts_S1024x1_S1024x1024 (ix2 p k))
      (broadcastTo S1024x1024 (iota .tc S1x1024 32 [1] iota_S1x1024_d1_w32) broadcasts_S1x1024_S1024x1024 (ix2 p k)) = _
    rw [spread_col1, spread_row1]
    have ea : iota .tc S1024x1 32 [0] iota_S1024x1_d0_w32 (ix2 p (0 : Fin 1)) = BitVec.ofNat 32 p.val := by
      show BitVec.ofNat 32 (0 * 1024 + p.val) = _
      rw [Nat.zero_mul, Nat.zero_add]
    have eb : iota .tc S1x1024 32 [1] iota_S1x1024_d1_w32 (ix2 (0 : Fin 1) k) = BitVec.ofNat 32 k.val := by
      show BitVec.ofNat 32 (0 * 1024 + k.val) = _
      rw [Nat.zero_mul, Nat.zero_add]
    rw [ea, eb]
    unfold IntOp.cmpi
    by_cases h : p = k
    · rw [if_pos h, h]; simp
    · rw [if_neg h]
      have hne : (BitVec.ofNat 32 p.val == BitVec.ofNat 32 k.val) = false := by
        rw [beq_eq_false_iff_ne]
        intro e
        apply h
        have := congrArg BitVec.toNat e
        simp only [BitVec.toNat_ofNat] at this
        have hp := p.isLt
        have hk := k.isLt
        exact Fin.ext (by omega)
      simp [hne]
  rw [hbit]
  by_cases h : p = k
  · rw [if_pos h, if_pos h, select_one]
    simp only [addf_apply, mulf_apply, spread_col1, spread_row1]
  · rw [if_neg h, if_neg h, select_zero]

/-- The row-sum store: the accumulator's entry plus the sum of the block's row. -/
theorem k1_pay8_apply (v25 : Vec Ideal S1024x1024 .f32) (v26 : Vec Ideal S1024x1 .f32) (p : Fin 1024) :
    (k1_pay8 (F := Ideal) v25 v26 (ix2 p (0 : Fin 1)) : EReal) = (v26 (ix2 p (0 : Fin 1)) : EReal) + ∑ k : Fin 1024, (v25 (ix2 p k) : EReal) := by
  unfold k1_pay8
  simp only [shapeCast_self]
  rw [addf_apply, as_col1]
  refine congrArg (fun z => (v26 (ix2 p (0 : Fin 1)) : EReal) + z) ?_
  refine (Ideal.multiReduction_add_single (φ := .f32) v25 0x00000000#32 reduces_S1024x1024_S1024 (.inl rfl) rfl (ix1 p)).trans ?_
  refine Finset.sum_congr rfl fun k _ => congrArg v25 ?_
  funext ax
  apply Fin.ext
  match ax with
  | ⟨0, _⟩ => rfl
  | ⟨1, _⟩ => rfl

/-- The column-sum store: the slab's entry plus the sum of the block's column, the same in each of the 8 rows. -/
theorem k1_pay1_apply (v25 : Vec Ideal S1024x1024 .f32) (v37 : Vec Ideal S8x1024 .f32) (r : Fin 8) (k : Fin 1024) :
    (k1_pay1 (F := Ideal) v25 v37 (ix2 r k) : EReal) = (v37 (ix2 r k) : EReal) + ∑ p : Fin 1024, (v25 (ix2 p k) : EReal) := by
  unfold k1_pay1
  simp only [shapeCast_self]
  rw [addf_apply, spread_row8, as_row1]
  refine congrArg (fun z => (v37 (ix2 r k) : EReal) + z) ?_
  refine (Ideal.multiReduction_add_single (φ := .f32) v25 0x00000000#32 reduces_S1024x1024_S1024_2 (.inl rfl) rfl (ix1 k)).trans ?_
  refine Finset.sum_congr rfl fun p _ => congrArg v25 ?_
  funext ax
  apply Fin.ext
  match ax with
  | ⟨0, _⟩ => rfl
  | ⟨1, _⟩ => rfl

/-- The two resets store zeros. -/
theorem k1_pay2_apply (y : S8x8192.Idx) : (k1_pay2 (F := Ideal) y : EReal) = 0 := by
  show Ideal.ofBits .f32 0x00000000#32 = 0
  exact Ideal.ofBits_zero_f32
theorem k1_pay3_apply (y : S1024x1.Idx) : (k1_pay3 (F := Ideal) y : EReal) = 0 := by
  show Ideal.ofBits .f32 0x00000000#32 = 0
  exact Ideal.ofBits_zero_f32

/-! ## What each case's run leaves, with every load read -/

section AnyFloat
variable {F : FTy → Type} [FloatOps F]

/-- The normalised block the body forms off the diagonal, and on it. -/
abbrev blkN1 (x0 : Vec F S1024x1024 .bf16) (x1 : Vec F S1024x1 .f32) (x2 : Vec F S1x1024 .f32) : FVec F S1024x1024 .f32 :=
  k1_pay6 x1 x2 x0
abbrev blkD1 (x0 : Vec F S1024x1024 .bf16) (x1 : Vec F S1024x1 .f32) (x2 : Vec F S1x1024 .f32) : FVec F S1024x1024 .f32 :=
  k1_pay7 x1 x2 (k1_pay6 x1 x2 x0) (k1_pay6 x1 x2 x0)

/-- Case A: the pieces the run found, with every load read: the row-sum accumulator ends at the row-sum store's payload
    over the zero block, and the column-sum scratch has the slab of block-column g1 overwritten by the column-sum store's
    payload over the zero block just stored. -/
theorem pieces1_A (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : cond1_0 i) (hc1 : cond1_1 i) (hc2 : cond1_2 i) (hc3 : ¬cond1_3 i)
    (x0 : Vec F S1024x1024 .bf16) (x1 : Vec F S1024x1 .f32) (x2 : Vec F S1x1024 .f32) :
    (kernelRun1_A c i arg2 harg2 arg3 harg3 arg4 harg4 arg5 harg5 arg6 harg6 arg7 harg7 arg8 harg8 hc0 hc1 hc2 hc3 x0 x1 x2).1 = [⟨(Rect.unit (s := S1024x1) ![0, 0] S1024x1.size inb_S1024x1_S1024x1_0_0), k1_pay8 (blkD1 x0 x1 x2) (k1_pay3 (F := F))⟩, ⟨(Rect.unit (s := S1024x1) ![0, 0] S1024x1.size inb_S1024x1_S1024x1_0_0), k1_pay3⟩]
    ∧ (kernelRun1_A c i arg2 harg2 arg3 harg3 arg4 harg4 arg5 harg5 arg6 harg6 arg7 harg7 arg8 harg8 hc0 hc1 hc2 hc3 x0 x1 x2).2.2.2.1 = [⟨(Rect.unit (s := S8x8192) (k1_off1 i) S8x1024.size (k1_off1_inb i)), k1_pay1 (blkD1 x0 x1 x2) (View.ld (k1_pay2 (F := F)) (Rect.unit (s := S8x8192) (k1_off1 i) S8x1024.size (k1_off1_inb i)))⟩, ⟨Rect.unit (s := S8x8192) ![0, 0] S8x8192.size inb_S8x8192_S8x8192_0_0, k1_pay2⟩] := by
  unfold kernelRun1_A
  dsimp only
  sl_unfold_words
  have hz : arg8.view.read (Elt F) (arg8.view.writes (Elt F) arg8.view.junk [(⟨Rect.unit (s := S8x8192) ![0, 0] S8x8192.size inb_S8x8192_S8x8192_0_0, k1_pay2⟩ : View.Piece (Elt F) S8x8192 .f32)]) = k1_pay2 := by
    rw [View.read_writes_junk_eq_canon, View.canon_unit_zero (S := S8x8192) zero_offsets1]
  refine ⟨?_, ?_⟩ <;> simp only [View.readCov_cons_toLoadRect, View.readAt_eq_ld, harg2.read_unread, harg3.read_unread, harg4.read_unread, harg5.read_unread, harg8.read_unread,
    View.ld_unit_zero (S := S1024x1024) zero_offsets1, View.ld_unit_zero (S := S1024x1) zero_offsets1, View.ld_unit_zero (S := S1x1024) zero_offsets1, hz] <;> try rfl

/-- Case B: the pieces the run found, with every load read: the row-sum accumulator ends at the row-sum store's payload
    over the zero block, and the column-sum scratch has the slab of block-column g1 overwritten by the column-sum store's
    payload over what the slab held. -/
theorem pieces1_B (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) :
    (kernelRun1_B c i arg2 harg2 arg3 harg3 arg4 harg4 arg5 harg5 arg6 harg6 arg7 harg7 arg8 harg8 hc0 hc1 hc2 hc3 x0 x1 x2 xs1).1 = [⟨(Rect.unit (s := S1024x1) ![0, 0] S1024x1.size inb_S1024x1_S1024x1_0_0), k1_pay8 (blkN1 x0 x1 x2) (k1_pay3 (F := F))⟩, ⟨(Rect.unit (s := S1024x1) ![0, 0] S1024x1.size inb_S1024x1_S1024x1_0_0), k1_pay3⟩]
    ∧ (kernelRun1_B c i arg2 harg2 arg3 harg3 arg4 harg4 arg5 harg5 arg6 harg6 arg7 harg7 arg8 harg8 hc0 hc1 hc2 hc3 x0 x1 x2 xs1).2.2.2.1 = [⟨(Rect.unit (s := S8x8192) (k1_off1 i) S8x1024.size (k1_off1_inb i)), k1_pay1 (blkN1 x0 x1 x2) (View.ld xs1 (Rect.unit (s := S8x8192) (k1_off1 i) S8x1024.size (k1_off1_inb i)))⟩] := by
  unfold kernelRun1_B
  dsimp only
  sl_unfold_words
  refine ⟨?_, ?_⟩ <;> simp only [View.readCov_cons_toLoadRect, View.readAt_eq_ld, harg2.read_unread, harg3.read_unread, harg4.read_unread, harg5.read_unread, harg8.read_unread,
    View.ld_unit_zero (S := S1024x1024) zero_offsets1, View.ld_unit_zero (S := S1024x1) zero_offsets1, View.ld_unit_zero (S := S1x1024) zero_offsets1] <;> try rfl

/-- Case C: the pieces the run found, with every load read: the row-sum accumulator ends at the row-sum store's payload
    over what it held, and the column-sum scratch has the slab of block-column g1 overwritten by the column-sum store's
    payload over what the slab held. -/
theorem pieces1_C (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) :
    (kernelRun1_C c i arg2 harg2 arg3 harg3 arg4 harg4 arg5 harg5 arg6 harg6 arg7 harg7 arg8 harg8 hc0 hc1 hc2 hc3 x0 x1 x2 xo3 xs1).1 = [⟨(Rect.unit (s := S1024x1) ![0, 0] S1024x1.size inb_S1024x1_S1024x1_0_0), k1_pay8 (blkD1 x0 x1 x2) xo3⟩]
    ∧ (kernelRun1_C c i arg2 harg2 arg3 harg3 arg4 harg4 arg5 harg5 arg6 harg6 arg7 harg7 arg8 harg8 hc0 hc1 hc2 hc3 x0 x1 x2 xo3 xs1).2.2.2.1 = [⟨(Rect.unit (s := S8x8192) (k1_off1 i) S8x1024.size (k1_off1_inb i)), k1_pay1 (blkD1 x0 x1 x2) (View.ld xs1 (Rect.unit (s := S8x8192) (k1_off1 i) S8x1024.size (k1_off1_inb i)))⟩] := by
  unfold kernelRun1_C
  dsimp only
  sl_unfold_words
  refine ⟨?_, ?_⟩ <;> simp only [View.readCov_cons_toLoadRect, View.readAt_eq_ld, harg2.read_unread, harg3.read_unread, harg4.read_unread, harg5.read_unread, harg8.read_unread,
    View.ld_unit_zero (S := S1024x1024) zero_offsets1, View.ld_unit_zero (S := S1024x1) zero_offsets1, View.ld_unit_zero (S := S1x1024) zero_offsets1] <;> try rfl

/-- Case D: the pieces the run found, with every load read: the row-sum accumulator ends at the row-sum store's payload
    over what it held, and the column-sum scratch has the slab of block-column g1 overwritten by the column-sum store's
    payload over what the slab held. -/
theorem pieces1_D (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) :
    (kernelRun1_D c i arg2 harg2 arg3 harg3 arg4 harg4 arg5 harg5 arg6 harg6 arg7 harg7 arg8 harg8 hc0 hc1 hc2 hc3 x0 x1 x2 xo3 xs1).1 = [⟨(Rect.unit (s := S1024x1) ![0, 0] S1024x1.size inb_S1024x1_S1024x1_0_0), k1_pay8 (blkN1 x0 x1 x2) xo3⟩]
    ∧ (kernelRun1_D c i arg2 harg2 arg3 harg3 arg4 harg4 arg5 harg5 arg6 harg6 arg7 harg7 arg8 harg8 hc0 hc1 hc2 hc3 x0 x1 x2 xo3 xs1).2.2.2.1 = [⟨(Rect.unit (s := S8x8192) (k1_off1 i) S8x1024.size (k1_off1_inb i)), k1_pay1 (blkN1 x0 x1 x2) (View.ld xs1 (Rect.unit (s := S8x8192) (k1_off1 i) S8x1024.size (k1_off1_inb i)))⟩] := by
  unfold kernelRun1_D
  dsimp only
  sl_unfold_words
  refine ⟨?_, ?_⟩ <;> simp only [View.readCov_cons_toLoadRect, View.readAt_eq_ld, harg2.read_unread, harg3.read_unread, harg4.read_unread, harg5.read_unread, harg8.read_unread,
    View.ld_unit_zero (S := S1024x1024) zero_offsets1, View.ld_unit_zero (S := S1024x1) zero_offsets1, View.ld_unit_zero (S := S1x1024) zero_offsets1] <;> try rfl

/-- Case E: the pieces the run found, with every load read: the row-sum accumulator ends at the row-sum store's payload
    over what it held, and the column-sum scratch has the slab of block-column g1 overwritten by the column-sum store's
    payload over what the slab held. -/
theorem pieces1_E (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) :
    (kernelRun1_E c i arg2 harg2 arg3 harg3 arg4 harg4 arg5 harg5 arg6 harg6 arg7 harg7 arg8 harg8 hc0 hc1 hc2 hc3 x0 x1 x2 xo3 xs1).1 = [⟨(Rect.unit (s := S1024x1) ![0, 0] S1024x1.size inb_S1024x1_S1024x1_0_0), k1_pay8 (blkD1 x0 x1 x2) xo3⟩]
    ∧ (kernelRun1_E c i arg2 harg2 arg3 harg3 arg4 harg4 arg5 harg5 arg6 harg6 arg7 harg7 arg8 harg8 hc0 hc1 hc2 hc3 x0 x1 x2 xo3 xs1).2.2.2.1 = [⟨(Rect.unit (s := S8x8192) (k1_off1 i) S8x1024.size (k1_off1_inb i)), k1_pay1 (blkD1 x0 x1 x2) (View.ld xs1 (Rect.unit (s := S8x8192) (k1_off1 i) S8x1024.size (k1_off1_inb i)))⟩] := by
  unfold kernelRun1_E
  dsimp only
  sl_unfold_words
  refine ⟨?_, ?_⟩ <;> simp only [View.readCov_cons_toLoadRect, View.readAt_eq_ld, harg2.read_unread, harg3.read_unread, harg4.read_unread, harg5.read_unread, harg8.read_unread,
    View.ld_unit_zero (S := S1024x1024) zero_offsets1, View.ld_unit_zero (S := S1024x1) zero_offsets1, View.ld_unit_zero (S := S1x1024) zero_offsets1] <;> try rfl

end AnyFloat

/-! ## The accumulator after each case -/

section AnyFloat2
variable {F : FTy → Type} [FloatOps F]

/-- Case A leaves, in the row-sum accumulator, the row-sum store's payload. -/
theorem out1_A_3_eq (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : cond1_0 i) (hc1 : cond1_1 i) (hc2 : cond1_2 i) (hc3 : ¬cond1_3 i)
    (x0 : Vec F S1024x1024 .bf16) (x1 : Vec F S1024x1 .f32) (x2 : Vec F S1x1024 .f32) :
    out1_A_3 c i arg2 harg2 arg3 harg3 arg4 harg4 arg5 harg5 arg6 harg6 arg7 harg7 arg8 harg8 hc0 hc1 hc2 hc3 x0 x1 x2 = k1_pay8 (blkD1 x0 x1 x2) (k1_pay3 (F := F)) := by
  unfold out1_A_3
  rw [(pieces1_A c i arg2 harg2 arg3 harg3 arg4 harg4 arg5 harg5 arg6 harg6 arg7 harg7 arg8 harg8 hc0 hc1 hc2 hc3 x0 x1 x2).1, View.read_writes_junk_eq_canon,
    View.canon_cons_unit_zero (S := S1024x1) zero_offsets1]

/-- Case B leaves, in the row-sum accumulator, the row-sum store's payload. -/
theorem out1_B_3_eq (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) :
    out1_B_3 c i arg2 harg2 arg3 harg3 arg4 harg4 arg5 harg5 arg6 harg6 arg7 harg7 arg8 harg8 hc0 hc1 hc2 hc3 x0 x1 x2 xs1 = k1_pay8 (blkN1 x0 x1 x2) (k1_pay3 (F := F)) := by
  unfold out1_B_3
  rw [(pieces1_B c i arg2 harg2 arg3 harg3 arg4 harg4 arg5 harg5 arg6 harg6 arg7 harg7 arg8 harg8 hc0 hc1 hc2 hc3 x0 x1 x2 xs1).1, View.read_writes_junk_eq_canon,
    View.canon_cons_unit_zero (S := S1024x1) zero_offsets1]

/-- Case C leaves, in the row-sum accumulator, the row-sum store's payload. -/
theorem out1_C_3_eq (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) :
    out1_C_3 c i arg2 harg2 arg3 harg3 arg4 harg4 arg5 harg5 arg6 harg6 arg7 harg7 arg8 harg8 hc0 hc1 hc2 hc3 x0 x1 x2 xo3 xs1 = k1_pay8 (blkD1 x0 x1 x2) xo3 := by
  unfold out1_C_3
  rw [(pieces1_C c i arg2 harg2 arg3 harg3 arg4 harg4 arg5 harg5 arg6 harg6 arg7 harg7 arg8 harg8 hc0 hc1 hc2 hc3 x0 x1 x2 xo3 xs1).1, View.read_writes_junk_eq_canon,
    View.canon_cons_unit_zero (S := S1024x1) zero_offsets1]

/-- Case D leaves, in the row-sum accumulator, the row-sum store's payload. -/
theorem out1_D_3_eq (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) :
    out1_D_3 c i arg2 harg2 arg3 harg3 arg4 harg4 arg5 harg5 arg6 harg6 arg7 harg7 arg8 harg8 hc0 hc1 hc2 hc3 x0 x1 x2 xo3 xs1 = k1_pay8 (blkN1 x0 x1 x2) xo3 := by
  unfold out1_D_3
  rw [(pieces1_D c i arg2 harg2 arg3 harg3 arg4 harg4 arg5 harg5 arg6 harg6 arg7 harg7 arg8 harg8 hc0 hc1 hc2 hc3 x0 x1 x2 xo3 xs1).1, View.read_writes_junk_eq_canon,
    View.canon_cons_unit_zero (S := S1024x1) zero_offsets1]

/-- Case E leaves, in the row-sum accumulator, the row-sum store's payload. -/
theorem out1_E_3_eq (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) :
    out1_E_3 c i arg2 harg2 arg3 harg3 arg4 harg4 arg5 harg5 arg6 harg6 arg7 harg7 arg8 harg8 hc0 hc1 hc2 hc3 x0 x1 x2 xo3 xs1 = k1_pay8 (blkD1 x0 x1 x2) xo3 := by
  unfold out1_E_3
  rw [(pieces1_E c i arg2 harg2 arg3 harg3 arg4 harg4 arg5 harg5 arg6 harg6 arg7 harg7 arg8 harg8 hc0 hc1 hc2 hc3 x0 x1 x2 xo3 xs1).1, View.read_writes_junk_eq_canon,
    View.canon_cons_unit_zero (S := S1024x1) zero_offsets1]

end AnyFloat2

/-! ## The blocks as parts of the entry arrays -/

section AtEntry
variable (V : (c : Dev nD) → (b : Ref sig .tc) → Buf (Elt Ideal) ((c : Thread nD τ).loc b))

/-- Point `t` of the 8 × 8 grid is (t / 8, t % 8), and each window's block index follows the coordinate(s) it reads. -/
theorem idx_facts1 : ∀ t : Fin cfg1.N,
    ((grid1.coords t) 0).val = t.val / 8 ∧ ((grid1.coords t) 1).val = t.val % 8
    ∧ win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = 0
    ∧ win1_4.index t (0 : Fin 2) = 0 ∧ win1_4.index t (1 : Fin 2) = 0 :=
  (by decide +kernel : ∀ t : Fin grid1.N, _)

/-- Entry p of block g (of a row or of a column of blocks) is global index 1024·g + p. -/
def gIx1 (g : Fin 8) (p : Fin 1024) : Fin 8192 := ⟨1024 * g.val + p.val, by have := g.isLt; have := p.isLt; omega⟩

theorem gIx1_inj {g g' : Fin 8} {p p' : Fin 1024} (h : gIx1 g p = gIx1 g' p') : g = g' ∧ p = p' := by
  have hv : 1024 * g.val + p.val = 1024 * g'.val + p'.val := congrArg Fin.val h
  have := p.isLt; have := p'.isLt
  exact ⟨Fin.ext (by omega), Fin.ext (by omega)⟩

/-- The entry arrays as functions of their coordinates. -/
abbrev adj1 (c : Dev nD) : Fin 8192 → Fin 8192 → EReal := fun a b => V c main_v0_0 (ix2 a b)
abbrev rsc1 (c : Dev nD) : Fin 8192 → EReal := fun a => V c main_v6 (ix2 a (0 : Fin 1))
abbrev csc1 (c : Dev nD) : Fin 8192 → EReal := fun b => V c main_v7 (ix2 (0 : Fin 1) b)

theorem iblk1_0_apply (c : Dev nD) (t : Fin cfg1.N) (g0 g1 : Fin 8) (h0 : t.val / 8 = g0.val) (h1 : t.val % 8 = g1.val)
    (p k : Fin 1024) :
    (iblk1 V c 0 t : Vec Ideal S1024x1024 .bf16) (ix2 p k) = V c main_v0_0 (ix2 (gIx1 g0 p) (gIx1 g1 k)) := by
  obtain ⟨-, -, e0, e1, -⟩ := idx_facts1 t
  unfold iblk1
  rw [View.read_apply]
  show V c main_v0_0 _ = V c main_v0_0 _
  refine congrArg (V c main_v0_0) (funext fun a => Fin.ext ?_)
  match a with
  | ⟨0, _⟩ => show win1_0.index t (0 : Fin 2) * 1024 + 1 * p.val = 1024 * g0.val + p.val; rw [e0, h0]; omega
  | ⟨1, _⟩ => show win1_0.index t (1 : Fin 2) * 1024 + 1 * k.val = 1024 * g1.val + k.val; rw [e1, h1]; omega

theorem iblk1_1_apply (c : Dev nD) (t : Fin cfg1.N) (g0 g1 : Fin 8) (h0 : t.val / 8 = g0.val) (h1 : t.val % 8 = g1.val)
    (p : Fin 1024) :
    (iblk1 V c 1 t : Vec Ideal S1024x1 .f32) (ix2 p (0 : Fin 1)) = V c main_v6 (ix2 (gIx1 g0 p) (0 : Fin 1)) := by
  obtain ⟨-, -, -, -, e0, e1, -⟩ := idx_facts1 t
  unfold iblk1
  rw [View.read_apply]
  show V c main_v6 _ = V c main_v6 _
  refine congrArg (V c main_v6) (funext fun a => Fin.ext ?_)
  match a with
  | ⟨0, _⟩ => show win1_1.index t (0 : Fin 2) * 1024 + 1 * p.val = 1024 * g0.val + p.val; rw [e0, h0]; omega
  | ⟨1, _⟩ => show win1_1.index t (1 : Fin 2) * 1 + 1 * 0 = 0; rw [e1]

theorem iblk1_2_apply (c : Dev nD) (t : Fin cfg1.N) (g0 g1 : Fin 8) (h0 : t.val / 8 = g0.val) (h1 : t.val % 8 = g1.val)
    (k : Fin 1024) :
    (iblk1 V c 2 t : Vec Ideal S1x1024 .f32) (ix2 (0 : Fin 1) k) = V c main_v7 (ix2 (0 : Fin 1) (gIx1 g1 k)) := by
  obtain ⟨-, -, -, -, -, -, e0, e1, -⟩ := idx_facts1 t
  unfold iblk1
  rw [View.read_apply]
  show V c main_v7 _ = V c main_v7 _
  refine congrArg (V c main_v7) (funext fun a => Fin.ext ?_)
  match a with
  | ⟨0, _⟩ => show win1_2.index t (0 : Fin 2) * 1 + 1 * 0 = 0; rw [e0]
  | ⟨1, _⟩ => show win1_2.index t (1 : Fin 2) * 1024 + 1 * k.val = 1024 * g1.val + k.val; rw [e1, h1]; omega

/-- Off the diagonal the block the body forms is the normalised adjacency's (no entry of it is on the diagonal); -/
theorem blkN1_apply (c : Dev nD) (t : Fin cfg1.N) (g0 g1 : Fin 8) (h0 : t.val / 8 = g0.val) (h1 : t.val % 8 = g1.val)
    (hne : g0 ≠ g1) (p k : Fin 1024) :
    (blkN1 (F := Ideal) (iblk1 V c 0 t) (iblk1 V c 1 t) (iblk1 V c 2 t) (ix2 p k) : EReal)
      = Cert.Spec.nadj (adj1 V c) (rsc1 V c) (csc1 V c) (gIx1 g0 p) (gIx1 g1 k) := by
  refine (k1_pay6_apply (iblk1 V c 1 t) (iblk1 V c 2 t) (iblk1 V c 0 t) p k).trans ?_
  unfold Cert.Spec.nadj
  rw [iblk1_0_apply V c t g0 g1 h0 h1 p k, iblk1_1_apply V c t g0 g1 h0 h1 p, iblk1_2_apply V c t g0 g1 h0 h1 k,
    if_neg (fun h => hne (gIx1_inj h).1)]

/-- on a diagonal block (g0 = g1) the local diagonal is the global one. -/
theorem blkD1_apply (c : Dev nD) (t : Fin cfg1.N) (g0 g1 : Fin 8) (h0 : t.val / 8 = g0.val) (h1 : t.val % 8 = g1.val)
    (heq : g0 = g1) (p k : Fin 1024) :
    (blkD1 (F := Ideal) (iblk1 V c 0 t) (iblk1 V c 1 t) (iblk1 V c 2 t) (ix2 p k) : EReal)
      = Cert.Spec.nadj (adj1 V c) (rsc1 V c) (csc1 V c) (gIx1 g0 p) (gIx1 g1 k) := by
  refine (k1_pay7_apply (iblk1 V c 1 t) (iblk1 V c 2 t) _ _ p k).trans ?_
  unfold Cert.Spec.nadj
  rw [k1_pay6_apply (iblk1 V c 1 t) (iblk1 V c 2 t) (iblk1 V c 0 t) p k,
    iblk1_0_apply V c t g0 g1 h0 h1 p k, iblk1_1_apply V c t g0 g1 h0 h1 p, iblk1_2_apply V c t g0 g1 h0 h1 k]
  subst heq
  exact if_congr ⟨fun h => by rw [h], fun h => (gIx1_inj h).2⟩ rfl rfl

end AtEntry

end Cert.KernelIdeal.Gen

end
-- ==== Proof.Region1Value.lean ====
import proofs.«152628_j8315056685239_2_alg».proof.Proof.Region1Blocks

/-! # Region 1's values: the row sums and the column sums of the normalised adjacency

Row sums. At each point of grid row g0 the body adds, to entry p of the accumulator, the sum of row p of the block it
forms — the block (g0, g1) of the normalised adjacency — having zeroed the accumulator at the start of the row. After
the 8 points of the row the accumulator holds the 8 blockwise sums added left to right onto zero: the sum over all
8192 columns of global row 1024·g0 + p. The last point of the row writes it back, and the 8 rows of the grid cover the
array.

Column sums. A scratch of 8 identical rows lives across the whole grid. The first point clears it; every point adds,
into the slab of its block-column g1, the column sums of its block. So after position n the entry for column k of
block-column s holds the contributions of the block-rows that have visited s so far, and after the last point all 8:
the sum over all 8192 rows of global column 1024·s + k. The last point copies row 0 of the scratch into the column-sum
window, whose one block is the whole array, and writes it back.

Addition on the extended reals is commutative and associative, so a left-to-right accumulation onto zero of blockwise
sums is the one sum over the merged axis. -/

set_option maxRecDepth 16384

noncomputable section

namespace Cert.KernelIdeal.Gen

open Idealize.ShloMosaic Idealize.ShloMosaic.TcCoe Idealize.ShloMosaic.Tactic Idealize.SL.Sem
open Idealize.ShloMosaic.ValueIdx
open Idealize.ShloMosaic.Pipeline (Dat)
open scoped BigOperators

/-! ## The column-sum scratch after each case -/

section AnyFloat3
variable {F : FTy → Type} [FloatOps F]

/-- A load of that slab reads the scratch at the slab's entries. -/
theorem slab_ld1 (i : grid1.Coords) (xs : Vec F S8x8192 .f32) (y : S8x8192.Idx) (r : Fin 8) (k : Fin 1024)
    (hy0 : (y 0).val = r.val) (hy1 : (y 1).val = 1024 * (i 1).val + k.val) :
    View.ld xs (Rect.unit (s := S8x8192) (k1_off1 i) S8x1024.size (k1_off1_inb i)) (ix2 r k) = xs y := by
  show xs ((Rect.unit (s := S8x8192) (k1_off1 i) S8x1024.size (k1_off1_inb i)).idx (ix2 r k)) = xs y
  refine congrArg xs (funext fun a => Fin.ext ?_)
  have e := k1_off1_eq i
  match a with
  | ⟨0, _⟩ => show k1_off1 i 0 + 1 * r.val = (y 0).val; rw [e]; show 0 + 1 * r.val = _; omega
  | ⟨1, _⟩ => show k1_off1 i 1 + 1 * k.val = (y 1).val; rw [e]; show 1024 * (i 1).val + 1 * k.val = _; omega

/-- Case A leaves, in the column-sum scratch, the column-sum store's payload over zeros inside the slab of block-column
    g1, zeros elsewhere. -/
theorem sout1_A_hit (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : cond1_0 i) (hc1 : cond1_1 i) (hc2 : cond1_2 i) (hc3 : ¬cond1_3 i)
    (x0 : Vec F S1024x1024 .bf16) (x1 : Vec F S1024x1 .f32) (x2 : Vec F S1x1024 .f32) (y : S8x8192.Idx) (r : Fin 8) (k : Fin 1024)
    (hy0 : (y 0).val = r.val) (hy1 : (y 1).val = 1024 * (i 1).val + k.val) :
    sout1_A c i arg2 harg2 arg3 harg3 arg4 harg4 arg5 harg5 arg6 harg6 arg7 harg7 arg8 harg8 hc0 hc1 hc2 hc3 x0 x1 x2 y = k1_pay1 (blkD1 x0 x1 x2) (View.ld (k1_pay2 (F := F)) (Rect.unit (s := S8x8192) (k1_off1 i) S8x1024.size (k1_off1_inb i))) (ix2 r k) := by
  unfold sout1_A
  rw [(pieces1_A c i arg2 harg2 arg3 harg3 arg4 harg4 arg5 harg5 arg6 harg6 arg7 harg7 arg8 harg8 hc0 hc1 hc2 hc3 x0 x1 x2).2]
  exact View.read_writes_cons_unit_of_mem arg8.view arg8.view.junk (k1_off1_inb i) _ _ y (ix2 r k) (k1_off1_eq i)
    (fun a => by
      match a with
      | ⟨0, _⟩ => show (y 0).val = 0 + r.val; omega
      | ⟨1, _⟩ => show (y 1).val = 1024 * (i 1).val + k.val; exact hy1)

theorem sout1_A_miss (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : cond1_0 i) (hc1 : cond1_1 i) (hc2 : cond1_2 i) (hc3 : ¬cond1_3 i)
    (x0 : Vec F S1024x1024 .bf16) (x1 : Vec F S1024x1 .f32) (x2 : Vec F S1x1024 .f32) (y : S8x8192.Idx)
    (hy : (y 1).val < 1024 * (i 1).val ∨ 1024 * (i 1).val + 1024 ≤ (y 1).val) :
    sout1_A c i arg2 harg2 arg3 harg3 arg4 harg4 arg5 harg5 arg6 harg6 arg7 harg7 arg8 harg8 hc0 hc1 hc2 hc3 x0 x1 x2 y = k1_pay2 (F := F) y := by
  unfold sout1_A
  rw [(pieces1_A c i arg2 harg2 arg3 harg3 arg4 harg4 arg5 harg5 arg6 harg6 arg7 harg7 arg8 harg8 hc0 hc1 hc2 hc3 x0 x1 x2).2,
    View.read_writes_cons_unit_of_not_mem arg8.view arg8.view.junk (k1_off1_inb i) _ _ y (k1_off1_eq i) 1 hy,
    View.read_writes_junk_eq_canon, View.canon_unit_zero (S := S8x8192) zero_offsets1]

/-- Case B leaves, in the column-sum scratch, the column-sum store's payload inside the slab of block-column g1, and what
    the scratch held elsewhere. -/
theorem sout1_B_hit (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) (y : S8x8192.Idx) (r : Fin 8) (k : Fin 1024)
    (hy0 : (y 0).val = r.val) (hy1 : (y 1).val = 1024 * (i 1).val + k.val) :
    sout1_B c i arg2 harg2 arg3 harg3 arg4 harg4 arg5 harg5 arg6 harg6 arg7 harg7 arg8 harg8 hc0 hc1 hc2 hc3 x0 x1 x2 xs1 y = k1_pay1 (blkN1 x0 x1 x2) (View.ld xs1 (Rect.unit (s := S8x8192) (k1_off1 i) S8x1024.size (k1_off1_inb i))) (ix2 r k) := by
  unfold sout1_B
  rw [(pieces1_B c i arg2 harg2 arg3 harg3 arg4 harg4 arg5 harg5 arg6 harg6 arg7 harg7 arg8 harg8 hc0 hc1 hc2 hc3 x0 x1 x2 xs1).2]
  exact View.read_writes_cons_unit_of_mem arg8.view (harg8.unread xs1) (k1_off1_inb i) _ _ y (ix2 r k) (k1_off1_eq i)
    (fun a => by
      match a with
      | ⟨0, _⟩ => show (y 0).val = 0 + r.val; omega
      | ⟨1, _⟩ => show (y 1).val = 1024 * (i 1).val + k.val; exact hy1)

theorem sout1_B_miss (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : cond1_1 i) (hc2 : ¬cond1_2 i) (hc3 : ¬cond1_3 i)
    (x0 : Vec F S1024x1024 .bf16) (x1 : Vec F S1024x1 .f32) (x2 : Vec F S1x1024 .f32) (xs1 : Vec F S8x8192 .f32) (y : S8x8192.Idx)
    (hy : (y 1).val < 1024 * (i 1).val ∨ 1024 * (i 1).val + 1024 ≤ (y 1).val) :
    sout1_B c i arg2 harg2 arg3 harg3 arg4 harg4 arg5 harg5 arg6 harg6 arg7 harg7 arg8 harg8 hc0 hc1 hc2 hc3 x0 x1 x2 xs1 y = xs1 y := by
  unfold sout1_B
  rw [(pieces1_B c i arg2 harg2 arg3 harg3 arg4 harg4 arg5 harg5 arg6 harg6 arg7 harg7 arg8 harg8 hc0 hc1 hc2 hc3 x0 x1 x2 xs1).2,
    View.read_writes_cons_unit_of_not_mem arg8.view (harg8.unread xs1) (k1_off1_inb i) _ _ y (k1_off1_eq i) 1 hy,
    View.writes_nil, harg8.read_unread]

/-- Case C leaves, in the column-sum scratch, the column-sum store's payload inside the slab of block-column g1, and what
    the scratch held elsewhere. -/
theorem sout1_C_hit (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) (y : S8x8192.Idx) (r : Fin 8) (k : Fin 1024)
    (hy0 : (y 0).val = r.val) (hy1 : (y 1).val = 1024 * (i 1).val + k.val) :
    sout1_C c i arg2 harg2 arg3 harg3 arg4 harg4 arg5 harg5 arg6 harg6 arg7 harg7 arg8 harg8 hc0 hc1 hc2 hc3 x0 x1 x2 xo3 xs1 y = k1_pay1 (blkD1 x0 x1 x2) (View.ld xs1 (Rect.unit (s := S8x8192) (k1_off1 i) S8x1024.size (k1_off1_inb i))) (ix2 r k) := by
  unfold sout1_C
  rw [(pieces1_C c i arg2 harg2 arg3 harg3 arg4 harg4 arg5 harg5 arg6 harg6 arg7 harg7 arg8 harg8 hc0 hc1 hc2 hc3 x0 x1 x2 xo3 xs1).2]
  exact View.read_writes_cons_unit_of_mem arg8.view (harg8.unread xs1) (k1_off1_inb i) _ _ y (ix2 r k) (k1_off1_eq i)
    (fun a => by
      match a with
      | ⟨0, _⟩ => show (y 0).val = 0 + r.val; omega
      | ⟨1, _⟩ => show (y 1).val = 1024 * (i 1).val + k.val; exact hy1)

theorem sout1_C_miss (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) (y : S8x8192.Idx)
    (hy : (y 1).val < 1024 * (i 1).val ∨ 1024 * (i 1).val + 1024 ≤ (y 1).val) :
    sout1_C c i arg2 harg2 arg3 harg3 arg4 harg4 arg5 harg5 arg6 harg6 arg7 harg7 arg8 harg8 hc0 hc1 hc2 hc3 x0 x1 x2 xo3 xs1 y = xs1 y := by
  unfold sout1_C
  rw [(pieces1_C c i arg2 harg2 arg3 harg3 arg4 harg4 arg5 harg5 arg6 harg6 arg7 harg7 arg8 harg8 hc0 hc1 hc2 hc3 x0 x1 x2 xo3 xs1).2,
    View.read_writes_cons_unit_of_not_mem arg8.view (harg8.unread xs1) (k1_off1_inb i) _ _ y (k1_off1_eq i) 1 hy,
    View.writes_nil, harg8.read_unread]

/-- Case D leaves, in the column-sum scratch, the column-sum store's payload inside the slab of block-column g1, and what
    the scratch held elsewhere. -/
theorem sout1_D_hit (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) (y : S8x8192.Idx) (r : Fin 8) (k : Fin 1024)
    (hy0 : (y 0).val = r.val) (hy1 : (y 1).val = 1024 * (i 1).val + k.val) :
    sout1_D c i arg2 harg2 arg3 harg3 arg4 harg4 arg5 harg5 arg6 harg6 arg7 harg7 arg8 harg8 hc0 hc1 hc2 hc3 x0 x1 x2 xo3 xs1 y = k1_pay1 (blkN1 x0 x1 x2) (View.ld xs1 (Rect.unit (s := S8x8192) (k1_off1 i) S8x1024.size (k1_off1_inb i))) (ix2 r k) := by
  unfold sout1_D
  rw [(pieces1_D c i arg2 harg2 arg3 harg3 arg4 harg4 arg5 harg5 arg6 harg6 arg7 harg7 arg8 harg8 hc0 hc1 hc2 hc3 x0 x1 x2 xo3 xs1).2]
  exact View.read_writes_cons_unit_of_mem arg8.view (harg8.unread xs1) (k1_off1_inb i) _ _ y (ix2 r k) (k1_off1_eq i)
    (fun a => by
      match a with
      | ⟨0, _⟩ => show (y 0).val = 0 + r.val; omega
      | ⟨1, _⟩ => show (y 1).val = 1024 * (i 1).val + k.val; exact hy1)

theorem sout1_D_miss (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : ¬cond1_2 i) (hc3 : ¬cond1_3 i)
    (x0 : Vec F S1024x1024 .bf16) (x1 : Vec F S1024x1 .f32) (x2 : Vec F S1x1024 .f32) (xo3 : Vec F S1024x1 .f32) (xs1 : Vec F S8x8192 .f32) (y : S8x8192.Idx)
    (hy : (y 1).val < 1024 * (i 1).val ∨ 1024 * (i 1).val + 1024 ≤ (y 1).val) :
    sout1_D c i arg2 harg2 arg3 harg3 arg4 harg4 arg5 harg5 arg6 harg6 arg7 harg7 arg8 harg8 hc0 hc1 hc2 hc3 x0 x1 x2 xo3 xs1 y = xs1 y := by
  unfold sout1_D
  rw [(pieces1_D c i arg2 harg2 arg3 harg3 arg4 harg4 arg5 harg5 arg6 harg6 arg7 harg7 arg8 harg8 hc0 hc1 hc2 hc3 x0 x1 x2 xo3 xs1).2,
    View.read_writes_cons_unit_of_not_mem arg8.view (harg8.unread xs1) (k1_off1_inb i) _ _ y (k1_off1_eq i) 1 hy,
    View.writes_nil, harg8.read_unread]

/-- Case E leaves, in the column-sum scratch, the column-sum store's payload inside the slab of block-column g1, and what
    the scratch held elsewhere. -/
theorem sout1_E_hit (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) (y : S8x8192.Idx) (r : Fin 8) (k : Fin 1024)
    (hy0 : (y 0).val = r.val) (hy1 : (y 1).val = 1024 * (i 1).val + k.val) :
    sout1_E c i arg2 harg2 arg3 harg3 arg4 harg4 arg5 harg5 arg6 harg6 arg7 harg7 arg8 harg8 hc0 hc1 hc2 hc3 x0 x1 x2 xo3 xs1 y = k1_pay1 (blkD1 x0 x1 x2) (View.ld xs1 (Rect.unit (s := S8x8192) (k1_off1 i) S8x1024.size (k1_off1_inb i))) (ix2 r k) := by
  unfold sout1_E
  rw [(pieces1_E c i arg2 harg2 arg3 harg3 arg4 harg4 arg5 harg5 arg6 harg6 arg7 harg7 arg8 harg8 hc0 hc1 hc2 hc3 x0 x1 x2 xo3 xs1).2]
  exact View.read_writes_cons_unit_of_mem arg8.view (harg8.unread xs1) (k1_off1_inb i) _ _ y (ix2 r k) (k1_off1_eq i)
    (fun a => by
      match a with
      | ⟨0, _⟩ => show (y 0).val = 0 + r.val; omega
      | ⟨1, _⟩ => show (y 1).val = 1024 * (i 1).val + k.val; exact hy1)

theorem sout1_E_miss (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) (y : S8x8192.Idx)
    (hy : (y 1).val < 1024 * (i 1).val ∨ 1024 * (i 1).val + 1024 ≤ (y 1).val) :
    sout1_E c i arg2 harg2 arg3 harg3 arg4 harg4 arg5 harg5 arg6 harg6 arg7 harg7 arg8 harg8 hc0 hc1 hc2 hc3 x0 x1 x2 xo3 xs1 y = xs1 y := by
  unfold sout1_E
  rw [(pieces1_E c i arg2 harg2 arg3 harg3 arg4 harg4 arg5 harg5 arg6 harg6 arg7 harg7 arg8 harg8 hc0 hc1 hc2 hc3 x0 x1 x2 xo3 xs1).2,
    View.read_writes_cons_unit_of_not_mem arg8.view (harg8.unread xs1) (k1_off1_inb i) _ _ y (k1_off1_eq i) 1 hy,
    View.writes_nil, harg8.read_unread]

/-- Case E's run stores, into the column-sum window, row 0 of the scratch as it has just left it. -/
theorem pieces1_E4 (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) :
    (kernelRun1_E c i arg2 harg2 arg3 harg3 arg4 harg4 arg5 harg5 arg6 harg6 arg7 harg7 arg8 harg8 hc0 hc1 hc2 hc3 x0 x1 x2 xo3 xs1).2.1
      = [⟨Rect.unit (s := S1x8192) ![0, 0] S1x8192.size inb_S1x8192_S1x8192_0_0,
          View.ld (sout1_E c i arg2 harg2 arg3 harg3 arg4 harg4 arg5 harg5 arg6 harg6 arg7 harg7 arg8 harg8 hc0 hc1 hc2 hc3 x0 x1 x2 xo3 xs1) (Rect.unit (s := S8x8192) ![0, 0] S1x8192.size inb_S8x8192_S1x8192_0_0)⟩] := by
  unfold sout1_E kernelRun1_E
  dsimp only
  sl_unfold_words
  rfl

theorem out1_E_4_apply (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x1024 .f32) (harg7 : arg7.IsWhole) (arg8 : Memref sig .tc .vmem S8x8192 .f32) (harg8 : arg8.IsWhole) (hc0 : ¬cond1_0 i) (hc1 : ¬cond1_1 i) (hc2 : cond1_2 i) (hc3 : cond1_3 i)
    (x0 : Vec F S1024x1024 .bf16) (x1 : Vec F S1024x1 .f32) (x2 : Vec F S1x1024 .f32) (xo3 : Vec F S1024x1 .f32) (xs1 : Vec F S8x8192 .f32) (col : Fin 8192) :
    out1_E_4 c i arg2 harg2 arg3 harg3 arg4 harg4 arg5 harg5 arg6 harg6 arg7 harg7 arg8 harg8 hc0 hc1 hc2 hc3 x0 x1 x2 xo3 xs1 (ix2 (0 : Fin 1) col)
      = sout1_E c i arg2 harg2 arg3 harg3 arg4 harg4 arg5 harg5 arg6 harg6 arg7 harg7 arg8 harg8 hc0 hc1 hc2 hc3 x0 x1 x2 xo3 xs1 (ix2 (0 : Fin 8) col) := by
  unfold out1_E_4
  rw [pieces1_E4 c i arg2 harg2 arg3 harg3 arg4 harg4 arg5 harg5 arg6 harg6 arg7 harg7 arg8 harg8 hc0 hc1 hc2 hc3 x0 x1 x2 xo3 xs1, View.read_writes_junk_eq_canon,
    View.canon_unit_zero (S := S1x8192) zero_offsets1]
  show sout1_E c i arg2 harg2 arg3 harg3 arg4 harg4 arg5 harg5 arg6 harg6 arg7 harg7 arg8 harg8 hc0 hc1 hc2 hc3 x0 x1 x2 xo3 xs1 ((Rect.unit (s := S8x8192) ![0, 0] S1x8192.size inb_S8x8192_S1x8192_0_0).idx (ix2 (0 : Fin 1) col)) = _
  refine congrArg _ (funext fun a => Fin.ext ?_)
  match a with
  | ⟨0, _⟩ => rfl
  | ⟨1, _⟩ => show 0 + 1 * col.val = col.val; omega

end AnyFloat3

section AtEntry
variable (V : (c : Dev nD) → (b : Ref sig .tc) → Buf (Elt Ideal) ((c : Thread nD τ).loc b))

/-! ## The row sums: one point's contribution, and the accumulation along a row of the grid -/

/-- What block-column g1 contributes to the row sum of row p of block-row g0. -/
def rterm1 (c : Dev nD) (g0 g1 : Fin 8) (p : Fin 1024) : EReal :=
  ∑ k : Fin 1024, Cert.Spec.nadj (adj1 V c) (rsc1 V c) (csc1 V c) (gIx1 g0 p) (gIx1 g1 k)

/-- The row-sum store at a point off the diagonal, and on it: the accumulator's entry plus that contribution. -/
theorem rowstoreN1 (c : Dev nD) (t : Fin cfg1.N) (g0 g1 : Fin 8) (h0 : t.val / 8 = g0.val) (h1 : t.val % 8 = g1.val)
    (hne : g0 ≠ g1) (acc : Vec Ideal S1024x1 .f32) (p : Fin 1024) :
    (k1_pay8 (F := Ideal) (blkN1 (iblk1 V c 0 t) (iblk1 V c 1 t) (iblk1 V c 2 t)) acc (ix2 p (0 : Fin 1)) : EReal)
      = (acc (ix2 p (0 : Fin 1)) : EReal) + rterm1 V c g0 g1 p := by
  refine (k1_pay8_apply _ acc p).trans ?_
  refine congrArg (fun z => (acc (ix2 p (0 : Fin 1)) : EReal) + z) ?_
  exact Finset.sum_congr rfl fun k _ => blkN1_apply V c t g0 g1 h0 h1 hne p k

theorem rowstoreD1 (c : Dev nD) (t : Fin cfg1.N) (g0 g1 : Fin 8) (h0 : t.val / 8 = g0.val) (h1 : t.val % 8 = g1.val)
    (heq : g0 = g1) (acc : Vec Ideal S1024x1 .f32) (p : Fin 1024) :
    (k1_pay8 (F := Ideal) (blkD1 (iblk1 V c 0 t) (iblk1 V c 1 t) (iblk1 V c 2 t)) acc (ix2 p (0 : Fin 1)) : EReal)
      = (acc (ix2 p (0 : Fin 1)) : EReal) + rterm1 V c g0 g1 p := by
  refine (k1_pay8_apply _ acc p).trans ?_
  refine congrArg (fun z => (acc (ix2 p (0 : Fin 1)) : EReal) + z) ?_
  exact Finset.sum_congr rfl fun k _ => blkD1_apply V c t g0 g1 h0 h1 heq p k

/-- The accumulator after a point: at the start of a grid row the point's contribution alone (the accumulator was
    zeroed), elsewhere what the point before left plus the point's contribution — whichever of the five cases the
    point is in. -/
theorem acc_step1 (c : Dev nD) (t : Fin cfg1.N) (g0 g1 : Fin 8) (h0 : t.val / 8 = g0.val) (h1 : t.val % 8 = g1.val) (p : Fin 1024) :
    ((outsAt1 V c t.val t.isLt).1 (ix2 p (0 : Fin 1)) : EReal)
      = (if t.val % 8 = 0 then 0 else ((outsAt1 V c (t.val - 1) (Nat.lt_of_le_of_lt (Nat.sub_le _ _) t.isLt)).1 (ix2 p (0 : Fin 1)) : EReal)) + rterm1 V c g0 g1 p := by
  have hN : cfg1.N = 64 := N_1
  have htl := t.isLt
  by_cases h8 : t.val % 8 = 0
  · rw [if_pos h8]
    by_cases hz : t.val = 0
    · rw [outsAt1_A V c t hz]
      dsimp only
      rw [out1_A_3_eq, rowstoreD1 V c t g0 g1 h0 h1 (Fin.ext (by omega)) _ p, k1_pay3_apply]
    · rw [outsAt1_B V c t hz h8]
      dsimp only
      rw [out1_B_3_eq, rowstoreN1 V c t g0 g1 h0 h1 (fun h => by have := congrArg Fin.val h; omega) _ p, k1_pay3_apply]
  · rw [if_neg h8]
    by_cases h63 : t.val = 63
    · rw [outsAt1_E V c t h63]
      dsimp only
      rw [out1_E_3_eq, rowstoreD1 V c t g0 g1 h0 h1 (Fin.ext (by omega)) _ p]
    · by_cases h9 : t.val % 9 = 0
      · rw [outsAt1_C V c t h8 h63 h9]
        dsimp only
        rw [out1_C_3_eq, rowstoreD1 V c t g0 g1 h0 h1 (Fin.ext (by omega)) _ p]
      · rw [outsAt1_D V c t h8 h9]
        dsimp only
        rw [out1_D_3_eq, rowstoreN1 V c t g0 g1 h0 h1 (fun h => by have := congrArg Fin.val h; omega) _ p]

/-- Block-column s's contribution, for any natural s (nothing beyond the grid). -/
def rpart1 (c : Dev nD) (g0 : Fin 8) (p : Fin 1024) (s : ℕ) : EReal :=
  if hs : s < 8 then rterm1 V c g0 ⟨s, hs⟩ p else 0

theorem outsAt1_congr (c : Dev nD) {n n' : ℕ} (e : n = n') (h : n < cfg1.N) (h' : n' < cfg1.N) :
    outsAt1 V c n h = outsAt1 V c n' h' := by subst e; rfl

/-- After point (g0, g1) the accumulator holds the contributions of block-columns 0 … g1, added left to right onto
    zero: by induction along the row of the grid. -/
theorem racc1 (c : Dev nD) (g0 : Fin 8) (p : Fin 1024) :
    ∀ (g1 : ℕ) (hg : g1 < 8) (hn : 8 * g0.val + g1 < cfg1.N),
      ((outsAt1 V c (8 * g0.val + g1) hn).1 (ix2 p (0 : Fin 1)) : EReal) = ∑ s ∈ Finset.range (g1 + 1), rpart1 V c g0 p s
  | 0, hg, hn => by
    rw [acc_step1 V c ⟨8 * g0.val + 0, hn⟩ g0 ⟨0, hg⟩ (by dsimp only; omega) (by dsimp only; omega) p,
      if_pos (by dsimp only; omega), zero_add, Finset.sum_range_one]
    unfold rpart1
    rw [dif_pos hg]
  | g1 + 1, hg, hn => by
    have hN : cfg1.N = 64 := N_1
    have ih := racc1 c g0 p g1 (by omega) (by omega)
    rw [acc_step1 V c ⟨8 * g0.val + (g1 + 1), hn⟩ g0 ⟨g1 + 1, hg⟩ (by dsimp only; omega) (by dsimp only; omega) p,
      if_neg (by dsimp only; omega), Finset.sum_range_succ, ← ih,
      outsAt1_congr V c (show (⟨8 * g0.val + (g1 + 1), hn⟩ : Fin cfg1.N).val - 1 = 8 * g0.val + g1 by dsimp only; omega) _ (by omega)]
    unfold rpart1
    rw [dif_pos hg]

/-! ## The row-sum array -/

/-- The array the region leaves in its first result: the row sums of the normalised adjacency. -/
abbrev res1_3 (c : Dev nD) : Buf (Elt Ideal) ((c : Thread nD τ).loc main_v8_0) :=
  fun idx => Cert.Spec.nadjRowSum (adj1 V c) (rsc1 V c) (csc1 V c) (idx 0)

/-- After the last point of block-row g0 the accumulator holds the row sums of rows 1024·g0 …: the 8 contributions
    are the 8 blocks of the one sum over the 8192 columns. -/
theorem row_done1 (c : Dev nD) (t : Fin cfg1.N) (g0 : Fin 8) (h0 : t.val / 8 = g0.val) (h7 : t.val % 8 = 7) (y : S1024x1.Idx) :
    ((outsAt1 V c t.val t.isLt).1 y : EReal)
      = Cert.Spec.nadjRowSum (adj1 V c) (rsc1 V c) (csc1 V c) (gIx1 g0 (y 0)) := by
  obtain ⟨p, u, rfl⟩ : ∃ (p : Fin 1024) (u : Fin 1), y = ix2 p u := ⟨y 0, y 1, eq_ix2 y⟩
  obtain rfl : u = 0 := Subsingleton.elim _ _
  have hN : cfg1.N = 64 := N_1
  have ht : t.val = 8 * g0.val + 7 := by omega
  rw [outsAt1_congr V c ht t.isLt (by omega), racc1 V c g0 p 7 (by omega) (by omega)]
  rw [Finset.sum_range (fun s => rpart1 V c g0 p s)]
  show _ = ∑ K : Fin 8192, Cert.Spec.nadj (adj1 V c) (rsc1 V c) (csc1 V c) (gIx1 g0 p) K
  refine ((Cert.BlockSum.sum_merged_of (n := 8) (d := 1024)
    (fun K : Fin (8 * 1024) => Cert.Spec.nadj (adj1 V c) (rsc1 V c) (csc1 V c) (gIx1 g0 p) K)
    (fun s k => Cert.Spec.nadj (adj1 V c) (rsc1 V c) (csc1 V c) (gIx1 g0 p) (gIx1 s k))
    (fun s k => by
      have e : (Cert.BlockSum.merged s k : Fin (8 * 1024)) = gIx1 s k := Fin.ext (by
        rw [Cert.BlockSum.merged_val]; show k.val + 1024 * s.val = 1024 * s.val + k.val; omega)
      rw [e])).trans ?_).symm
  refine Finset.sum_congr rfl fun s _ => ?_
  unfold rpart1 rterm1
  rw [dif_pos s.isLt]

/-- What a point that writes the accumulator back writes is its block of the row-sum array. -/
theorem flushed1_3 (c : Dev nD) (t : Fin cfg1.N) (hf : (cfg1.win 3).flush t = true) :
    (dat1 V c).flushed 3 t = ((cfg1.win 3).blk t).view.read (Elt Ideal) (res1_3 V c) := by
  have hN : cfg1.N = 64 := N_1
  have h7 : t.val % 8 = 7 := (flush1_3 t).mp hf
  have hg : t.val / 8 < 8 := by have := t.isLt; omega
  obtain ⟨-, -, -, -, -, -, -, -, e0, e1, -⟩ := idx_facts1 t
  show (cfg1.win 3).cut (grid1.coords t) ((dat1 V c).after 3 t) = _
  rw [after1_3]
  funext y
  show (outsAt1 V c t.val t.isLt).1 y = res1_3 V c (((cfg1.win 3).blk t).view.emb y)
  have hrow := row_done1 V c t ⟨t.val / 8, hg⟩ rfl h7 y
  refine hrow.trans ?_
  have hr : gIx1 ⟨t.val / 8, hg⟩ (y 0) = (((cfg1.win 3).blk t).view.emb y) 0 := Fin.ext (by
    show 1024 * (t.val / 8) + (y 0).val = win1_3.index t (0 : Fin 2) * 1024 + 1 * (y 0).val
    rw [e0]; omega)
  rw [hr]

/-- THE ROW SUMS: after the region its first result array holds, entry by entry, the row sums of the normalised
    adjacency of the arrays as the region found them. -/
theorem final1_3 (c : Dev nD) (i : Fin 8192) :
    (dat1 (F := Ideal) V c).arrAt 3 cfg1.N (ix2 i (0 : Fin 1))
      = Cert.Spec.nadjRowSum (fun a b => V c main_v0_0 (ix2 a b)) (fun a => V c main_v6 (ix2 a (0 : Fin 1)))
          (fun b => V c main_v7 (ix2 (0 : Fin 1) b)) i := by
  have hN : cfg1.N = 64 := N_1
  have harr : (dat1 (F := Ideal) V c).arrAt 3 cfg1.N = res1_3 V c :=
    (dat1 V c).arrAt_eq_of_cover 3 (res1_3 V c) (flushed1_3 V c) fun i => by
      have h0 : (i 0 : Nat) < 8192 := (i 0).isLt
      have h1 : (i 1 : Nat) < 1 := (i 1).isLt
      have ht : 8 * ((i 0 : Nat) / 1024) + 7 < cfg1.N := by omega
      obtain ⟨-, -, -, -, -, -, -, -, e0, e1, -⟩ := idx_facts1 ⟨8 * ((i 0 : Nat) / 1024) + 7, ht⟩
      refine ⟨⟨8 * ((i 0 : Nat) / 1024) + 7, ht⟩, (flush1_3 _).mpr (by dsimp only; omega), ?_⟩
      show i ∈ ((View.whole main_v8_0).slice (win1_3.rect ⟨8 * ((i 0 : Nat) / 1024) + 7, ht⟩)).set
      rw [View.set_slice_whole, Rect.mem_set_unit]
      intro a
      match a with
      | ⟨0, _⟩ =>
        show win1_3.index ⟨8 * ((i 0 : Nat) / 1024) + 7, ht⟩ (0 : Fin 2) * 1024 ≤ (i 0 : Nat)
          ∧ (i 0 : Nat) < win1_3.index ⟨8 * ((i 0 : Nat) / 1024) + 7, ht⟩ (0 : Fin 2) * 1024 + 1024
        rw [e0]; dsimp only; omega
      | ⟨1, _⟩ =>
        show win1_3.index ⟨8 * ((i 0 : Nat) / 1024) + 7, ht⟩ (1 : Fin 2) * 1 ≤ (i 1 : Nat)
          ∧ (i 1 : Nat) < win1_3.index ⟨8 * ((i 0 : Nat) / 1024) + 7, ht⟩ (1 : Fin 2) * 1 + 1
        rw [e1]; omega
  rw [harr]
  rfl

/-! ## The column sums: one point's contribution, and the scratch point by point -/

/-- What block-row g0 contributes to the column sum of column k of block-column g1. -/
def cterm1 (c : Dev nD) (g0 g1 : Fin 8) (k : Fin 1024) : EReal :=
  ∑ p : Fin 1024, Cert.Spec.nadj (adj1 V c) (rsc1 V c) (csc1 V c) (gIx1 g0 p) (gIx1 g1 k)

/-- The column-sum store at a point off the diagonal, and on it: the slab's entry plus that contribution. -/
theorem colstoreN1 (c : Dev nD) (t : Fin cfg1.N) (g0 g1 : Fin 8) (h0 : t.val / 8 = g0.val) (h1 : t.val % 8 = g1.val)
    (hne : g0 ≠ g1) (slab : Vec Ideal S8x1024 .f32) (r : Fin 8) (k : Fin 1024) :
    (k1_pay1 (F := Ideal) (blkN1 (iblk1 V c 0 t) (iblk1 V c 1 t) (iblk1 V c 2 t)) slab (ix2 r k) : EReal)
      = (slab (ix2 r k) : EReal) + cterm1 V c g0 g1 k := by
  refine (k1_pay1_apply _ slab r k).trans ?_
  refine congrArg (fun z => (slab (ix2 r k) : EReal) + z) ?_
  exact Finset.sum_congr rfl fun p _ => blkN1_apply V c t g0 g1 h0 h1 hne p k

theorem colstoreD1 (c : Dev nD) (t : Fin cfg1.N) (g0 g1 : Fin 8) (h0 : t.val / 8 = g0.val) (h1 : t.val % 8 = g1.val)
    (heq : g0 = g1) (slab : Vec Ideal S8x1024 .f32) (r : Fin 8) (k : Fin 1024) :
    (k1_pay1 (F := Ideal) (blkD1 (iblk1 V c 0 t) (iblk1 V c 1 t) (iblk1 V c 2 t)) slab (ix2 r k) : EReal)
      = (slab (ix2 r k) : EReal) + cterm1 V c g0 g1 k := by
  refine (k1_pay1_apply _ slab r k).trans ?_
  refine congrArg (fun z => (slab (ix2 r k) : EReal) + z) ?_
  exact Finset.sum_congr rfl fun p _ => blkD1_apply V c t g0 g1 h0 h1 heq p k

/-- The scratch after a point, at column k of block-column s (any of the 8 rows): what it held before (zero at the first
    point, which clears it), plus the point's contribution if s is the point's block-column — whichever of the five
    cases the point is in. -/
theorem scr_step1 (c : Dev nD) (t : Fin cfg1.N) (g0 g1 : Fin 8) (h0 : t.val / 8 = g0.val) (h1 : t.val % 8 = g1.val)
    (r : Fin 8) (s : Fin 8) (k : Fin 1024) :
    ((outsAt1 V c t.val t.isLt).2.2 (ix2 r (gIx1 s k)) : EReal)
      = if s = g1 then (if t.val = 0 then 0 else ((outsAt1 V c (t.val - 1) (Nat.lt_of_le_of_lt (Nat.sub_le _ _) t.isLt)).2.2 (ix2 r (gIx1 s k)) : EReal)) + cterm1 V c g0 g1 k
        else (if t.val = 0 then 0 else ((outsAt1 V c (t.val - 1) (Nat.lt_of_le_of_lt (Nat.sub_le _ _) t.isLt)).2.2 (ix2 r (gIx1 s k)) : EReal)) := by
  have hN : cfg1.N = 64 := N_1
  have htl := t.isLt
  obtain ⟨c0, c1, -⟩ := idx_facts1 t
  by_cases hz : t.val = 0
  · have h8 : t.val % 8 = 0 := by omega
    rw [outsAt1_A V c t hz]
    dsimp only
    by_cases hs : s = g1
    · rw [if_pos hs]
      have hy1 : ((ix2 r (gIx1 s k) : S8x8192.Idx) 1).val = 1024 * ((grid1.coords t) 1).val + k.val := by rw [c1, h1, hs]; rfl
      refine (sout1_A_hit (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_A t hz).1 (conds1_A t hz).2.1 (conds1_A t hz).2.2.1 (conds1_A t hz).2.2.2 (iblk1 V c 0 t) (iblk1 V c 1 t) (iblk1 V c 2 t) (ix2 r (gIx1 s k)) r k rfl hy1).trans ?_
      rw [colstoreD1 V c t g0 g1 h0 h1 (Fin.ext (by omega)) _ r k, if_pos hz]
      exact congrArg (fun z => z + cterm1 V c g0 g1 k) (k1_pay2_apply _)
    · rw [if_neg hs]
      have hsv : s.val ≠ g1.val := fun h => hs (Fin.ext h)
      have hmiss : ((ix2 r (gIx1 s k) : S8x8192.Idx) 1).val < 1024 * ((grid1.coords t) 1).val ∨ 1024 * ((grid1.coords t) 1).val + 1024 ≤ ((ix2 r (gIx1 s k) : S8x8192.Idx) 1).val := by
        rw [c1, h1]; show 1024 * s.val + k.val < 1024 * g1.val ∨ 1024 * g1.val + 1024 ≤ 1024 * s.val + k.val; have := k.isLt; omega
      refine (sout1_A_miss (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_A t hz).1 (conds1_A t hz).2.1 (conds1_A t hz).2.2.1 (conds1_A t hz).2.2.2 (iblk1 V c 0 t) (iblk1 V c 1 t) (iblk1 V c 2 t) (ix2 r (gIx1 s k)) hmiss).trans ?_
      rw [if_pos hz]
      exact k1_pay2_apply _
  · by_cases h8 : t.val % 8 = 0
    · rw [outsAt1_B V c t hz h8]
      dsimp only
      by_cases hs : s = g1
      · rw [if_pos hs]
        have hy1 : ((ix2 r (gIx1 s k) : S8x8192.Idx) 1).val = 1024 * ((grid1.coords t) 1).val + k.val := by rw [c1, h1, hs]; rfl
        refine (sout1_B_hit (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_B t hz h8).1 (conds1_B t hz h8).2.1 (conds1_B t hz h8).2.2.1 (conds1_B t hz h8).2.2.2 (iblk1 V c 0 t) (iblk1 V c 1 t) (iblk1 V c 2 t) (outsAt1 V c (t.val - 1) (Nat.lt_of_le_of_lt (Nat.sub_le _ _) t.isLt)).2.2 (ix2 r (gIx1 s k)) r k rfl hy1).trans ?_
        rw [colstoreN1 V c t g0 g1 h0 h1 (fun h => by have := congrArg Fin.val h; omega) _ r k, if_neg hz]
        exact congrArg (fun z => z + cterm1 V c g0 g1 k) (slab_ld1 (F := Ideal) (grid1.coords t) (outsAt1 V c (t.val - 1) (Nat.lt_of_le_of_lt (Nat.sub_le _ _) t.isLt)).2.2 (ix2 r (gIx1 s k)) r k rfl hy1)
      · rw [if_neg hs]
        have hsv : s.val ≠ g1.val := fun h => hs (Fin.ext h)
        have hmiss : ((ix2 r (gIx1 s k) : S8x8192.Idx) 1).val < 1024 * ((grid1.coords t) 1).val ∨ 1024 * ((grid1.coords t) 1).val + 1024 ≤ ((ix2 r (gIx1 s k) : S8x8192.Idx) 1).val := by
          rw [c1, h1]; show 1024 * s.val + k.val < 1024 * g1.val ∨ 1024 * g1.val + 1024 ≤ 1024 * s.val + k.val; have := k.isLt; omega
        refine (sout1_B_miss (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_B t hz h8).1 (conds1_B t hz h8).2.1 (conds1_B t hz h8).2.2.1 (conds1_B t hz h8).2.2.2 (iblk1 V c 0 t) (iblk1 V c 1 t) (iblk1 V c 2 t) (outsAt1 V c (t.val - 1) (Nat.lt_of_le_of_lt (Nat.sub_le _ _) t.isLt)).2.2 (ix2 r (gIx1 s k)) hmiss).trans ?_
        rw [if_neg hz]
    · by_cases h63 : t.val = 63
      · rw [outsAt1_E V c t h63]
        dsimp only
        by_cases hs : s = g1
        · rw [if_pos hs]
          have hy1 : ((ix2 r (gIx1 s k) : S8x8192.Idx) 1).val = 1024 * ((grid1.coords t) 1).val + k.val := by rw [c1, h1, hs]; rfl
          refine (sout1_E_hit (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_E t h63).1 (conds1_E t h63).2.1 (conds1_E t h63).2.2.1 (conds1_E t h63).2.2.2 (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.2 (ix2 r (gIx1 s k)) r k rfl hy1).trans ?_
          rw [colstoreD1 V c t g0 g1 h0 h1 (Fin.ext (by omega)) _ r k, if_neg hz]
          exact congrArg (fun z => z + cterm1 V c g0 g1 k) (slab_ld1 (F := Ideal) (grid1.coords t) (outsAt1 V c (t.val - 1) (Nat.lt_of_le_of_lt (Nat.sub_le _ _) t.isLt)).2.2 (ix2 r (gIx1 s k)) r k rfl hy1)
        · rw [if_neg hs]
          have hsv : s.val ≠ g1.val := fun h => hs (Fin.ext h)
          have hmiss : ((ix2 r (gIx1 s k) : S8x8192.Idx) 1).val < 1024 * ((grid1.coords t) 1).val ∨ 1024 * ((grid1.coords t) 1).val + 1024 ≤ ((ix2 r (gIx1 s k) : S8x8192.Idx) 1).val := by
            rw [c1, h1]; show 1024 * s.val + k.val < 1024 * g1.val ∨ 1024 * g1.val + 1024 ≤ 1024 * s.val + k.val; have := k.isLt; omega
          refine (sout1_E_miss (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_E t h63).1 (conds1_E t h63).2.1 (conds1_E t h63).2.2.1 (conds1_E t h63).2.2.2 (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.2 (ix2 r (gIx1 s k)) hmiss).trans ?_
          rw [if_neg hz]
      · by_cases h9 : t.val % 9 = 0
        · rw [outsAt1_C V c t h8 h63 h9]
          dsimp only
          by_cases hs : s = g1
          · rw [if_pos hs]
            have hy1 : ((ix2 r (gIx1 s k) : S8x8192.Idx) 1).val = 1024 * ((grid1.coords t) 1).val + k.val := by rw [c1, h1, hs]; rfl
            refine (sout1_C_hit (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_C t h8 h63 h9).1 (conds1_C t h8 h63 h9).2.1 (conds1_C t h8 h63 h9).2.2.1 (conds1_C t h8 h63 h9).2.2.2 (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.2 (ix2 r (gIx1 s k)) r k rfl hy1).trans ?_
            rw [colstoreD1 V c t g0 g1 h0 h1 (Fin.ext (by omega)) _ r k, if_neg hz]
            exact congrArg (fun z => z + cterm1 V c g0 g1 k) (slab_ld1 (F := Ideal) (grid1.coords t) (outsAt1 V c (t.val - 1) (Nat.lt_of_le_of_lt (Nat.sub_le _ _) t.isLt)).2.2 (ix2 r (gIx1 s k)) r k rfl hy1)
          · rw [if_neg hs]
            have hsv : s.val ≠ g1.val := fun h => hs (Fin.ext h)
            have hmiss : ((ix2 r (gIx1 s k) : S8x8192.Idx) 1).val < 1024 * ((grid1.coords t) 1).val ∨ 1024 * ((grid1.coords t) 1).val + 1024 ≤ ((ix2 r (gIx1 s k) : S8x8192.Idx) 1).val := by
              rw [c1, h1]; show 1024 * s.val + k.val < 1024 * g1.val ∨ 1024 * g1.val + 1024 ≤ 1024 * s.val + k.val; have := k.isLt; omega
            refine (sout1_C_miss (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_C t h8 h63 h9).1 (conds1_C t h8 h63 h9).2.1 (conds1_C t h8 h63 h9).2.2.1 (conds1_C t h8 h63 h9).2.2.2 (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.2 (ix2 r (gIx1 s k)) hmiss).trans ?_
            rw [if_neg hz]
        · rw [outsAt1_D V c t h8 h9]
          dsimp only
          by_cases hs : s = g1
          · rw [if_pos hs]
            have hy1 : ((ix2 r (gIx1 s k) : S8x8192.Idx) 1).val = 1024 * ((grid1.coords t) 1).val + k.val := by rw [c1, h1, hs]; rfl
            refine (sout1_D_hit (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_D t h8 h9).1 (conds1_D t h8 h9).2.1 (conds1_D t h8 h9).2.2.1 (conds1_D t h8 h9).2.2.2 (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.2 (ix2 r (gIx1 s k)) r k rfl hy1).trans ?_
            rw [colstoreN1 V c t g0 g1 h0 h1 (fun h => by have := congrArg Fin.val h; omega) _ r k, if_neg hz]
            exact congrArg (fun z => z + cterm1 V c g0 g1 k) (slab_ld1 (F := Ideal) (grid1.coords t) (outsAt1 V c (t.val - 1) (Nat.lt_of_le_of_lt (Nat.sub_le _ _) t.isLt)).2.2 (ix2 r (gIx1 s k)) r k rfl hy1)
          · rw [if_neg hs]
            have hsv : s.val ≠ g1.val := fun h => hs (Fin.ext h)
            have hmiss : ((ix2 r (gIx1 s k) : S8x8192.Idx) 1).val < 1024 * ((grid1.coords t) 1).val ∨ 1024 * ((grid1.coords t) 1).val + 1024 ≤ ((ix2 r (gIx1 s k) : S8x8192.Idx) 1).val := by
              rw [c1, h1]; show 1024 * s.val + k.val < 1024 * g1.val ∨ 1024 * g1.val + 1024 ≤ 1024 * s.val + k.val; have := k.isLt; omega
            refine (sout1_D_miss (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (conds1_D t h8 h9).1 (conds1_D t h8 h9).2.1 (conds1_D t h8 h9).2.2.1 (conds1_D t h8 h9).2.2.2 (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.2 (ix2 r (gIx1 s k)) hmiss).trans ?_
            rw [if_neg hz]

/-- How many block-rows have already added into block-column s of the scratch after position n: those up to the current
    one if the current row of the grid has reached s, those before it otherwise. -/
def visited1 (n s : ℕ) : ℕ := if s ≤ n % 8 then n / 8 + 1 else n / 8

/-- Block-row g's contribution to column k of block-column s, for any natural g (nothing beyond the grid). -/
def cpart1 (c : Dev nD) (s : Fin 8) (k : Fin 1024) (g : ℕ) : EReal :=
  if hg : g < 8 then cterm1 V c ⟨g, hg⟩ s k else 0

/-- After position n every one of the 8 rows of the scratch holds, at column k of block-column s, the contributions of
    the block-rows that have visited s, added in order onto zero: by induction on the position. -/
theorem scr_inv1 (c : Dev nD) (r : Fin 8) (s : Fin 8) (k : Fin 1024) :
    ∀ (n : ℕ) (hn : n < cfg1.N),
      ((outsAt1 V c n hn).2.2 (ix2 r (gIx1 s k)) : EReal) = ∑ g ∈ Finset.range (visited1 n s.val), cpart1 V c s k g
  | 0, hn => by
    have hs8 := s.isLt
    rw [scr_step1 V c ⟨0, hn⟩ ⟨0, by omega⟩ ⟨0, by omega⟩ (Nat.zero_div 8) (Nat.zero_mod 8) r s k]
    by_cases hs : s = ⟨0, by omega⟩
    · rw [if_pos hs, if_pos rfl, zero_add]
      have hv : visited1 0 s.val = 1 := by rw [hs]; rfl
      rw [hv, Finset.sum_range_one]
      unfold cpart1
      rw [dif_pos (by omega), hs]
    · rw [if_neg hs, if_pos rfl]
      have hv : visited1 0 s.val = 0 := by
        have : s.val ≠ 0 := fun h => hs (Fin.ext h)
        unfold visited1; rw [if_neg (by omega)]
      rw [hv, Finset.sum_range_zero]
  | n + 1, hn => by
    have hN : cfg1.N = 64 := N_1
    have hs8 := s.isLt
    have ih := scr_inv1 c r s k n (by omega)
    have hg0 : (n + 1) / 8 < 8 := by omega
    have hg1 : (n + 1) % 8 < 8 := by omega
    rw [scr_step1 V c ⟨n + 1, hn⟩ ⟨(n + 1) / 8, hg0⟩ ⟨(n + 1) % 8, hg1⟩ rfl rfl r s k]
    have hprev : (outsAt1 V c ((⟨n + 1, hn⟩ : Fin cfg1.N).val - 1) (Nat.lt_of_le_of_lt (Nat.sub_le _ _) (⟨n + 1, hn⟩ : Fin cfg1.N).isLt))
        = outsAt1 V c n (by omega) := outsAt1_congr V c (by dsimp only; omega) _ _
    have hne0 : ¬ ((⟨n + 1, hn⟩ : Fin cfg1.N).val = 0) := Nat.succ_ne_zero n
    rw [hprev, if_neg hne0, ih]
    by_cases hs : s = ⟨(n + 1) % 8, hg1⟩
    · rw [if_pos hs]
      have hsv : s.val = (n + 1) % 8 := congrArg Fin.val hs
      have hv0 : visited1 n s.val = (n + 1) / 8 := by unfold visited1; split_ifs <;> omega
      have hv1 : visited1 (n + 1) s.val = (n + 1) / 8 + 1 := by unfold visited1; rw [if_pos (by omega)]
      rw [hv0, hv1, Finset.sum_range_succ]
      unfold cpart1
      rw [dif_pos hg0, hs]
    · rw [if_neg hs]
      have hsv : s.val ≠ (n + 1) % 8 := fun h => hs (Fin.ext h)
      have hv : visited1 (n + 1) s.val = visited1 n s.val := by unfold visited1; split_ifs <;> omega
      rw [hv]

/-! ## The column-sum array -/

/-- The array the region leaves in its second result: the column sums of the normalised adjacency. -/
abbrev res1_4 (c : Dev nD) : Buf (Elt Ideal) ((c : Thread nD τ).loc main_v8_1) :=
  fun idx => Cert.Spec.nadjColSum (adj1 V c) (rsc1 V c) (csc1 V c) (idx 1)

/-- At the last point the column-sum window receives row 0 of the scratch, where all 8 block-rows have added into every
    block-column: the 8 contributions are the 8 blocks of the one sum over the 8192 rows. -/
theorem col_done1 (c : Dev nD) (t : Fin cfg1.N) (h63 : t.val = 63) (y : S1x8192.Idx) :
    ((outsAt1 V c t.val t.isLt).2.1 y : EReal) = Cert.Spec.nadjColSum (adj1 V c) (rsc1 V c) (csc1 V c) (y 1) := by
  obtain ⟨u, col, rfl⟩ : ∃ (u : Fin 1) (col : Fin 8192), y = ix2 u col := ⟨y 0, y 1, eq_ix2 y⟩
  obtain rfl : u = 0 := Subsingleton.elim _ _
  have hN : cfg1.N = 64 := N_1
  have hcl := col.isLt
  obtain ⟨s, k, rfl⟩ : ∃ (s : Fin 8) (k : Fin 1024), col = gIx1 s k :=
    ⟨⟨col.val / 1024, by omega⟩, ⟨col.val % 1024, by omega⟩, Fin.ext (by show col.val = 1024 * (col.val / 1024) + col.val % 1024; omega)⟩
  have hscr : ((outsAt1 V c t.val t.isLt).2.2 (ix2 (0 : Fin 8) (gIx1 s k)) : EReal)
      = ∑ g ∈ Finset.range (visited1 63 s.val), cpart1 V c s k g := by
    rw [outsAt1_congr V c h63 t.isLt (by omega), scr_inv1 V c 0 s k 63 (by omega)]
  rw [outsAt1_E V c t h63] at hscr ⊢
  dsimp only at hscr ⊢
  rw [out1_E_4_apply, hscr]
  have hv : visited1 63 s.val = 8 := by have := s.isLt; unfold visited1; rw [if_pos (by omega)]
  rw [hv, Finset.sum_range (fun g => cpart1 V c s k g)]
  show _ = ∑ I : Fin 8192, Cert.Spec.nadj (adj1 V c) (rsc1 V c) (csc1 V c) I (gIx1 s k)
  refine ((Cert.BlockSum.sum_merged_of (n := 8) (d := 1024)
    (fun I : Fin (8 * 1024) => Cert.Spec.nadj (adj1 V c) (rsc1 V c) (csc1 V c) I (gIx1 s k))
    (fun g p => Cert.Spec.nadj (adj1 V c) (rsc1 V c) (csc1 V c) (gIx1 g p) (gIx1 s k))
    (fun g p => by
      have e : (Cert.BlockSum.merged g p : Fin (8 * 1024)) = gIx1 g p := Fin.ext (by
        rw [Cert.BlockSum.merged_val]; show p.val + 1024 * g.val = 1024 * g.val + p.val; omega)
      rw [e])).trans ?_).symm
  refine Finset.sum_congr rfl fun g _ => ?_
  unfold cpart1 cterm1
  rw [dif_pos g.isLt]

/-- What the last point writes back is the column-sum array (its block is the whole array). -/
theorem flushed1_4 (c : Dev nD) (t : Fin cfg1.N) (hf : (cfg1.win 4).flush t = true) :
    (dat1 V c).flushed 4 t = ((cfg1.win 4).blk t).view.read (Elt Ideal) (res1_4 V c) := by
  have hN : cfg1.N = 64 := N_1
  have h63 : t.val = 63 := by have := (flush1_4 t).mp hf; have := t.isLt; omega
  obtain ⟨-, -, -, -, -, -, -, -, -, -, e0, e1⟩ := idx_facts1 t
  show (cfg1.win 4).cut (grid1.coords t) ((dat1 V c).after 4 t) = _
  rw [after1_4]
  funext y
  show (outsAt1 V c t.val t.isLt).2.1 y = res1_4 V c (((cfg1.win 4).blk t).view.emb y)
  refine (col_done1 V c t h63 y).trans ?_
  have hc : y 1 = (((cfg1.win 4).blk t).view.emb y) 1 := Fin.ext (by
    show (y 1).val = win1_4.index t (1 : Fin 2) * 8192 + 1 * (y 1).val
    rw [e1]; omega)
  rw [hc]

/-- THE COLUMN SUMS: after the region its second result array holds, entry by entry, the column sums of the normalised
    adjacency of the arrays as the region found them. -/
theorem final1_4 (c : Dev nD) (k : Fin 8192) :
    (dat1 (F := Ideal) V c).arrAt 4 cfg1.N (ix2 (0 : Fin 1) k)
      = Cert.Spec.nadjColSum (fun a b => V c main_v0_0 (ix2 a b)) (fun a => V c main_v6 (ix2 a (0 : Fin 1)))
          (fun b => V c main_v7 (ix2 (0 : Fin 1) b)) k := by
  have hN : cfg1.N = 64 := N_1
  have harr : (dat1 (F := Ideal) V c).arrAt 4 cfg1.N = res1_4 V c :=
    (dat1 V c).arrAt_eq_of_cover 4 (res1_4 V c) (flushed1_4 V c) fun i => by
      have h0 : (i 0 : Nat) < 1 := (i 0).isLt
      have h1 : (i 1 : Nat) < 8192 := (i 1).isLt
      have ht : 63 < cfg1.N := by omega
      obtain ⟨-, -, -, -, -, -, -, -, -, -, e0, e1⟩ := idx_facts1 ⟨63, ht⟩
      refine ⟨⟨63, ht⟩, (flush1_4 _).mpr (by dsimp only), ?_⟩
      show i ∈ ((View.whole main_v8_1).slice (win1_4.rect ⟨63, ht⟩)).set
      rw [View.set_slice_whole, Rect.mem_set_unit]
      intro a
      match a with
      | ⟨0, _⟩ =>
        show win1_4.index ⟨63, ht⟩ (0 : Fin 2) * 1 ≤ (i 0 : Nat) ∧ (i 0 : Nat) < win1_4.index ⟨63, ht⟩ (0 : Fin 2) * 1 + 1
        rw [e0]; omega
      | ⟨1, _⟩ =>
        show win1_4.index ⟨63, ht⟩ (1 : Fin 2) * 8192 ≤ (i 1 : Nat) ∧ (i 1 : Nat) < win1_4.index ⟨63, ht⟩ (1 : Fin 2) * 8192 + 8192
        rw [e1]; omega
  rw [harr]
  rfl

end AtEntry

end Cert.KernelIdeal.Gen

end
-- ==== Proof.KernelValueA.lean ====
import proofs.«152628_j8315056685239_2_alg».proof.Proof.Assemble
import proofs.«152628_j8315056685239_2_alg».proof.Proof.HostChain
import proofs.«152628_j8315056685239_2_alg».proof.Proof.Region0Value
import proofs.«152628_j8315056685239_2_alg».proof.Proof.Region1Value

/-! # The program's buffers hold the specification's quantities: from the launch to the scaled features

Each buffer is followed from the boundary where a region or a host stretch produces it to the boundaries where it is read,
through the boundaries that leave it untouched. Region 0 leaves the masked adjacency M and its row sums; the first host
stretches the degree scale d (as a column and as a row); region 1 the row and column sums R, C of the normalised
adjacency; the next host stretches S = (R + C)/2, the smoothing scale r, the scaled features Y = r ∘ x, and the
features and the scaled features side by side. -/

set_option maxRecDepth 16384

noncomputable section

namespace Cert.KernelIdeal.Gen

open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg) (c : Dev nD)

/-! ## The argument arrays, by coordinates -/

abbrev ax : Fin 8192 → Fin 512 → EReal := fun a b => rd S8192x512 (m ((c : Thread nD τ).loc main_arg0)) (ix2 a b)
abbrev aa1 : Fin 8192 → Fin 8192 → EReal := fun a b => rd S8192x8192 (m ((c : Thread nD τ).loc main_arg1)) (ix2 a b)
abbrev aa2 : Fin 8192 → Fin 8192 → EReal := fun a b => rd S8192x8192 (m ((c : Thread nD τ).loc main_arg2)) (ix2 a b)
abbrev aa3 : Fin 8192 → Fin 8192 → EReal := fun a b => rd S8192x8192 (m ((c : Thread nD τ).loc main_arg3)) (ix2 a b)
abbrev aw0 : Fin 512 → Fin 256 → EReal := fun a b => rd S512x256 (m ((c : Thread nD τ).loc main_arg4)) (ix2 a b)
abbrev aw1 : Fin 256 → Fin 16 → EReal := fun a b => rd S256x16 (m ((c : Thread nD τ).loc main_arg5)) (ix2 a b)

/-- The masked adjacency, the degree scale and the normalised adjacency of the launch contents. -/
abbrev sM : Fin 8192 → Fin 8192 → EReal := Spec.M (aa1 m c) (aa2 m c) (aa3 m c)
abbrev sd : Fin 8192 → EReal := Spec.d (aa1 m c) (aa2 m c) (aa3 m c)

/-! ## Sums and products of the normalised adjacency depend on its entry arrays only through their values -/

theorem nadjRowSum_congr {A A' : Fin 8192 → Fin 8192 → EReal} {dr dr' dc dc' : Fin 8192 → EReal}
    (hA : A = A') (hr : dr = dr') (hc : dc = dc') (i : Fin 8192) :
    Spec.nadjRowSum A dr dc i = Spec.nadjRowSum A' dr' dc' i := by rw [hA, hr, hc]
theorem nadjColSum_congr {A A' : Fin 8192 → Fin 8192 → EReal} {dr dr' dc dc' : Fin 8192 → EReal}
    (hA : A = A') (hr : dr = dr') (hc : dc = dc') (k : Fin 8192) :
    Spec.nadjColSum A dr dc k = Spec.nadjColSum A' dr' dc' k := by rw [hA, hr, hc]

/-! ## Region 0: the masked adjacency and its row sums -/

theorem W1_v0_0 (i k : Fin 8192) :
    rd S8192x8192 (W1 m ρ c (Proc.devRef .tc main_v0_0)) (ix2 i k) = sM m c i k :=
  (congrFun (W1_arr m ρ c 3) (ix2 i k)).trans (final0_3 (VV0 m ρ) c i k)

theorem W1_v0_1 (i : Fin 8192) :
    rd S8192x1 (W1 m ρ c (Proc.devRef .tc main_v0_1)) (ix2 i (0 : Fin 1)) = Spec.rs (aa1 m c) (aa2 m c) (aa3 m c) i :=
  (congrFun (W1_arr m ρ c 4) (ix2 i (0 : Fin 1))).trans (final0_4 (VV0 m ρ) c i)

/-! ## The first host stretches: the degree scale -/

theorem W6_v6 (i : Fin 8192) :
    rd S8192x1 (W6 m ρ c (Proc.devRef .tc main_v6)) (ix2 i (0 : Fin 1)) = sd m c i :=
  (S1_v6 (W1 m ρ c) i).trans (congrArg (fun z => Spec.gpow (z + Spec.one)) (W1_v0_1 m ρ c i))

theorem W6_v7 (k : Fin 8192) :
    rd S1x8192 (W6 m ρ c (Proc.devRef .tc main_v7)) (ix2 (0 : Fin 1) k) = sd m c k :=
  (S1_v7 (W1 m ρ c) k).trans (congrArg (fun z => Spec.gpow (z + Spec.one)) (W1_v0_1 m ρ c k))

theorem W6_v0_0 : W6 m ρ c (Proc.devRef .tc main_v0_0) = W1 m ρ c (Proc.devRef .tc main_v0_0) :=
  S1_kept (W1 m ρ c) main_v0_0 (by decide)

/-- The three entry arrays of the normalised adjacency as region 1 finds them. -/
theorem nd6_A : (fun a b => VV6 m ρ c main_v0_0 (ix2 a b)) = sM m c :=
  funext fun a => funext fun b => (congrFun (W6_v0_0 m ρ c) (ix2 a b)).trans (W1_v0_0 m ρ c a b)
theorem nd6_r : (fun a => VV6 m ρ c main_v6 (ix2 a (0 : Fin 1))) = sd m c := funext fun a => W6_v6 m ρ c a
theorem nd6_c : (fun b => VV6 m ρ c main_v7 (ix2 (0 : Fin 1) b)) = sd m c := funext fun b => W6_v7 m ρ c b

/-! ## Region 1: the row and column sums of the normalised adjacency -/

theorem W7_v8_0 (i : Fin 8192) :
    rd S8192x1 (W7 m ρ c (Proc.devRef .tc main_v8_0)) (ix2 i (0 : Fin 1)) = Spec.R (aa1 m c) (aa2 m c) (aa3 m c) i :=
  ((congrFun (W7_arr m ρ c 3) (ix2 i (0 : Fin 1))).trans (final1_3 (VV6 m ρ) c i)).trans
    (nadjRowSum_congr (nd6_A m ρ c) (nd6_r m ρ c) (nd6_c m ρ c) i)

theorem W7_v8_1 (k : Fin 8192) :
    rd S1x8192 (W7 m ρ c (Proc.devRef .tc main_v8_1)) (ix2 (0 : Fin 1) k) = Spec.C (aa1 m c) (aa2 m c) (aa3 m c) k :=
  ((congrFun (W7_arr m ρ c 4) (ix2 (0 : Fin 1) k)).trans (final1_4 (VV6 m ρ) c k)).trans
    (nadjColSum_congr (nd6_A m ρ c) (nd6_r m ρ c) (nd6_c m ρ c) k)

/-- The features reach region 1's exit as launched. -/
theorem W7_arg0 : W7 m ρ c (Proc.devRef .tc main_arg0) = m ((c : Thread nD τ).loc main_arg0) :=
  (keep1 m ρ c main_arg0 (by decide)).trans <| (S1_kept (W1 m ρ c) main_arg0 (by decide)).trans <|
    (keep0 m ρ c main_arg0 (by decide)).trans rfl

/-! ## The next host stretches: the smoothing scale and the scaled features -/

theorem W12_v12 (i : Fin 8192) :
    rd S8192x1 (W12 m ρ c (Proc.devRef .tc main_v12)) (ix2 i (0 : Fin 1)) = Spec.S (aa1 m c) (aa2 m c) (aa3 m c) i :=
  (S2_v12 (W7 m ρ c) i).trans (by rw [W7_v8_0, W7_v8_1]; rfl)

theorem W12_v18 (i : Fin 8192) :
    rd S8192x1 (W12 m ρ c (Proc.devRef .tc main_v18)) (ix2 i (0 : Fin 1)) = Spec.r (aa1 m c) (aa2 m c) (aa3 m c) i :=
  (S2_v18 (W7 m ρ c) i).trans (congrArg (fun z => Spec.gpow (z + Spec.eps)) (W12_v12 m ρ c i))

theorem W12_v20 (i : Fin 8192) (f : Fin 512) :
    rd S8192x512 (W12 m ρ c (Proc.devRef .tc main_v20)) (ix2 i f) = Spec.Y (ax m c) (aa1 m c) (aa2 m c) (aa3 m c) i f :=
  (S2_v20 (W7 m ρ c) i f).trans (by rw [show rd S8192x1 (S2 (W7 m ρ c) (Proc.devRef .tc main_v18)) (ix2 i (0 : Fin 1)) = _ from W12_v18 m ρ c i, W7_arg0]; rfl)

theorem W12_v23 (i : Fin 8192) (f : Fin 512) :
    rd S8192x512 (W12 m ρ c (Proc.devRef .tc main_v23)) (ix2 i f) = Spec.Y (ax m c) (aa1 m c) (aa2 m c) (aa3 m c) i f :=
  (S2_v23 (W7 m ρ c) i f).trans (W12_v20 m ρ c i f)

theorem W12_v22_left (i : Fin 8192) (f : Fin 512) :
    rd S8192x1024 (W12 m ρ c (Proc.devRef .tc main_v22)) (ix2 i (⟨f.val, by omega⟩ : Fin 1024)) = ax m c i f :=
  (S2_v22_left (W7 m ρ c) i f).trans (by rw [W7_arg0])

theorem W12_v22_right (i : Fin 8192) (f : Fin 512) :
    rd S8192x1024 (W12 m ρ c (Proc.devRef .tc main_v22)) (ix2 i (⟨512 + f.val, by omega⟩ : Fin 1024))
      = Spec.Y (ax m c) (aa1 m c) (aa2 m c) (aa3 m c) i f :=
  (S2_v22_right (W7 m ρ c) i f).trans (W12_v20 m ρ c i f)

/-- The three entry arrays reach region 2 unchanged. -/
theorem W12_v0_0 : W12 m ρ c (Proc.devRef .tc main_v0_0) = W1 m ρ c (Proc.devRef .tc main_v0_0) :=
  (S2_kept (W7 m ρ c) main_v0_0 (by decide)).trans <| (keep1 m ρ c main_v0_0 (by decide)).trans (W6_v0_0 m ρ c)
theorem W12_v6 : W12 m ρ c (Proc.devRef .tc main_v6) = W6 m ρ c (Proc.devRef .tc main_v6) :=
  (S2_kept (W7 m ρ c) main_v6 (by decide)).trans (keep1 m ρ c main_v6 (by decide))
theorem W12_v7 : W12 m ρ c (Proc.devRef .tc main_v7) = W6 m ρ c (Proc.devRef .tc main_v7) :=
  (S2_kept (W7 m ρ c) main_v7 (by decide)).trans (keep1 m ρ c main_v7 (by decide))
theorem W12_arg0 : W12 m ρ c (Proc.devRef .tc main_arg0) = m ((c : Thread nD τ).loc main_arg0) :=
  (S2_kept (W7 m ρ c) main_arg0 (by decide)).trans (W7_arg0 m ρ c)

theorem nd12_A : (fun a b => VV12 m ρ c main_v0_0 (ix2 a b)) = sM m c :=
  funext fun a => funext fun b => (congrFun (W12_v0_0 m ρ c) (ix2 a b)).trans (W1_v0_0 m ρ c a b)
theorem nd12_r : (fun a => VV12 m ρ c main_v6 (ix2 a (0 : Fin 1))) = sd m c :=
  funext fun a => (congrFun (W12_v6 m ρ c) (ix2 a (0 : Fin 1))).trans (W6_v6 m ρ c a)
theorem nd12_c : (fun b => VV12 m ρ c main_v7 (ix2 (0 : Fin 1) b)) = sd m c :=
  funext fun b => (congrFun (W12_v7 m ρ c) (ix2 (0 : Fin 1) b)).trans (W6_v7 m ρ c b)

end Cert.KernelIdeal.Gen

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.Region2Value.lean ====
import proofs.«152628_j8315056685239_2_alg».proof.Proof.Region2
import proofs.«152628_j8315056685239_2_alg».proof.Proof.Spec
import proofs.«152628_j8315056685239_2_alg».proof.Proof.LibBlockSum
import proofs.«152628_j8315056685239_2_alg».proof.Proof.LibMatmulRows
import Idealize.ShloMosaic.Lib.Pipeline.Value
import Idealize.ShloMosaic.Lib.ValueIdx
import Idealize.ShloMosaic.Lib.Tactic

/-! # Region 2's value: the normalised adjacency times the right-hand side

Over the extended reals the body's store at grid point (g0, g1) adds, to entry (p, j) of the accumulator, the inner
product of row p of the normalised 2048×256 block with column j of the 256×1024 right-hand block; the reset at
g1 = 0 starts the accumulator at zero. Read through the windows, the block's entry (p, k) is entry
(2048·g0 + p, 256·g1 + k) of the normalised adjacency of the entry arrays, and the right-hand block's row k is row
256·g1 + k of the right-hand side. So after the last point of block-row g0 the accumulator holds the 32 blockwise
sums, added left to right onto zero — which, addition on the extended reals being commutative and associative, is the
one sum over all 8192 columns: rows 2048·g0 … 2048·g0 + 2047 of the product. That point writes the block back, and
the four block-rows cover the result array. -/

set_option maxRecDepth 16384

noncomputable section

namespace Cert.KernelIdeal.Gen

open Idealize.ShloMosaic Idealize.ShloMosaic.TcCoe Idealize.ShloMosaic.Tactic Idealize.SL.Sem
open Idealize.ShloMosaic.ValueIdx
open Idealize.ShloMosaic.Pipeline (Dat)
open scoped BigOperators

/-! ## What each run leaves, as the payload of its last store -/

theorem zero_offsets2 : (![0, 0] : Fin 2 → Nat) = fun _ => 0 := funext fun a => by fin_cases a <;> rfl

section AnyFloat
variable {F : FTy → Type} [FloatOps F]

/-- The accumulating run leaves the payload of its one store: the running sum plus the product. -/
theorem out2_B_4_eq (c : Dev nD) (i : grid2.Coords) (a2 : Memref sig .tc .vmem S2048x256 .bf16) (h2 : a2.IsWhole) (a3 : Memref sig .tc .vmem S2048x1 .f32) (h3 : a3.IsWhole) (a4 : Memref sig .tc .vmem S1x256 .f32) (h4 : a4.IsWhole) (a5 : Memref sig .tc .vmem S256x1024 .bf16) (h5 : a5.IsWhole) (a6 : Memref sig .tc .vmem S2048x1024 .f32) (h6 : a6.IsWhole) (hc : ¬cond2_0 i)
    (x0 : Vec F S2048x256 .bf16) (x1 : Vec F S2048x1 .f32) (x2 : Vec F S1x256 .f32) (x3 : Vec F S256x1024 .bf16) (xo : Vec F S2048x1024 .f32) :
    out2_B_4 c i a2 h2 a3 h3 a4 h4 a5 h5 a6 h6 hc x0 x1 x2 x3 xo = k2_pay2 i x1 x2 x0 x3 xo := by
  unfold out2_B_4
  rw [View.read_writes_eq_canon _ _ _ (cover2_B_4 c i a2 h2 a3 h3 a4 h4 a5 h5 a6 h6 hc x0 x1 x2 x3 xo)]
  unfold kernelRun2_B
  dsimp only
  rw [View.canon_unit_zero zero_offsets2]
  simp only [View.readAt_eq_ld, h2.read_unread, h3.read_unread, h4.read_unread, h5.read_unread, h6.read_unread,
    View.ld_unit_zero (S := S2048x256) zero_offsets2, View.ld_unit_zero (S := S2048x1) zero_offsets2,
    View.ld_unit_zero (S := S1x256) zero_offsets2, View.ld_unit_zero (S := S256x1024) zero_offsets2,
    View.ld_unit_zero (S := S2048x1024) zero_offsets2]

/-- The resetting run leaves the same payload over the zero block it has just stored. -/
theorem out2_A_4_eq (c : Dev nD) (i : grid2.Coords) (a2 : Memref sig .tc .vmem S2048x256 .bf16) (h2 : a2.IsWhole) (a3 : Memref sig .tc .vmem S2048x1 .f32) (h3 : a3.IsWhole) (a4 : Memref sig .tc .vmem S1x256 .f32) (h4 : a4.IsWhole) (a5 : Memref sig .tc .vmem S256x1024 .bf16) (h5 : a5.IsWhole) (a6 : Memref sig .tc .vmem S2048x1024 .f32) (h6 : a6.IsWhole) (hc : cond2_0 i)
    (x0 : Vec F S2048x256 .bf16) (x1 : Vec F S2048x1 .f32) (x2 : Vec F S1x256 .f32) (x3 : Vec F S256x1024 .bf16) :
    out2_A_4 c i a2 h2 a3 h3 a4 h4 a5 h5 a6 h6 hc x0 x1 x2 x3 = k2_pay2 i x1 x2 x0 x3 (k2_pay1 (F := F)) := by
  unfold out2_A_4
  rw [View.read_writes_eq_canon _ _ _ (cover2_A_4 c i a2 h2 a3 h3 a4 h4 a5 h5 a6 h6 hc x0 x1 x2 x3)]
  unfold kernelRun2_A
  dsimp only
  sl_unfold_words
  rw [View.canon_cons_unit_zero (S := S2048x1024) zero_offsets2, View.readCov_unit_zero (S := S2048x1024) _ zero_offsets2]
  simp only [View.readAt_eq_ld, h2.read_unread, h3.read_unread, h4.read_unread, h5.read_unread,
    View.ld_unit_zero (S := S2048x256) zero_offsets2, View.ld_unit_zero (S := S2048x1) zero_offsets2,
    View.ld_unit_zero (S := S1x256) zero_offsets2, View.ld_unit_zero (S := S256x1024) zero_offsets2,
    View.ld_unit_zero (S := S2048x1024) zero_offsets2]

end AnyFloat

/-! ## The payload at an entry, over the extended reals -/

section Layout
variable {α : Type}

/-- A 2048×1 column spread over 256 columns holds, at (p, k), the column's entry of row p; -/
theorem spread_col2 (x : S2048x1.Idx → α) (h : S2048x1.Broadcasts S2048x256) (p : Fin 2048) (k : Fin 256) :
    broadcastTo S2048x256 x h (ix2 p k) = x (ix2 p (0 : Fin 1)) :=
  broadcastTo_apply x h (ix2 p k) (ix2 p (0 : Fin 1)) fun a => by
    match a with
    | ⟨0, _⟩ => rfl
    | ⟨1, _⟩ => rfl

/-- a 1×256 row spread over 2048 rows holds, at (p, k), the row's entry of column k. -/
theorem spread_row2 (x : S1x256.Idx → α) (h : S1x256.Broadcasts S2048x256) (p : Fin 2048) (k : Fin 256) :
    broadcastTo S2048x256 x h (ix2 p k) = x (ix2 (0 : Fin 1) k) :=
  broadcastTo_apply x h (ix2 p k) (ix2 (0 : Fin 1) k) fun a => by
    match a with
    | ⟨0, _⟩ => rfl
    | ⟨1, _⟩ => rfl

end Layout

/-- The body's diagonal test at entry (p, k) of block (g0, g1): the 32-bit words "2048·g0 + p" and "256·g1 + k" are
    equal exactly when the numbers are (neither sum reaches 2³²). -/
theorem diag_bit2 (g0 g1 p k : ℕ) (hg0 : g0 < 4) (hg1 : g1 < 32) (hp : p < 2048) (hk : k < 256) :
    IntOp.cmpi .eq (IntOp.addi (Scalar.muli (BitVec.ofNat 32 g0) 2048#32) (BitVec.ofNat 32 p))
      (IntOp.addi (Scalar.muli (BitVec.ofNat 32 g1) 256#32) (BitVec.ofNat 32 k))
      = if 2048 * g0 + p = 256 * g1 + k then 1#1 else 0#1 := by
  have e1 : IntOp.addi (Scalar.muli (BitVec.ofNat 32 g0) 2048#32) (BitVec.ofNat 32 p) = BitVec.ofNat 32 (2048 * g0 + p) := by
    apply BitVec.eq_of_toNat_eq
    show ((BitVec.ofNat 32 g0 * 2048#32) + BitVec.ofNat 32 p).toNat = _
    simp only [BitVec.toNat_add, BitVec.toNat_mul, BitVec.toNat_ofNat]
    omega
  have e2 : IntOp.addi (Scalar.muli (BitVec.ofNat 32 g1) 256#32) (BitVec.ofNat 32 k) = BitVec.ofNat 32 (256 * g1 + k) := by
    apply BitVec.eq_of_toNat_eq
    show ((BitVec.ofNat 32 g1 * 256#32) + BitVec.ofNat 32 k).toNat = _
    simp only [BitVec.toNat_add, BitVec.toNat_mul, BitVec.toNat_ofNat]
    omega
  rw [e1, e2]
  unfold IntOp.cmpi
  by_cases h : 2048 * g0 + p = 256 * g1 + k
  · rw [if_pos h, h]; simp
  · rw [if_neg h]
    have hne : (BitVec.ofNat 32 (2048 * g0 + p) == BitVec.ofNat 32 (256 * g1 + k)) = false := by
      rw [beq_eq_false_iff_ne]
      intro e
      apply h
      have := congrArg BitVec.toNat e
      simp only [BitVec.toNat_ofNat] at this
      omega
    simp [hne]

/-- Entry (p, k) of the normalised block the body forms at grid point `i` from the adjacency block `x0`, the row
    scale `x1` and the column scale `x2`: adjacency times row scale times column scale, with the product of the two
    scales added where the global row index 2048·g0 + p equals the global column index 256·g1 + k. -/
def nblk2 (i : grid2.Coords) (x0 : Vec Ideal S2048x256 .bf16) (x1 : Vec Ideal S2048x1 .f32) (x2 : Vec Ideal S1x256 .f32)
    (p : Fin 2048) (k : Fin 256) : EReal :=
  if 2048 * (i 0).val + p.val = 256 * (i 1).val + k.val
  then (x0 (ix2 p k) : EReal) * (x1 (ix2 p (0 : Fin 1)) : EReal) * (x2 (ix2 (0 : Fin 1) k) : EReal) + (x1 (ix2 p (0 : Fin 1)) : EReal) * (x2 (ix2 (0 : Fin 1) k) : EReal)
  else (x0 (ix2 p k) : EReal) * (x1 (ix2 p (0 : Fin 1)) : EReal) * (x2 (ix2 (0 : Fin 1) k) : EReal)

/-- The accumulating store's payload at entry (p, j): the running sum there plus the inner product of row p of the
    normalised block with column j of the right-hand block. -/
theorem k2_pay2_apply (i : grid2.Coords) (x1 : Vec Ideal S2048x1 .f32) (x2 : Vec Ideal S1x256 .f32) (x0 : Vec Ideal S2048x256 .bf16)
    (x3 : Vec Ideal S256x1024 .bf16) (xo : Vec Ideal S2048x1024 .f32) (p : Fin 2048) (j : Fin 1024) :
    k2_pay2 (F := Ideal) i x1 x2 x0 x3 xo (ix2 p j)
      = (xo (ix2 p j) : EReal) + ∑ k : Fin 256, nblk2 i x0 x1 x2 p k * (x3 (ix2 k j) : EReal) := by
  unfold k2_pay2
  simp only [shapeCast_self]
  rw [addf_apply]
  refine congrArg (fun z => (xo (ix2 p j) : EReal) + z) ?_
  refine (Cert.LibMatmulRows.matmul_zero_apply (φ₁ := .bf16) (φ₂ := .bf16) dot_S2048x256_S256x1024_S2048x1024_1_0_0_1_n_n rfl rfl
    (fun _ _ => rfl) (fun i q => dot_S2048x256_S256x1024_S2048x1024_1_0_0_1_n_n.lhsIdx_val_of_single rfl i q)
    (fun i q => dot_S2048x256_S256x1024_S2048x1024_1_0_0_1_n_n.rhsIdx_val_of_single rfl i q) (fun _ _ => rfl) none _ _ p j).trans ?_
  refine Finset.sum_congr rfl fun k _ => ?_
  refine congrArg (fun z => z * (x3 (ix2 k j) : EReal)) ?_
  rw [truncf_apply, select_apply]
  have hbit : cmpi CmpIPredicate.eq
        (addi (broadcast S2048x256 (Scalar.muli (BitVec.ofNat 32 (i 0).val) 2048#32)) (iota .tc S2048x256 32 [0] iota_S2048x256_d0_w32))
        (addi (broadcast S2048x256 (Scalar.muli (BitVec.ofNat 32 (i 1).val) 256#32)) (iota .tc S2048x256 32 [1] iota_S2048x256_d1_w32))
        (ix2 p k)
      = if 2048 * (i 0).val + p.val = 256 * (i 1).val + k.val then 1#1 else 0#1 := by
    have hi0 : (i 0).val < 4 := (i 0).isLt
    have hi1 : (i 1).val < 32 := (i 1).isLt
    have hd := diag_bit2 (i 0).val (i 1).val p.val k.val hi0 hi1 p.isLt k.isLt
    have ea : iota .tc S2048x256 32 [0] iota_S2048x256_d0_w32 (ix2 p k) = BitVec.ofNat 32 p.val := by
      show BitVec.ofNat 32 (0 * 2048 + p.val) = _
      rw [Nat.zero_mul, Nat.zero_add]
    have eb : iota .tc S2048x256 32 [1] iota_S2048x256_d1_w32 (ix2 p k) = BitVec.ofNat 32 k.val := by
      show BitVec.ofNat 32 (0 * 256 + k.val) = _
      rw [Nat.zero_mul, Nat.zero_add]
    show IntOp.cmpi .eq
        (IntOp.addi (Scalar.muli (BitVec.ofNat 32 (i 0).val) 2048#32) (iota .tc S2048x256 32 [0] iota_S2048x256_d0_w32 (ix2 p k)))
        (IntOp.addi (Scalar.muli (BitVec.ofNat 32 (i 1).val) 256#32) (iota .tc S2048x256 32 [1] iota_S2048x256_d1_w32 (ix2 p k))) = _
    rw [ea, eb]
    exact hd
  rw [hbit]
  unfold nblk2
  by_cases h : 2048 * (i 0).val + p.val = 256 * (i 1).val + k.val
  · rw [if_pos h, if_pos h, select_one]
    simp only [addf_apply, mulf_apply, extf_apply, spread_col2, spread_row2]
  · rw [if_neg h, if_neg h, select_zero]
    simp only [mulf_apply, extf_apply, spread_col2, spread_row2]

/-! ## The blocks as parts of the entry arrays -/

section AtEntry
variable (V : (c : Dev nD) → (b : Ref sig .tc) → Buf (Elt Ideal) ((c : Thread nD τ).loc b))

/-- Point `t` of the grid is (t / 32, t % 32), and each window's block index follows the coordinate(s) it reads. -/
theorem idx_facts2 : ∀ t : Fin cfg2.N,
    ((grid2.coords t) 0).val = t.val / 32 ∧ ((grid2.coords t) 1).val = t.val % 32
    ∧ win2_0.index t (0 : Fin 2) = t.val / 32 ∧ win2_0.index t (1 : Fin 2) = t.val % 32
    ∧ win2_1.index t (0 : Fin 2) = t.val / 32 ∧ win2_1.index t (1 : Fin 2) = 0
    ∧ win2_2.index t (0 : Fin 2) = 0 ∧ win2_2.index t (1 : Fin 2) = t.val % 32
    ∧ win2_3.index t (0 : Fin 2) = t.val % 32 ∧ win2_3.index t (1 : Fin 2) = 0
    ∧ win2_4.index t (0 : Fin 2) = t.val / 32 ∧ win2_4.index t (1 : Fin 2) = 0 :=
  (by decide +kernel : ∀ t : Fin grid2.N, _)

/-- Row p of block-row g0 is global row 2048·g0 + p; column k of block-column g1 is global column 256·g1 + k. -/
def rowIx2 (g0 : Fin 4) (p : Fin 2048) : Fin 8192 := ⟨2048 * g0.val + p.val, by have := g0.isLt; have := p.isLt; omega⟩
def colIx2 (g1 : Fin 32) (k : Fin 256) : Fin 8192 := ⟨256 * g1.val + k.val, by have := g1.isLt; have := k.isLt; omega⟩

/-- The entry arrays as functions of their coordinates. -/
abbrev adj2 (c : Dev nD) : Fin 8192 → Fin 8192 → EReal := fun a b => V c main_v0_0 (ix2 a b)
abbrev rsc2 (c : Dev nD) : Fin 8192 → EReal := fun a => V c main_v6 (ix2 a (0 : Fin 1))
abbrev csc2 (c : Dev nD) : Fin 8192 → EReal := fun b => V c main_v7 (ix2 (0 : Fin 1) b)
abbrev rhs2 (c : Dev nD) : Fin 8192 → Fin 1024 → EReal := fun a b => V c main_v22 (ix2 a b)

theorem iblk2_0_apply (c : Dev nD) (t : Fin cfg2.N) (g0 : Fin 4) (g1 : Fin 32) (h0 : t.val / 32 = g0.val) (h1 : t.val % 32 = g1.val)
    (p : Fin 2048) (k : Fin 256) :
    (iblk2 V c 0 t : Vec Ideal S2048x256 .bf16) (ix2 p k) = V c main_v0_0 (ix2 (rowIx2 g0 p) (colIx2 g1 k)) := by
  obtain ⟨-, -, e0, e1, -⟩ := idx_facts2 t
  unfold iblk2
  rw [View.read_apply]
  show V c main_v0_0 _ = V c main_v0_0 _
  refine congrArg (V c main_v0_0) (funext fun a => Fin.ext ?_)
  match a with
  | ⟨0, _⟩ => show win2_0.index t (0 : Fin 2) * 2048 + 1 * p.val = 2048 * g0.val + p.val; rw [e0, h0]; omega
  | ⟨1, _⟩ => show win2_0.index t (1 : Fin 2) * 256 + 1 * k.val = 256 * g1.val + k.val; rw [e1, h1]; omega

theorem iblk2_1_apply (c : Dev nD) (t : Fin cfg2.N) (g0 : Fin 4) (g1 : Fin 32) (h0 : t.val / 32 = g0.val) (h1 : t.val % 32 = g1.val)
    (p : Fin 2048) :
    (iblk2 V c 1 t : Vec Ideal S2048x1 .f32) (ix2 p (0 : Fin 1)) = V c main_v6 (ix2 (rowIx2 g0 p) (0 : Fin 1)) := by
  obtain ⟨-, -, -, -, e0, e1, -⟩ := idx_facts2 t
  unfold iblk2
  rw [View.read_apply]
  show V c main_v6 _ = V c main_v6 _
  refine congrArg (V c main_v6) (funext fun a => Fin.ext ?_)
  match a with
  | ⟨0, _⟩ => show win2_1.index t (0 : Fin 2) * 2048 + 1 * p.val = 2048 * g0.val + p.val; rw [e0, h0]; omega
  | ⟨1, _⟩ => show win2_1.index t (1 : Fin 2) * 1 + 1 * 0 = 0; rw [e1]

theorem iblk2_2_apply (c : Dev nD) (t : Fin cfg2.N) (g0 : Fin 4) (g1 : Fin 32) (h0 : t.val / 32 = g0.val) (h1 : t.val % 32 = g1.val)
    (k : Fin 256) :
    (iblk2 V c 2 t : Vec Ideal S1x256 .f32) (ix2 (0 : Fin 1) k) = V c main_v7 (ix2 (0 : Fin 1) (colIx2 g1 k)) := by
  obtain ⟨-, -, -, -, -, -, e0, e1, -⟩ := idx_facts2 t
  unfold iblk2
  rw [View.read_apply]
  show V c main_v7 _ = V c main_v7 _
  refine congrArg (V c main_v7) (funext fun a => Fin.ext ?_)
  match a with
  | ⟨0, _⟩ => show win2_2.index t (0 : Fin 2) * 1 + 1 * 0 = 0; rw [e0]
  | ⟨1, _⟩ => show win2_2.index t (1 : Fin 2) * 256 + 1 * k.val = 256 * g1.val + k.val; rw [e1, h1]; omega

theorem iblk2_3_apply (c : Dev nD) (t : Fin cfg2.N) (g0 : Fin 4) (g1 : Fin 32) (h0 : t.val / 32 = g0.val) (h1 : t.val % 32 = g1.val)
    (k : Fin 256) (j : Fin 1024) :
    (iblk2 V c 3 t : Vec Ideal S256x1024 .bf16) (ix2 k j) = V c main_v22 (ix2 (colIx2 g1 k) j) := by
  obtain ⟨-, -, -, -, -, -, -, -, e0, e1, -⟩ := idx_facts2 t
  unfold iblk2
  rw [View.read_apply]
  show V c main_v22 _ = V c main_v22 _
  refine congrArg (V c main_v22) (funext fun a => Fin.ext ?_)
  match a with
  | ⟨0, _⟩ => show win2_3.index t (0 : Fin 2) * 256 + 1 * k.val = 256 * g1.val + k.val; rw [e0, h1]; omega
  | ⟨1, _⟩ => show win2_3.index t (1 : Fin 2) * 1024 + 1 * j.val = j.val; rw [e1]; omega

/-! ## One point's contribution, and the accumulation along a row of the grid -/

/-- What block-column g1 contributes to entry (row p of block-row g0, column j) of the product. -/
def term2 (c : Dev nD) (g0 : Fin 4) (g1 : Fin 32) (p : Fin 2048) (j : Fin 1024) : EReal :=
  ∑ k : Fin 256, Cert.Spec.nadj (adj2 V c) (rsc2 V c) (csc2 V c) (rowIx2 g0 p) (colIx2 g1 k) * rhs2 V c (colIx2 g1 k) j

/-- The body at point (g0, g1) adds that contribution to the accumulator. -/
theorem point2 (c : Dev nD) (t : Fin cfg2.N) (g0 : Fin 4) (g1 : Fin 32) (h0 : t.val / 32 = g0.val) (h1 : t.val % 32 = g1.val)
    (xo : Vec Ideal S2048x1024 .f32) (p : Fin 2048) (j : Fin 1024) :
    k2_pay2 (F := Ideal) (grid2.coords t) (iblk2 V c 1 t) (iblk2 V c 2 t) (iblk2 V c 0 t) (iblk2 V c 3 t) xo (ix2 p j)
      = (xo (ix2 p j) : EReal) + term2 V c g0 g1 p j := by
  refine (k2_pay2_apply (grid2.coords t) (iblk2 V c 1 t) (iblk2 V c 2 t) (iblk2 V c 0 t) (iblk2 V c 3 t) xo p j).trans ?_
  refine congrArg (fun z => (xo (ix2 p j) : EReal) + z) ?_
  unfold term2
  refine Finset.sum_congr rfl fun k _ => ?_
  obtain ⟨c0, c1, -⟩ := idx_facts2 t
  have hcond : (2048 * ((grid2.coords t) 0).val + p.val = 256 * ((grid2.coords t) 1).val + k.val) ↔ (rowIx2 g0 p = colIx2 g1 k) := by
    rw [c0, c1, h0, h1]
    exact ⟨fun h => Fin.ext h, fun h => congrArg Fin.val h⟩
  unfold nblk2 Cert.Spec.nadj
  rw [iblk2_0_apply V c t g0 g1 h0 h1 p k, iblk2_1_apply V c t g0 g1 h0 h1 p, iblk2_2_apply V c t g0 g1 h0 h1 k,
    iblk2_3_apply V c t g0 g1 h0 h1 k j]
  exact congrArg (fun z => z * rhs2 V c (colIx2 g1 k) j) (if_congr hcond rfl rfl)

/-- The reset stores zeros. -/
theorem k2_pay1_apply (y : S2048x1024.Idx) : (k2_pay1 (F := Ideal) y : EReal) = 0 := by
  show Ideal.ofBits .f32 0x00000000#32 = 0
  exact Ideal.ofBits_zero_f32

/-- Block-column s's contribution, for any natural s (nothing beyond the grid). -/
def part2 (c : Dev nD) (g0 : Fin 4) (p : Fin 2048) (j : Fin 1024) (s : ℕ) : EReal :=
  if hs : s < 32 then term2 V c g0 ⟨s, hs⟩ p j else 0

theorem outsAt2_congr (c : Dev nD) {n n' : ℕ} (e : n = n') (h : n < cfg2.N) (h' : n' < cfg2.N) :
    outsAt2 V c n h = outsAt2 V c n' h' := by subst e; rfl

/-- After point (g0, g1) the accumulator holds the contributions of block-columns 0 … g1, added left to right onto
    the zero block: by induction along the row of the grid. -/
theorem acc2 (c : Dev nD) (g0 : Fin 4) (p : Fin 2048) (j : Fin 1024) :
    ∀ (g1 : ℕ) (hg : g1 < 32) (hn : 32 * g0.val + g1 < cfg2.N),
      (outsAt2 V c (32 * g0.val + g1) hn (ix2 p j) : EReal) = ∑ s ∈ Finset.range (g1 + 1), part2 V c g0 p j s
  | 0, hg, hn => by
    have hA : (⟨32 * g0.val + 0, hn⟩ : Fin cfg2.N).val % 32 = 0 := by dsimp only; omega
    rw [outsAt2_A V c ⟨32 * g0.val + 0, hn⟩ hA, out2_A_4_eq]
    rw [point2 V c ⟨32 * g0.val + 0, hn⟩ g0 ⟨0, hg⟩ (by dsimp only; omega) (by dsimp only; omega) _ p j]
    rw [k2_pay1_apply, zero_add, Finset.sum_range_one]
    unfold part2
    rw [dif_pos hg]
  | g1 + 1, hg, hn => by
    have hB : ¬(⟨32 * g0.val + (g1 + 1), hn⟩ : Fin cfg2.N).val % 32 = 0 := by dsimp only; omega
    have hN : cfg2.N = 128 := N_2
    have ih := acc2 c g0 p j g1 (by omega) (by omega)
    rw [outsAt2_B V c ⟨32 * g0.val + (g1 + 1), hn⟩ hB, out2_B_4_eq]
    rw [point2 V c ⟨32 * g0.val + (g1 + 1), hn⟩ g0 ⟨g1 + 1, hg⟩ (by dsimp only; omega) (by dsimp only; omega) _ p j]
    rw [Finset.sum_range_succ, ← ih]
    rw [outsAt2_congr V c (show (⟨32 * g0.val + (g1 + 1), hn⟩ : Fin cfg2.N).val - 1 = 32 * g0.val + g1 by dsimp only; omega) _ (by omega)]
    unfold part2
    rw [dif_pos hg]

/-! ## The result array -/

/-- The array the region leaves in its result: the normalised adjacency times the right-hand side. -/
abbrev res2 (c : Dev nD) : Buf (Elt Ideal) ((c : Thread nD τ).loc main_v24) :=
  fun idx => Cert.Spec.nadjMul (adj2 V c) (rsc2 V c) (csc2 V c) (rhs2 V c) (idx 0) (idx 1)

/-- After the last point of block-row g0 the accumulator holds rows 2048·g0 … of the product: the 32 contributions
    are the 32 blocks of the one sum over the 8192 columns. -/
theorem row_done2 (c : Dev nD) (t : Fin cfg2.N) (g0 : Fin 4) (h0 : t.val / 32 = g0.val) (h31 : t.val % 32 = 31) (y : S2048x1024.Idx) :
    (outsAt2 V c t.val t.isLt y : EReal)
      = Cert.Spec.nadjMul (adj2 V c) (rsc2 V c) (csc2 V c) (rhs2 V c) (rowIx2 g0 (y 0)) (y 1) := by
  obtain ⟨p, j, rfl⟩ : ∃ (p : Fin 2048) (j : Fin 1024), y = ix2 p j := ⟨y 0, y 1, eq_ix2 y⟩
  have hN : cfg2.N = 128 := N_2
  have ht : t.val = 32 * g0.val + 31 := by omega
  rw [outsAt2_congr V c ht t.isLt (by omega), acc2 V c g0 p j 31 (by omega) (by omega)]
  rw [Finset.sum_range (fun s => part2 V c g0 p j s)]
  show _ = ∑ K : Fin 8192, Cert.Spec.nadj (adj2 V c) (rsc2 V c) (csc2 V c) (rowIx2 g0 p) K * rhs2 V c K j
  refine ((Cert.BlockSum.sum_merged_of (n := 32) (d := 256)
    (fun K : Fin (32 * 256) => Cert.Spec.nadj (adj2 V c) (rsc2 V c) (csc2 V c) (rowIx2 g0 p) K * rhs2 V c K j)
    (fun s k => Cert.Spec.nadj (adj2 V c) (rsc2 V c) (csc2 V c) (rowIx2 g0 p) (colIx2 s k) * rhs2 V c (colIx2 s k) j)
    (fun s k => by
      have e : (Cert.BlockSum.merged s k : Fin (32 * 256)) = colIx2 s k := Fin.ext (by
        rw [Cert.BlockSum.merged_val]; show k.val + 256 * s.val = 256 * s.val + k.val; omega)
      rw [e])).trans ?_).symm
  refine Finset.sum_congr rfl fun s _ => ?_
  unfold part2 term2
  rw [dif_pos s.isLt]

/-- What a writing-back point writes is its block of the result array. -/
theorem flushed2_4 (c : Dev nD) (t : Fin cfg2.N) (hf : (cfg2.win 4).flush t = true) :
    (dat2 V c).flushed 4 t = ((cfg2.win 4).blk t).view.read (Elt Ideal) (res2 V c) := by
  have hN : cfg2.N = 128 := N_2
  have h31 : t.val % 32 = 31 := (flush2_4 t).mp hf
  have hg : t.val / 32 < 4 := by have := t.isLt; omega
  obtain ⟨-, -, -, -, -, -, -, -, -, -, e0, e1⟩ := idx_facts2 t
  show (cfg2.win 4).cut (grid2.coords t) ((dat2 V c).after 4 t) = _
  rw [after2_4]
  funext y
  show outsAt2 V c t.val t.isLt y = res2 V c (((cfg2.win 4).blk t).view.emb y)
  have hrow := row_done2 V c t ⟨t.val / 32, hg⟩ rfl h31 y
  refine hrow.trans ?_
  have hr : rowIx2 ⟨t.val / 32, hg⟩ (y 0) = (((cfg2.win 4).blk t).view.emb y) 0 := Fin.ext (by
    show 2048 * (t.val / 32) + (y 0).val = win2_4.index t (0 : Fin 2) * 2048 + 1 * (y 0).val
    rw [e0]; omega)
  have hc : y 1 = (((cfg2.win 4).blk t).view.emb y) 1 := Fin.ext (by
    show (y 1).val = win2_4.index t (1 : Fin 2) * 1024 + 1 * (y 1).val
    rw [e1]; omega)
  rw [hr, hc]

/-- THE RESULT: after the region its result array holds, entry by entry, the normalised adjacency times the
    right-hand side, from the arrays as the region found them (every row lies in the block of the last point of its
    block-row, which is a point that writes back). -/
theorem final2_4 (c : Dev nD) (i : Fin 8192) (j : Fin 1024) :
    (dat2 (F := Ideal) V c).arrAt 4 cfg2.N (ix2 i j)
      = Cert.Spec.nadjMul (fun a b => V c main_v0_0 (ix2 a b)) (fun a => V c main_v6 (ix2 a (0 : Fin 1)))
          (fun b => V c main_v7 (ix2 (0 : Fin 1) b)) (fun a b => V c main_v22 (ix2 a b)) i j := by
  have hN : cfg2.N = 128 := N_2
  have harr : (dat2 (F := Ideal) V c).arrAt 4 cfg2.N = res2 V c :=
    (dat2 V c).arrAt_eq_of_cover 4 (res2 V c) (flushed2_4 V c) fun i => by
      have h0 : (i 0 : Nat) < 8192 := (i 0).isLt
      have h1 : (i 1 : Nat) < 1024 := (i 1).isLt
      have ht : 32 * ((i 0 : Nat) / 2048) + 31 < cfg2.N := by omega
      obtain ⟨-, -, -, -, -, -, -, -, -, -, e0, e1⟩ := idx_facts2 ⟨32 * ((i 0 : Nat) / 2048) + 31, ht⟩
      refine ⟨⟨32 * ((i 0 : Nat) / 2048) + 31, ht⟩, (flush2_4 _).mpr (by dsimp only; omega), ?_⟩
      show i ∈ ((View.whole main_v24).slice (win2_4.rect ⟨32 * ((i 0 : Nat) / 2048) + 31, ht⟩)).set
      rw [View.set_slice_whole, Rect.mem_set_unit]
      intro a
      match a with
      | ⟨0, _⟩ =>
        show win2_4.index ⟨32 * ((i 0 : Nat) / 2048) + 31, ht⟩ (0 : Fin 2) * 2048 ≤ (i 0 : Nat)
          ∧ (i 0 : Nat) < win2_4.index ⟨32 * ((i 0 : Nat) / 2048) + 31, ht⟩ (0 : Fin 2) * 2048 + 2048
        rw [e0]; dsimp only; omega
      | ⟨1, _⟩ =>
        show win2_4.index ⟨32 * ((i 0 : Nat) / 2048) + 31, ht⟩ (1 : Fin 2) * 1024 ≤ (i 1 : Nat)
          ∧ (i 1 : Nat) < win2_4.index ⟨32 * ((i 0 : Nat) / 2048) + 31, ht⟩ (1 : Fin 2) * 1024 + 1024
        rw [e1]; omega
  rw [harr]
  rfl

end AtEntry

end Cert.KernelIdeal.Gen

end
-- ==== Proof.Region3Value.lean ====
import proofs.«152628_j8315056685239_2_alg».proof.Proof.Region3
import proofs.«152628_j8315056685239_2_alg».proof.Proof.Spec
import proofs.«152628_j8315056685239_2_alg».proof.Proof.LibBlockSum
import proofs.«152628_j8315056685239_2_alg».proof.Proof.LibMatmulRows
import Idealize.ShloMosaic.Lib.Pipeline.Value
import Idealize.ShloMosaic.Lib.ValueIdx
import Idealize.ShloMosaic.Lib.Tactic

/-! # Region 3's value: the transposed normalised adjacency times the right-hand side

Here the adjacency block is read in the other orientation: at grid point (g0, g1) it is the 256×2048 block whose rows
are global rows 256·g1 … and whose columns are global columns 2048·g0 …; the body scales it by the row scale of its
rows and the column scale of its columns (adding the product of the two scales where global row and global column
coincide), and the product contracts the block's ROWS against the rows of the 256×512 right-hand block: entry (r, j)
of the accumulator gains the sum over the block's rows q of normalised(q, r) · right-hand(q, j). Output row r of
block-row g0 is global row 2048·g0 + r, so after the 32 points of the block-row the accumulator holds, entry by
entry, the sum over all 8192 global rows k of normalised(k, i) · right-hand(k, j): the transpose of the normalised
adjacency times the right-hand side. Addition on the extended reals is commutative and associative, so the 32
blockwise sums added left to right onto zero are that one sum. -/

set_option maxRecDepth 16384

noncomputable section

namespace Cert.KernelIdeal.Gen

open Idealize.ShloMosaic Idealize.ShloMosaic.TcCoe Idealize.ShloMosaic.Tactic Idealize.SL.Sem
open Idealize.ShloMosaic.ValueIdx
open Idealize.ShloMosaic.Pipeline (Dat)
open scoped BigOperators

/-! ## What each run leaves, as the payload of its last store -/

theorem zero_offsets3 : (![0, 0] : Fin 2 → Nat) = fun _ => 0 := funext fun a => by fin_cases a <;> rfl

section AnyFloat
variable {F : FTy → Type} [FloatOps F]

/-- The accumulating run leaves the payload of its one store: the running sum plus the product. -/
theorem out3_B_4_eq (c : Dev nD) (i : grid3.Coords) (a2 : Memref sig .tc .vmem S256x2048 .bf16) (h2 : a2.IsWhole) (a3 : Memref sig .tc .vmem S256x1 .f32) (h3 : a3.IsWhole) (a4 : Memref sig .tc .vmem S1x2048 .f32) (h4 : a4.IsWhole) (a5 : Memref sig .tc .vmem S256x512 .bf16) (h5 : a5.IsWhole) (a6 : Memref sig .tc .vmem S2048x512 .f32) (h6 : a6.IsWhole) (hc : ¬cond3_0 i)
    (x0 : Vec F S256x2048 .bf16) (x1 : Vec F S256x1 .f32) (x2 : Vec F S1x2048 .f32) (x3 : Vec F S256x512 .bf16) (xo : Vec F S2048x512 .f32) :
    out3_B_4 c i a2 h2 a3 h3 a4 h4 a5 h5 a6 h6 hc x0 x1 x2 x3 xo = k3_pay2 i x1 x2 x0 x3 xo := by
  unfold out3_B_4
  rw [View.read_writes_eq_canon _ _ _ (cover3_B_4 c i a2 h2 a3 h3 a4 h4 a5 h5 a6 h6 hc x0 x1 x2 x3 xo)]
  unfold kernelRun3_B
  dsimp only
  rw [View.canon_unit_zero zero_offsets3]
  simp only [View.readAt_eq_ld, h2.read_unread, h3.read_unread, h4.read_unread, h5.read_unread, h6.read_unread,
    View.ld_unit_zero (S := S256x2048) zero_offsets3, View.ld_unit_zero (S := S256x1) zero_offsets3,
    View.ld_unit_zero (S := S1x2048) zero_offsets3, View.ld_unit_zero (S := S256x512) zero_offsets3,
    View.ld_unit_zero (S := S2048x512) zero_offsets3]

/-- The resetting run leaves the same payload over the zero block it has just stored. -/
theorem out3_A_4_eq (c : Dev nD) (i : grid3.Coords) (a2 : Memref sig .tc .vmem S256x2048 .bf16) (h2 : a2.IsWhole) (a3 : Memref sig .tc .vmem S256x1 .f32) (h3 : a3.IsWhole) (a4 : Memref sig .tc .vmem S1x2048 .f32) (h4 : a4.IsWhole) (a5 : Memref sig .tc .vmem S256x512 .bf16) (h5 : a5.IsWhole) (a6 : Memref sig .tc .vmem S2048x512 .f32) (h6 : a6.IsWhole) (hc : cond3_0 i)
    (x0 : Vec F S256x2048 .bf16) (x1 : Vec F S256x1 .f32) (x2 : Vec F S1x2048 .f32) (x3 : Vec F S256x512 .bf16) :
    out3_A_4 c i a2 h2 a3 h3 a4 h4 a5 h5 a6 h6 hc x0 x1 x2 x3 = k3_pay2 i x1 x2 x0 x3 (k3_pay1 (F := F)) := by
  unfold out3_A_4
  rw [View.read_writes_eq_canon _ _ _ (cover3_A_4 c i a2 h2 a3 h3 a4 h4 a5 h5 a6 h6 hc x0 x1 x2 x3)]
  unfold kernelRun3_A
  dsimp only
  sl_unfold_words
  rw [View.canon_cons_unit_zero (S := S2048x512) zero_offsets3, View.readCov_unit_zero (S := S2048x512) _ zero_offsets3]
  simp only [View.readAt_eq_ld, h2.read_unread, h3.read_unread, h4.read_unread, h5.read_unread,
    View.ld_unit_zero (S := S256x2048) zero_offsets3, View.ld_unit_zero (S := S256x1) zero_offsets3,
    View.ld_unit_zero (S := S1x2048) zero_offsets3, View.ld_unit_zero (S := S256x512) zero_offsets3,
    View.ld_unit_zero (S := S2048x512) zero_offsets3]

end AnyFloat

/-! ## The payload at an entry, over the extended reals -/

section Layout
variable {α : Type}

/-- A 256×1 column spread over 2048 columns holds, at (q, r), the column's entry of row q; -/
theorem spread_col3 (x : S256x1.Idx → α) (h : S256x1.Broadcasts S256x2048) (q : Fin 256) (r : Fin 2048) :
    broadcastTo S256x2048 x h (ix2 q r) = x (ix2 q (0 : Fin 1)) :=
  broadcastTo_apply x h (ix2 q r) (ix2 q (0 : Fin 1)) fun a => by
    match a with
    | ⟨0, _⟩ => rfl
    | ⟨1, _⟩ => rfl

/-- a 1×2048 row spread over 256 rows holds, at (q, r), the row's entry of column r. -/
theorem spread_row3 (x : S1x2048.Idx → α) (h : S1x2048.Broadcasts S256x2048) (q : Fin 256) (r : Fin 2048) :
    broadcastTo S256x2048 x h (ix2 q r) = x (ix2 (0 : Fin 1) r) :=
  broadcastTo_apply x h (ix2 q r) (ix2 (0 : Fin 1) r) fun a => by
    match a with
    | ⟨0, _⟩ => rfl
    | ⟨1, _⟩ => rfl

end Layout

/-- A product into the zero accumulator that contracts the FIRST axis of both operands, read at row p and column j:
    `(lᵀ · r)[p, j] = ∑ k, l[k, p] · r[k, j]`. At the exact values the product unit's result is the accumulator (here the
    zero word) plus the sum over the contraction index of the operands' products, and the one-axis contraction index
    is its one coordinate; the dimension numbers enter through four coordinate facts. -/
theorem matmul_cols_zero_apply {M K N : ℕ} {φ₁ φ₂ : FTy}
    (D : DotDims ⟨2, ![K, M]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (q ⟨0, by omega⟩).val)
    (hl1 : ∀ (i : (⟨2, ![M, N]⟩ : Shape).Idx) (q : D.contr.Idx), (D.lhsIdx i q 1).val = (i 0).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![K, M]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 k p) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 k p := funext fun a => Fin.ext (by
    match a with
    | ⟨0, _⟩ => exact (hl0 _ _).trans hk
    | ⟨1, _⟩ => exact hl1 _ _)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- The body's diagonal test at entry (q, r) of block (g0, g1): the 32-bit words "256·g1 + q" (the global row) and
    "2048·g0 + r" (the global column) are equal exactly when the numbers are (neither sum reaches 2³²). -/
theorem diag_bit3 (g0 g1 q r : ℕ) (hg0 : g0 < 4) (hg1 : g1 < 32) (hq : q < 256) (hr : r < 2048) :
    IntOp.cmpi .eq (IntOp.addi (Scalar.muli (BitVec.ofNat 32 g1) 256#32) (BitVec.ofNat 32 q))
      (IntOp.addi (Scalar.muli (BitVec.ofNat 32 g0) 2048#32) (BitVec.ofNat 32 r))
      = if 256 * g1 + q = 2048 * g0 + r then 1#1 else 0#1 := by
  have e1 : IntOp.addi (Scalar.muli (BitVec.ofNat 32 g1) 256#32) (BitVec.ofNat 32 q) = BitVec.ofNat 32 (256 * g1 + q) := by
    apply BitVec.eq_of_toNat_eq
    show ((BitVec.ofNat 32 g1 * 256#32) + BitVec.ofNat 32 q).toNat = _
    simp only [BitVec.toNat_add, BitVec.toNat_mul, BitVec.toNat_ofNat]
    omega
  have e2 : IntOp.addi (Scalar.muli (BitVec.ofNat 32 g0) 2048#32) (BitVec.ofNat 32 r) = BitVec.ofNat 32 (2048 * g0 + r) := by
    apply BitVec.eq_of_toNat_eq
    show ((BitVec.ofNat 32 g0 * 2048#32) + BitVec.ofNat 32 r).toNat = _
    simp only [BitVec.toNat_add, BitVec.toNat_mul, BitVec.toNat_ofNat]
    omega
  rw [e1, e2]
  unfold IntOp.cmpi
  by_cases h : 256 * g1 + q = 2048 * g0 + r
  · rw [if_pos h, h]; simp
  · rw [if_neg h]
    have hne : (BitVec.ofNat 32 (256 * g1 + q) == BitVec.ofNat 32 (2048 * g0 + r)) = false := by
      rw [beq_eq_false_iff_ne]
      intro e
      apply h
      have := congrArg BitVec.toNat e
      simp only [BitVec.toNat_ofNat] at this
      omega
    simp [hne]

/-- Entry (q, r) of the normalised block the body forms at grid point `i` from the adjacency block `x0`, the row
    scale `x1` (of the block's rows) and the column scale `x2` (of its columns): adjacency times row scale times
    column scale, with the product of the two scales added where the global row index 256·g1 + q equals the global
    column index 2048·g0 + r. -/
def nblk3 (i : grid3.Coords) (x0 : Vec Ideal S256x2048 .bf16) (x1 : Vec Ideal S256x1 .f32) (x2 : Vec Ideal S1x2048 .f32)
    (q : Fin 256) (r : Fin 2048) : EReal :=
  if 256 * (i 1).val + q.val = 2048 * (i 0).val + r.val
  then (x0 (ix2 q r) : EReal) * (x1 (ix2 q (0 : Fin 1)) : EReal) * (x2 (ix2 (0 : Fin 1) r) : EReal) + (x1 (ix2 q (0 : Fin 1)) : EReal) * (x2 (ix2 (0 : Fin 1) r) : EReal)
  else (x0 (ix2 q r) : EReal) * (x1 (ix2 q (0 : Fin 1)) : EReal) * (x2 (ix2 (0 : Fin 1) r) : EReal)

/-- The accumulating store's payload at entry (r, j): the running sum there plus the inner product of column r of the
    normalised block with column j of the right-hand block (both run over the block's 256 rows). -/
theorem k3_pay2_apply (i : grid3.Coords) (x1 : Vec Ideal S256x1 .f32) (x2 : Vec Ideal S1x2048 .f32) (x0 : Vec Ideal S256x2048 .bf16)
    (x3 : Vec Ideal S256x512 .bf16) (xo : Vec Ideal S2048x512 .f32) (r : Fin 2048) (j : Fin 512) :
    k3_pay2 (F := Ideal) i x1 x2 x0 x3 xo (ix2 r j)
      = (xo (ix2 r j) : EReal) + ∑ q : Fin 256, nblk3 i x0 x1 x2 q r * (x3 (ix2 q j) : EReal) := by
  unfold k3_pay2
  simp only [shapeCast_self]
  rw [addf_apply]
  refine congrArg (fun z => (xo (ix2 r j) : EReal) + z) ?_
  refine (matmul_cols_zero_apply (φ₁ := .bf16) (φ₂ := .bf16) dot_S256x2048_S256x512_S2048x512_0_0_1_1_n_n rfl rfl
    (fun i q => dot_S256x2048_S256x512_S2048x512_0_0_1_1_n_n.lhsIdx_val_of_single rfl i q) (fun _ _ => rfl)
    (fun i q => dot_S256x2048_S256x512_S2048x512_0_0_1_1_n_n.rhsIdx_val_of_single rfl i q) (fun _ _ => rfl) none _ _ r j).trans ?_
  refine Finset.sum_congr rfl fun q _ => ?_
  refine congrArg (fun z => z * (x3 (ix2 q j) : EReal)) ?_
  rw [truncf_apply, select_apply]
  have hbit : cmpi CmpIPredicate.eq
        (addi (broadcast S256x2048 (Scalar.muli (BitVec.ofNat 32 (i 1).val) 256#32)) (iota .tc S256x2048 32 [0] iota_S256x2048_d0_w32))
        (addi (broadcast S256x2048 (Scalar.muli (BitVec.ofNat 32 (i 0).val) 2048#32)) (iota .tc S256x2048 32 [1] iota_S256x2048_d1_w32))
        (ix2 q r)
      = if 256 * (i 1).val + q.val = 2048 * (i 0).val + r.val then 1#1 else 0#1 := by
    have hi0 : (i 0).val < 4 := (i 0).isLt
    have hi1 : (i 1).val < 32 := (i 1).isLt
    have hd := diag_bit3 (i 0).val (i 1).val q.val r.val hi0 hi1 q.isLt r.isLt
    have ea : iota .tc S256x2048 32 [0] iota_S256x2048_d0_w32 (ix2 q r) = BitVec.ofNat 32 q.val := by
      show BitVec.ofNat 32 (0 * 256 + q.val) = _
      rw [Nat.zero_mul, Nat.zero_add]
    have eb : iota .tc S256x2048 32 [1] iota_S256x2048_d1_w32 (ix2 q r) = BitVec.ofNat 32 r.val := by
      show BitVec.ofNat 32 (0 * 2048 + r.val) = _
      rw [Nat.zero_mul, Nat.zero_add]
    show IntOp.cmpi .eq
        (IntOp.addi (Scalar.muli (BitVec.ofNat 32 (i 1).val) 256#32) (iota .tc S256x2048 32 [0] iota_S256x2048_d0_w32 (ix2 q r)))
        (IntOp.addi (Scalar.muli (BitVec.ofNat 32 (i 0).val) 2048#32) (iota .tc S256x2048 32 [1] iota_S256x2048_d1_w32 (ix2 q r))) = _
    rw [ea, eb]
    exact hd
  rw [hbit]
  unfold nblk3
  by_cases h : 256 * (i 1).val + q.val = 2048 * (i 0).val + r.val
  · rw [if_pos h, if_pos h, select_one]
    simp only [addf_apply, mulf_apply, extf_apply, spread_col3, spread_row3]
  · rw [if_neg h, if_neg h, select_zero]
    simp only [mulf_apply, extf_apply, spread_col3, spread_row3]

/-! ## The blocks as parts of the entry arrays -/

section AtEntry
variable (V : (c : Dev nD) → (b : Ref sig .tc) → Buf (Elt Ideal) ((c : Thread nD τ).loc b))

/-- Point `t` of the grid is (t / 32, t % 32); the adjacency block is indexed (g1, g0), the row scale and the
    right-hand block by g1, the column scale and the accumulator by g0. -/
theorem idx_facts3 : ∀ t : Fin cfg3.N,
    ((grid3.coords t) 0).val = t.val / 32 ∧ ((grid3.coords t) 1).val = t.val % 32
    ∧ win3_0.index t (0 : Fin 2) = t.val % 32 ∧ win3_0.index t (1 : Fin 2) = t.val / 32
    ∧ win3_1.index t (0 : Fin 2) = t.val % 32 ∧ win3_1.index t (1 : Fin 2) = 0
    ∧ win3_2.index t (0 : Fin 2) = 0 ∧ win3_2.index t (1 : Fin 2) = t.val / 32
    ∧ win3_3.index t (0 : Fin 2) = t.val % 32 ∧ win3_3.index t (1 : Fin 2) = 0
    ∧ win3_4.index t (0 : Fin 2) = t.val / 32 ∧ win3_4.index t (1 : Fin 2) = 0 :=
  (by decide +kernel : ∀ t : Fin grid3.N, _)

/-- Row q of block-row g1 of the adjacency is global row 256·g1 + q (the contracted index); column r of its
    block-column g0 is global column 2048·g0 + r (the output row). -/
def conIx3 (g1 : Fin 32) (q : Fin 256) : Fin 8192 := ⟨256 * g1.val + q.val, by have := g1.isLt; have := q.isLt; omega⟩
def outIx3 (g0 : Fin 4) (r : Fin 2048) : Fin 8192 := ⟨2048 * g0.val + r.val, by have := g0.isLt; have := r.isLt; omega⟩

/-- The entry arrays as functions of their coordinates. -/
abbrev adj3 (c : Dev nD) : Fin 8192 → Fin 8192 → EReal := fun a b => V c main_v0_0 (ix2 a b)
abbrev rsc3 (c : Dev nD) : Fin 8192 → EReal := fun a => V c main_v6 (ix2 a (0 : Fin 1))
abbrev csc3 (c : Dev nD) : Fin 8192 → EReal := fun b => V c main_v7 (ix2 (0 : Fin 1) b)
abbrev rhs3 (c : Dev nD) : Fin 8192 → Fin 512 → EReal := fun a b => V c main_v23 (ix2 a b)

theorem iblk3_0_apply (c : Dev nD) (t : Fin cfg3.N) (g0 : Fin 4) (g1 : Fin 32) (h0 : t.val / 32 = g0.val) (h1 : t.val % 32 = g1.val)
    (q : Fin 256) (r : Fin 2048) :
    (iblk3 V c 0 t : Vec Ideal S256x2048 .bf16) (ix2 q r) = V c main_v0_0 (ix2 (conIx3 g1 q) (outIx3 g0 r)) := by
  obtain ⟨-, -, e0, e1, -⟩ := idx_facts3 t
  unfold iblk3
  rw [View.read_apply]
  show V c main_v0_0 _ = V c main_v0_0 _
  refine congrArg (V c main_v0_0) (funext fun a => Fin.ext ?_)
  match a with
  | ⟨0, _⟩ => show win3_0.index t (0 : Fin 2) * 256 + 1 * q.val = 256 * g1.val + q.val; rw [e0, h1]; omega
  | ⟨1, _⟩ => show win3_0.index t (1 : Fin 2) * 2048 + 1 * r.val = 2048 * g0.val + r.val; rw [e1, h0]; omega

theorem iblk3_1_apply (c : Dev nD) (t : Fin cfg3.N) (g0 : Fin 4) (g1 : Fin 32) (h0 : t.val / 32 = g0.val) (h1 : t.val % 32 = g1.val)
    (q : Fin 256) :
    (iblk3 V c 1 t : Vec Ideal S256x1 .f32) (ix2 q (0 : Fin 1)) = V c main_v6 (ix2 (conIx3 g1 q) (0 : Fin 1)) := by
  obtain ⟨-, -, -, -, e0, e1, -⟩ := idx_facts3 t
  unfold iblk3
  rw [View.read_apply]
  show V c main_v6 _ = V c main_v6 _
  refine congrArg (V c main_v6) (funext fun a => Fin.ext ?_)
  match a with
  | ⟨0, _⟩ => show win3_1.index t (0 : Fin 2) * 256 + 1 * q.val = 256 * g1.val + q.val; rw [e0, h1]; omega
  | ⟨1, _⟩ => show win3_1.index t (1 : Fin 2) * 1 + 1 * 0 = 0; rw [e1]

theorem iblk3_2_apply (c : Dev nD) (t : Fin cfg3.N) (g0 : Fin 4) (g1 : Fin 32) (h0 : t.val / 32 = g0.val) (h1 : t.val % 32 = g1.val)
    (r : Fin 2048) :
    (iblk3 V c 2 t : Vec Ideal S1x2048 .f32) (ix2 (0 : Fin 1) r) = V c main_v7 (ix2 (0 : Fin 1) (outIx3 g0 r)) := by
  obtain ⟨-, -, -, -, -, -, e0, e1, -⟩ := idx_facts3 t
  unfold iblk3
  rw [View.read_apply]
  show V c main_v7 _ = V c main_v7 _
  refine congrArg (V c main_v7) (funext fun a => Fin.ext ?_)
  match a with
  | ⟨0, _⟩ => show win3_2.index t (0 : Fin 2) * 1 + 1 * 0 = 0; rw [e0]
  | ⟨1, _⟩ => show win3_2.index t (1 : Fin 2) * 2048 + 1 * r.val = 2048 * g0.val + r.val; rw [e1, h0]; omega

theorem iblk3_3_apply (c : Dev nD) (t : Fin cfg3.N) (g0 : Fin 4) (g1 : Fin 32) (h0 : t.val / 32 = g0.val) (h1 : t.val % 32 = g1.val)
    (q : Fin 256) (j : Fin 512) :
    (iblk3 V c 3 t : Vec Ideal S256x512 .bf16) (ix2 q j) = V c main_v23 (ix2 (conIx3 g1 q) j) := by
  obtain ⟨-, -, -, -, -, -, -, -, e0, e1, -⟩ := idx_facts3 t
  unfold iblk3
  rw [View.read_apply]
  show V c main_v23 _ = V c main_v23 _
  refine congrArg (V c main_v23) (funext fun a => Fin.ext ?_)
  match a with
  | ⟨0, _⟩ => show win3_3.index t (0 : Fin 2) * 256 + 1 * q.val = 256 * g1.val + q.val; rw [e0, h1]; omega
  | ⟨1, _⟩ => show win3_3.index t (1 : Fin 2) * 512 + 1 * j.val = j.val; rw [e1]; omega

/-! ## One point's contribution, and the accumulation along a row of the grid -/

/-- What block-row g1 of the adjacency contributes to entry (row r of block-row g0, column j) of the product. -/
def term3 (c : Dev nD) (g0 : Fin 4) (g1 : Fin 32) (r : Fin 2048) (j : Fin 512) : EReal :=
  ∑ q : Fin 256, Cert.Spec.nadj (adj3 V c) (rsc3 V c) (csc3 V c) (conIx3 g1 q) (outIx3 g0 r) * rhs3 V c (conIx3 g1 q) j

/-- The body at point (g0, g1) adds that contribution to the accumulator. -/
theorem point3 (c : Dev nD) (t : Fin cfg3.N) (g0 : Fin 4) (g1 : Fin 32) (h0 : t.val / 32 = g0.val) (h1 : t.val % 32 = g1.val)
    (xo : Vec Ideal S2048x512 .f32) (r : Fin 2048) (j : Fin 512) :
    k3_pay2 (F := Ideal) (grid3.coords t) (iblk3 V c 1 t) (iblk3 V c 2 t) (iblk3 V c 0 t) (iblk3 V c 3 t) xo (ix2 r j)
      = (xo (ix2 r j) : EReal) + term3 V c g0 g1 r j := by
  refine (k3_pay2_apply (grid3.coords t) (iblk3 V c 1 t) (iblk3 V c 2 t) (iblk3 V c 0 t) (iblk3 V c 3 t) xo r j).trans ?_
  refine congrArg (fun z => (xo (ix2 r j) : EReal) + z) ?_
  unfold term3
  refine Finset.sum_congr rfl fun q _ => ?_
  obtain ⟨c0, c1, -⟩ := idx_facts3 t
  have hcond : (256 * ((grid3.coords t) 1).val + q.val = 2048 * ((grid3.coords t) 0).val + r.val) ↔ (conIx3 g1 q = outIx3 g0 r) := by
    rw [c0, c1, h0, h1]
    exact ⟨fun h => Fin.ext h, fun h => congrArg Fin.val h⟩
  unfold nblk3 Cert.Spec.nadj
  rw [iblk3_0_apply V c t g0 g1 h0 h1 q r, iblk3_1_apply V c t g0 g1 h0 h1 q, iblk3_2_apply V c t g0 g1 h0 h1 r,
    iblk3_3_apply V c t g0 g1 h0 h1 q j]
  exact congrArg (fun z => z * rhs3 V c (conIx3 g1 q) j) (if_congr hcond rfl rfl)

/-- The reset stores zeros. -/
theorem k3_pay1_apply (y : S2048x512.Idx) : (k3_pay1 (F := Ideal) y : EReal) = 0 := by
  show Ideal.ofBits .f32 0x00000000#32 = 0
  exact Ideal.ofBits_zero_f32

/-- Block-row s's contribution, for any natural s (nothing beyond the grid). -/
def part3 (c : Dev nD) (g0 : Fin 4) (r : Fin 2048) (j : Fin 512) (s : ℕ) : EReal :=
  if hs : s < 32 then term3 V c g0 ⟨s, hs⟩ r j else 0

theorem outsAt3_congr (c : Dev nD) {n n' : ℕ} (e : n = n') (h : n < cfg3.N) (h' : n' < cfg3.N) :
    outsAt3 V c n h = outsAt3 V c n' h' := by subst e; rfl

/-- After point (g0, g1) the accumulator holds the contributions of block-rows 0 … g1 of the adjacency, added left to
    right onto the zero block: by induction along the row of the grid. -/
theorem acc3 (c : Dev nD) (g0 : Fin 4) (r : Fin 2048) (j : Fin 512) :
    ∀ (g1 : ℕ) (hg : g1 < 32) (hn : 32 * g0.val + g1 < cfg3.N),
      (outsAt3 V c (32 * g0.val + g1) hn (ix2 r j) : EReal) = ∑ s ∈ Finset.range (g1 + 1), part3 V c g0 r j s
  | 0, hg, hn => by
    have hA : (⟨32 * g0.val + 0, hn⟩ : Fin cfg3.N).val % 32 = 0 := by dsimp only; omega
    rw [outsAt3_A V c ⟨32 * g0.val + 0, hn⟩ hA, out3_A_4_eq]
    rw [point3 V c ⟨32 * g0.val + 0, hn⟩ g0 ⟨0, hg⟩ (by dsimp only; omega) (by dsimp only; omega) _ r j]
    rw [k3_pay1_apply, zero_add, Finset.sum_range_one]
    unfold part3
    rw [dif_pos hg]
  | g1 + 1, hg, hn => by
    have hB : ¬(⟨32 * g0.val + (g1 + 1), hn⟩ : Fin cfg3.N).val % 32 = 0 := by dsimp only; omega
    have hN : cfg3.N = 128 := N_3
    have ih := acc3 c g0 r j g1 (by omega) (by omega)
    rw [outsAt3_B V c ⟨32 * g0.val + (g1 + 1), hn⟩ hB, out3_B_4_eq]
    rw [point3 V c ⟨32 * g0.val + (g1 + 1), hn⟩ g0 ⟨g1 + 1, hg⟩ (by dsimp only; omega) (by dsimp only; omega) _ r j]
    rw [Finset.sum_range_succ, ← ih]
    rw [outsAt3_congr V c (show (⟨32 * g0.val + (g1 + 1), hn⟩ : Fin cfg3.N).val - 1 = 32 * g0.val + g1 by dsimp only; omega) _ (by omega)]
    unfold part3
    rw [dif_pos hg]

/-! ## The result array -/

/-- The array the region leaves in its result: the transposed normalised adjacency times the right-hand side. -/
abbrev res3 (c : Dev nD) : Buf (Elt Ideal) ((c : Thread nD τ).loc main_v27) :=
  fun idx => Cert.Spec.nadjTMul (adj3 V c) (rsc3 V c) (csc3 V c) (rhs3 V c) (idx 0) (idx 1)

/-- After the last point of block-row g0 the accumulator holds rows 2048·g0 … of the product: the 32 contributions
    are the 32 blocks of the one sum over the 8192 adjacency rows. -/
theorem row_done3 (c : Dev nD) (t : Fin cfg3.N) (g0 : Fin 4) (h0 : t.val / 32 = g0.val) (h31 : t.val % 32 = 31) (y : S2048x512.Idx) :
    (outsAt3 V c t.val t.isLt y : EReal)
      = Cert.Spec.nadjTMul (adj3 V c) (rsc3 V c) (csc3 V c) (rhs3 V c) (outIx3 g0 (y 0)) (y 1) := by
  obtain ⟨r, j, rfl⟩ : ∃ (r : Fin 2048) (j : Fin 512), y = ix2 r j := ⟨y 0, y 1, eq_ix2 y⟩
  have hN : cfg3.N = 128 := N_3
  have ht : t.val = 32 * g0.val + 31 := by omega
  rw [outsAt3_congr V c ht t.isLt (by omega), acc3 V c g0 r j 31 (by omega) (by omega)]
  rw [Finset.sum_range (fun s => part3 V c g0 r j s)]
  show _ = ∑ K : Fin 8192, Cert.Spec.nadj (adj3 V c) (rsc3 V c) (csc3 V c) K (outIx3 g0 r) * rhs3 V c K j
  refine ((Cert.BlockSum.sum_merged_of (n := 32) (d := 256)
    (fun K : Fin (32 * 256) => Cert.Spec.nadj (adj3 V c) (rsc3 V c) (csc3 V c) K (outIx3 g0 r) * rhs3 V c K j)
    (fun s q => Cert.Spec.nadj (adj3 V c) (rsc3 V c) (csc3 V c) (conIx3 s q) (outIx3 g0 r) * rhs3 V c (conIx3 s q) j)
    (fun s q => by
      have e : (Cert.BlockSum.merged s q : Fin (32 * 256)) = conIx3 s q := Fin.ext (by
        rw [Cert.BlockSum.merged_val]; show q.val + 256 * s.val = 256 * s.val + q.val; omega)
      rw [e])).trans ?_).symm
  refine Finset.sum_congr rfl fun s _ => ?_
  unfold part3 term3
  rw [dif_pos s.isLt]

/-- What a writing-back point writes is its block of the result array. -/
theorem flushed3_4 (c : Dev nD) (t : Fin cfg3.N) (hf : (cfg3.win 4).flush t = true) :
    (dat3 V c).flushed 4 t = ((cfg3.win 4).blk t).view.read (Elt Ideal) (res3 V c) := by
  have hN : cfg3.N = 128 := N_3
  have h31 : t.val % 32 = 31 := (flush3_4 t).mp hf
  have hg : t.val / 32 < 4 := by have := t.isLt; omega
  obtain ⟨-, -, -, -, -, -, -, -, -, -, e0, e1⟩ := idx_facts3 t
  show (cfg3.win 4).cut (grid3.coords t) ((dat3 V c).after 4 t) = _
  rw [after3_4]
  funext y
  show outsAt3 V c t.val t.isLt y = res3 V c (((cfg3.win 4).blk t).view.emb y)
  have hrow := row_done3 V c t ⟨t.val / 32, hg⟩ rfl h31 y
  refine hrow.trans ?_
  have hr : outIx3 ⟨t.val / 32, hg⟩ (y 0) = (((cfg3.win 4).blk t).view.emb y) 0 := Fin.ext (by
    show 2048 * (t.val / 32) + (y 0).val = win3_4.index t (0 : Fin 2) * 2048 + 1 * (y 0).val
    rw [e0]; omega)
  have hc : y 1 = (((cfg3.win 4).blk t).view.emb y) 1 := Fin.ext (by
    show (y 1).val = win3_4.index t (1 : Fin 2) * 512 + 1 * (y 1).val
    rw [e1]; omega)
  rw [hr, hc]

/-- THE RESULT: after the region its result array holds, entry by entry, the transposed normalised adjacency times
    the right-hand side, from the arrays as the region found them (every row lies in the block of the last point of
    its block-row, which is a point that writes back). -/
theorem final3_4 (c : Dev nD) (i : Fin 8192) (j : Fin 512) :
    (dat3 (F := Ideal) V c).arrAt 4 cfg3.N (ix2 i j)
      = Cert.Spec.nadjTMul (fun a b => V c main_v0_0 (ix2 a b)) (fun a => V c main_v6 (ix2 a (0 : Fin 1)))
          (fun b => V c main_v7 (ix2 (0 : Fin 1) b)) (fun a b => V c main_v23 (ix2 a b)) i j := by
  have hN : cfg3.N = 128 := N_3
  have harr : (dat3 (F := Ideal) V c).arrAt 4 cfg3.N = res3 V c :=
    (dat3 V c).arrAt_eq_of_cover 4 (res3 V c) (flushed3_4 V c) fun i => by
      have h0 : (i 0 : Nat) < 8192 := (i 0).isLt
      have h1 : (i 1 : Nat) < 512 := (i 1).isLt
      have ht : 32 * ((i 0 : Nat) / 2048) + 31 < cfg3.N := by omega
      obtain ⟨-, -, -, -, -, -, -, -, -, -, e0, e1⟩ := idx_facts3 ⟨32 * ((i 0 : Nat) / 2048) + 31, ht⟩
      refine ⟨⟨32 * ((i 0 : Nat) / 2048) + 31, ht⟩, (flush3_4 _).mpr (by dsimp only; omega), ?_⟩
      show i ∈ ((View.whole main_v27).slice (win3_4.rect ⟨32 * ((i 0 : Nat) / 2048) + 31, ht⟩)).set
      rw [View.set_slice_whole, Rect.mem_set_unit]
      intro a
      match a with
      | ⟨0, _⟩ =>
        show win3_4.index ⟨32 * ((i 0 : Nat) / 2048) + 31, ht⟩ (0 : Fin 2) * 2048 ≤ (i 0 : Nat)
          ∧ (i 0 : Nat) < win3_4.index ⟨32 * ((i 0 : Nat) / 2048) + 31, ht⟩ (0 : Fin 2) * 2048 + 2048
        rw [e0]; dsimp only; omega
      | ⟨1, _⟩ =>
        show win3_4.index ⟨32 * ((i 0 : Nat) / 2048) + 31, ht⟩ (1 : Fin 2) * 512 ≤ (i 1 : Nat)
          ∧ (i 1 : Nat) < win3_4.index ⟨32 * ((i 0 : Nat) / 2048) + 31, ht⟩ (1 : Fin 2) * 512 + 512
        rw [e1]; omega
  rw [harr]
  rfl

end AtEntry

end Cert.KernelIdeal.Gen

end
-- ==== Proof.KernelValueB.lean ====
import proofs.«152628_j8315056685239_2_alg».proof.Proof.KernelValueA
import proofs.«152628_j8315056685239_2_alg».proof.Proof.Region2Value
import proofs.«152628_j8315056685239_2_alg».proof.Proof.Region3Value

/-! # The program's buffers hold the specification's quantities: from the first product to the loss

Region 2 multiplies the normalised adjacency into the features and the scaled features side by side; the next host
stretch cuts the product apart into N · x and N · Y. Region 3 multiplies the transposed normalised adjacency into the
scaled features: Nᵀ · Y. The host stretch after it sums x ∘ (r ∘ (S ∘ Y − ½ (N·Y + Nᵀ·Y))) over every entry: the loss. -/

set_option maxRecDepth 16384

noncomputable section

namespace Cert.KernelIdeal.Gen

open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg) (c : Dev nD)

theorem nadjMul_congr {w : ℕ} {A A' : Fin 8192 → Fin 8192 → EReal} {dr dr' dc dc' : Fin 8192 → EReal}
    {B B' : Fin 8192 → Fin w → EReal} (hA : A = A') (hr : dr = dr') (hc : dc = dc') (hB : B = B') (i : Fin 8192) (j : Fin w) :
    Spec.nadjMul A dr dc B i j = Spec.nadjMul A' dr' dc' B' i j := by rw [hA, hr, hc, hB]
theorem nadjTMul_congr {w : ℕ} {A A' : Fin 8192 → Fin 8192 → EReal} {dr dr' dc dc' : Fin 8192 → EReal}
    {B B' : Fin 8192 → Fin w → EReal} (hA : A = A') (hr : dr = dr') (hc : dc = dc') (hB : B = B') (i : Fin 8192) (j : Fin w) :
    Spec.nadjTMul A dr dc B i j = Spec.nadjTMul A' dr' dc' B' i j := by rw [hA, hr, hc, hB]

/-! ## Region 2: the normalised adjacency times the features and the scaled features side by side -/

theorem W13_v24 (i : Fin 8192) (j : Fin 1024) :
    rd S8192x1024 (W13 m ρ c (Proc.devRef .tc main_v24)) (ix2 i j)
      = Spec.nadjMul (sM m c) (sd m c) (sd m c) (fun a b => rd S8192x1024 (W12 m ρ c (Proc.devRef .tc main_v22)) (ix2 a b)) i j :=
  ((congrFun (W13_arr m ρ c 4) (ix2 i j)).trans (final2_4 (VV12 m ρ) c i j)).trans
    (nadjMul_congr (nd12_A m ρ c) (nd12_r m ρ c) (nd12_c m ρ c) rfl i j)

/-! ## The product cut apart: N · x and N · Y -/

theorem W14_v25 (i : Fin 8192) (f : Fin 512) :
    rd S8192x512 (W14 m ρ c (Proc.devRef .tc main_v25)) (ix2 i f)
      = Spec.H0 (ax m c) (aa1 m c) (aa2 m c) (aa3 m c) i f := by
  refine (h3_v25 (W13 m ρ c) i f).trans ((W13_v24 m ρ c i ⟨f.val, by omega⟩).trans ?_)
  exact Finset.sum_congr rfl fun k _ => congrArg (Spec.nadj (sM m c) (sd m c) (sd m c) i k * ·) (W12_v22_left m ρ c k f)

theorem W14_v26 (i : Fin 8192) (f : Fin 512) :
    rd S8192x512 (W14 m ρ c (Proc.devRef .tc main_v26)) (ix2 i f)
      = Spec.P (ax m c) (aa1 m c) (aa2 m c) (aa3 m c) i f := by
  refine (h3_v26 (W13 m ρ c) i f).trans ((W13_v24 m ρ c i ⟨512 + f.val, by omega⟩).trans ?_)
  exact Finset.sum_congr rfl fun k _ => congrArg (Spec.nadj (sM m c) (sd m c) (sd m c) i k * ·) (W12_v22_right m ρ c k f)

/-- What region 3 reads reaches it unchanged. -/
theorem W14_of_W12 (b : Ref sig .tc) (h2 : b ∉ ([main_v24] : List (Ref sig .tc))) (h3 : b ∉ hostOps3_W) :
    W14 m ρ c (Proc.devRef .tc b) = W12 m ρ c (Proc.devRef .tc b) :=
  (h3_kept (W13 m ρ c) b h3).trans (keep2 m ρ c b h2)

theorem W14_v23 (i : Fin 8192) (f : Fin 512) :
    rd S8192x512 (W14 m ρ c (Proc.devRef .tc main_v23)) (ix2 i f) = Spec.Y (ax m c) (aa1 m c) (aa2 m c) (aa3 m c) i f :=
  (congrFun (W14_of_W12 m ρ c main_v23 (by decide) (by decide)) (ix2 i f)).trans (W12_v23 m ρ c i f)

theorem nd14_A : (fun a b => VV14 m ρ c main_v0_0 (ix2 a b)) = sM m c :=
  funext fun a => funext fun b =>
    (congrFun ((W14_of_W12 m ρ c main_v0_0 (by decide) (by decide)).trans (W12_v0_0 m ρ c)) (ix2 a b)).trans (W1_v0_0 m ρ c a b)
theorem nd14_r : (fun a => VV14 m ρ c main_v6 (ix2 a (0 : Fin 1))) = sd m c :=
  funext fun a => (congrFun ((W14_of_W12 m ρ c main_v6 (by decide) (by decide)).trans (W12_v6 m ρ c)) (ix2 a (0 : Fin 1))).trans (W6_v6 m ρ c a)
theorem nd14_c : (fun b => VV14 m ρ c main_v7 (ix2 (0 : Fin 1) b)) = sd m c :=
  funext fun b => (congrFun ((W14_of_W12 m ρ c main_v7 (by decide) (by decide)).trans (W12_v7 m ρ c)) (ix2 (0 : Fin 1) b)).trans (W6_v7 m ρ c b)

/-! ## Region 3: the transposed normalised adjacency times the scaled features -/

theorem W15_v27 (i : Fin 8192) (f : Fin 512) :
    rd S8192x512 (W15 m ρ c (Proc.devRef .tc main_v27)) (ix2 i f)
      = Spec.Q (ax m c) (aa1 m c) (aa2 m c) (aa3 m c) i f :=
  ((congrFun (W15_arr m ρ c 4) (ix2 i f)).trans (final3_4 (VV14 m ρ) c i f)).trans
    (nadjTMul_congr (nd14_A m ρ c) (nd14_r m ρ c) (nd14_c m ρ c)
      (funext fun a => funext fun b => W14_v23 m ρ c a b) i f)

/-- What the loss reads reaches it unchanged. -/
theorem W15_of_W12 (b : Ref sig .tc) (h2 : b ∉ ([main_v24] : List (Ref sig .tc))) (h3 : b ∉ hostOps3_W)
    (h4 : b ∉ ([main_v27] : List (Ref sig .tc))) :
    W15 m ρ c (Proc.devRef .tc b) = W12 m ρ c (Proc.devRef .tc b) :=
  (keep3 m ρ c b h4).trans (W14_of_W12 m ρ c b h2 h3)

/-! ## The loss -/

theorem W16_v37 :
    rd S_ (W16 m ρ c (Proc.devRef .tc main_v37)) ix0 = Spec.kLoss (ax m c) (aa1 m c) (aa2 m c) (aa3 m c) := by
  refine (h4_v37 (W15 m ρ c)).trans ?_
  refine congrArg (Spec.zero + ·) (Finset.sum_congr rfl fun i _ => Finset.sum_congr rfl fun f _ => ?_)
  rw [W15_of_W12 m ρ c main_arg0 (by decide) (by decide) (by decide), W12_arg0,
    W15_of_W12 m ρ c main_v18 (by decide) (by decide) (by decide), W12_v18,
    W15_of_W12 m ρ c main_v12 (by decide) (by decide) (by decide), W12_v12,
    W15_of_W12 m ρ c main_v20 (by decide) (by decide) (by decide), W12_v20,
    keep3 m ρ c main_v26 (by decide), W14_v26, W15_v27]
  rfl

end Cert.KernelIdeal.Gen

end
-- ==== Proof.Region4Value.lean ====
/- The value of region 4: after the region the output array holds, at row i and column j, the larger of zero and the sum over k of
   x[i,k] · W[k,j], x and W being the operand and weight arrays as the region finds them. At the exact values the
   change of float format before the product is the identity and the product unit's result is the plain sum of
   products; a grid point computes the rows of its own block of x, and the 8 blocks tile the array. -/
import proofs.«152628_j8315056685239_2_alg».proof.Proof.Region4
import proofs.«152628_j8315056685239_2_alg».proof.Proof.Spec
import proofs.«152628_j8315056685239_2_alg».proof.Proof.LibMatmulRows
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The product unit's dimension record: which operand coordinate is the output's, which the contracted one -/

theorem lhs4_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs4_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs4_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs4_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-! ## The body's stored value at one entry of the block -/

/-- Row `p`, column `j` of what the body stores, from the operand block `x0` and the weight block `x1`. -/
theorem pay4_apply (x0 : Vec Ideal S1024x512 .f32) (x1 : Vec Ideal S512x256 .f32) (p : Fin 1024) (j : Fin 256) :
    k4_pay1 x0 x1 (ix2 p j) = max (∑ k : Fin 512, x0 (ix2 p k) * x1 (ix2 k j)) 0 := by
  unfold k4_pay1
  show max (matmul dot_S1024x512_S512x256_S1024x256_1_0_0_1_n_n none (truncf .bf16 (shapeCast S1024x512 x0 shapeCasts_S1024x512_S1024x512) bitsLt_bf16_f32) (truncf .bf16 x1 bitsLt_bf16_f32) (constant (F := Ideal) S1024x256 .f32 0x00000000#32) (ix2 p j)) (Ideal.ofBits .f32 0x00000000#32) = _
  rw [Ideal.ofBits_zero_f32]
  refine congrArg (fun z : EReal => max z 0) ?_
  refine (Cert.LibMatmulRows.matmul_zero_apply dot_S1024x512_S512x256_S1024x256_1_0_0_1_n_n rfl rfl lhs4_0 lhs4_1 rhs4_0 rhs4_1 none _ _ p j).trans ?_
  refine Finset.sum_congr rfl fun k _ => ?_
  show shapeCast S1024x512 x0 shapeCasts_S1024x512_S1024x512 (ix2 p k) * x1 (ix2 k j) = _
  rw [shapeCast_self]

/-! ## From the blocks to the array -/

theorem hz4 : (![0, 0] : Fin 2 → Nat) = fun _ => 0 := funext fun a => by fin_cases a <;> rfl

/-- The whole output array as one function of the operand array `X` and the weight array `W`. -/
def G4 (X : S8192x512.Idx → Elt Ideal .f32) (W : S512x256.Idx → Elt Ideal .f32) : S8192x256.Idx → Elt Ideal .f32 :=
  fun i => max (Cert.Spec.matMul (fun a b => X (ix2 a b)) (fun a b => W (ix2 a b)) (⟨(i 0).val, idx2_lt0 i⟩ : Fin 8192) (⟨(i 1).val, idx2_lt1 i⟩ : Fin 256)) 0

/-- The index maps over the grid: the operand's and the output's blocks are the same row block and start at column 0,
    the weight's one block is the whole weight. -/
theorem idx_facts4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 7 :=
  (by decide +kernel : ∀ t : Fin grid4.N, _)

/-- Every row block is some point's. -/
theorem idx_onto4 : ∀ q0 : Fin 8, ∃ t : Fin cfg4.N, win4_2.index t = ![q0.val, 0] :=
  (by decide +kernel : ∀ q0 : Fin 8, ∃ t : Fin grid4.N, win4_2.index t = ![q0.val, 0])

/-- What point `t` writes back is block `t` of `G4` of the two arrays as the region finds them. -/
theorem flushed4_2_eq (c : Dev nD) (t : Fin cfg4.N) :
    (dat4 (F := Ideal) V c).flushed 2 t = ((cfg4.win 2).blk t).view.read (Elt Ideal) (G4 (V c main_v25) (V c main_arg4)) := by
  show (cfg4.win 2).cut (grid4.coords t) ((dat4 V c).after 2 t) = _
  rw [after4_2]
  unfold out4_2
  rw [View.canon_unit_zero hz4]
  simp only [View.ld_unit_zero (S := S1024x512) hz4, View.ld_unit_zero (S := S512x256) hz4]
  obtain ⟨e0, e1, e2, e3, e4, e5⟩ := idx_facts4 t
  funext y
  obtain ⟨p, j, rfl⟩ : ∃ (p : Fin 1024) (j : Fin 256), y = ix2 p j := ⟨y 0, y 1, eq_ix2 y⟩
  show k4_pay1 (iblk4 V c 0 t) (iblk4 V c 1 t) (ix2 p j) = G4 (V c main_v25) (V c main_arg4) (((cfg4.win 2).blk t).view.emb (ix2 p j))
  refine (pay4_apply (iblk4 V c 0 t) (iblk4 V c 1 t) p j).trans ?_
  unfold G4 Cert.Spec.matMul
  refine congrArg (fun z : EReal => max z 0) ?_
  refine Finset.sum_congr rfl fun k _ => ?_
  have hx : ((cfg4.win 0).blk t).view.emb (ix2 p k)
      = ix2 (⟨((((cfg4.win 2).blk t).view.emb (ix2 p j)) 0).val, idx2_lt0 _⟩ : Fin 8192) k := by
    funext a; apply Fin.ext
    match a with
    | ⟨0, _⟩ => show win4_0.index t (0 : Fin 2) * 1024 + 1 * p.val = win4_2.index t (0 : Fin 2) * 1024 + 1 * p.val; omega
    | ⟨1, _⟩ => show win4_0.index t (1 : Fin 2) * 512 + 1 * k.val = k.val; omega
  have hw : ((cfg4.win 1).blk t).view.emb (ix2 k j)
      = ix2 k (⟨((((cfg4.win 2).blk t).view.emb (ix2 p j)) 1).val, idx2_lt1 _⟩ : Fin 256) := by
    funext a; apply Fin.ext
    match a with
    | ⟨0, _⟩ => show win4_1.index t (0 : Fin 2) * 512 + 1 * k.val = k.val; omega
    | ⟨1, _⟩ => show win4_1.index t (1 : Fin 2) * 256 + 1 * j.val = win4_2.index t (1 : Fin 2) * 256 + 1 * j.val; omega
  have hmul : ∀ (X : S8192x512.Idx → EReal) (W : S512x256.Idx → EReal),
      X (((cfg4.win 0).blk t).view.emb (ix2 p k)) * W (((cfg4.win 1).blk t).view.emb (ix2 k j))
        = X (ix2 (⟨((((cfg4.win 2).blk t).view.emb (ix2 p j)) 0).val, idx2_lt0 _⟩ : Fin 8192) k)
          * W (ix2 k (⟨((((cfg4.win 2).blk t).view.emb (ix2 p j)) 1).val, idx2_lt1 _⟩ : Fin 256)) :=
    fun X W => by rw [hx, hw]
  exact hmul (V c main_v25) (V c main_arg4)

/-- An index of the output array is in point `t`'s block iff each coordinate is in the block's range on its axis. -/
theorem mem_blk4_2 (t : Fin cfg4.N) (i : S8192x256.Idx) :
    i ∈ ((cfg4.win 2).blk t).view.set ↔ ∀ a : Fin 2, win4_2.index t a * S1024x256.size a ≤ (i a).val ∧ (i a).val < win4_2.index t a * S1024x256.size a + S1024x256.size a := by
  show i ∈ ((View.whole main_v38).slice (win4_2.rect t)).set ↔ _
  rw [View.set_slice_whole, Rect.mem_set_unit]
  exact Iff.rfl

/-- The blocks tile the array: row `r` is in the block of the point whose row block is `r / 1024`. -/
theorem covered4_2 (i : S8192x256.Idx) :
    ∃ t : Fin cfg4.N, (cfg4.win 2).flush t = true ∧ i ∈ ((cfg4.win 2).blk t).view.set := by
  have hi0 : (i 0).val < 8192 := idx2_lt0 i
  have hi1 : (i 1).val < 256 := idx2_lt1 i
  obtain ⟨t, ht⟩ := idx_onto4 ⟨(i 0).val / 1024, by omega⟩
  have q0 : win4_2.index t (0 : Fin 2) = (i 0).val / 1024 := congrFun ht 0
  have q1 : win4_2.index t (1 : Fin 2) = 0 := congrFun ht 1
  refine ⟨t, flush4_2 t, ?_⟩
  rw [mem_blk4_2]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 256 ≤ (i 1).val ∧ (i 1).val < win4_2.index t (1 : Fin 2) * 256 + 256; omega

/-- The output array after the region, whole. -/
theorem final4_2_arr (c : Dev nD) : (dat4 (F := Ideal) V c).arrAt 2 cfg4.N = G4 (V c main_v25) (V c main_arg4) :=
  (dat4 (F := Ideal) V c).arrAt_eq_of_cover 2 (G4 (V c main_v25) (V c main_arg4)) (fun t _ => flushed4_2_eq V c t) covered4_2

/-- The output array after the region, entry by entry. -/
theorem final4_2 (c : Dev nD) (i : Fin 8192) (j : Fin 256) :
    (dat4 (F := Ideal) V c).arrAt 2 cfg4.N (ix2 i j)
      = max (Cert.Spec.matMul (fun a b => V c main_v25 (ix2 a b)) (fun a b => V c main_arg4 (ix2 a b)) i j) 0 := by
  rw [final4_2_arr]
  rfl

end Cert.KernelIdeal.Gen

end
-- ==== Proof.Region5Value.lean ====
import proofs.«152628_j8315056685239_2_alg».proof.Proof.Region5
import proofs.«152628_j8315056685239_2_alg».proof.Proof.Spec
import proofs.«152628_j8315056685239_2_alg».proof.Proof.LibBlockSum
import proofs.«152628_j8315056685239_2_alg».proof.Proof.LibMatmulRows
import Idealize.ShloMosaic.Lib.Pipeline.Value
import Idealize.ShloMosaic.Lib.ValueIdx
import Idealize.ShloMosaic.Lib.Tactic

/-! # Region 5's value: the normalised adjacency times the right-hand side

Over the extended reals the body's store at grid point (g0, g1) adds, to entry (p, j) of the accumulator, the inner
product of row p of the normalised 2048×256 block with column j of the 256×256 right-hand block; the reset at
g1 = 0 starts the accumulator at zero. Read through the windows, the block's entry (p, k) is entry
(2048·g0 + p, 256·g1 + k) of the normalised adjacency of the entry arrays, and the right-hand block's row k is row
256·g1 + k of the right-hand side. So after the last point of block-row g0 the accumulator holds the 32 blockwise
sums, added left to right onto zero — which, addition on the extended reals being commutative and associative, is the
one sum over all 8192 columns: rows 2048·g0 … 2048·g0 + 2047 of the product. That point writes the block back, and
the four block-rows cover the result array. -/

set_option maxRecDepth 16384

noncomputable section

namespace Cert.KernelIdeal.Gen

open Idealize.ShloMosaic Idealize.ShloMosaic.TcCoe Idealize.ShloMosaic.Tactic Idealize.SL.Sem
open Idealize.ShloMosaic.ValueIdx
open Idealize.ShloMosaic.Pipeline (Dat)
open scoped BigOperators

/-! ## What each run leaves, as the payload of its last store -/

theorem zero_offsets5 : (![0, 0] : Fin 2 → Nat) = fun _ => 0 := funext fun a => by fin_cases a <;> rfl

section AnyFloat
variable {F : FTy → Type} [FloatOps F]

/-- The accumulating run leaves the payload of its one store: the running sum plus the product. -/
theorem out5_B_4_eq (c : Dev nD) (i : grid5.Coords) (a2 : Memref sig .tc .vmem S2048x256 .bf16) (h2 : a2.IsWhole) (a3 : Memref sig .tc .vmem S2048x1 .f32) (h3 : a3.IsWhole) (a4 : Memref sig .tc .vmem S1x256 .f32) (h4 : a4.IsWhole) (a5 : Memref sig .tc .vmem S256x256 .bf16) (h5 : a5.IsWhole) (a6 : Memref sig .tc .vmem S2048x256 .f32) (h6 : a6.IsWhole) (hc : ¬cond5_0 i)
    (x0 : Vec F S2048x256 .bf16) (x1 : Vec F S2048x1 .f32) (x2 : Vec F S1x256 .f32) (x3 : Vec F S256x256 .bf16) (xo : Vec F S2048x256 .f32) :
    out5_B_4 c i a2 h2 a3 h3 a4 h4 a5 h5 a6 h6 hc x0 x1 x2 x3 xo = k5_pay2 i x1 x2 x0 x3 xo := by
  unfold out5_B_4
  rw [View.read_writes_eq_canon _ _ _ (cover5_B_4 c i a2 h2 a3 h3 a4 h4 a5 h5 a6 h6 hc x0 x1 x2 x3 xo)]
  unfold kernelRun5_B
  dsimp only
  rw [View.canon_unit_zero zero_offsets5]
  simp only [View.readAt_eq_ld, h2.read_unread, h3.read_unread, h4.read_unread, h5.read_unread, h6.read_unread,
    View.ld_unit_zero (S := S2048x256) zero_offsets5, View.ld_unit_zero (S := S2048x1) zero_offsets5,
    View.ld_unit_zero (S := S1x256) zero_offsets5, View.ld_unit_zero (S := S256x256) zero_offsets5,
    View.ld_unit_zero (S := S2048x256) zero_offsets5]

/-- The resetting run leaves the same payload over the zero block it has just stored. -/
theorem out5_A_4_eq (c : Dev nD) (i : grid5.Coords) (a2 : Memref sig .tc .vmem S2048x256 .bf16) (h2 : a2.IsWhole) (a3 : Memref sig .tc .vmem S2048x1 .f32) (h3 : a3.IsWhole) (a4 : Memref sig .tc .vmem S1x256 .f32) (h4 : a4.IsWhole) (a5 : Memref sig .tc .vmem S256x256 .bf16) (h5 : a5.IsWhole) (a6 : Memref sig .tc .vmem S2048x256 .f32) (h6 : a6.IsWhole) (hc : cond5_0 i)
    (x0 : Vec F S2048x256 .bf16) (x1 : Vec F S2048x1 .f32) (x2 : Vec F S1x256 .f32) (x3 : Vec F S256x256 .bf16) :
    out5_A_4 c i a2 h2 a3 h3 a4 h4 a5 h5 a6 h6 hc x0 x1 x2 x3 = k5_pay2 i x1 x2 x0 x3 (k5_pay1 (F := F)) := by
  unfold out5_A_4
  rw [View.read_writes_eq_canon _ _ _ (cover5_A_4 c i a2 h2 a3 h3 a4 h4 a5 h5 a6 h6 hc x0 x1 x2 x3)]
  unfold kernelRun5_A
  dsimp only
  sl_unfold_words
  rw [View.canon_cons_unit_zero (S := S2048x256) zero_offsets5, View.readCov_unit_zero (S := S2048x256) _ zero_offsets5]
  simp only [View.readAt_eq_ld, h2.read_unread, h3.read_unread, h4.read_unread, h5.read_unread,
    View.ld_unit_zero (S := S2048x256) zero_offsets5, View.ld_unit_zero (S := S2048x1) zero_offsets5,
    View.ld_unit_zero (S := S1x256) zero_offsets5, View.ld_unit_zero (S := S256x256) zero_offsets5,
    View.ld_unit_zero (S := S2048x256) zero_offsets5]

end AnyFloat

/-! ## The payload at an entry, over the extended reals -/

section Layout
variable {α : Type}

/-- A 2048×1 column spread over 256 columns holds, at (p, k), the column's entry of row p; -/
theorem spread_col5 (x : S2048x1.Idx → α) (h : S2048x1.Broadcasts S2048x256) (p : Fin 2048) (k : Fin 256) :
    broadcastTo S2048x256 x h (ix2 p k) = x (ix2 p (0 : Fin 1)) :=
  broadcastTo_apply x h (ix2 p k) (ix2 p (0 : Fin 1)) fun a => by
    match a with
    | ⟨0, _⟩ => rfl
    | ⟨1, _⟩ => rfl

/-- a 1×256 row spread over 2048 rows holds, at (p, k), the row's entry of column k. -/
theorem spread_row5 (x : S1x256.Idx → α) (h : S1x256.Broadcasts S2048x256) (p : Fin 2048) (k : Fin 256) :
    broadcastTo S2048x256 x h (ix2 p k) = x (ix2 (0 : Fin 1) k) :=
  broadcastTo_apply x h (ix2 p k) (ix2 (0 : Fin 1) k) fun a => by
    match a with
    | ⟨0, _⟩ => rfl
    | ⟨1, _⟩ => rfl

end Layout

/-- The body's diagonal test at entry (p, k) of block (g0, g1): the 32-bit words "2048·g0 + p" and "256·g1 + k" are
    equal exactly when the numbers are (neither sum reaches 2³²). -/
theorem diag_bit5 (g0 g1 p k : ℕ) (hg0 : g0 < 4) (hg1 : g1 < 32) (hp : p < 2048) (hk : k < 256) :
    IntOp.cmpi .eq (IntOp.addi (Scalar.muli (BitVec.ofNat 32 g0) 2048#32) (BitVec.ofNat 32 p))
      (IntOp.addi (Scalar.muli (BitVec.ofNat 32 g1) 256#32) (BitVec.ofNat 32 k))
      = if 2048 * g0 + p = 256 * g1 + k then 1#1 else 0#1 := by
  have e1 : IntOp.addi (Scalar.muli (BitVec.ofNat 32 g0) 2048#32) (BitVec.ofNat 32 p) = BitVec.ofNat 32 (2048 * g0 + p) := by
    apply BitVec.eq_of_toNat_eq
    show ((BitVec.ofNat 32 g0 * 2048#32) + BitVec.ofNat 32 p).toNat = _
    simp only [BitVec.toNat_add, BitVec.toNat_mul, BitVec.toNat_ofNat]
    omega
  have e2 : IntOp.addi (Scalar.muli (BitVec.ofNat 32 g1) 256#32) (BitVec.ofNat 32 k) = BitVec.ofNat 32 (256 * g1 + k) := by
    apply BitVec.eq_of_toNat_eq
    show ((BitVec.ofNat 32 g1 * 256#32) + BitVec.ofNat 32 k).toNat = _
    simp only [BitVec.toNat_add, BitVec.toNat_mul, BitVec.toNat_ofNat]
    omega
  rw [e1, e2]
  unfold IntOp.cmpi
  by_cases h : 2048 * g0 + p = 256 * g1 + k
  · rw [if_pos h, h]; simp
  · rw [if_neg h]
    have hne : (BitVec.ofNat 32 (2048 * g0 + p) == BitVec.ofNat 32 (256 * g1 + k)) = false := by
      rw [beq_eq_false_iff_ne]
      intro e
      apply h
      have := congrArg BitVec.toNat e
      simp only [BitVec.toNat_ofNat] at this
      omega
    simp [hne]

/-- Entry (p, k) of the normalised block the body forms at grid point `i` from the adjacency block `x0`, the row
    scale `x1` and the column scale `x2`: adjacency times row scale times column scale, with the product of the two
    scales added where the global row index 2048·g0 + p equals the global column index 256·g1 + k. -/
def nblk5 (i : grid5.Coords) (x0 : Vec Ideal S2048x256 .bf16) (x1 : Vec Ideal S2048x1 .f32) (x2 : Vec Ideal S1x256 .f32)
    (p : Fin 2048) (k : Fin 256) : EReal :=
  if 2048 * (i 0).val + p.val = 256 * (i 1).val + k.val
  then (x0 (ix2 p k) : EReal) * (x1 (ix2 p (0 : Fin 1)) : EReal) * (x2 (ix2 (0 : Fin 1) k) : EReal) + (x1 (ix2 p (0 : Fin 1)) : EReal) * (x2 (ix2 (0 : Fin 1) k) : EReal)
  else (x0 (ix2 p k) : EReal) * (x1 (ix2 p (0 : Fin 1)) : EReal) * (x2 (ix2 (0 : Fin 1) k) : EReal)

/-- The accumulating store's payload at entry (p, j): the running sum there plus the inner product of row p of the
    normalised block with column j of the right-hand block. -/
theorem k5_pay2_apply (i : grid5.Coords) (x1 : Vec Ideal S2048x1 .f32) (x2 : Vec Ideal S1x256 .f32) (x0 : Vec Ideal S2048x256 .bf16)
    (x3 : Vec Ideal S256x256 .bf16) (xo : Vec Ideal S2048x256 .f32) (p : Fin 2048) (j : Fin 256) :
    k5_pay2 (F := Ideal) i x1 x2 x0 x3 xo (ix2 p j)
      = (xo (ix2 p j) : EReal) + ∑ k : Fin 256, nblk5 i x0 x1 x2 p k * (x3 (ix2 k j) : EReal) := by
  unfold k5_pay2
  simp only [shapeCast_self]
  rw [addf_apply]
  refine congrArg (fun z => (xo (ix2 p j) : EReal) + z) ?_
  refine (Cert.LibMatmulRows.matmul_zero_apply (φ₁ := .bf16) (φ₂ := .bf16) dot_S2048x256_S256x256_S2048x256_1_0_0_1_n_n rfl rfl
    (fun _ _ => rfl) (fun i q => dot_S2048x256_S256x256_S2048x256_1_0_0_1_n_n.lhsIdx_val_of_single rfl i q)
    (fun i q => dot_S2048x256_S256x256_S2048x256_1_0_0_1_n_n.rhsIdx_val_of_single rfl i q) (fun _ _ => rfl) none _ _ p j).trans ?_
  refine Finset.sum_congr rfl fun k _ => ?_
  refine congrArg (fun z => z * (x3 (ix2 k j) : EReal)) ?_
  rw [truncf_apply, select_apply]
  have hbit : cmpi CmpIPredicate.eq
        (addi (broadcast S2048x256 (Scalar.muli (BitVec.ofNat 32 (i 0).val) 2048#32)) (iota .tc S2048x256 32 [0] iota_S2048x256_d0_w32))
        (addi (broadcast S2048x256 (Scalar.muli (BitVec.ofNat 32 (i 1).val) 256#32)) (iota .tc S2048x256 32 [1] iota_S2048x256_d1_w32))
        (ix2 p k)
      = if 2048 * (i 0).val + p.val = 256 * (i 1).val + k.val then 1#1 else 0#1 := by
    have hi0 : (i 0).val < 4 := (i 0).isLt
    have hi1 : (i 1).val < 32 := (i 1).isLt
    have hd := diag_bit5 (i 0).val (i 1).val p.val k.val hi0 hi1 p.isLt k.isLt
    have ea : iota .tc S2048x256 32 [0] iota_S2048x256_d0_w32 (ix2 p k) = BitVec.ofNat 32 p.val := by
      show BitVec.ofNat 32 (0 * 2048 + p.val) = _
      rw [Nat.zero_mul, Nat.zero_add]
    have eb : iota .tc S2048x256 32 [1] iota_S2048x256_d1_w32 (ix2 p k) = BitVec.ofNat 32 k.val := by
      show BitVec.ofNat 32 (0 * 256 + k.val) = _
      rw [Nat.zero_mul, Nat.zero_add]
    show IntOp.cmpi .eq
        (IntOp.addi (Scalar.muli (BitVec.ofNat 32 (i 0).val) 2048#32) (iota .tc S2048x256 32 [0] iota_S2048x256_d0_w32 (ix2 p k)))
        (IntOp.addi (Scalar.muli (BitVec.ofNat 32 (i 1).val) 256#32) (iota .tc S2048x256 32 [1] iota_S2048x256_d1_w32 (ix2 p k))) = _
    rw [ea, eb]
    exact hd
  rw [hbit]
  unfold nblk5
  by_cases h : 2048 * (i 0).val + p.val = 256 * (i 1).val + k.val
  · rw [if_pos h, if_pos h, select_one]
    simp only [addf_apply, mulf_apply, extf_apply, spread_col5, spread_row5]
  · rw [if_neg h, if_neg h, select_zero]
    simp only [mulf_apply, extf_apply, spread_col5, spread_row5]

/-! ## The blocks as parts of the entry arrays -/

section AtEntry
variable (V : (c : Dev nD) → (b : Ref sig .tc) → Buf (Elt Ideal) ((c : Thread nD τ).loc b))

/-- Point `t` of the grid is (t / 32, t % 32), and each window's block index follows the coordinate(s) it reads. -/
theorem idx_facts5 : ∀ t : Fin cfg5.N,
    ((grid5.coords t) 0).val = t.val / 32 ∧ ((grid5.coords t) 1).val = t.val % 32
    ∧ win5_0.index t (0 : Fin 2) = t.val / 32 ∧ win5_0.index t (1 : Fin 2) = t.val % 32
    ∧ win5_1.index t (0 : Fin 2) = t.val / 32 ∧ win5_1.index t (1 : Fin 2) = 0
    ∧ win5_2.index t (0 : Fin 2) = 0 ∧ win5_2.index t (1 : Fin 2) = t.val % 32
    ∧ win5_3.index t (0 : Fin 2) = t.val % 32 ∧ win5_3.index t (1 : Fin 2) = 0
    ∧ win5_4.index t (0 : Fin 2) = t.val / 32 ∧ win5_4.index t (1 : Fin 2) = 0 :=
  (by decide +kernel : ∀ t : Fin grid5.N, _)

/-- Row p of block-row g0 is global row 2048·g0 + p; column k of block-column g1 is global column 256·g1 + k. -/
def rowIx5 (g0 : Fin 4) (p : Fin 2048) : Fin 8192 := ⟨2048 * g0.val + p.val, by have := g0.isLt; have := p.isLt; omega⟩
def colIx5 (g1 : Fin 32) (k : Fin 256) : Fin 8192 := ⟨256 * g1.val + k.val, by have := g1.isLt; have := k.isLt; omega⟩

/-- The entry arrays as functions of their coordinates. -/
abbrev adj5 (c : Dev nD) : Fin 8192 → Fin 8192 → EReal := fun a b => V c main_v0_0 (ix2 a b)
abbrev rsc5 (c : Dev nD) : Fin 8192 → EReal := fun a => V c main_v6 (ix2 a (0 : Fin 1))
abbrev csc5 (c : Dev nD) : Fin 8192 → EReal := fun b => V c main_v7 (ix2 (0 : Fin 1) b)
abbrev rhs5 (c : Dev nD) : Fin 8192 → Fin 256 → EReal := fun a b => V c main_v39 (ix2 a b)

theorem iblk5_0_apply (c : Dev nD) (t : Fin cfg5.N) (g0 : Fin 4) (g1 : Fin 32) (h0 : t.val / 32 = g0.val) (h1 : t.val % 32 = g1.val)
    (p : Fin 2048) (k : Fin 256) :
    (iblk5 V c 0 t : Vec Ideal S2048x256 .bf16) (ix2 p k) = V c main_v0_0 (ix2 (rowIx5 g0 p) (colIx5 g1 k)) := by
  obtain ⟨-, -, e0, e1, -⟩ := idx_facts5 t
  unfold iblk5
  rw [View.read_apply]
  show V c main_v0_0 _ = V c main_v0_0 _
  refine congrArg (V c main_v0_0) (funext fun a => Fin.ext ?_)
  match a with
  | ⟨0, _⟩ => show win5_0.index t (0 : Fin 2) * 2048 + 1 * p.val = 2048 * g0.val + p.val; rw [e0, h0]; omega
  | ⟨1, _⟩ => show win5_0.index t (1 : Fin 2) * 256 + 1 * k.val = 256 * g1.val + k.val; rw [e1, h1]; omega

theorem iblk5_1_apply (c : Dev nD) (t : Fin cfg5.N) (g0 : Fin 4) (g1 : Fin 32) (h0 : t.val / 32 = g0.val) (h1 : t.val % 32 = g1.val)
    (p : Fin 2048) :
    (iblk5 V c 1 t : Vec Ideal S2048x1 .f32) (ix2 p (0 : Fin 1)) = V c main_v6 (ix2 (rowIx5 g0 p) (0 : Fin 1)) := by
  obtain ⟨-, -, -, -, e0, e1, -⟩ := idx_facts5 t
  unfold iblk5
  rw [View.read_apply]
  show V c main_v6 _ = V c main_v6 _
  refine congrArg (V c main_v6) (funext fun a => Fin.ext ?_)
  match a with
  | ⟨0, _⟩ => show win5_1.index t (0 : Fin 2) * 2048 + 1 * p.val = 2048 * g0.val + p.val; rw [e0, h0]; omega
  | ⟨1, _⟩ => show win5_1.index t (1 : Fin 2) * 1 + 1 * 0 = 0; rw [e1]

theorem iblk5_2_apply (c : Dev nD) (t : Fin cfg5.N) (g0 : Fin 4) (g1 : Fin 32) (h0 : t.val / 32 = g0.val) (h1 : t.val % 32 = g1.val)
    (k : Fin 256) :
    (iblk5 V c 2 t : Vec Ideal S1x256 .f32) (ix2 (0 : Fin 1) k) = V c main_v7 (ix2 (0 : Fin 1) (colIx5 g1 k)) := by
  obtain ⟨-, -, -, -, -, -, e0, e1, -⟩ := idx_facts5 t
  unfold iblk5
  rw [View.read_apply]
  show V c main_v7 _ = V c main_v7 _
  refine congrArg (V c main_v7) (funext fun a => Fin.ext ?_)
  match a with
  | ⟨0, _⟩ => show win5_2.index t (0 : Fin 2) * 1 + 1 * 0 = 0; rw [e0]
  | ⟨1, _⟩ => show win5_2.index t (1 : Fin 2) * 256 + 1 * k.val = 256 * g1.val + k.val; rw [e1, h1]; omega

theorem iblk5_3_apply (c : Dev nD) (t : Fin cfg5.N) (g0 : Fin 4) (g1 : Fin 32) (h0 : t.val / 32 = g0.val) (h1 : t.val % 32 = g1.val)
    (k : Fin 256) (j : Fin 256) :
    (iblk5 V c 3 t : Vec Ideal S256x256 .bf16) (ix2 k j) = V c main_v39 (ix2 (colIx5 g1 k) j) := by
  obtain ⟨-, -, -, -, -, -, -, -, e0, e1, -⟩ := idx_facts5 t
  unfold iblk5
  rw [View.read_apply]
  show V c main_v39 _ = V c main_v39 _
  refine congrArg (V c main_v39) (funext fun a => Fin.ext ?_)
  match a with
  | ⟨0, _⟩ => show win5_3.index t (0 : Fin 2) * 256 + 1 * k.val = 256 * g1.val + k.val; rw [e0, h1]; omega
  | ⟨1, _⟩ => show win5_3.index t (1 : Fin 2) * 256 + 1 * j.val = j.val; rw [e1]; omega

/-! ## One point's contribution, and the accumulation along a row of the grid -/

/-- What block-column g1 contributes to entry (row p of block-row g0, column j) of the product. -/
def term5 (c : Dev nD) (g0 : Fin 4) (g1 : Fin 32) (p : Fin 2048) (j : Fin 256) : EReal :=
  ∑ k : Fin 256, Cert.Spec.nadj (adj5 V c) (rsc5 V c) (csc5 V c) (rowIx5 g0 p) (colIx5 g1 k) * rhs5 V c (colIx5 g1 k) j

/-- The body at point (g0, g1) adds that contribution to the accumulator. -/
theorem point5 (c : Dev nD) (t : Fin cfg5.N) (g0 : Fin 4) (g1 : Fin 32) (h0 : t.val / 32 = g0.val) (h1 : t.val % 32 = g1.val)
    (xo : Vec Ideal S2048x256 .f32) (p : Fin 2048) (j : Fin 256) :
    k5_pay2 (F := Ideal) (grid5.coords t) (iblk5 V c 1 t) (iblk5 V c 2 t) (iblk5 V c 0 t) (iblk5 V c 3 t) xo (ix2 p j)
      = (xo (ix2 p j) : EReal) + term5 V c g0 g1 p j := by
  refine (k5_pay2_apply (grid5.coords t) (iblk5 V c 1 t) (iblk5 V c 2 t) (iblk5 V c 0 t) (iblk5 V c 3 t) xo p j).trans ?_
  refine congrArg (fun z => (xo (ix2 p j) : EReal) + z) ?_
  unfold term5
  refine Finset.sum_congr rfl fun k _ => ?_
  obtain ⟨c0, c1, -⟩ := idx_facts5 t
  have hcond : (2048 * ((grid5.coords t) 0).val + p.val = 256 * ((grid5.coords t) 1).val + k.val) ↔ (rowIx5 g0 p = colIx5 g1 k) := by
    rw [c0, c1, h0, h1]
    exact ⟨fun h => Fin.ext h, fun h => congrArg Fin.val h⟩
  unfold nblk5 Cert.Spec.nadj
  rw [iblk5_0_apply V c t g0 g1 h0 h1 p k, iblk5_1_apply V c t g0 g1 h0 h1 p, iblk5_2_apply V c t g0 g1 h0 h1 k,
    iblk5_3_apply V c t g0 g1 h0 h1 k j]
  exact congrArg (fun z => z * rhs5 V c (colIx5 g1 k) j) (if_congr hcond rfl rfl)

/-- The reset stores zeros. -/
theorem k5_pay1_apply (y : S2048x256.Idx) : (k5_pay1 (F := Ideal) y : EReal) = 0 := by
  show Ideal.ofBits .f32 0x00000000#32 = 0
  exact Ideal.ofBits_zero_f32

/-- Block-column s's contribution, for any natural s (nothing beyond the grid). -/
def part5 (c : Dev nD) (g0 : Fin 4) (p : Fin 2048) (j : Fin 256) (s : ℕ) : EReal :=
  if hs : s < 32 then term5 V c g0 ⟨s, hs⟩ p j else 0

theorem outsAt5_congr (c : Dev nD) {n n' : ℕ} (e : n = n') (h : n < cfg5.N) (h' : n' < cfg5.N) :
    outsAt5 V c n h = outsAt5 V c n' h' := by subst e; rfl

/-- After point (g0, g1) the accumulator holds the contributions of block-columns 0 … g1, added left to right onto
    the zero block: by induction along the row of the grid. -/
theorem acc5 (c : Dev nD) (g0 : Fin 4) (p : Fin 2048) (j : Fin 256) :
    ∀ (g1 : ℕ) (hg : g1 < 32) (hn : 32 * g0.val + g1 < cfg5.N),
      (outsAt5 V c (32 * g0.val + g1) hn (ix2 p j) : EReal) = ∑ s ∈ Finset.range (g1 + 1), part5 V c g0 p j s
  | 0, hg, hn => by
    have hA : (⟨32 * g0.val + 0, hn⟩ : Fin cfg5.N).val % 32 = 0 := by dsimp only; omega
    rw [outsAt5_A V c ⟨32 * g0.val + 0, hn⟩ hA, out5_A_4_eq]
    rw [point5 V c ⟨32 * g0.val + 0, hn⟩ g0 ⟨0, hg⟩ (by dsimp only; omega) (by dsimp only; omega) _ p j]
    rw [k5_pay1_apply, zero_add, Finset.sum_range_one]
    unfold part5
    rw [dif_pos hg]
  | g1 + 1, hg, hn => by
    have hB : ¬(⟨32 * g0.val + (g1 + 1), hn⟩ : Fin cfg5.N).val % 32 = 0 := by dsimp only; omega
    have hN : cfg5.N = 128 := N_5
    have ih := acc5 c g0 p j g1 (by omega) (by omega)
    rw [outsAt5_B V c ⟨32 * g0.val + (g1 + 1), hn⟩ hB, out5_B_4_eq]
    rw [point5 V c ⟨32 * g0.val + (g1 + 1), hn⟩ g0 ⟨g1 + 1, hg⟩ (by dsimp only; omega) (by dsimp only; omega) _ p j]
    rw [Finset.sum_range_succ, ← ih]
    rw [outsAt5_congr V c (show (⟨32 * g0.val + (g1 + 1), hn⟩ : Fin cfg5.N).val - 1 = 32 * g0.val + g1 by dsimp only; omega) _ (by omega)]
    unfold part5
    rw [dif_pos hg]

/-! ## The result array -/

/-- The array the region leaves in its result: the normalised adjacency times the right-hand side. -/
abbrev res5 (c : Dev nD) : Buf (Elt Ideal) ((c : Thread nD τ).loc main_v40) :=
  fun idx => Cert.Spec.nadjMul (adj5 V c) (rsc5 V c) (csc5 V c) (rhs5 V c) (idx 0) (idx 1)

/-- After the last point of block-row g0 the accumulator holds rows 2048·g0 … of the product: the 32 contributions
    are the 32 blocks of the one sum over the 8192 columns. -/
theorem row_done5 (c : Dev nD) (t : Fin cfg5.N) (g0 : Fin 4) (h0 : t.val / 32 = g0.val) (h31 : t.val % 32 = 31) (y : S2048x256.Idx) :
    (outsAt5 V c t.val t.isLt y : EReal)
      = Cert.Spec.nadjMul (adj5 V c) (rsc5 V c) (csc5 V c) (rhs5 V c) (rowIx5 g0 (y 0)) (y 1) := by
  obtain ⟨p, j, rfl⟩ : ∃ (p : Fin 2048) (j : Fin 256), y = ix2 p j := ⟨y 0, y 1, eq_ix2 y⟩
  have hN : cfg5.N = 128 := N_5
  have ht : t.val = 32 * g0.val + 31 := by omega
  rw [outsAt5_congr V c ht t.isLt (by omega), acc5 V c g0 p j 31 (by omega) (by omega)]
  rw [Finset.sum_range (fun s => part5 V c g0 p j s)]
  show _ = ∑ K : Fin 8192, Cert.Spec.nadj (adj5 V c) (rsc5 V c) (csc5 V c) (rowIx5 g0 p) K * rhs5 V c K j
  refine ((Cert.BlockSum.sum_merged_of (n := 32) (d := 256)
    (fun K : Fin (32 * 256) => Cert.Spec.nadj (adj5 V c) (rsc5 V c) (csc5 V c) (rowIx5 g0 p) K * rhs5 V c K j)
    (fun s k => Cert.Spec.nadj (adj5 V c) (rsc5 V c) (csc5 V c) (rowIx5 g0 p) (colIx5 s k) * rhs5 V c (colIx5 s k) j)
    (fun s k => by
      have e : (Cert.BlockSum.merged s k : Fin (32 * 256)) = colIx5 s k := Fin.ext (by
        rw [Cert.BlockSum.merged_val]; show k.val + 256 * s.val = 256 * s.val + k.val; omega)
      rw [e])).trans ?_).symm
  refine Finset.sum_congr rfl fun s _ => ?_
  unfold part5 term5
  rw [dif_pos s.isLt]

/-- What a writing-back point writes is its block of the result array. -/
theorem flushed5_4 (c : Dev nD) (t : Fin cfg5.N) (hf : (cfg5.win 4).flush t = true) :
    (dat5 V c).flushed 4 t = ((cfg5.win 4).blk t).view.read (Elt Ideal) (res5 V c) := by
  have hN : cfg5.N = 128 := N_5
  have h31 : t.val % 32 = 31 := (flush5_4 t).mp hf
  have hg : t.val / 32 < 4 := by have := t.isLt; omega
  obtain ⟨-, -, -, -, -, -, -, -, -, -, e0, e1⟩ := idx_facts5 t
  show (cfg5.win 4).cut (grid5.coords t) ((dat5 V c).after 4 t) = _
  rw [after5_4]
  funext y
  show outsAt5 V c t.val t.isLt y = res5 V c (((cfg5.win 4).blk t).view.emb y)
  have hrow := row_done5 V c t ⟨t.val / 32, hg⟩ rfl h31 y
  refine hrow.trans ?_
  have hr : rowIx5 ⟨t.val / 32, hg⟩ (y 0) = (((cfg5.win 4).blk t).view.emb y) 0 := Fin.ext (by
    show 2048 * (t.val / 32) + (y 0).val = win5_4.index t (0 : Fin 2) * 2048 + 1 * (y 0).val
    rw [e0]; omega)
  have hc : y 1 = (((cfg5.win 4).blk t).view.emb y) 1 := Fin.ext (by
    show (y 1).val = win5_4.index t (1 : Fin 2) * 256 + 1 * (y 1).val
    rw [e1]; omega)
  rw [hr, hc]

/-- THE RESULT: after the region its result array holds, entry by entry, the normalised adjacency times the
    right-hand side, from the arrays as the region found them (every row lies in the block of the last point of its
    block-row, which is a point that writes back). -/
theorem final5_4 (c : Dev nD) (i : Fin 8192) (j : Fin 256) :
    (dat5 (F := Ideal) V c).arrAt 4 cfg5.N (ix2 i j)
      = Cert.Spec.nadjMul (fun a b => V c main_v0_0 (ix2 a b)) (fun a => V c main_v6 (ix2 a (0 : Fin 1)))
          (fun b => V c main_v7 (ix2 (0 : Fin 1) b)) (fun a b => V c main_v39 (ix2 a b)) i j := by
  have hN : cfg5.N = 128 := N_5
  have harr : (dat5 (F := Ideal) V c).arrAt 4 cfg5.N = res5 V c :=
    (dat5 V c).arrAt_eq_of_cover 4 (res5 V c) (flushed5_4 V c) fun i => by
      have h0 : (i 0 : Nat) < 8192 := (i 0).isLt
      have h1 : (i 1 : Nat) < 256 := (i 1).isLt
      have ht : 32 * ((i 0 : Nat) / 2048) + 31 < cfg5.N := by omega
      obtain ⟨-, -, -, -, -, -, -, -, -, -, e0, e1⟩ := idx_facts5 ⟨32 * ((i 0 : Nat) / 2048) + 31, ht⟩
      refine ⟨⟨32 * ((i 0 : Nat) / 2048) + 31, ht⟩, (flush5_4 _).mpr (by dsimp only; omega), ?_⟩
      show i ∈ ((View.whole main_v40).slice (win5_4.rect ⟨32 * ((i 0 : Nat) / 2048) + 31, ht⟩)).set
      rw [View.set_slice_whole, Rect.mem_set_unit]
      intro a
      match a with
      | ⟨0, _⟩ =>
        show win5_4.index ⟨32 * ((i 0 : Nat) / 2048) + 31, ht⟩ (0 : Fin 2) * 2048 ≤ (i 0 : Nat)
          ∧ (i 0 : Nat) < win5_4.index ⟨32 * ((i 0 : Nat) / 2048) + 31, ht⟩ (0 : Fin 2) * 2048 + 2048
        rw [e0]; dsimp only; omega
      | ⟨1, _⟩ =>
        show win5_4.index ⟨32 * ((i 0 : Nat) / 2048) + 31, ht⟩ (1 : Fin 2) * 256 ≤ (i 1 : Nat)
          ∧ (i 1 : Nat) < win5_4.index ⟨32 * ((i 0 : Nat) / 2048) + 31, ht⟩ (1 : Fin 2) * 256 + 256
        rw [e1]; omega
  rw [harr]
  rfl

end AtEntry

end Cert.KernelIdeal.Gen

end
-- ==== Proof.Region6Value.lean ====
/- The value of region 6: after the region the output array holds, at row i and column j, the sum over k of
   x[i,k] · W[k,j], x and W being the operand and weight arrays as the region finds them. At the exact values the
   change of float format before the product is the identity and the product unit's result is the plain sum of
   products; a grid point computes the rows of its own block of x, and the 8 blocks tile the array. -/
import proofs.«152628_j8315056685239_2_alg».proof.Proof.Region6
import proofs.«152628_j8315056685239_2_alg».proof.Proof.Spec
import proofs.«152628_j8315056685239_2_alg».proof.Proof.LibMatmulRows
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The product unit's dimension record: which operand coordinate is the output's, which the contracted one -/

theorem lhs6_0 (i : S1024x16.Idx) (q : dot_S1024x256_S256x16_S1024x16_1_0_0_1_n_n.contr.Idx) :
    (dot_S1024x256_S256x16_S1024x16_1_0_0_1_n_n.lhsIdx i q 0).val = (i 0).val := by
  unfold DotDims.lhsIdx
  rw [dif_neg (show ¬(0 : Fin S1024x256.rank) ∈ dot_S1024x256_S256x16_S1024x16_1_0_0_1_n_n.lhsBatch by decide), dif_pos (show (0 : Fin S1024x256.rank) ∈ dot_S1024x256_S256x16_S1024x16_1_0_0_1_n_n.lhsNonContracting by decide)]
  rfl
theorem lhs6_1 (i : S1024x16.Idx) (q : dot_S1024x256_S256x16_S1024x16_1_0_0_1_n_n.contr.Idx) :
    (dot_S1024x256_S256x16_S1024x16_1_0_0_1_n_n.lhsIdx i q 1).val = (q ⟨0, by decide⟩).val :=
  dot_S1024x256_S256x16_S1024x16_1_0_0_1_n_n.lhsIdx_val_of_single rfl i q
theorem rhs6_0 (i : S1024x16.Idx) (q : dot_S1024x256_S256x16_S1024x16_1_0_0_1_n_n.contr.Idx) :
    (dot_S1024x256_S256x16_S1024x16_1_0_0_1_n_n.rhsIdx i q 0).val = (q ⟨0, by decide⟩).val :=
  dot_S1024x256_S256x16_S1024x16_1_0_0_1_n_n.rhsIdx_val_of_single rfl i q
theorem rhs6_1 (i : S1024x16.Idx) (q : dot_S1024x256_S256x16_S1024x16_1_0_0_1_n_n.contr.Idx) :
    (dot_S1024x256_S256x16_S1024x16_1_0_0_1_n_n.rhsIdx i q 1).val = (i 1).val := by
  unfold DotDims.rhsIdx
  rw [dif_neg (show ¬(1 : Fin S256x16.rank) ∈ dot_S1024x256_S256x16_S1024x16_1_0_0_1_n_n.rhsBatch by decide), dif_pos (show (1 : Fin S256x16.rank) ∈ dot_S1024x256_S256x16_S1024x16_1_0_0_1_n_n.rhsNonContracting by decide)]
  rfl

/-! ## The body's stored value at one entry of the block -/

/-- Row `p`, column `j` of what the body stores, from the operand block `x0` and the weight block `x1`. -/
theorem pay6_apply (x0 : Vec Ideal S1024x256 .f32) (x1 : Vec Ideal S256x16 .f32) (p : Fin 1024) (j : Fin 16) :
    k6_pay1 x0 x1 (ix2 p j) = ∑ k : Fin 256, x0 (ix2 p k) * x1 (ix2 k j) := by
  unfold k6_pay1
  show matmul dot_S1024x256_S256x16_S1024x16_1_0_0_1_n_n none (truncf .bf16 (shapeCast S1024x256 x0 shapeCasts_S1024x256_S1024x256) bitsLt_bf16_f32) (truncf .bf16 x1 bitsLt_bf16_f32) (constant (F := Ideal) S1024x16 .f32 0x00000000#32) (ix2 p j) = _
  refine (Cert.LibMatmulRows.matmul_zero_apply dot_S1024x256_S256x16_S1024x16_1_0_0_1_n_n rfl rfl lhs6_0 lhs6_1 rhs6_0 rhs6_1 none _ _ p j).trans ?_
  refine Finset.sum_congr rfl fun k _ => ?_
  show shapeCast S1024x256 x0 shapeCasts_S1024x256_S1024x256 (ix2 p k) * x1 (ix2 k j) = _
  rw [shapeCast_self]

/-! ## From the blocks to the array -/

theorem hz6 : (![0, 0] : Fin 2 → Nat) = fun _ => 0 := funext fun a => by fin_cases a <;> rfl

/-- The whole output array as one function of the operand array `X` and the weight array `W`. -/
def G6 (X : S8192x256.Idx → Elt Ideal .f32) (W : S256x16.Idx → Elt Ideal .f32) : S8192x16.Idx → Elt Ideal .f32 :=
  fun i => Cert.Spec.matMul (fun a b => X (ix2 a b)) (fun a b => W (ix2 a b)) (⟨(i 0).val, idx2_lt0 i⟩ : Fin 8192) (⟨(i 1).val, idx2_lt1 i⟩ : Fin 16)

/-- The index maps over the grid: the operand's and the output's blocks are the same row block and start at column 0,
    the weight's one block is the whole weight. -/
theorem idx_facts6 : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) ≤ 7 :=
  (by decide +kernel : ∀ t : Fin grid6.N, _)

/-- Every row block is some point's. -/
theorem idx_onto6 : ∀ q0 : Fin 8, ∃ t : Fin cfg6.N, win6_2.index t = ![q0.val, 0] :=
  (by decide +kernel : ∀ q0 : Fin 8, ∃ t : Fin grid6.N, win6_2.index t = ![q0.val, 0])

/-- What point `t` writes back is block `t` of `G6` of the two arrays as the region finds them. -/
theorem flushed6_2_eq (c : Dev nD) (t : Fin cfg6.N) :
    (dat6 (F := Ideal) V c).flushed 2 t = ((cfg6.win 2).blk t).view.read (Elt Ideal) (G6 (V c main_v40) (V c main_arg5)) := by
  show (cfg6.win 2).cut (grid6.coords t) ((dat6 V c).after 2 t) = _
  rw [after6_2]
  unfold out6_2
  rw [View.canon_unit_zero hz6]
  simp only [View.ld_unit_zero (S := S1024x256) hz6, View.ld_unit_zero (S := S256x16) hz6]
  obtain ⟨e0, e1, e2, e3, e4, e5⟩ := idx_facts6 t
  funext y
  obtain ⟨p, j, rfl⟩ : ∃ (p : Fin 1024) (j : Fin 16), y = ix2 p j := ⟨y 0, y 1, eq_ix2 y⟩
  show k6_pay1 (iblk6 V c 0 t) (iblk6 V c 1 t) (ix2 p j) = G6 (V c main_v40) (V c main_arg5) (((cfg6.win 2).blk t).view.emb (ix2 p j))
  refine (pay6_apply (iblk6 V c 0 t) (iblk6 V c 1 t) p j).trans ?_
  unfold G6 Cert.Spec.matMul
  refine Finset.sum_congr rfl fun k _ => ?_
  have hx : ((cfg6.win 0).blk t).view.emb (ix2 p k)
      = ix2 (⟨((((cfg6.win 2).blk t).view.emb (ix2 p j)) 0).val, idx2_lt0 _⟩ : Fin 8192) k := by
    funext a; apply Fin.ext
    match a with
    | ⟨0, _⟩ => show win6_0.index t (0 : Fin 2) * 1024 + 1 * p.val = win6_2.index t (0 : Fin 2) * 1024 + 1 * p.val; omega
    | ⟨1, _⟩ => show win6_0.index t (1 : Fin 2) * 256 + 1 * k.val = k.val; omega
  have hw : ((cfg6.win 1).blk t).view.emb (ix2 k j)
      = ix2 k (⟨((((cfg6.win 2).blk t).view.emb (ix2 p j)) 1).val, idx2_lt1 _⟩ : Fin 16) := by
    funext a; apply Fin.ext
    match a with
    | ⟨0, _⟩ => show win6_1.index t (0 : Fin 2) * 256 + 1 * k.val = k.val; omega
    | ⟨1, _⟩ => show win6_1.index t (1 : Fin 2) * 16 + 1 * j.val = win6_2.index t (1 : Fin 2) * 16 + 1 * j.val; omega
  have hmul : ∀ (X : S8192x256.Idx → EReal) (W : S256x16.Idx → EReal),
      X (((cfg6.win 0).blk t).view.emb (ix2 p k)) * W (((cfg6.win 1).blk t).view.emb (ix2 k j))
        = X (ix2 (⟨((((cfg6.win 2).blk t).view.emb (ix2 p j)) 0).val, idx2_lt0 _⟩ : Fin 8192) k)
          * W (ix2 k (⟨((((cfg6.win 2).blk t).view.emb (ix2 p j)) 1).val, idx2_lt1 _⟩ : Fin 16)) :=
    fun X W => by rw [hx, hw]
  exact hmul (V c main_v40) (V c main_arg5)

/-- An index of the output array is in point `t`'s block iff each coordinate is in the block's range on its axis. -/
theorem mem_blk6_2 (t : Fin cfg6.N) (i : S8192x16.Idx) :
    i ∈ ((cfg6.win 2).blk t).view.set ↔ ∀ a : Fin 2, win6_2.index t a * S1024x16.size a ≤ (i a).val ∧ (i a).val < win6_2.index t a * S1024x16.size a + S1024x16.size a := by
  show i ∈ ((View.whole main_v41).slice (win6_2.rect t)).set ↔ _
  rw [View.set_slice_whole, Rect.mem_set_unit]
  exact Iff.rfl

/-- The blocks tile the array: row `r` is in the block of the point whose row block is `r / 1024`. -/
theorem covered6_2 (i : S8192x16.Idx) :
    ∃ t : Fin cfg6.N, (cfg6.win 2).flush t = true ∧ i ∈ ((cfg6.win 2).blk t).view.set := by
  have hi0 : (i 0).val < 8192 := idx2_lt0 i
  have hi1 : (i 1).val < 16 := idx2_lt1 i
  obtain ⟨t, ht⟩ := idx_onto6 ⟨(i 0).val / 1024, by omega⟩
  have q0 : win6_2.index t (0 : Fin 2) = (i 0).val / 1024 := congrFun ht 0
  have q1 : win6_2.index t (1 : Fin 2) = 0 := congrFun ht 1
  refine ⟨t, flush6_2 t, ?_⟩
  rw [mem_blk6_2]
  intro a
  match a with
  | ⟨0, _⟩ => show win6_2.index t (0 : Fin 2) * 1024 ≤ (i 0).val ∧ (i 0).val < win6_2.index t (0 : Fin 2) * 1024 + 1024; omega
  | ⟨1, _⟩ => show win6_2.index t (1 : Fin 2) * 16 ≤ (i 1).val ∧ (i 1).val < win6_2.index t (1 : Fin 2) * 16 + 16; omega

/-- The output array after the region, whole. -/
theorem final6_2_arr (c : Dev nD) : (dat6 (F := Ideal) V c).arrAt 2 cfg6.N = G6 (V c main_v40) (V c main_arg5) :=
  (dat6 (F := Ideal) V c).arrAt_eq_of_cover 2 (G6 (V c main_v40) (V c main_arg5)) (fun t _ => flushed6_2_eq V c t) covered6_2

/-- The output array after the region, entry by entry. -/
theorem final6_2 (c : Dev nD) (i : Fin 8192) (j : Fin 16) :
    (dat6 (F := Ideal) V c).arrAt 2 cfg6.N (ix2 i j)
      = Cert.Spec.matMul (fun a b => V c main_v40 (ix2 a b)) (fun a b => V c main_arg5 (ix2 a b)) i j := by
  rw [final6_2_arr]
  rfl

end Cert.KernelIdeal.Gen

end
-- ==== Proof.KernelValueC.lean ====
import proofs.«152628_j8315056685239_2_alg».proof.Proof.KernelValueB
import proofs.«152628_j8315056685239_2_alg».proof.Proof.Region4Value
import proofs.«152628_j8315056685239_2_alg».proof.Proof.Region5Value
import proofs.«152628_j8315056685239_2_alg».proof.Proof.Region6Value
import proofs.«152628_j8315056685239_2_alg».proof.Proof.Claims

/-! # The program's buffers hold the specification's quantities: the two layers, and the run

Region 4 multiplies N · x into the first weight matrix and clamps at zero; a host stretch changes the format (the same
values); region 5 multiplies the normalised adjacency into that; region 6 multiplies by the second weight matrix: the
output. The loss, computed before region 4, is untouched by everything after it. The run of the whole program ends with
every unscoped buffer at the last boundary's contents, hence with the specification's two arrays. -/

set_option maxRecDepth 16384

noncomputable section

namespace Cert.KernelIdeal.Gen

open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg) (c : Dev nD)

/-! ## Region 4: the first layer -/

/-- Across the loss's host stretch and region 3. -/
theorem W16_of_W14 (b : Ref sig .tc) (h3 : b ∉ ([main_v27] : List (Ref sig .tc))) (h4 : b ∉ hostOps4_W) :
    W16 m ρ c (Proc.devRef .tc b) = W14 m ρ c (Proc.devRef .tc b) :=
  (h4_kept (W15 m ρ c) b h4).trans (keep3 m ρ c b h3)

theorem W16_arg4 : W16 m ρ c (Proc.devRef .tc main_arg4) = m ((c : Thread nD τ).loc main_arg4) :=
  (W16_of_W14 m ρ c main_arg4 (by decide) (by decide)).trans <|
    (W14_of_W12 m ρ c main_arg4 (by decide) (by decide)).trans <|
    (S2_kept (W7 m ρ c) main_arg4 (by decide)).trans <| (keep1 m ρ c main_arg4 (by decide)).trans <|
    (S1_kept (W1 m ρ c) main_arg4 (by decide)).trans <| (keep0 m ρ c main_arg4 (by decide)).trans rfl

theorem W17_v38 (i : Fin 8192) (g : Fin 256) :
    rd S8192x256 (W17 m ρ c (Proc.devRef .tc main_v38)) (ix2 i g)
      = Spec.h0w (ax m c) (aa1 m c) (aa2 m c) (aa3 m c) (aw0 m c) i g := by
  refine ((congrFun (W17_arr m ρ c 2) (ix2 i g)).trans (final4_2 (VV16 m ρ) c i g)).trans ?_
  have hA : (fun a b => VV16 m ρ c main_v25 (ix2 a b)) = Spec.H0 (ax m c) (aa1 m c) (aa2 m c) (aa3 m c) :=
    funext fun a => funext fun b =>
      (congrFun (W16_of_W14 m ρ c main_v25 (by decide) (by decide)) (ix2 a b)).trans (W14_v25 m ρ c a b)
  have hB : (fun a b => VV16 m ρ c main_arg4 (ix2 a b)) = aw0 m c :=
    funext fun a => funext fun b => congrFun (W16_arg4 m ρ c) (ix2 a b)
  rw [hA, hB]
  rfl

/-! ## The format change, and region 5: the second aggregation -/

theorem W18_v39 (i : Fin 8192) (g : Fin 256) :
    rd S8192x256 (W18 m ρ c (Proc.devRef .tc main_v39)) (ix2 i g)
      = Spec.h0w (ax m c) (aa1 m c) (aa2 m c) (aa3 m c) (aw0 m c) i g :=
  (h5_v39 (W17 m ρ c) i g).trans (W17_v38 m ρ c i g)

/-- Across region 4 and the format change. -/
theorem W18_of_W16 (b : Ref sig .tc) (h4 : b ∉ ([main_v38] : List (Ref sig .tc))) (h5 : b ∉ hostOps5_W) :
    W18 m ρ c (Proc.devRef .tc b) = W16 m ρ c (Proc.devRef .tc b) :=
  (h5_kept (W17 m ρ c) b h5).trans (keep4 m ρ c b h4)

theorem W18_of_W12 (b : Ref sig .tc) (h2 : b ∉ ([main_v24] : List (Ref sig .tc))) (h3 : b ∉ hostOps3_W)
    (h3' : b ∉ ([main_v27] : List (Ref sig .tc))) (h4 : b ∉ hostOps4_W) (h4' : b ∉ ([main_v38] : List (Ref sig .tc)))
    (h5 : b ∉ hostOps5_W) :
    W18 m ρ c (Proc.devRef .tc b) = W12 m ρ c (Proc.devRef .tc b) :=
  (W18_of_W16 m ρ c b h4' h5).trans <| (W16_of_W14 m ρ c b h3' h4).trans (W14_of_W12 m ρ c b h2 h3)

theorem nd18_A : (fun a b => VV18 m ρ c main_v0_0 (ix2 a b)) = sM m c :=
  funext fun a => funext fun b =>
    (congrFun ((W18_of_W12 m ρ c main_v0_0 (by decide) (by decide) (by decide) (by decide) (by decide) (by decide)).trans
      (W12_v0_0 m ρ c)) (ix2 a b)).trans (W1_v0_0 m ρ c a b)
theorem nd18_r : (fun a => VV18 m ρ c main_v6 (ix2 a (0 : Fin 1))) = sd m c :=
  funext fun a => (congrFun ((W18_of_W12 m ρ c main_v6 (by decide) (by decide) (by decide) (by decide) (by decide) (by decide)).trans
    (W12_v6 m ρ c)) (ix2 a (0 : Fin 1))).trans (W6_v6 m ρ c a)
theorem nd18_c : (fun b => VV18 m ρ c main_v7 (ix2 (0 : Fin 1) b)) = sd m c :=
  funext fun b => (congrFun ((W18_of_W12 m ρ c main_v7 (by decide) (by decide) (by decide) (by decide) (by decide) (by decide)).trans
    (W12_v7 m ρ c)) (ix2 (0 : Fin 1) b)).trans (W6_v7 m ρ c b)

theorem W19_v40 (i : Fin 8192) (g : Fin 256) :
    rd S8192x256 (W19 m ρ c (Proc.devRef .tc main_v40)) (ix2 i g)
      = Spec.h1 (ax m c) (aa1 m c) (aa2 m c) (aa3 m c) (aw0 m c) i g :=
  ((congrFun (W19_arr m ρ c 4) (ix2 i g)).trans (final5_4 (VV18 m ρ) c i g)).trans
    (nadjMul_congr (nd18_A m ρ c) (nd18_r m ρ c) (nd18_c m ρ c)
      (funext fun a => funext fun b => W18_v39 m ρ c a b) i g)

/-! ## Region 6: the output -/

theorem W19_arg5 : W19 m ρ c (Proc.devRef .tc main_arg5) = m ((c : Thread nD τ).loc main_arg5) :=
  (keep5 m ρ c main_arg5 (by decide)).trans <|
    (W18_of_W12 m ρ c main_arg5 (by decide) (by decide) (by decide) (by decide) (by decide) (by decide)).trans <|
    (S2_kept (W7 m ρ c) main_arg5 (by decide)).trans <| (keep1 m ρ c main_arg5 (by decide)).trans <|
    (S1_kept (W1 m ρ c) main_arg5 (by decide)).trans <| (keep0 m ρ c main_arg5 (by decide)).trans rfl

theorem W20_v41 (i : Fin 8192) (o : Fin 16) :
    rd S8192x16 (W20 m ρ c (Proc.devRef .tc main_v41)) (ix2 i o)
      = Spec.kOut (ax m c) (aa1 m c) (aa2 m c) (aa3 m c) (aw0 m c) (aw1 m c) i o := by
  refine ((congrFun (W20_arr m ρ c 2) (ix2 i o)).trans (final6_2 (VV19 m ρ) c i o)).trans ?_
  have hA : (fun a b => VV19 m ρ c main_v40 (ix2 a b)) = Spec.h1 (ax m c) (aa1 m c) (aa2 m c) (aa3 m c) (aw0 m c) :=
    funext fun a => funext fun b => W19_v40 m ρ c a b
  have hB : (fun a b => VV19 m ρ c main_arg5 (ix2 a b)) = aw1 m c :=
    funext fun a => funext fun b => congrFun (W19_arg5 m ρ c) (ix2 a b)
  rw [hA, hB]
  rfl

/-- The loss is untouched by regions 4, 5, 6 and the format change. -/
theorem W20_v37 :
    rd S_ (W20 m ρ c (Proc.devRef .tc main_v37)) ix0 = Spec.kLoss (ax m c) (aa1 m c) (aa2 m c) (aa3 m c) :=
  (congrFun ((keep6 m ρ c main_v37 (by decide)).trans <| (keep5 m ρ c main_v37 (by decide)).trans
    (W18_of_W16 m ρ c main_v37 (by decide) (by decide))) ix0).trans (W16_v37 m ρ c)

/-! ## The run -/

/-- THE KERNEL'S HALF: the idealized kernel runs and ends with the specification's output array, the specification's
    loss array, and its six arguments unchanged. -/
theorem kernelRun (m : (ℓ : Loc nD τ sig) → Buf (Elt Ideal) ℓ) (ρ : Dev nD → PrngReg) :
    Cert.Proof.Claims.KernelRun m ρ :=
  (θ_run defs _ _).mono (fun r h c =>
    ⟨(h c _ (mem_uc main_v41 (by decide))).trans (funext fun (idx : S8192x16.Idx) => by
        rw [eq_ix2 (n0 := 8192) (n1 := 16) idx]
        exact W20_v41 m ρ c (idx 0) (idx 1)),
      (h c _ (mem_uc main_v37 (by decide))).trans (funext fun (idx : S_.Idx) => by
        rw [eq_ix0 idx]
        exact W20_v37 m ρ c),
      (h c _ (mem_uc main_arg0 (by decide))).trans (W20_main_arg0 m ρ c),
      (h c _ (mem_uc main_arg1 (by decide))).trans (W20_main_arg1 m ρ c),
      (h c _ (mem_uc main_arg2 (by decide))).trans (W20_main_arg2 m ρ c),
      (h c _ (mem_uc main_arg3 (by decide))).trans (W20_main_arg3 m ρ c),
      (h c _ (mem_uc main_arg4 (by decide))).trans (W20_main_arg4 m ρ c),
      (h c _ (mem_uc main_arg5 (by decide))).trans (W20_main_arg5 m ρ c)⟩) (run_all m ρ)

end Cert.KernelIdeal.Gen

end
-- ==== Proof.lean ====
/-
  The certificate of a two-layer graph convolution with a feature-smoothing loss, computed by seven tiled kernels and the
  host code between them, against its plain reference.

  THE MATHEMATICS. With M = adj ∘ mask1 ∘ mask2 entrywise, rs the row sums of M, and d = (rs + 1)^(-1/2) (zero where
  that power is infinite), the normalised adjacency is N = D (M + I) D, D = diag d. The kernel never forms N: it stores
  M, and wherever N is needed multiplies a tile of M by d's row and column entries and adds d_i d_i on the diagonal
  (`Spec.nadj`). From N both programs compute the layers' output (N · relu((N · x) · W0)) · W1 and, with
  S = (rowsum N + colsum N)/2, r = (S + ε)^(-1/2) guarded the same way and Y = r ∘ x row-wise, the loss
  Σ x ∘ (r ∘ (S ∘ Y − (N Y + Nᵀ Y)/2)). The reference forms N as d ∘ (M + I) ∘ d and the symmetric part (Nᵀ + N)/2
  explicitly. The two arrangements agree because every entry involved is a real number — the inputs by the
  precondition, d and r because the guard replaces an infinite power by zero — so that a real factor may be moved
  across a finite sum and distributed over a sum of two terms; a tiled or regrouped sum is the same sum since addition
  of extended reals is commutative and associative.

  THE PARTS. Per kernel region: what each output's buffer holds after each grid point and that the body, run at the
  point, leaves exactly that (modules Region0 … Region6, and their word-level copies); the contents of every buffer at
  each boundary of the program and the run of the whole program (Assemble); what each region's output array and each
  host stretch's results are as functions of their inputs, index by index (the Value modules, HostChain); their
  composition down to the two results (KernelValueA, B, C); the reference's results as the same functions of the arguments,
  under finiteness (RefValue, RefAlgebra, PreFinite); the claims (Claims).
-/
import proofs.«152628_j8315056685239_2_alg».proof.Defs
import proofs.«152628_j8315056685239_2_alg».proof.Proof.Gen.Kernel
import proofs.«152628_j8315056685239_2_alg».proof.Proof.Gen.KernelIdeal
import proofs.«152628_j8315056685239_2_alg».proof.Proof.Gen.ReferenceIdeal
import proofs.«152628_j8315056685239_2_alg».proof.Proof.Gen.Pre_finite_inputs
import proofs.«152628_j8315056685239_2_alg».proof.Proof.Assemble
import proofs.«152628_j8315056685239_2_alg».proof.Proof.BAssemble
import proofs.«152628_j8315056685239_2_alg».proof.Proof.Claims
import proofs.«152628_j8315056685239_2_alg».proof.Proof.KernelValueC
import Idealize.ShloMosaic.Adequacy
import Idealize.ShloMosaic.Init

noncomputable section

namespace Cert.Proof

open Idealize.ShloMosaic Idealize.SL.Sem

/-- The five claims: the three programs run to the end and leave their arguments unchanged; the idealization rewrote
    nothing; and the two idealized programs end with equal results. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.Claims.frame_ri,
  Cert.Proof.Claims.preserves,
  Cert.Proof.Claims.algebraic_of fun m ρ => Cert.KernelIdeal.Gen.kernelRun m ρ⟩

end Cert.Proof

end
